-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100001x64 : Shape := ⟨2, ![100001, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100001x64 : S_.BroadcastsInDim S100001x64 (![] : Fin 0 → Fin S100001x64.rank)
  reducesTo_S100001x64_S_d0_1 : S100001x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg0 : IVec S16384 32) (main_arg1 : IVec S16384 32) (main_v48 : IVec S_ 1) (main_v50 : IVec S16384 1) : IVec S_ 1 :=
  let main_c_19 : IVec S_ 32 := constantI S_ 32 99999#32
  let main_v51 : IVec S16384 32 := broadcastInDim S16384 ![] bcast_S_S16384 main_c_19
  let main_v52 : IVec S16384 1 := cmpi .sle main_arg0 main_v51
  let main_v53 : IVec S16384 1 := andi main_v50 main_v52
  let main_c_20 : IVec S_ 1 := constantI S_ 1 1#1
  let main_v54 : IVec S_ 1 := (fun x v => Host.reduce IntOp.andi x v reducesTo_S16384_S_d0 h_S_) main_v53 main_c_20
  let main_v55 : IVec S_ 1 := andi main_v48 main_v54
  let main_c_21 : IVec S_ 32 := constantI S_ 32 0#32
  let main_v56 : IVec S16384 32 := broadcastInDim S16384 ![] bcast_S_S16384 main_c_21
  let main_v57 : IVec S16384 1 := cmpi .sge main_arg1 main_v56
  let main_c_22 : IVec S_ 32 := constantI S_ 32 99999#32
  let main_v58 : IVec S16384 32 := broadcastInDim S16384 ![] bcast_S_S16384 main_c_22
  let main_v59 : IVec S16384 1 := cmpi .sle main_arg1 main_v58
  let main_v60 : IVec S16384 1 := andi main_v57 main_v59
  let main_c_23 : IVec S_ 1 := constantI S_ 1 1#1
  let main_v61 : IVec S_ 1 := (fun x v => Host.reduce IntOp.andi x v reducesTo_S16384_S_d0 h_S_) main_v60 main_c_23
  let main_v62 : IVec S_ 1 := andi main_v55 main_v61
  main_v62

def fn_part2 {F : FTy → Type} [FloatOps F] (main_arg0 : IVec S16384 32) (main_arg1 : IVec S16384 32) (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S16384 32 := broadcastInDim S16384 ![] bcast_S_S16384 main_c_18
  let main_v50 : IVec S16384 1 := cmpi .sge main_arg0 main_v49
  fn_part3 (F := F) main_arg0 main_arg1 main_v48 main_v50

def fn_part1 {F : FTy → Type} [FloatOps F] (main_arg0 : IVec S16384 32) (main_arg1 : IVec S16384 32) (main_arg6 : FVec F S64 .f32) (main_arg7 : FVec F S100001x64 .f32) (main_arg8 : FVec F S64x128 .f32) (main_arg9 : FVec F S128 .f32) (main_arg10 : FVec F S128x64 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S100001x64 .f32 := Host.absf main_arg7
  let main_cst_8 : FVec F S_ .f32 := constant S_ .f32 0x7F800000#32
  let main_v25 : FVec F S100001x64 .f32 := broadcastInDim S100001x64 ![] bcast_S_S100001x64 main_cst_8
  let main_v26 : IVec S100001x64 1 := cmpf .olt main_v24 main_v25
  let main_c_9 : IVec S_ 1 := constantI S_ 1 1#1
  let main_v27 : IVec S_ 1 := (fun x v => Host.reduce IntOp.andi x v reducesTo_S100001x64_S_d0_1 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg0 main_arg1 main_arg9 main_arg10 main_arg11 main_v33

def fn {F : FTy → Type} [FloatOps F] (main_arg0 : IVec S16384 32) (main_arg1 : IVec S16384 32) (main_arg2 : FVec F S100001x64 .f32) (main_arg3 : FVec F S64x128 .f32) (main_arg4 : FVec F S128 .f32) (main_arg5 : FVec F S128x64 .f32) (main_arg6 : FVec F S64 .f32) (main_arg7 : FVec F S100001x64 .f32) (main_arg8 : FVec F S64x128 .f32) (main_arg9 : FVec F S128 .f32) (main_arg10 : FVec F S128x64 .f32) (main_arg11 : FVec F S64 .f32) : IVec S_ 1 :=
  let main_v0 : FVec F S100001x64 .f32 := Host.absf main_arg2
  let main_cst : FVec F S_ .f32 := constant S_ .f32 0x7F800000#32
  let main_v1 : FVec F S100001x64 .f32 := broadcastInDim S100001x64 ![] bcast_S_S100001x64 main_cst
  let main_v2 : IVec S100001x64 1 := cmpf .olt main_v0 main_v1
  let main_c : IVec S_ 1 := constantI S_ 1 1#1
  let main_v3 : IVec S_ 1 := (fun x v => Host.reduce IntOp.andi x v reducesTo_S100001x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg1 main_arg6 main_arg7 main_arg8 main_arg9 main_arg10 main_arg11 main_v13 main_v16
-- ==== Kernel.lean ====
abbrev S16384 : Shape := ⟨1, ![16384]⟩
abbrev S100001x64 : Shape := ⟨2, ![100001, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x100001 : Shape := ⟨2, ![64, 100001]⟩
abbrev S64x64 : Shape := ⟨2, ![64, 64]⟩
abbrev S_ : Shape := ⟨0, ![]⟩
abbrev S50176x128 : Shape := ⟨2, ![50176, 128]⟩
abbrev S64x1024 : Shape := ⟨2, ![64, 1024]⟩
abbrev S1024x128 : Shape := ⟨2, ![1024, 128]⟩
abbrev S1024x64 : Shape := ⟨2, ![1024, 64]⟩
abbrev S16384x128 : Shape := ⟨2, ![16384, 128]⟩
abbrev S256 : Shape := ⟨1, ![256]⟩
abbrev S256x128 : Shape := ⟨2, ![256, 128]⟩
abbrev S16 : Shape := ⟨1, ![16]⟩
abbrev S16384x1 : Shape := ⟨2, ![16384, 1]⟩
abbrev S1x128 : Shape := ⟨2, ![1, 128]⟩
abbrev S1x64 : Shape := ⟨2, ![1, 64]⟩
abbrev S128x128 : Shape := ⟨2, ![128, 128]⟩
abbrev S1024x1 : Shape := ⟨2, ![1024, 1]⟩
abbrev S8x128 : Shape := ⟨2, ![8, 128]⟩
abbrev S1024 : Shape := ⟨1, ![1024]⟩

abbrev nBuf : Table → Nat
  | .hbm => 33
  | .local .tc .vmem => 31
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100001x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100001x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x100001, .f32⟩
  | .hbm, ⟨13, _⟩ => ⟨S64x100001, .f32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .f32⟩
  | .hbm, ⟨21, _⟩ => ⟨S50176x128, .f32⟩
  | .hbm, ⟨22, _⟩ => ⟨S50176x128, .f32⟩
  | .hbm, ⟨23, _⟩ => ⟨S16384x128, .f32⟩
  | .hbm, ⟨24, _⟩ => ⟨S16384x128, .f32⟩
  | .hbm, ⟨25, _⟩ => ⟨S16384x1, .i32⟩
  | .hbm, ⟨26, _⟩ => ⟨S16384x1, .i32⟩
  | .hbm, ⟨27, _⟩ => ⟨S1x128, .f32⟩
  | .hbm, ⟨28, _⟩ => ⟨S1x64, .f32⟩
  | .hbm, ⟨29, _⟩ => ⟨S1x128, .f32⟩
  | .hbm, ⟨30, _⟩ => ⟨S1x64, .f32⟩
  | .hbm, ⟨31, _⟩ => ⟨S128x128, .f32⟩
  | .hbm, ⟨32, _⟩ => ⟨S16384, .f32⟩
  | .local .tc .vmem, ⟨0, _⟩ => ⟨S64x1024, .f32⟩
  | .local .tc .vmem, ⟨1, _⟩ => ⟨S64x1024, .f32⟩
  | .local .tc .vmem, ⟨2, _⟩ => ⟨S64x1024, .f32⟩
  | .local .tc .vmem, ⟨3, _⟩ => ⟨S64x1024, .f32⟩
  | .local .tc .vmem, ⟨4, _⟩ => ⟨S64x1024, .f32⟩
  | .local .tc .vmem, ⟨5, _⟩ => ⟨S64x1024, .f32⟩
  | .local .tc .vmem, ⟨6, _⟩ => ⟨S64x1024, .f32⟩
  | .local .tc .vmem, ⟨7, _⟩ => ⟨S64x1024, .f32⟩
  | .local .tc .vmem, ⟨8, _⟩ => ⟨S64x64, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .f32⟩
  | .local .tc .vmem, ⟨13, _⟩ => ⟨S1024x128, .f32⟩
  | .local .tc .vmem, ⟨14, _⟩ => ⟨S1024x128, .f32⟩
  | .local .tc .vmem, ⟨15, _⟩ => ⟨S1024x128, .f32⟩
  | .local .tc .vmem, ⟨16, _⟩ => ⟨S1024x128, .f32⟩
  | .local .tc .vmem, ⟨17, _⟩ => ⟨S1024x1, .i32⟩
  | .local .tc .vmem, ⟨18, _⟩ => ⟨S1024x1, .i32⟩
  | .local .tc .vmem, ⟨19, _⟩ => ⟨S1024x1, .i32⟩
  | .local .tc .vmem, ⟨20, _⟩ => ⟨S1024x1, .i32⟩
  | .local .tc .vmem, ⟨21, _⟩ => ⟨S64x128, .f32⟩
  | .local .tc .vmem, ⟨22, _⟩ => ⟨S1x128, .f32⟩
  | .local .tc .vmem, ⟨23, _⟩ => ⟨S128x64, .f32⟩
  | .local .tc .vmem, ⟨24, _⟩ => ⟨S1x64, .f32⟩
  | .local .tc .vmem, ⟨25, _⟩ => ⟨S64x128, .f32⟩
  | .local .tc .vmem, ⟨26, _⟩ => ⟨S1x128, .f32⟩
  | .local .tc .vmem, ⟨27, _⟩ => ⟨S128x64, .f32⟩
  | .local .tc .vmem, ⟨28, _⟩ => ⟨S1x64, .f32⟩
  | .local .tc .vmem, ⟨29, _⟩ => ⟨S8x128, .f32⟩
  | .local .tc .vmem, ⟨30, _⟩ => ⟨S8x128, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_arg0_scv : Ref sig .scVector := ⟨.hbm, 0, rfl⟩
abbrev main_arg1_scv : Ref sig .scVector := ⟨.hbm, 1, rfl⟩
abbrev main_v8_0_scv : Ref sig .scVector := ⟨.hbm, 21, rfl⟩
abbrev main_v8_1_scv : Ref sig .scVector := ⟨.hbm, 22, rfl⟩
abbrev main_v9_0_scv : Ref sig .scVector := ⟨.hbm, 23, rfl⟩
abbrev main_v9_1_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg12_1 : Ref sig .tc := ⟨.vmem, 30, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem12_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c49_i32 : BitVec 32 := 49#32
  let v0 : BitVec 32 := Scalar.addi arg0 c49_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c49_i32 : BitVec 32 := 49#32
  let v0 : BitVec 32 := Scalar.addi arg0 c49_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
@[reducible] def k1_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg16 : BitVec 32 := Scf.iv c0_i32_1 c1_i32 k1_t1
  let c16_i32_51 : BitVec 32 := 16#32
  let v38 : BitVec 32 := Scalar.muli arg16 c16_i32_51
  let v39 : Index := Scalar.indexCast v38
  ![v39.toNat]
@[reducible] def k1_t2_loop : Scf.Loop 32 :=
  let c0_i32_6 : BitVec 32 := 0#32
  let c16_i32_7 : BitVec 32 := 16#32
  let v7 : BitVec 32 := Scalar.addi c0_i32_6 c16_i32_7
  let c1_i32_8 : BitVec 32 := 1#32
  ⟨c0_i32_6, v7, c1_i32_8⟩
def k1_off3 (k1_t2 : Fin k1_t2_loop.trips) : Fin 1 → Nat :=
  let c0_i32_6 : BitVec 32 := 0#32
  let c1_i32_8 : BitVec 32 := 1#32
  let arg16 : BitVec 32 := Scf.iv c0_i32_6 c1_i32_8 k1_t2
  let c16_i32_51 : BitVec 32 := 16#32
  let v38 : BitVec 32 := Scalar.muli arg16 c16_i32_51
  let v39 : Index := Scalar.indexCast v38
  ![v39.toNat]
def k1_off4 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_14 : BitVec 32 := 0#32
  ![v3.toNat, 0]
@[reducible] def k1_t3_loop : Scf.Loop 32 :=
  let c0_i32_26 : BitVec 32 := 0#32
  let c16_i32_27 : BitVec 32 := 16#32
  let v22 : BitVec 32 := Scalar.addi c0_i32_26 c16_i32_27
  let c1_i32_28 : BitVec 32 := 1#32
  ⟨c0_i32_26, v22, c1_i32_28⟩
def k1_off5 (k1_t3 : Fin k1_t3_loop.trips) : Fin 1 → Nat :=
  let c0_i32_26 : BitVec 32 := 0#32
  let c1_i32_28 : BitVec 32 := 1#32
  let arg16 : BitVec 32 := Scf.iv c0_i32_26 c1_i32_28 k1_t3
  let c16_i32_51 : BitVec 32 := 16#32
  let v38 : BitVec 32 := Scalar.muli arg16 c16_i32_51
  let v39 : Index := Scalar.indexCast v38
  ![v39.toNat]
@[reducible] def k1_t4_loop : Scf.Loop 32 :=
  let c0_i32_33 : BitVec 32 := 0#32
  let c16_i32_34 : BitVec 32 := 16#32
  let v25 : BitVec 32 := Scalar.addi c0_i32_33 c16_i32_34
  let c1_i32_35 : BitVec 32 := 1#32
  ⟨c0_i32_33, v25, c1_i32_35⟩
def k1_off6 (k1_t4 : Fin k1_t4_loop.trips) : Fin 1 → Nat :=
  let c0_i32_33 : BitVec 32 := 0#32
  let c1_i32_35 : BitVec 32 := 1#32
  let arg16 : BitVec 32 := Scf.iv c0_i32_33 c1_i32_35 k1_t4
  let c16_i32_51 : BitVec 32 := 16#32
  let v38 : BitVec 32 := Scalar.muli arg16 c16_i32_51
  let v39 : Index := Scalar.indexCast v38
  ![v39.toNat]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S8x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S100001x64_S64x100001_1_0 : S100001x64.Transposes [1, 0] S64x100001
  bcast_S_S64x64 : S_.BroadcastsInDim S64x64 (![] : Fin 0 → Fin S64x64.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S1024x64_S1024x64_S1024x128_d1 : Shape.Concatenates [S1024x64, S1024x64] S1024x128 1
  inb_S1024x128_S1024x128_0_0 : ∀ a, (![0, 0] : Fin 2 → Nat) a + S1024x128.size a ≤ S1024x128.size a
  h_S1024x128 : 0 < S1024x128.numel
  h_S16 : 0 < S16.numel
  shapeCasts_S16_S16 : S16.ShapeCasts S16
  inb_S50176x128_S50176x128_0_0 : ∀ a, (![0, 0] : Fin 2 → Nat) a + S50176x128.size a ≤ S50176x128.size a
  gathers_S50176x128_S256x128 : S50176x128.Gathers 0 S256x128
  shapeCasts_S16384_S16384x1 : S16384.ShapeCasts S16384x1
  shapeCasts_S128_S1x128 : S128.ShapeCasts S1x128
  shapeCasts_S64_S1x64 : S64.ShapeCasts S1x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x64_0_0 : ∀ a, (![0, 0] : Fin 2 → Nat) a + S1024x64.size a ≤ S1024x128.size a
  h_S1024x64 : 0 < S1024x64.numel
  shapeCasts_S1024x64_S1024x64 : S1024x64.ShapeCasts S1024x64
  inb_S1024x128_S1024x64_0_64 : ∀ a, (![0, 64] : Fin 2 → Nat) a + S1024x64.size a ≤ S1024x128.size a
  broadcasts_S1024x1_S1024x64 : S1024x1.Broadcasts S1024x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S128x128_S16384 : S128x128.ShapeCasts S16384
  dot_S64x1024_S64x64_S1024x64_0_0_1_1_n_n_wf : DotDims.WF S64x1024 S64x64 S1024x64 [0] [0] [1] [1] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  hcc1_scratch4 : 13 + S_.numel ≤ 39
  hcc1_scratch5 : 14 + S_.numel ≤ 39
  hcc1_scratch6 : 15 + S_.numel ≤ 39
  hcc1_scratch7 : 16 + S_.numel ≤ 39
  hcc1_scoped0 : 17 + S_.numel ≤ 39
  hcc1_scoped1 : 18 + S_.numel ≤ 39
  hcc1_scoped2 : 19 + S_.numel ≤ 39
  hcc1_scoped3 : 20 + S_.numel ≤ 39
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x1024.size a < S64x100001.size a
  hwx0_0 : ∀ i : grid0.Coords, EltTy.bits .f32 = 32 ∨ (Rect.unit (s := S64x100001) (fun a => cc0_transform_0 i a * S64x1024.size a) (fun a => (Pipeline.Clip.of (cc0_transform_0 i a) (S64x1024.size a) (S64x100001.size a)).extent (S64x1024.size a)) fun a => Pipeline.Clip.inb (Pipeline.Clip.ok_of (hstart0_0 i a))).WholeWords (EltTy.packing .f32)
  hwxs0_0 : ∀ i : grid0.Coords, EltTy.bits .f32 = 32 ∨ (Rect.unit (s := S64x1024) (fun _ => 0) (fun a => (Pipeline.Clip.of (cc0_transform_0 i a) (S64x1024.size a) (S64x100001.size a)).extent (S64x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x1024.size a < S64x100001.size a
  hwx0_1 : ∀ i : grid0.Coords, EltTy.bits .f32 = 32 ∨ (Rect.unit (s := S64x100001) (fun a => cc0_transform_1 i a * S64x1024.size a) (fun a => (Pipeline.Clip.of (cc0_transform_1 i a) (S64x1024.size a) (S64x100001.size a)).extent (S64x1024.size a)) fun a => Pipeline.Clip.inb (Pipeline.Clip.ok_of (hstart0_1 i a))).WholeWords (EltTy.packing .f32)
  hwxs0_1 : ∀ i : grid0.Coords, EltTy.bits .f32 = 32 ∨ (Rect.unit (s := S64x1024) (fun _ => 0) (fun a => (Pipeline.Clip.of (cc0_transform_1 i a) (S64x1024.size a) (S64x100001.size a)).extent (S64x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x1024.size a < S64x100001.size a
  hwx0_2 : ∀ i : grid0.Coords, EltTy.bits .f32 = 32 ∨ (Rect.unit (s := S64x100001) (fun a => cc0_transform_2 i a * S64x1024.size a) (fun a => (Pipeline.Clip.of (cc0_transform_2 i a) (S64x1024.size a) (S64x100001.size a)).extent (S64x1024.size a)) fun a => Pipeline.Clip.inb (Pipeline.Clip.ok_of (hstart0_2 i a))).WholeWords (EltTy.packing .f32)
  hwxs0_2 : ∀ i : grid0.Coords, EltTy.bits .f32 = 32 ∨ (Rect.unit (s := S64x1024) (fun _ => 0) (fun a => (Pipeline.Clip.of (cc0_transform_2 i a) (S64x1024.size a) (S64x100001.size a)).extent (S64x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x1024.size a < S64x100001.size a
  hwx0_3 : ∀ i : grid0.Coords, EltTy.bits .f32 = 32 ∨ (Rect.unit (s := S64x100001) (fun a => cc0_transform_3 i a * S64x1024.size a) (fun a => (Pipeline.Clip.of (cc0_transform_3 i a) (S64x1024.size a) (S64x100001.size a)).extent (S64x1024.size a)) fun a => Pipeline.Clip.inb (Pipeline.Clip.ok_of (hstart0_3 i a))).WholeWords (EltTy.packing .f32)
  hwxs0_3 : ∀ i : grid0.Coords, EltTy.bits .f32 = 32 ∨ (Rect.unit (s := S64x1024) (fun _ => 0) (fun a => (Pipeline.Clip.of (cc0_transform_3 i a) (S64x1024.size a) (S64x100001.size a)).extent (S64x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S50176x128.size a
  hwx0_5 : ∀ i : grid0.Coords, EltTy.bits .f32 = 32 ∨ (Rect.block (s := S50176x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S50176x128.size a
  hwx0_6 : ∀ i : grid0.Coords, EltTy.bits .f32 = 32 ∨ (Rect.block (s := S50176x128) S1024x128.size (cc0_transform_6 i) (hinb0_6 i)).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (256 * r.val))) a + S256.size a ≤ S16384.size a
  k1_t1_ok : k1_t1_loop.OK
  k1_off2_inb : ∀ k1_t1 : Fin k1_t1_loop.trips, ∀ a, (k1_off2 k1_t1) a + S16.size a ≤ S256.size a
  k1_t2_ok : k1_t2_loop.OK
  k1_off3_inb : ∀ k1_t2 : Fin k1_t2_loop.trips, ∀ a, (k1_off3 k1_t2) a + S16.size a ≤ S256.size a
  k1_off4_inb : ∀ i : grid1.Coords, ∀ (r : Fin 2), ∀ a, (k1_off4 i (BitVec.ofNat 32 (256 * r.val))) a + S256x128.size a ≤ S16384x128.size a
  k1_t3_ok : k1_t3_loop.OK
  k1_off5_inb : ∀ k1_t3 : Fin k1_t3_loop.trips, ∀ a, (k1_off5 k1_t3) a + S16.size a ≤ S256.size a
  k1_t4_ok : k1_t4_loop.OK
  k1_off6_inb : ∀ k1_t4 : Fin k1_t4_loop.trips, ∀ a, (k1_off6 k1_t4) a + S16.size a ≤ S256.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .f32 = 32 ∨ (Rect.block (s := S16384x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S16384x128.size a
  hwx2_1 : ∀ i : grid2.Coords, EltTy.bits .f32 = 32 ∨ (Rect.block (s := S16384x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S16384x1.size a
  hwx2_2 : ∀ i : grid2.Coords, EltTy.bits .i32 = 32 ∨ (Rect.block (s := S16384x1) S1024x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S16384x1.size a
  hwx2_3 : ∀ i : grid2.Coords, EltTy.bits .i32 = 32 ∨ (Rect.block (s := S16384x1) S1024x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x128.size a
  hwx2_8 : ∀ i : grid2.Coords, EltTy.bits .f32 = 32 ∨ (Rect.block (s := S64x128) S64x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x64.size a ≤ S128x64.size a
  hwx2_10 : ∀ i : grid2.Coords, EltTy.bits .f32 = 32 ∨ (Rect.block (s := S128x64) S128x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S8x128.size a ≤ S128x128.size a
  hwx2_12 : ∀ i : grid2.Coords, EltTy.bits .f32 = 32 ∨ (Rect.block (s := S128x128) S8x128.size (cc2_transform_12 i) (hinb2_12 i)).WholeWords (EltTy.packing .f32)

variable [Facts₀]

abbrev cc1_scratch4 : DmaSems sig S_ := SemArray.consecutive 13 S_ hcc1_scratch4
abbrev cc1_scratch5 : DmaSems sig S_ := SemArray.consecutive 14 S_ hcc1_scratch5
abbrev cc1_scratch6 : DmaSems sig S_ := SemArray.consecutive 15 S_ hcc1_scratch6
abbrev cc1_scratch7 : DmaSems sig S_ := SemArray.consecutive 16 S_ hcc1_scratch7
abbrev cc1_scoped0 : DmaSems sig S_ := SemArray.consecutive 17 S_ hcc1_scoped0
abbrev cc1_scoped1 : DmaSems sig S_ := SemArray.consecutive 18 S_ hcc1_scoped1
abbrev cc1_scoped2 : DmaSems sig S_ := SemArray.consecutive 19 S_ hcc1_scoped2
abbrev cc1_scoped3 : DmaSems sig S_ := SemArray.consecutive 20 S_ hcc1_scoped3
def dot_S64x1024_S64x64_S1024x64_0_0_1_1_n_n : DotDims S64x1024 S64x64 S1024x64 where
  lhsContracting := [0]
  rhsContracting := [0]
  lhsNonContracting := [1]
  rhsNonContracting := [1]
  lhsBatch := []
  rhsBatch := []
  wf := dot_S64x1024_S64x64_S1024x64_0_0_1_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpecClip (Memref.whole main_v0) S64x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S64x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S64x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win2_0 : Pipeline.Window sig grid2 :=
  Pipeline.Window.ofSpec (Memref.whole main_v9_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S64x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v14) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S128x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v15) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16) S8x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S16384 : Shape := ⟨1, ![16384]⟩
abbrev S100001x64 : Shape := ⟨2, ![100001, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100001x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100001x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x64, .f32⟩
  | .hbm, ⟨31, _⟩ => ⟨S16384x64, .i1⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S16384x128, .f32⟩
  | .hbm, ⟨36, _⟩ => ⟨S1x128, .f32⟩
  | .hbm, ⟨37, _⟩ => ⟨S16384x128, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S16384x64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384x1, .i32⟩
  | .hbm, ⟨57, _⟩ => ⟨S1, .i32⟩
  | .hbm, ⟨58, _⟩ => ⟨S_, .i32⟩
  | .hbm, ⟨59, _⟩ => ⟨S16384x1, .i32⟩
  | .hbm, ⟨60, _⟩ => ⟨S16384x1, .i1⟩
  | .hbm, ⟨61, _⟩ => ⟨S1x1, .i32⟩
  | .hbm, ⟨62, _⟩ => ⟨S16384x1, .i32⟩
  | .hbm, ⟨63, _⟩ => ⟨S16384x1, .i1⟩
  | .hbm, ⟨64, _⟩ => ⟨S16384x1, .i1⟩
  | .hbm, ⟨65, _⟩ => ⟨S_, .i1⟩
  | .hbm, ⟨66, _⟩ => ⟨S16384, .i1⟩
  | .hbm, ⟨67, _⟩ => ⟨S16384x64, .f32⟩
  | .hbm, ⟨68, _⟩ => ⟨S16384x64, .i1⟩
  | .hbm, ⟨69, _⟩ => ⟨S_, .f32⟩
  | .hbm, ⟨70, _⟩ => ⟨S16384x64, .f32⟩
  | .hbm, ⟨71, _⟩ => ⟨S16384x64, .f32⟩
  | .hbm, ⟨72, _⟩ => ⟨S16384x128, .f32⟩
  | .hbm, ⟨73, _⟩ => ⟨S1x128, .f32⟩
  | .hbm, ⟨74, _⟩ => ⟨S16384x128, .f32⟩
  | .hbm, ⟨75, _⟩ => ⟨S16384x128, .f32⟩
  | .hbm, ⟨76, _⟩ => ⟨S_, .f32⟩
  | .hbm, ⟨77, _⟩ => ⟨S16384x128, .f32⟩
  | .hbm, ⟨78, _⟩ => ⟨S16384x128, .f32⟩
  | .hbm, ⟨79, _⟩ => ⟨S16384x64, .f32⟩
  | .hbm, ⟨80, _⟩ => ⟨S1x64, .f32⟩
  | .hbm, ⟨81, _⟩ => ⟨S16384x64, .f32⟩
  | .hbm, ⟨82, _⟩ => ⟨S16384x64, .f32⟩
  | .hbm, ⟨83, _⟩ => ⟨S_, .f32⟩
  | .hbm, ⟨84, _⟩ => ⟨S16384x64, .f32⟩
  | .hbm, ⟨85, _⟩ => ⟨S16384x64, .f32⟩
  | .hbm, ⟨86, _⟩ => ⟨S16384x64, .f32⟩
  | .hbm, ⟨87, _⟩ => ⟨S_, .f32⟩
  | .hbm, ⟨88, _⟩ => ⟨S16384, .f32⟩
  | .hbm, ⟨89, _⟩ => ⟨S_, .f32⟩
  | .hbm, ⟨90, _⟩ => ⟨S16384, .f32⟩
  | .hbm, ⟨91, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_cst : Ref sig .tc := ⟨.hbm, 39, rfl⟩
abbrev main_call1_v0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_call2_cst : Ref sig .tc := ⟨.hbm, 46, rfl⟩
abbrev main_call2_v0 : Ref sig .tc := ⟨.hbm, 47, rfl⟩
abbrev main_v10 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_call3_cst : Ref sig .tc := ⟨.hbm, 69, rfl⟩
abbrev main_call3_v15 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_call4_cst : Ref sig .tc := ⟨.hbm, 76, rfl⟩
abbrev main_call4_v0 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_call5_cst : Ref sig .tc := ⟨.hbm, 83, rfl⟩
abbrev main_call5_v0 : Ref sig .tc := ⟨.hbm, 84, rfl⟩
abbrev main_v21 : Ref sig .tc := ⟨.hbm, 85, rfl⟩
abbrev main_v22 : Ref sig .tc := ⟨.hbm, 86, rfl⟩
abbrev main_cst : Ref sig .tc := ⟨.hbm, 87, rfl⟩
abbrev main_v23 : Ref sig .tc := ⟨.hbm, 88, rfl⟩
abbrev main_call6_cst : Ref sig .tc := ⟨.hbm, 89, rfl⟩
abbrev main_call6_v0 : Ref sig .tc := ⟨.hbm, 90, rfl⟩
abbrev main_v24 : Ref sig .tc := ⟨.hbm, 91, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  gather_S100001x64_S16384x1_S16384x64_1_0_n_n_0_1_164_wf : GatherDims.WF S100001x64 S16384x1 S16384x64 [1] [0] [] [0] [] 1 ![1, 64]
  dot_S16384x64_S64x128_S16384x128_1_0_0_1_n_n_wf : DotDims.WF S16384x64 S64x128 S16384x128 [1] [0] [0] [1] [] []
  dot_S16384x128_S128x64_S16384x64_1_0_0_1_n_n_wf : DotDims.WF S16384x128 S128x64 S16384x64 [1] [0] [0] [1] [] []

variable [Facts₀]

def gather_S100001x64_S16384x1_S16384x64_1_0_n_n_0_1_164 : GatherDims S100001x64 S16384x1 S16384x64 where
  offsetDims := [1]
  collapsedSliceDims := [0]
  operandBatchingDims := []
  startIndicesBatchingDims := []
  startIndexMap := [0]
  indexVectorDim := 1
  sliceSizes := ![1, 64]
  wf := gather_S100001x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.ScBase.lean ====
/-
  The program as the launch theorem for programs with vector-subcore kernels sees it, and the ghost state of its proof.

  The device runs one thread per processor: the host program on the matrix unit's processor, and, for the one
  vector-subcore call, a dispatcher and sixteen tiles on each of the two sparse processors. The proof's ghost state has
  three independent parts, one per protocol: the rounds of the four handshake semaphores between host program, dispatchers
  and tiles; the rounds of the two block pipelines' staging semaphores; and plain counters for each tile's own
  transfers, which it starts and waits for by itself, so that no schedule is needed for them.
-/
import proofs.«204570_g59167469470423_cont_9to1_m_669_24_alg».proof.KernelIdeal
import proofs.«204570_g59167469470423_cont_9to1_m_669_24_alg».proof.Proof.Gen.KernelIdeal
import Idealize.ShloMosaic.Lib.SparseCore.Launch
import Idealize.ShloMosaic.Lib.Transfers
import Idealize.ShloMosaic.Lib.Pipeline.Kit
import Idealize.ShloMosaic.Lib.Tactic

noncomputable section

namespace Cert.KernelIdeal.Base

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the pipelines' staging cells, the tiles' transfer counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
/-- The staging cells' and counters' pair, through the algebra's right half. -/
def ER : Emb (UP × Counters) (MM F) :=
  (Emb.inr : Emb (UP × Counters) UU).trans (uEmb (nD := nD) (sig := sig) (Ix := HIx 1) (Val := Elt F) (Name := ℕ) (U := UU) (Lvl := ℕ)).toEmb
def EP : Emb UP (MM F) := (Emb.inl : Emb UP (UP × Counters)).trans ER

instance EH_landsIn : (EH : Emb UH (MM F)).LandsIn (upEmb : UEmb _ (MM F)) := by unfold EH; infer_instance
instance ER_landsIn : (ER : Emb (UP × Counters) (MM F)).LandsIn (upEmb : UEmb _ (MM F)) := by unfold ER; infer_instance
instance EP_landsIn : (EP : Emb UP (MM F)).LandsIn (upEmb : UEmb _ (MM F)) := by unfold EP; infer_instance

/-- The counters' place in the algebra is found by instance search (they sit last). -/
example : CountersIn UU := inferInstance

end Cert.KernelIdeal.Base

end
-- ==== Proof.ScGhost.lean ====
/-
  The launch element of the ghost state, and what the launch makes of it.

  The element has three components: the handshake semaphores' rounds at their start, the staging semaphores' rounds of
  both block pipelines at their start, and the neutral element for the tiles' transfer counters. From it the launch
  keeps the handshakes' part as it is, funds every staging cell's start state and duty tokens (two pipelines, one device)
  and drops the counters' part. No thread is dealt anything for a protocol of its own.
-/
import proofs.«204570_g59167469470423_cont_9to1_m_669_24_alg».proof.Proof.ScBase
import proofs.«204570_g59167469470423_cont_9to1_m_669_24_alg».proof.Proof.Gen.KernelIdeal.Launch
import Idealize.ShloMosaic.Lib.Pipeline.Regions

noncomputable section

namespace Cert.KernelIdeal.Ghost

open Cert.KernelIdeal Cert.KernelIdeal.Gen Cert.KernelIdeal.Base

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The prefetched tables' admissible contents: neither pipeline has a table. -/
abbrev adm : (p : Fin 2) → (pcfgs (F := F) p).Adm := fun p => (cfgs p).toPCfg_adm

/-- The launch element. -/
def u₀ : UU :=
  (initOf (K (F := F)).hsCells (K (F := F)).hsToks, (initOf (Pipeline.cells cfgs cellOf_inj) (Pipeline.launchToks cfgs cellOf_inj), (1 : Counters)))

/-- What the host program's thread keeps of the launch for its two pipelines: each one's staging cells at their start
    and its duty tokens. -/
abbrev pipeGhost (p : Fin 2) (d : Dev nD) : sProp (MM F) :=
  iprop(Pipeline.cellsGhost cfgs (EP (F := F)) p d ∗ Pipeline.toksInit cfgs (EP (F := F)) p d)
abbrev G (d : Dev nD) : sProp (MM F) := iprop(pipeGhost (F := F) 0 d ∗ pipeGhost (F := F) 1 d)

theorem split_u₀ : (ownU (u₀ (F := F)) : sProp (MM F))
    ⊢ iprop(BI.own (EH (F := F) (initOf (K (F := F)).hsCells (K (F := F)).hsToks))
        ∗ BI.own (EP (F := F) (initOf (Pipeline.cells cfgs cellOf_inj) (Pipeline.launchToks cfgs cellOf_inj)))) := by
  unfold u₀
  refine (ownU_pair (nD := nD) (τ := τ) (sig := sig) (Ix := HIx 1) (Val := Elt F) (Name := ℕ) (Lvl := ℕ) _ _).trans ?_
  refine sep_mono (Entails.of_eq rfl) ?_
  refine BI.Entails.trans (Entails.of_eq (show _ = BI.own (ER (F := F) (_, _)) from rfl)) ?_
  exact (own_pair_emb (ER (F := F)) _ _).trans sep_elim_left

/-- A conjunction over the two pipelines is the pair of its terms. -/
theorem bigSep_fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The funded cells and tokens, grouped by kind, regrouped per device and pipeline. -/
theorem regroup_one (c : Dev nD) :
    iprop((Pipeline.cellsGhost cfgs (EP (F := F)) 0 c ∗ Pipeline.cellsGhost cfgs (EP (F := F)) 1 c)
        ∗ (Pipeline.toksInit cfgs (EP (F := F)) 0 c ∗ (Pipeline.toksInit cfgs (EP (F := F)) 1 c : sProp (MM F))))
      ⊢ G (F := F) c := by
  iintro ⟨⟨H0, H1⟩, ⟨T0, T1⟩⟩
  isplitl [H0 T0]
  · isplitl [H0] <;> iassumption
  · isplitl [H1] <;> iassumption

theorem regroup :
    iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp (MM F))))
      ⊢ bigSep Finset.univ fun d : Dev nD => G (F := F) d := by
  rw [← bigSep_sep']
  refine bigSep_mono fun c _ => ?_
  rw [bigSep_fin2, bigSep_fin2]
  exact regroup_one (F := F) c

/-- The launch: the handshakes' rounds kept, every staging cell of both pipelines funded on every device. -/
theorem fund_G : (ownU (u₀ (F := F)) : sProp (MM F))
    ⊢ |={Set.univ}=> iprop(BI.own (EH (F := F) (initOf (K (F := F)).hsCells (K (F := F)).hsToks)) ∗ bigSep Finset.univ fun d : Dev nD => G (F := F) d) := by
  iintro Hu
  ihave H := (split_u₀ (F := F)) $$ Hu
  icases H with ⟨HH, HP⟩
  imod (Pipeline.fund_ghost cfgs (EP (F := F)) cellOf_inj) $$ HP with ⟨Hg, Ht⟩
  imodintro
  isplitl [HH]; · iexact HH
  iapply (regroup (F := F))
  isplitl [Hg] <;> iassumption

end Cert.KernelIdeal.Ghost

end
-- ==== Proof.ScHeld.lean ====
/-
  The host program's buffers, held whole at a valuation: taking one out and putting one back.

  Between the stretches of the host program every buffer that is not scoped is held whole, all of them at one valuation.
  A block pipeline or the call to the sparse processors needs a few of them by name: a buffer is taken out of the held
  set as a plain ownership statement, and put back, possibly at new contents, the valuation updated at that buffer.
-/
import proofs.«204570_g59167469470423_cont_9to1_m_669_24_alg».proof.Proof.ScBase
import Idealize.ShloMosaic.Lib.StableHlo.Run
import Idealize.ShloMosaic.Lib.Pipeline.Frame

noncomputable section

namespace Cert.KernelIdeal.Held

open Cert.KernelIdeal Cert.KernelIdeal.Gen Cert.KernelIdeal.Base

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- A buffer of the held set, and the rest. -/
theorem held_take (c : Thread nD τ) (S : Finset (DevRef τ sig)) (W : Valuation τ sig (Elt F)) {b : DevRef τ sig} (hb : b ∈ S) :
    (StableHlo.held c S W : sProp (MM F)) = iprop((((c.1, b) : Loc nD τ sig) ↦{fullShare} W b) ∗ StableHlo.held c (S.erase b) W) := by
  unfold StableHlo.held
  exact SparseCore.bigSep_erase' hb

/-- The rest does not see an update at the buffer taken out. -/
theorem held_erase_update (c : Thread nD τ) (S : Finset (DevRef τ sig)) (W : Valuation τ sig (Elt F)) (b : DevRef τ sig) (x : b.ty.Contents (Elt F)) :
    (StableHlo.held c (S.erase b) (Function.update W b x) : sProp (MM F)) = StableHlo.held c (S.erase b) W :=
  StableHlo.held_congr c fun b' hb' => Function.update_of_ne (Finset.ne_of_mem_erase hb') _ _

/-- A buffer put back at contents `x`: the set held at the valuation updated there. -/
theorem held_put (c : Thread nD τ) (S : Finset (DevRef τ sig)) (W : Valuation τ sig (Elt F)) {b : DevRef τ sig} (hb : b ∈ S) (x : b.ty.Contents (Elt F)) :
    iprop((((c.1, b) : Loc nD τ sig) ↦{fullShare} x) ∗ StableHlo.held c (S.erase b) W) ⊢ (StableHlo.held c S (Function.update W b x) : sProp (MM F)) := by
  rw [held_take c S (Function.update W b x) hb, Function.update_self, held_erase_update]

/-- A reference of the matrix unit's processor that is not scoped is in the held set. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

end Cert.KernelIdeal.Held

end
-- ==== Proof.PackBody.lean ====
import proofs.«204570_g59167469470423_cont_9to1_m_669_24_alg».proof.Proof.ScBase
import proofs.«204570_g59167469470423_cont_9to1_m_669_24_alg».proof.Proof.Gen.KernelIdeal.Skeleton
import Idealize.ShloMosaic.Lib.Pipeline.Kit
import Idealize.ShloMosaic.Lib.Pipeline.FrameBody
import Idealize.ShloMosaic.Lib.Pipeline.Value
import Idealize.ShloMosaic.Lib.Tactic

noncomputable section

namespace Cert.KernelIdeal.Pack

open Cert.KernelIdeal Cert.KernelIdeal.Gen Cert.KernelIdeal.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf)

variable {F : FTy → Type} [FloatOps F]

/-! ## The block function at one grid point

At a grid point the function reads four staged column blocks (two of each transposed table), the staged identity,
and stores into each of the two staged output blocks the two transposed blocks side by side: each transposition is a
contraction with the identity over the 64 table rows, a pure function of the values read. -/

/-- The function on whole staging memrefs: from the four column blocks at `x1 … x4`, the identity block at `x5` and the
    two output blocks at any contents, it terminates without fault, leaves the five inputs as they were, and leaves the
    output blocks at the named payloads of the inputs. -/
theorem sound_kernel (c : Dev nD) (E : Set ℕ) (i : grid0.Coords)
    (a1 : Memref sig .tc .vmem S64x1024 .f32) (h1 : a1.IsWhole) (a2 : Memref sig .tc .vmem S64x1024 .f32) (h2 : a2.IsWhole)
    (a3 : Memref sig .tc .vmem S64x1024 .f32) (h3 : a3.IsWhole) (a4 : Memref sig .tc .vmem S64x1024 .f32) (h4 : a4.IsWhole)
    (a5 : Memref sig .tc .vmem S64x64 .f32) (h5 : a5.IsWhole)
    (a6 : Memref sig .tc .vmem S1024x128 .f32) (h6 : a6.IsWhole) (a7 : Memref sig .tc .vmem S1024x128 .f32) (h7 : a7.IsWhole)
    (x1 x2 x3 x4 : Vec F S64x1024 .f32) (x5 : Vec F S64x64 .f32) (K : PUnit → sProp (MM F)) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5
        ∗ (∃ d, owns (c : Thread nD τ) a6 fullShare d) ∗ (∃ d, owns (c : Thread nD τ) a7 fullShare d)
        ∗ (iprop(owns (c : Thread nD τ) a1 fullShare x1 ∗ owns (c : Thread nD τ) a2 fullShare x2
              ∗ owns (c : Thread nD τ) a3 fullShare x3 ∗ owns (c : Thread nD τ) a4 fullShare x4
              ∗ owns (c : Thread nD τ) a5 fullShare x5
              ∗ owns (c : Thread nD τ) a6 fullShare (k0_pay1 x1 x5 x2 x5)
              ∗ owns (c : Thread nD τ) a7 fullShare (k0_pay2 x3 x5 x4 x5)) -∗ K ⟨⟩))
      ⊢ wp frame (wpE (defs₀ (F := F)) 𝒱₀ (c : Thread nD τ) none) E
          (cc0__pack_body i a1 h1 a2 h2 a3 h3 a4 h4 a5 h5 a6 h6 a7 h7) K := by
  simp only [cc0__pack_body_eq_skeleton]; unfold cc0__pack_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  have hz : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (View.cover_of_tiled _ S1024x128.size (by rfl)),
      View.canon_unit_zero (S := S1024x128) hz]
    simp only [View.readAt_eq_ld, View.ld_unit_zero (S := S64x1024) hz, View.ld_unit_zero (S := S64x64) hz]
  · iexists _; isplitr
    swap; · iexact H7
    ipureintro
    rw [View.read_writes_eq_canon _ _ _ (View.cover_of_tiled _ S1024x128.size (by rfl)),
      View.canon_unit_zero (S := S1024x128) hz]
    simp only [View.readAt_eq_ld, View.ld_unit_zero (S := S64x1024) hz, View.ld_unit_zero (S := S64x64) hz]

end Cert.KernelIdeal.Pack

end
-- ==== Proof.PackDat.lean ====
import proofs.«204570_g59167469470423_cont_9to1_m_669_24_alg».proof.Proof.PackBody
import proofs.«204570_g59167469470423_cont_9to1_m_669_24_alg».proof.Proof.Gen.KernelIdeal.Launch
import proofs.«204570_g59167469470423_cont_9to1_m_669_24_alg».proof.Proof.Gen.KernelIdeal.Points
import Idealize.ShloMosaic.Lib.Pipeline.Regions

noncomputable section

namespace Cert.KernelIdeal.Pack

open Cert.KernelIdeal Cert.KernelIdeal.Gen Cert.KernelIdeal.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf)

variable {F : FTy → Type} [FloatOps F]

-- The matrix unit's buffer contents when the region is entered: the parameter everything here is stated at.
variable (V : (c : Dev nD) → (b : Ref sig .tc) → Buf (Elt F) ((c : Thread nD τ).loc b))
-- What the matrix unit's processor owes other processors while the region runs (the function pays none of it and
-- takes on nothing), and a bound on the pairs its waits have recorded before the region (the function records none).
variable (O : CellTallies nD τ sig (HIx 1)) (B : Set (SemLoc sig × HIx 1))

/-! ## The windows' blocks -/

/-- The first grid point. -/
def t0 : Fin cfg0.N := ⟨0, by rw [show cfg0.N = grid0.N from rfl, N_0]; decide⟩

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staging buffer of window `w` once the fetch at point `t` has landed in it, having held `d`: the block on the
    part the fetch fills, `d` past the array's end. -/
def fblk (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk V c w t)

/-- What the first output block may hold after the function at point `t`: the payload of two fetched column blocks of
    the first table and the fetched identity, whatever filled the buffers past the array's end. -/
def Out0 (c : Dev nD) (t : Fin cfg0.N) (X : Vec F S1024x128 .f32) : Prop :=
  ∃ (d0 d1 : Vec F S64x1024 .f32) (d4 : Vec F S64x64 .f32),
    X = k0_pay1 (fblk V c 0 t d0) (fblk V c 4 t0 d4) (fblk V c 1 t d1) (fblk V c 4 t0 d4)
/-- The second output block likewise, of the second table. -/
def Out1 (c : Dev nD) (t : Fin cfg0.N) (X : Vec F S1024x128 .f32) : Prop :=
  ∃ (d2 d3 : Vec F S64x1024 .f32) (d4 : Vec F S64x64 .f32),
    X = k0_pay2 (fblk V c 2 t d2) (fblk V c 4 t0 d4) (fblk V c 3 t d3) (fblk V c 4 t0 d4)

/-! ## The proof data -/

/-- The relational proof data of the pipeline on core `c`: the arrays as the region finds them; the function leaves
    every input's staging buffer as it found it and each output's at the payload of the fetched inputs; the invariant
    is the scoped buffers no window stages, untouched; the tallies owed stay `O` throughout; the two windows on one table hold half of it each. -/
def dat (c : Dev nD) : RDat τ (Elt F) (HIx 1) ℕ UU ℕ cfg0 c where
  A w := V c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => Out0 V c t X
    | ⟨6, _⟩ => Out1 V c t X
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := O
  recorded _ := B

theorem A_eq (c : Dev nD) (w : Fin cfg0.W) : (dat V O B c).A w = V c (Pipeline.arrRef spec0 w) := by dsimp only [dat]
theorem owed_eq (c : Dev nD) (t : Fin (cfg0.N + 1)) : (dat V O B c).owed t = O := rfl
theorem recorded_eq (c : Dev nD) (t : Fin (cfg0.N + 1)) : (dat V O B c).recorded t = B := rfl
theorem Φ_eq (c : Dev nD) (t : Fin (cfg0.N + 1)) : (dat V O B c).Φ t = Pipeline.scopedRest spec0 c := rfl

/-! ## What the function finds in the staging buffers -/

/-- A fetched buffer of the proof data is `fblk` (the proof data's arrays are the entry contents). -/
theorem fetched_eq (c : Dev nD) (w : Fin cfg0.W) (t : Fin cfg0.N) (d) : (dat V O B c).fetched w t d = fblk V c w t d := by
  unfold RDat.fetched RDat.blockOf fblk iblk; rw [A_eq]

/-- The four table windows are fetched at every point: what the function finds there is a fetched buffer. -/
theorem finds0 (c : Dev nD) (t : Fin cfg0.N) (X) (h : (dat V O B c).Finds 0 t X) : ∃ d, X = fblk V c 0 t d := by
  obtain ⟨d, hd⟩ := ((dat V O B c).finds_of_fetch (fetch0_0 t) X).mp h; exact ⟨d, hd.trans (fetched_eq V O B c 0 t d)⟩
theorem finds1 (c : Dev nD) (t : Fin cfg0.N) (X) (h : (dat V O B c).Finds 1 t X) : ∃ d, X = fblk V c 1 t d := by
  obtain ⟨d, hd⟩ := ((dat V O B c).finds_of_fetch (fetch0_1 t) X).mp h; exact ⟨d, hd.trans (fetched_eq V O B c 1 t d)⟩
theorem finds2 (c : Dev nD) (t : Fin cfg0.N) (X) (h : (dat V O B c).Finds 2 t X) : ∃ d, X = fblk V c 2 t d := by
  obtain ⟨d, hd⟩ := ((dat V O B c).finds_of_fetch (fetch0_2 t) X).mp h; exact ⟨d, hd.trans (fetched_eq V O B c 2 t d)⟩
theorem finds3 (c : Dev nD) (t : Fin cfg0.N) (X) (h : (dat V O B c).Finds 3 t X) : ∃ d, X = fblk V c 3 t d := by
  obtain ⟨d, hd⟩ := ((dat V O B c).finds_of_fetch (fetch0_3 t) X).mp h; exact ⟨d, hd.trans (fetched_eq V O B c 3 t d)⟩

/-- The identity's window is never written back. -/
theorem flush0_4 : ∀ t : Fin cfg0.N, (cfg0.win 4).flush t = false :=
  (by decide +kernel : ∀ t : Fin grid0.N, win0_4.flush t = false)

/-- The identity is fetched at the first point only and left as found at every point: at every point the function
    finds in its buffer what the first point's fetch left. -/
theorem finds4 (c : Dev nD) : ∀ (n : Nat) (t : Fin cfg0.N), t.val = n → ∀ X, (dat V O B c).Finds 4 t X → ∃ d, X = fblk V c 4 t0 d
  | 0, t, ht, X, h => by
    have e : t = t0 := Fin.ext ht
    subst e
    obtain ⟨d, hd⟩ := ((dat V O B c).finds_of_fetch ((fetch0_4 t0).mpr rfl) X).mp h
    exact ⟨d, hd.trans (fetched_eq V O B c 4 t0 d)⟩
  | n + 1, t, ht, X, h => by
    have hlt : t.val < 49 := by have := t.isLt; have e : cfg0.N = 49 := N_0; omega
    have hf : (cfg0.win 4).fetch t = false := by
      cases hb : (cfg0.win 4).fetch t
      · rfl
      · have := (fetch0_4 t).mp hb; omega
    rcases ((dat V O B c).finds_of_pos hf (by omega) X).mp h with hfl | ⟨Y, hY, hYX⟩
    · rw [flush0_4] at hfl; exact absurd hfl Bool.false_ne_true
    · have hXY : X = Y := by dsimp only [dat] at hYX; exact hYX
      rw [hXY]
      exact finds4 c n ⟨t.val - 1, Nat.lt_of_le_of_lt (Nat.sub_le _ _) t.isLt⟩ (by simp only [ht]; omega) Y hY

/-! ## The body obligation -/

/-- What the function is called with at point `t`, the current staging buffers at contents `Y`, -/
def bodyPre (c : Dev nD) (t : Fin cfg0.N) (Y : (w : Fin cfg0.W) → (cfg0.win w).block.Idx → Elt F (cfg0.win w).elt) : sProp (MM F) :=
  iprop((dat V O B c).Φ t.castSucc ∗ (dat V O B c).owesAt (none : HIx 1) t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6))

/-- and what it returns: each buffer at contents in the proof data's relation to what it held. -/
def bodyPost (c : Dev nD) (t : Fin cfg0.N) (Y : (w : Fin cfg0.W) → (cfg0.win w).block.Idx → Elt F (cfg0.win w).elt) : sProp (MM F) :=
  iprop((dat V O B c).Φ t.succ ∗ (dat V O B c).owesAt (none : HIx 1) t.succ
    ∗ (∃ X, ⌜(dat V O B c).after 0 t (Y 0) X⌝ ∗ owns (c : Thread nD τ) (st0_0 t) fullShare X)
    ∗ (∃ X, ⌜(dat V O B c).after 1 t (Y 1) X⌝ ∗ owns (c : Thread nD τ) (st0_1 t) fullShare X)
    ∗ (∃ X, ⌜(dat V O B c).after 2 t (Y 2) X⌝ ∗ owns (c : Thread nD τ) (st0_2 t) fullShare X)
    ∗ (∃ X, ⌜(dat V O B c).after 3 t (Y 3) X⌝ ∗ owns (c : Thread nD τ) (st0_3 t) fullShare X)
    ∗ (∃ X, ⌜(dat V O B c).after 4 t (Y 4) X⌝ ∗ owns (c : Thread nD τ) (st0_4 t) fullShare X)
    ∗ (∃ X, ⌜(dat V O B c).after 5 t (Y 5) X⌝ ∗ owns (c : Thread nD τ) (st0_5 t) fullShare X)
    ∗ (∃ X, ⌜(dat V O B c).after 6 t (Y 6) X⌝ ∗ owns (c : Thread nD τ) (st0_6 t) fullShare X))

/-- The function at any point, from any contents the buffers may then hold: the table buffers are fetched ones and the
    identity's is the first fetch's, so the outputs' payloads are those the proof data's relation names; the invariant
    and what the processor owes pass through unread. -/
theorem sound_body (c : Dev nD) (t : Fin cfg0.N) (Y : (w : Fin cfg0.W) → (cfg0.win w).block.Idx → Elt F (cfg0.win w).elt)
    (hY : ∀ w, (dat V O B c).Finds w t (Y w)) :
    bodyPre V O B c t Y ⊢ wp frame (wpE (defs₀ (F := F)) 𝒱₀ (c : Thread nD τ) none) Set.univ (bodyAt0 t) (fun _ => bodyPost V O B c t Y) := by
  obtain ⟨d0, h0⟩ := finds0 V O B c t _ (hY 0)
  obtain ⟨d1, h1⟩ := finds1 V O B c t _ (hY 1)
  obtain ⟨d2, h2⟩ := finds2 V O B c t _ (hY 2)
  obtain ⟨d3, h3⟩ := finds3 V O B c t _ (hY 3)
  obtain ⟨d4, h4⟩ := finds4 V O B c t.val t rfl _ (hY 4)
  unfold bodyPre bodyPost bodyAt0
  rw [show (dat V O B c).Φ t.succ = (dat V O B c).Φ t.castSucc from rfl,
    show (dat V O B c).owesAt (none : HIx 1) t.succ = (dat V O B c).owesAt (none : HIx 1) t.castSucc from rfl]
  iintro ⟨HΦ, Ho, H0, H1, H2, H3, H4, H5, H6⟩
  iapply (sound_kernel c Set.univ _ _ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists (Y 0); isplitr; · ipureintro; dsimp only [dat]
    iexact H0
  isplitl [H1]
  · iexists (Y 1); isplitr; · ipureintro; dsimp only [dat]
    iexact H1
  isplitl [H2]
  · iexists (Y 2); isplitr; · ipureintro; dsimp only [dat]
    iexact H2
  isplitl [H3]
  · iexists (Y 3); isplitr; · ipureintro; dsimp only [dat]
    iexact H3
  isplitl [H4]
  · iexists (Y 4); isplitr; · ipureintro; dsimp only [dat]
    iexact H4
  isplitl [H5]
  · iexists _; isplitr
    swap; · iexact H5
    ipureintro; dsimp only [dat]
    exact ⟨d0, d1, d4, by rw [h0, h1, h4]⟩
  · iexists _; isplitr
    swap; · iexact H6
    ipureintro; dsimp only [dat]
    exact ⟨d2, d3, d4, by rw [h2, h3, h4]⟩

/-- The library's body obligation on core `c`: at every point, from any contents the current staging buffers may then
    hold, the function runs to the buffers left in the proof data's relation to them. -/
theorem body_obligation (c : Dev nD) :
    (dat V O B c).BodyObligation (defs₀ (F := F)) 𝒱₀ (none : HIx 1) Set.univ := fun t Y hY => by
  rw [bigSep_W0, bigSep_W0]
  exact sound_body V O B c t Y hY

/-! ## Entry and exit of the arrays -/

/-- A whole buffer at the full share is its two halves. -/
theorem split_half (ℓ : Loc nD τ sig) (f : Buf (Elt F) ℓ) :
    (ℓ ↦{fullShare} f : sProp (MM F)) ⊣⊢ iprop((ℓ ↦{fullShare.left} f) ∗ ℓ ↦{fullShare.right} f) :=
  pointsTo_share (PosShare.mem_left_op_right fullShare)

theorem q0 (c : Dev nD) : (dat V O B c).q 0 = fullShare.left := rfl
theorem q1 (c : Dev nD) : (dat V O B c).q 1 = fullShare.right := rfl
theorem q2 (c : Dev nD) : (dat V O B c).q 2 = fullShare.left := rfl
theorem q3 (c : Dev nD) : (dat V O B c).q 3 = fullShare.right := rfl
theorem q4 (c : Dev nD) : (dat V O B c).q 4 = fullShare := rfl

/-- ENTRY: the five distinct buffers behind the seven windows, each whole at the full share at the entry contents,
    make the proof data's arrays — each table's full share split between its two windows. -/
theorem arrays_entry (c : Dev nD) :
    iprop((((c : Thread nD τ).loc main_v0) ↦{fullShare} V c main_v0) ∗ (((c : Thread nD τ).loc main_v1) ↦{fullShare} V c main_v1)
        ∗ (((c : Thread nD τ).loc main_v7) ↦{fullShare} V c main_v7)
        ∗ (((c : Thread nD τ).loc main_v8_0) ↦{fullShare} V c main_v8_0) ∗ (((c : Thread nD τ).loc main_v8_1) ↦{fullShare} V c main_v8_1))
      ⊢ ((dat V O B c).arrays (dat V O B c).A : sProp (MM F)) := by
  have hs0 := (split_half (F := F) ((c : Thread nD τ).loc main_v0) (V c main_v0)).1
  have hs1 := (split_half (F := F) ((c : Thread nD τ).loc main_v1) (V c main_v1)).1
  unfold RDat.arrays
  rw [bigSep_W0]
  simp only [RDat.share, View.set_whole, Bool.false_eq_true, if_false, if_true, q0 V O B c, q1 V O B c, q2 V O B c, q3 V O B c, q4 V O B c, A_eq]
  iintro ⟨H0, H1, H7, H80, H81⟩
  ihave H0' := hs0 $$ H0
  icases H0' with ⟨H0a, H0b⟩
  ihave H1' := hs1 $$ H1
  icases H1' with ⟨H1a, H1b⟩
  isplitl [H0a]; · iexact H0a
  isplitl [H0b]; · iexact H0b
  isplitl [H1a]; · iexact H1a
  isplitl [H1b]; · iexact H1b
  isplitl [H7]; · iexact H7
  isplitl [H80]; · iexact H80
  iexact H81

/-- EXIT: after every write-back the inputs' buffers are whole at the full share at their entry contents again, and
    each output's holds some contents it may hold after the write-backs. -/
theorem arraysAt_exit (c : Dev nD) :
    ((dat V O B c).arraysAt cfg0.N : sProp (MM F))
      ⊢ iprop(∃ (G0 : Buf (Elt F) ((c : Thread nD τ).loc main_v8_0)) (G1 : Buf (Elt F) ((c : Thread nD τ).loc main_v8_1)),
          ⌜(dat V O B c).ArrAt 5 cfg0.N G0 ∧ (dat V O B c).ArrAt 6 cfg0.N G1⌝
          ∗ (((c : Thread nD τ).loc main_v0) ↦{fullShare} V c main_v0) ∗ (((c : Thread nD τ).loc main_v1) ↦{fullShare} V c main_v1)
          ∗ (((c : Thread nD τ).loc main_v7) ↦{fullShare} V c main_v7)
          ∗ (((c : Thread nD τ).loc main_v8_0) ↦{fullShare} G0) ∗ (((c : Thread nD τ).loc main_v8_1) ↦{fullShare} G1)) := by
  have e0 := congrFun ((dat V O B c).ArrAt_in 0 rfl cfg0.N)
  have e1 := congrFun ((dat V O B c).ArrAt_in 1 rfl cfg0.N)
  have e2 := congrFun ((dat V O B c).ArrAt_in 2 rfl cfg0.N)
  have e3 := congrFun ((dat V O B c).ArrAt_in 3 rfl cfg0.N)
  have e4 := congrFun ((dat V O B c).ArrAt_in 4 rfl cfg0.N)
  have hj0 := (split_half (F := F) ((c : Thread nD τ).loc main_v0) (V c main_v0)).2
  have hj1 := (split_half (F := F) ((c : Thread nD τ).loc main_v1) (V c main_v1)).2
  unfold RDat.arraysAt
  rw [bigSep_W0]
  simp only [RDat.share, View.set_whole, Bool.false_eq_true, if_false, if_true, q0 V O B c, q1 V O B c, q2 V O B c, q3 V O B c, q4 V O B c]
  iintro ⟨⟨%F0, %h0, H0⟩, ⟨%F1, %h1, H1⟩, ⟨%F2, %h2, H2⟩, ⟨%F3, %h3, H3⟩, ⟨%F4, %h4, H4⟩, ⟨%G0, %h5, H5⟩, ⟨%G1, %h6, H6⟩⟩
  rw [e0] at h0; rw [e1] at h1; rw [e2] at h2; rw [e3] at h3; rw [e4] at h4
  subst h0 h1 h2 h3 h4
  simp only [A_eq]
  iexists G0; iexists G1
  isplitr; · ipureintro; exact ⟨h5, h6⟩
  isplitl [H0 H1]
  · iapply hj0; isplitl [H0]; · iexact H0
    iexact H1
  isplitl [H2 H3]
  · iapply hj1; isplitl [H2]; · iexact H2
    iexact H3
  isplitl [H4]; · iexact H4
  isplitl [H5]; · iexact H5
  iexact H6

/-! ## The region's own resources: none -/

/-- The function names no semaphore of its own. -/
abbrev ownK : Type := PEmpty
abbrev osem : ownK → SemLoc sig := fun k => k.elim
theorem ho : Pipeline.OwnSemFacts spec0 osem := Pipeline.OwnSemFacts.none _

/-- The invariant at the first point is the scoped buffers no window stages; whatever else is handed over is dropped. -/
theorem hin (c : Dev nD) (X R : sProp (MM F)) : iprop(X ∗ R ∗ Pipeline.scopedRest spec0 c) ⊢ (dat V O B c).Φ 0 := by
  rw [Φ_eq]; iintro ⟨-, -, Hr⟩; iexact Hr

/-- The invariant at the last point gives those scoped buffers back, beside nothing. -/
theorem hout (c : Dev nD) :
    (dat V O B c).Φ (Fin.last cfg0.N) ⊢ iprop((emp : sProp (MM F)) ∗ Pipeline.ownSems0 osem c ∗ Pipeline.scopedRest spec0 c) := by
  rw [Φ_eq, Pipeline.ownSems0_none]
  iintro Hr
  isplitr; · iempintro
  isplitr; · iempintro
  iexact Hr

/-! ## From blocks to the arrays -/

section Blocks

variable {Λ : Labels} {cfg : Cfg sig Λ} {c : Dev nD} (rd : RDat τ (Elt F) (HIx 1) ℕ UU ℕ cfg c)

/-- When the blocks a window writes back are pairwise disjoint, block `t` of whatever the array may hold after the
    write-backs below `n` (`t < n`) is the moved part of some contents the function may have left at `t`: a later
    write-back lands elsewhere and leaves it alone. Stated for a property `P` of that moved part. -/
theorem read_blk_of_ArrAt (w : Fin cfg.W)
    (hdisj : ∀ t t' : Fin cfg.N, (cfg.win w).flush t = true → (cfg.win w).flush t' = true → t ≠ t' →
      Disjoint ((cfg.win w).blk t).view.set ((cfg.win w).blk t').view.set)
    (P : (t : Fin cfg.N) → (((cfg.win w).xblock (cfg.grid.coords t)).Idx → Elt F (cfg.win w).elt) → Prop)
    (hP : ∀ t X, rd.Leaves w t X → P t ((cfg.win w).cut (cfg.grid.coords t) X)) :
    ∀ (n : Nat) (G : Buf (Elt F) ((cfg.win w).arr.view.loc (c.tc : Thread nD τ))), rd.ArrAt w n G →
      ∀ t : Fin cfg.N, t.val < n → (cfg.win w).flush t = true → P t (((cfg.win w).blk t).view.read (Elt F) G)
  | 0, _, _, _, ht, _ => absurd ht (Nat.not_lt_zero _)
  | n + 1, G, hG, t, ht, hf => by
    by_cases hn : n < cfg.N
    swap
    · rw [rd.ArrAt_stable w (n + 1) (by omega), ← rd.ArrAt_stable w n (by omega)] at hG
      exact read_blk_of_ArrAt w hdisj P hP n G hG t (by have := t.isLt; omega) hf
    rw [show n + 1 = (⟨n, hn⟩ : Fin cfg.N).val + 1 from rfl, rd.ArrAt_succ] at hG
    by_cases hfn : (cfg.win w).flush ⟨n, hn⟩ = true
    · rw [if_pos hfn] at hG
      obtain ⟨G₀, X, hG₀, hX, rfl⟩ := hG
      by_cases htn : t.val = n
      · have e : t = ⟨n, hn⟩ := Fin.ext htn
        subst e
        rw [View.read_write_univ]
        exact hP _ X hX
      · have hrec := read_blk_of_ArrAt w hdisj P hP n G₀ hG₀ t (by omega) hf
        have hread : ((cfg.win w).blk t).view.read (Elt F) (((cfg.win w).blk ⟨n, hn⟩).view.write (Elt F) G₀
              ((cfg.win w).cut (cfg.grid.coords ⟨n, hn⟩) X) Finset.univ)
            = ((cfg.win w).blk t).view.read (Elt F) G₀ :=
          View.read_congr fun i hi => View.write_of_not_mem _ _ _
            (Finset.disjoint_left.mp (hdisj t ⟨n, hn⟩ hf hfn (fun e => htn (congrArg Fin.val e))) hi)
        rw [hread]; exact hrec
    · rw [if_neg hfn] at hG
      have htn : t.val ≠ n := fun e => hfn (by have : t = ⟨n, hn⟩ := Fin.ext e; exact this ▸ hf)
      exact read_blk_of_ArrAt w hdisj P hP n G hG t (by omega) hf

end Blocks

/-- Where the output windows' blocks sit: block `t` is rows `1024 t … 1024 t + 1023`, all 128 columns, uncut. -/
theorem idx5 : ∀ t : Fin cfg0.N, (cfg0.win 5).index t (0 : Fin 2) * (cfg0.win 5).size (0 : Fin 2) = t.val * 1024
      ∧ (cfg0.win 5).xsize (cfg0.grid.coords t) (0 : Fin 2) = 1024
      ∧ (cfg0.win 5).index t (1 : Fin 2) * (cfg0.win 5).size (1 : Fin 2) = 0 ∧ (cfg0.win 5).xsize (cfg0.grid.coords t) (1 : Fin 2) = 128 :=
  (by decide +kernel : ∀ t : Fin grid0.N, win0_5.index t (0 : Fin 2) * win0_5.size (0 : Fin 2) = t.val * 1024
      ∧ win0_5.xsize (grid0.coords t) (0 : Fin 2) = 1024
      ∧ win0_5.index t (1 : Fin 2) * win0_5.size (1 : Fin 2) = 0 ∧ win0_5.xsize (grid0.coords t) (1 : Fin 2) = 128)
theorem idx6 : ∀ t : Fin cfg0.N, (cfg0.win 6).index t (0 : Fin 2) * (cfg0.win 6).size (0 : Fin 2) = t.val * 1024
      ∧ (cfg0.win 6).xsize (cfg0.grid.coords t) (0 : Fin 2) = 1024
      ∧ (cfg0.win 6).index t (1 : Fin 2) * (cfg0.win 6).size (1 : Fin 2) = 0 ∧ (cfg0.win 6).xsize (cfg0.grid.coords t) (1 : Fin 2) = 128 :=
  (by decide +kernel : ∀ t : Fin grid0.N, win0_6.index t (0 : Fin 2) * win0_6.size (0 : Fin 2) = t.val * 1024
      ∧ win0_6.xsize (grid0.coords t) (0 : Fin 2) = 1024
      ∧ win0_6.index t (1 : Fin 2) * win0_6.size (1 : Fin 2) = 0 ∧ win0_6.xsize (grid0.coords t) (1 : Fin 2) = 128)

/-- An index of the first output array is in block `t` iff its row is among the block's 1024 rows. -/
theorem mem_blk5 (t : Fin cfg0.N) (i : S50176x128.Idx) :
    i ∈ ((cfg0.win 5).blk t).view.set ↔ t.val * 1024 ≤ (i 0 : Nat) ∧ (i 0 : Nat) < t.val * 1024 + 1024 := by
  show i ∈ ((View.whole main_v8_0).slice ((cfg0.win 5).rect t)).set ↔ _
  rw [View.set_slice_whole, Rect.mem_set_unit]
  have h1 : (i 1 : Nat) < 128 := (i 1).isLt
  obtain ⟨a0, a1, b0, b1⟩ := idx5 t
  refine ⟨fun h => ?_, fun h a => ?_⟩
  · have := h 0
    change (cfg0.win 5).index t 0 * (cfg0.win 5).size 0 ≤ (i 0 : Nat) ∧ (i 0 : Nat) < (cfg0.win 5).index t 0 * (cfg0.win 5).size 0 + (cfg0.win 5).xsize (cfg0.grid.coords t) 0 at this
    rw [a0, a1] at this; exact this
  · match a with
    | ⟨0, _⟩ =>
      change (cfg0.win 5).index t 0 * (cfg0.win 5).size 0 ≤ (i 0 : Nat) ∧ (i 0 : Nat) < (cfg0.win 5).index t 0 * (cfg0.win 5).size 0 + (cfg0.win 5).xsize (cfg0.grid.coords t) 0
      rw [a0, a1]; exact h
    | ⟨1, _⟩ =>
      change (cfg0.win 5).index t 1 * (cfg0.win 5).size 1 ≤ (i 1 : Nat) ∧ (i 1 : Nat) < (cfg0.win 5).index t 1 * (cfg0.win 5).size 1 + (cfg0.win 5).xsize (cfg0.grid.coords t) 1
      rw [b0, b1]; omega
theorem mem_blk6 (t : Fin cfg0.N) (i : S50176x128.Idx) :
    i ∈ ((cfg0.win 6).blk t).view.set ↔ t.val * 1024 ≤ (i 0 : Nat) ∧ (i 0 : Nat) < t.val * 1024 + 1024 := by
  show i ∈ ((View.whole main_v8_1).slice ((cfg0.win 6).rect t)).set ↔ _
  rw [View.set_slice_whole, Rect.mem_set_unit]
  have h1 : (i 1 : Nat) < 128 := (i 1).isLt
  obtain ⟨a0, a1, b0, b1⟩ := idx6 t
  refine ⟨fun h => ?_, fun h a => ?_⟩
  · have := h 0
    change (cfg0.win 6).index t 0 * (cfg0.win 6).size 0 ≤ (i 0 : Nat) ∧ (i 0 : Nat) < (cfg0.win 6).index t 0 * (cfg0.win 6).size 0 + (cfg0.win 6).xsize (cfg0.grid.coords t) 0 at this
    rw [a0, a1] at this; exact this
  · match a with
    | ⟨0, _⟩ =>
      change (cfg0.win 6).index t 0 * (cfg0.win 6).size 0 ≤ (i 0 : Nat) ∧ (i 0 : Nat) < (cfg0.win 6).index t 0 * (cfg0.win 6).size 0 + (cfg0.win 6).xsize (cfg0.grid.coords t) 0
      rw [a0, a1]; exact h
    | ⟨1, _⟩ =>
      change (cfg0.win 6).index t 1 * (cfg0.win 6).size 1 ≤ (i 1 : Nat) ∧ (i 1 : Nat) < (cfg0.win 6).index t 1 * (cfg0.win 6).size 1 + (cfg0.win 6).xsize (cfg0.grid.coords t) 1
      rw [b0, b1]; omega

/-- Two distinct points' output blocks share no row. -/
theorem hdisj5 (t t' : Fin cfg0.N) (hne : t ≠ t') : Disjoint ((cfg0.win 5).blk t).view.set ((cfg0.win 5).blk t').view.set :=
  Finset.disjoint_left.mpr fun i hi hi' => by
    rw [mem_blk5] at hi hi'
    exact hne (Fin.ext (by omega))
theorem hdisj6 (t t' : Fin cfg0.N) (hne : t ≠ t') : Disjoint ((cfg0.win 6).blk t).view.set ((cfg0.win 6).blk t').view.set :=
  Finset.disjoint_left.mpr fun i hi hi' => by
    rw [mem_blk6] at hi hi'
    exact hne (Fin.ext (by omega))

/-- Whatever the first output array may hold after every write-back, its block at each grid point is a payload of the
    fetched inputs there: the 49 blocks tile the array, each written once. -/
theorem arrAt_out0 (c : Dev nD) (G : Buf (Elt F) ((c : Thread nD τ).loc main_v8_0)) (h : (dat V O B c).ArrAt 5 cfg0.N G)
    (t : Fin cfg0.N) : Out0 V c t (((cfg0.win 5).blk t).view.read (Elt F) G) :=
  read_blk_of_ArrAt (dat V O B c) 5 (fun t t' _ _ hne => hdisj5 t t' hne) (fun t X => Out0 V c t X)
    (fun t X hX => by obtain ⟨Y, _, hYX⟩ := hX; dsimp only [dat] at hYX; exact hYX) cfg0.N G h t t.isLt (flush0_5 t)
/-- The second output array likewise. -/
theorem arrAt_out1 (c : Dev nD) (G : Buf (Elt F) ((c : Thread nD τ).loc main_v8_1)) (h : (dat V O B c).ArrAt 6 cfg0.N G)
    (t : Fin cfg0.N) : Out1 V c t (((cfg0.win 6).blk t).view.read (Elt F) G) :=
  read_blk_of_ArrAt (dat V O B c) 6 (fun t t' _ _ hne => hdisj6 t t' hne) (fun t X => Out1 V c t X)
    (fun t X hX => by obtain ⟨Y, _, hYX⟩ := hX; dsimp only [dat] at hYX; exact hYX) cfg0.N G h t t.isLt (flush0_6 t)

end Cert.KernelIdeal.Pack

end
-- ==== Proof.MlpBody.lean ====
import proofs.«204570_g59167469470423_cont_9to1_m_669_24_alg».proof.Proof.ScBase
import proofs.«204570_g59167469470423_cont_9to1_m_669_24_alg».proof.Proof.Gen.KernelIdeal.Launch
import proofs.«204570_g59167469470423_cont_9to1_m_669_24_alg».proof.Proof.Gen.KernelIdeal.Skeleton
import proofs.«204570_g59167469470423_cont_9to1_m_669_24_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Mlp

open Cert.KernelIdeal Cert.KernelIdeal.Gen Cert.KernelIdeal.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F
/-! ## The rectangles the body reads and writes through -/

/-- The id column of a block of 1024 batch entries. -/
abbrev rId : Rect S1024x1 := Rect.unit (s := S1024x1) ![0, 0] S1024x1.size inb_S1024x1_S1024x1_0_0
/-- Lanes 0..63 of the 1024 gathered rows: the row of the table's lower half. -/
abbrev rLo : Rect S1024x128 := Rect.unit (s := S1024x128) ![0, 0] S1024x64.size inb_S1024x128_S1024x64_0_0
/-- Lanes 64..127: the row of the upper half. -/
abbrev rHi : Rect S1024x128 := Rect.unit (s := S1024x128) ![0, 64] S1024x64.size inb_S1024x128_S1024x64_0_64
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rOut : Rect S8x128 := Rect.unit (s := S8x128) ![0, 0] S8x128.size inb_S8x128_S8x128_0_0

/-! ## What the body leaves in the output block -/

/-- The 8 x 128 values the body stores, from the twelve input blocks: the second tower's selected rows, the first tower up
    to its last bias, that bias, then the rest of the arithmetic. -/
def pay (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) : FVec F S8x128 .f32 :=
  k2_pay1 (k2_pay2 (View.ld x3 rId) (View.ld x1 rLo) (View.ld x1 rHi))
    (k2_pay3 (View.ld x2 rId) (View.ld x0 rLo) (View.ld x0 rHi) (View.ld x4 rW1) (View.ld x5 rB1) (View.ld x6 rW2))
    (k2_pay4 (View.ld x7 rB2)) (View.ld x8 rW1) (View.ld x9 rB1) (View.ld x10 rW2) (View.ld x11 rB2)

/-- The output staging buffer after the body: its one store, which fills it. -/
def out (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) : Vec F S8x128 .f32 :=
  View.canon [⟨rOut, pay x0 x1 x2 x3 x4 x5 x6 x7 x8 x9 x10 x11⟩]

/-- The store fills the buffer. -/
theorem cover (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

theorem zero_offsets : (![0, 0] : Fin 2 → Nat) = fun _ => 0 := funext fun a => by fin_cases a <;> rfl

/-- The store is of the whole buffer, so what it leaves is its payload. -/
theorem out_eq (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) :
    out x0 x1 x2 x3 x4 x5 x6 x7 x8 x9 x10 x11 = pay x0 x1 x2 x3 x4 x5 x6 x7 x8 x9 x10 x11 := by
  unfold out
  exact View.canon_unit_zero zero_offsets _ _

/-! ## The body's triple -/

set_option maxHeartbeats 1000000 in
/-- The body on whole staging buffers, the twelve inputs' at read contents `x0 … x11` and the output's at anything, runs to
    the end, leaves the inputs' as they were and the output's at `out` of the inputs'. -/
theorem sound_kernel (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S1024x1 .i32) (harg3 : arg3.IsWhole) (arg4 : Memref sig .tc .vmem S1024x1 .i32) (harg4 : arg4.IsWhole)
    (arg5 : Memref sig .tc .vmem S64x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x128 .f32) (harg9 : arg9.IsWhole) (arg10 : Memref sig .tc .vmem S1x128 .f32) (harg10 : arg10.IsWhole)
    (arg11 : Memref sig .tc .vmem S128x64 .f32) (harg11 : arg11.IsWhole) (arg12 : Memref sig .tc .vmem S1x64 .f32) (harg12 : arg12.IsWhole)
    (arg13 : Memref sig .tc .vmem S8x128 .f32) (harg13 : arg13.IsWhole)
    (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare (out x0 x1 x2 x3 x4 x5 x6 x7 x8 x9 x10 x11)) -∗ K ⟨⟩))
      ⊢ wp frame (wpE (defs₀ (F := F)) 𝒱₀ c none) E
          (cc2__mlp_body i arg1 harg1 arg2 harg2 arg3 harg3 arg4 harg4 arg5 harg5 arg6 harg6 arg7 harg7 arg8 harg8 arg9 harg9 arg10 harg10 arg11 harg11 arg12 harg12 arg13 harg13) K := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover _)

end Cert.KernelIdeal.Mlp

end
-- ==== Proof.MlpDat.lean ====
import proofs.«204570_g59167469470423_cont_9to1_m_669_24_alg».proof.Proof.MlpBody
import Idealize.ShloMosaic.Lib.Pipeline.Regions
import Idealize.ShloMosaic.Lib.Pipeline.Kit

set_option maxRecDepth 16384
noncomputable section

namespace Cert.KernelIdeal.Mlp

open Cert.KernelIdeal Cert.KernelIdeal.Gen Cert.KernelIdeal.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

-- The matrix unit's buffer contents when the region is entered: the parameter everything here is stated at.
variable (V : (c : Dev nD) → (b : Ref sig .tc) → Buf (Elt F) ((c : Thread nD τ).loc b))
-- What the matrix unit's processor owes other processors while the region runs (the body pays none of it and takes on
-- nothing), and a bound on the pairs its waits have recorded before the region (the body records none).
variable (O : CellTallies nD τ sig (HIx 1)) (B : Set (SemLoc sig × HIx 1))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block at point `t`: `out` of the twelve input blocks there. -/
def outAt (c : Dev nD) (t : Fin cfg2.N) : Vec F S8x128 .f32 :=
  out (iblk V c 0 t) (iblk V c 1 t) (iblk V c 2 t) (iblk V c 3 t) (iblk V c 4 t) (iblk V c 5 t) (iblk V c 6 t) (iblk V c 7 t)
    (iblk V c 8 t) (iblk V c 9 t) (iblk V c 10 t) (iblk V c 11 t)

/-! ## The proof data -/

/-- The exact proof data of the region on core `c`: the arrays as the region finds them; after the body at point `t` each
    input buffer at its block and the output buffer at `outAt`; the invariant is the scoped buffers no window stages; the
    processor owes `O` throughout and its recorded waits stay within `B` and the pipeline's own. -/
def xdat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outAt V c t
  Φ _ := Pipeline.scopedRest spec2 c
  q _ := fullShare
  owed _ := O
  recorded _ := B

/-- The same read as relational proof data: the family type the regions of the program share. -/
def dat (c : Dev nD) : RDat τ (Elt F) (HIx 1) ℕ UU ℕ cfg2 c := (xdat V O B c).toR

theorem xA_eq (c : Dev nD) (w : Fin cfg2.W) : (xdat V O B c).A w = V c (Pipeline.arrRef spec2 w) := by
  dsimp only [xdat]
theorem A_eq (c : Dev nD) (w : Fin cfg2.W) : (dat V O B c).A w = V c (Pipeline.arrRef spec2 w) := xA_eq V O B c w
theorem owed_eq (c : Dev nD) (t : Fin (cfg2.N + 1)) : (dat V O B c).owed t = O := rfl
theorem recorded_eq (c : Dev nD) (t : Fin (cfg2.N + 1)) : (dat V O B c).recorded t = B := rfl
theorem Φ_eq (c : Dev nD) (t : Fin (cfg2.N + 1)) : (dat V O B c).Φ t = Pipeline.scopedRest spec2 c := rfl
theorem xshare_eq (c : Dev nD) (w : Fin cfg2.W) : (xdat V O B c).share w = fullShare :=
  (xdat V O B c).share_full (fun _ => rfl) w
theorem share_eq (c : Dev nD) (w : Fin cfg2.W) : (dat V O B c).share w = fullShare := xshare_eq V O B c w

/-! ## What the body finds in the input buffers -/

theorem before_0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) (HIx 1) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) (HIx 1) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) (HIx 1) ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) (HIx 1) ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) (HIx 1) ℕ UU ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) (HIx 1) ℕ UU ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) (HIx 1) ℕ UU ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) (HIx 1) ℕ UU ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) (HIx 1) ℕ UU ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## What the body leaves, window by window -/

theorem after_0 (c : Dev nD) (t : Fin cfg2.N) : (xdat V O B c).after 0 t = iblk V c 0 t := by dsimp only [xdat]
theorem after_1 (c : Dev nD) (t : Fin cfg2.N) : (xdat V O B c).after 1 t = iblk V c 1 t := by dsimp only [xdat]
theorem after_2 (c : Dev nD) (t : Fin cfg2.N) : (xdat V O B c).after 2 t = iblk V c 2 t := by dsimp only [xdat]
theorem after_3 (c : Dev nD) (t : Fin cfg2.N) : (xdat V O B c).after 3 t = iblk V c 3 t := by dsimp only [xdat]
theorem after_4 (c : Dev nD) (t : Fin cfg2.N) : (xdat V O B c).after 4 t = iblk V c 4 t := by dsimp only [xdat]
theorem after_5 (c : Dev nD) (t : Fin cfg2.N) : (xdat V O B c).after 5 t = iblk V c 5 t := by dsimp only [xdat]
theorem after_6 (c : Dev nD) (t : Fin cfg2.N) : (xdat V O B c).after 6 t = iblk V c 6 t := by dsimp only [xdat]
theorem after_7 (c : Dev nD) (t : Fin cfg2.N) : (xdat V O B c).after 7 t = iblk V c 7 t := by dsimp only [xdat]
theorem after_8 (c : Dev nD) (t : Fin cfg2.N) : (xdat V O B c).after 8 t = iblk V c 8 t := by dsimp only [xdat]
theorem after_9 (c : Dev nD) (t : Fin cfg2.N) : (xdat V O B c).after 9 t = iblk V c 9 t := by dsimp only [xdat]
theorem after_10 (c : Dev nD) (t : Fin cfg2.N) : (xdat V O B c).after 10 t = iblk V c 10 t := by dsimp only [xdat]
theorem after_11 (c : Dev nD) (t : Fin cfg2.N) : (xdat V O B c).after 11 t = iblk V c 11 t := by dsimp only [xdat]
theorem after_12 (c : Dev nD) (t : Fin cfg2.N) : (xdat V O B c).after 12 t = outAt V c t := by dsimp only [xdat]

theorem before_0 (c : Dev nD) (t : Fin cfg2.N) (d) : (xdat V O B c).before 0 t d = iblk V c 0 t :=
  before_0_of V (xdat V O B c) (xA_eq V O B c 0) (after_0 V O B c) t d
theorem before_1 (c : Dev nD) (t : Fin cfg2.N) (d) : (xdat V O B c).before 1 t d = iblk V c 1 t :=
  before_1_of V (xdat V O B c) (xA_eq V O B c 1) (after_1 V O B c) t d
theorem before_2 (c : Dev nD) (t : Fin cfg2.N) (d) : (xdat V O B c).before 2 t d = iblk V c 2 t :=
  before_2_of V (xdat V O B c) (xA_eq V O B c 2) (after_2 V O B c) t d
theorem before_3 (c : Dev nD) (t : Fin cfg2.N) (d) : (xdat V O B c).before 3 t d = iblk V c 3 t :=
  before_3_of V (xdat V O B c) (xA_eq V O B c 3) (after_3 V O B c) t d
theorem before_4 (c : Dev nD) (t : Fin cfg2.N) (d) : (xdat V O B c).before 4 t d = iblk V c 4 t :=
  before_4_of V (xdat V O B c) (xA_eq V O B c 4) (after_4 V O B c) t d
theorem before_5 (c : Dev nD) (t : Fin cfg2.N) (d) : (xdat V O B c).before 5 t d = iblk V c 5 t :=
  before_5_of V (xdat V O B c) (xA_eq V O B c 5) (after_5 V O B c) t d
theorem before_6 (c : Dev nD) (t : Fin cfg2.N) (d) : (xdat V O B c).before 6 t d = iblk V c 6 t :=
  before_6_of V (xdat V O B c) (xA_eq V O B c 6) (after_6 V O B c) t d
theorem before_7 (c : Dev nD) (t : Fin cfg2.N) (d) : (xdat V O B c).before 7 t d = iblk V c 7 t :=
  before_7_of V (xdat V O B c) (xA_eq V O B c 7) (after_7 V O B c) t d
theorem before_8 (c : Dev nD) (t : Fin cfg2.N) (d) : (xdat V O B c).before 8 t d = iblk V c 8 t :=
  before_8_of V (xdat V O B c) (xA_eq V O B c 8) (after_8 V O B c) t d
theorem before_9 (c : Dev nD) (t : Fin cfg2.N) (d) : (xdat V O B c).before 9 t d = iblk V c 9 t :=
  before_9_of V (xdat V O B c) (xA_eq V O B c 9) (after_9 V O B c) t d
theorem before_10 (c : Dev nD) (t : Fin cfg2.N) (d) : (xdat V O B c).before 10 t d = iblk V c 10 t :=
  before_10_of V (xdat V O B c) (xA_eq V O B c 10) (after_10 V O B c) t d
theorem before_11 (c : Dev nD) (t : Fin cfg2.N) (d) : (xdat V O B c).before 11 t d = iblk V c 11 t :=
  before_11_of V (xdat V O B c) (xA_eq V O B c 11) (after_11 V O B c) t d

/-! ## The body obligation, at a symbolic point -/

/-- What the body is called with at point `t`, the windows one by one, -/
def bodyPre (c : Dev nD) (t : Fin cfg2.N) : sProp 𝕄 :=
  iprop((xdat V O B c).Φ t.castSucc ∗ (xdat V O B c).owesAt (none : HIx 1) t.castSucc
    ∗ (∃ d, owns (c : Thread nD τ) (st2_0 t) fullShare ((xdat V O B c).before 0 t d))
    ∗ (∃ d, owns (c : Thread nD τ) (st2_1 t) fullShare ((xdat V O B c).before 1 t d))
    ∗ (∃ d, owns (c : Thread nD τ) (st2_2 t) fullShare ((xdat V O B c).before 2 t d))
    ∗ (∃ d, owns (c : Thread nD τ) (st2_3 t) fullShare ((xdat V O B c).before 3 t d))
    ∗ (∃ d, owns (c : Thread nD τ) (st2_4 t) fullShare ((xdat V O B c).before 4 t d))
    ∗ (∃ d, owns (c : Thread nD τ) (st2_5 t) fullShare ((xdat V O B c).before 5 t d))
    ∗ (∃ d, owns (c : Thread nD τ) (st2_6 t) fullShare ((xdat V O B c).before 6 t d))
    ∗ (∃ d, owns (c : Thread nD τ) (st2_7 t) fullShare ((xdat V O B c).before 7 t d))
    ∗ (∃ d, owns (c : Thread nD τ) (st2_8 t) fullShare ((xdat V O B c).before 8 t d))
    ∗ (∃ d, owns (c : Thread nD τ) (st2_9 t) fullShare ((xdat V O B c).before 9 t d))
    ∗ (∃ d, owns (c : Thread nD τ) (st2_10 t) fullShare ((xdat V O B c).before 10 t d))
    ∗ (∃ d, owns (c : Thread nD τ) (st2_11 t) fullShare ((xdat V O B c).before 11 t d))
    ∗ (∃ d, owns (c : Thread nD τ) (st2_12 t) fullShare ((xdat V O B c).before 12 t d)))

/-- and what it returns. -/
def bodyPost (c : Dev nD) (t : Fin cfg2.N) : sProp 𝕄 :=
  iprop((xdat V O B c).Φ t.succ ∗ (xdat V O B c).owesAt (none : HIx 1) t.succ
    ∗ owns (c : Thread nD τ) (st2_0 t) fullShare ((xdat V O B c).after 0 t)
    ∗ owns (c : Thread nD τ) (st2_1 t) fullShare ((xdat V O B c).after 1 t)
    ∗ owns (c : Thread nD τ) (st2_2 t) fullShare ((xdat V O B c).after 2 t)
    ∗ owns (c : Thread nD τ) (st2_3 t) fullShare ((xdat V O B c).after 3 t)
    ∗ owns (c : Thread nD τ) (st2_4 t) fullShare ((xdat V O B c).after 4 t)
    ∗ owns (c : Thread nD τ) (st2_5 t) fullShare ((xdat V O B c).after 5 t)
    ∗ owns (c : Thread nD τ) (st2_6 t) fullShare ((xdat V O B c).after 6 t)
    ∗ owns (c : Thread nD τ) (st2_7 t) fullShare ((xdat V O B c).after 7 t)
    ∗ owns (c : Thread nD τ) (st2_8 t) fullShare ((xdat V O B c).after 8 t)
    ∗ owns (c : Thread nD τ) (st2_9 t) fullShare ((xdat V O B c).after 9 t)
    ∗ owns (c : Thread nD τ) (st2_10 t) fullShare ((xdat V O B c).after 10 t)
    ∗ owns (c : Thread nD τ) (st2_11 t) fullShare ((xdat V O B c).after 11 t)
    ∗ owns (c : Thread nD τ) (st2_12 t) fullShare ((xdat V O B c).after 12 t))

set_option maxHeartbeats 1000000 in
/-- The body at any point: the inputs' buffers hold their blocks, so the body's triple applies; the invariant and the
    processor's debts pass through unread. -/
theorem sound_body (c : Dev nD) (t : Fin cfg2.N) :
    bodyPre V O B c t ⊢ wp frame (wpE (defs₀ (F := F)) 𝒱₀ c none) Set.univ (bodyAt2 t) (fun _ => bodyPost V O B c t) := by
  unfold bodyPre bodyPost bodyAt2
  simp only [before_0, before_1, before_2, before_3, before_4, before_5, before_6, before_7, before_8, before_9, before_10, before_11]
  rw [show (xdat V O B c).Φ t.succ = (xdat V O B c).Φ t.castSucc from rfl,
    show (xdat V O B c).owesAt (none : HIx 1) t.succ = (xdat V O B c).owesAt (none : HIx 1) t.castSucc from rfl,
    after_0, after_1, after_2, after_3, after_4, after_5, after_6, after_7, after_8, after_9, after_10, after_11, after_12]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The exact body obligation of the region, at every point. -/
theorem xbody_obligation (c : Dev nD) : BodyObligation (xdat (F := F) V O B c) (defs₀ (F := F)) 𝒱₀ (none : HIx 1) Set.univ := fun t => by
  rw [bigSep_W2, bigSep_W2]
  exact sound_body V O B c t

/-- The body obligation on core `c`, of the relational data. -/
theorem body_obligation (c : Dev nD) : (dat V O B c).BodyObligation (defs₀ (F := F)) 𝒱₀ (none : HIx 1) Set.univ :=
  (xbody_obligation V O B c).toR

end Cert.KernelIdeal.Mlp

end
-- ==== Proof.MlpSeg.lean ====
import proofs.«204570_g59167469470423_cont_9to1_m_669_24_alg».proof.Proof.MlpDat
import Idealize.ShloMosaic.Lib.Pipeline.RegionsLoop
import Idealize.ShloMosaic.Lib.Pipeline.FrameSuffix
import Idealize.ShloMosaic.Lib.Pipeline.Value
import Idealize.ShloMosaic.Lib.ValueIdx

set_option maxRecDepth 16384
noncomputable section

namespace Cert.KernelIdeal.Mlp

open Cert.KernelIdeal Cert.KernelIdeal.Gen Cert.KernelIdeal.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

open Idealize.ShloMosaic.ValueIdx

variable (V : (c : Dev nD) → (b : Ref sig .tc) → Buf (Elt F) ((c : Thread nD τ).loc b))
variable (O : CellTallies nD τ sig (HIx 1)) (B : Set (SemLoc sig × HIx 1))

/-! ## From the blocks to the output array -/

/-- The grid point whose block holds row `i 0` of the output array: eight rows a point. -/
def ptOf (i : S128x128.Idx) : Fin cfg2.N :=
  ⟨(i 0).val / 8, by have h : (i 0).val < 128 := (i 0).isLt; show _ < grid2.N; rw [N_2]; omega⟩

/-- The place of output index `i` inside that block. -/
def inBlk (i : S128x128.Idx) : S8x128.Idx :=
  ix2 ⟨(i 0).val % 8, Nat.mod_lt _ (by decide)⟩ ⟨(i 1).val, (i 1).isLt⟩

/-- The output array after the region, as one function of the input arrays' entry contents: at row `8 t + p`, lane `q`, what
    the body leaves at `(p, q)` of its output block at point `t`. -/
def finalOut (c : Dev nD) : Buf (Elt F) ((c : Thread nD τ).loc main_v16) := fun i => outAt V c (ptOf i) (inBlk i)

/-- The output window's block index at point `t` is `(t, 0)`: decided over the grid. -/
theorem idx_facts : ∀ t : Fin cfg2.N, win2_12.index t (0 : Fin 2) = t.val ∧ win2_12.index t (1 : Fin 2) = 0 :=
  (by decide +kernel : ∀ t : Fin grid2.N, _)

/-- What point `t` writes back is block `t` of `finalOut`. -/
theorem flushed_eq (c : Dev nD) (t : Fin cfg2.N) :
    (xdat V O B c).flushed 12 t = ((cfg2.win 12).blk t).view.read (Elt F) (finalOut V c) := by
  show (cfg2.win 12).cut (grid2.coords t) ((xdat V O B c).after 12 t) = _
  rw [after_12]
  obtain ⟨e0, e1⟩ := idx_facts t
  funext j
  show outAt V c t j = finalOut V c (((cfg2.win 12).blk t).view.emb j)
  unfold finalOut
  have hj0 : (j 0).val < 8 := (j 0).isLt
  have hj1 : (j 1).val < 128 := (j 1).isLt
  have h0 : ((((cfg2.win 12).blk t).view.emb j) 0).val = win2_12.index t (0 : Fin 2) * 8 + 1 * (j 0).val := rfl
  have h1 : ((((cfg2.win 12).blk t).view.emb j) 1).val = win2_12.index t (1 : Fin 2) * 128 + 1 * (j 1).val := rfl
  have hp : ptOf (((cfg2.win 12).blk t).view.emb j) = t := by
    apply Fin.ext
    show ((((cfg2.win 12).blk t).view.emb j) 0).val / 8 = t.val
    rw [h0, e0]; omega
  have hb : inBlk (((cfg2.win 12).blk t).view.emb j) = j := by
    funext a; apply Fin.ext
    match a with
    | ⟨0, _⟩ => show ((((cfg2.win 12).blk t).view.emb j) 0).val % 8 = (j 0).val; rw [h0, e0]; omega
    | ⟨1, _⟩ => show ((((cfg2.win 12).blk t).view.emb j) 1).val = (j 1).val; rw [h1, e1]; omega
  rw [hp, hb]

/-- An index of the output array is in point `t`'s block iff each coordinate is in the block's range on its axis. -/
theorem mem_blk (t : Fin cfg2.N) (i : S128x128.Idx) :
    i ∈ ((cfg2.win 12).blk t).view.set ↔ ∀ a : Fin 2, win2_12.index t a * S8x128.size a ≤ (i a).val ∧ (i a).val < win2_12.index t a * S8x128.size a + S8x128.size a := by
  show i ∈ ((View.whole main_v16).slice (win2_12.rect t)).set ↔ _
  rw [View.set_slice_whole, Rect.mem_set_unit]
  exact Iff.rfl

/-- Every index of the output array is in the block of the point `i 0 / 8`, which writes it back. -/
theorem covered (i : S128x128.Idx) : ∃ t : Fin cfg2.N, (cfg2.win 12).flush t = true ∧ i ∈ ((cfg2.win 12).blk t).view.set := by
  refine ⟨ptOf i, flush2_12 _, ?_⟩
  rw [mem_blk]
  obtain ⟨e0, e1⟩ := idx_facts (ptOf i)
  have hi0 : (i 0).val < 128 := (i 0).isLt
  have hi1 : (i 1).val < 128 := (i 1).isLt
  have hp : (ptOf i).val = (i 0).val / 8 := rfl
  intro a
  match a with
  | ⟨0, _⟩ => show win2_12.index (ptOf i) (0 : Fin 2) * 8 ≤ (i 0).val ∧ (i 0).val < win2_12.index (ptOf i) (0 : Fin 2) * 8 + 8; omega
  | ⟨1, _⟩ => show win2_12.index (ptOf i) (1 : Fin 2) * 128 ≤ (i 1).val ∧ (i 1).val < win2_12.index (ptOf i) (1 : Fin 2) * 128 + 128; omega

/-- The output array after all sixteen write-backs. -/
theorem final (c : Dev nD) : (xdat V O B c).arrAt 12 cfg2.N = finalOut V c :=
  (xdat V O B c).arrAt_eq_of_cover 12 (finalOut V c) (fun t _ => flushed_eq V O B c t) covered

/-- An input array is never written. -/
theorem arrAt_in (c : Dev nD) (w : Fin cfg2.W) (hw : w ≠ 12) (n : ℕ) :
    (xdat V O B c).arrAt w n = V c (Pipeline.arrRef spec2 w) :=
  ((xdat V O B c).arrAt_in w ((by decide : ∀ w : Fin 13, w ≠ 12 → (cfg2.win w).isOut = false) w hw) n).trans (xA_eq V O B c w)

theorem arrAt_0 (c : Dev nD) (n : ℕ) : (xdat V O B c).arrAt 0 n = V c main_v9_0 :=
  ((xdat V O B c).arrAt_in 0 rfl n).trans (xA_eq V O B c 0)
theorem arrAt_1 (c : Dev nD) (n : ℕ) : (xdat V O B c).arrAt 1 n = V c main_v9_1 :=
  ((xdat V O B c).arrAt_in 1 rfl n).trans (xA_eq V O B c 1)
theorem arrAt_2 (c : Dev nD) (n : ℕ) : (xdat V O B c).arrAt 2 n = V c main_v10 :=
  ((xdat V O B c).arrAt_in 2 rfl n).trans (xA_eq V O B c 2)
theorem arrAt_3 (c : Dev nD) (n : ℕ) : (xdat V O B c).arrAt 3 n = V c main_v11 :=
  ((xdat V O B c).arrAt_in 3 rfl n).trans (xA_eq V O B c 3)
theorem arrAt_4 (c : Dev nD) (n : ℕ) : (xdat V O B c).arrAt 4 n = V c main_arg3 :=
  ((xdat V O B c).arrAt_in 4 rfl n).trans (xA_eq V O B c 4)
theorem arrAt_5 (c : Dev nD) (n : ℕ) : (xdat V O B c).arrAt 5 n = V c main_v12 :=
  ((xdat V O B c).arrAt_in 5 rfl n).trans (xA_eq V O B c 5)
theorem arrAt_6 (c : Dev nD) (n : ℕ) : (xdat V O B c).arrAt 6 n = V c main_arg5 :=
  ((xdat V O B c).arrAt_in 6 rfl n).trans (xA_eq V O B c 6)
theorem arrAt_7 (c : Dev nD) (n : ℕ) : (xdat V O B c).arrAt 7 n = V c main_v13 :=
  ((xdat V O B c).arrAt_in 7 rfl n).trans (xA_eq V O B c 7)
theorem arrAt_8 (c : Dev nD) (n : ℕ) : (xdat V O B c).arrAt 8 n = V c main_arg8 :=
  ((xdat V O B c).arrAt_in 8 rfl n).trans (xA_eq V O B c 8)
theorem arrAt_9 (c : Dev nD) (n : ℕ) : (xdat V O B c).arrAt 9 n = V c main_v14 :=
  ((xdat V O B c).arrAt_in 9 rfl n).trans (xA_eq V O B c 9)
theorem arrAt_10 (c : Dev nD) (n : ℕ) : (xdat V O B c).arrAt 10 n = V c main_arg10 :=
  ((xdat V O B c).arrAt_in 10 rfl n).trans (xA_eq V O B c 10)
theorem arrAt_11 (c : Dev nD) (n : ℕ) : (xdat V O B c).arrAt 11 n = V c main_v15 :=
  ((xdat V O B c).arrAt_in 11 rfl n).trans (xA_eq V O B c 11)

/-- Whatever the output array may hold after every write-back is `finalOut`. -/
theorem arrAt_out (c : Dev nD) (G : Buf (Elt F) ((c : Thread nD τ).loc main_v16)) (h : (dat V O B c).ArrAt 12 cfg2.N G) :
    G = finalOut V c :=
  ((xdat V O B c).toR_arrAt 12 cfg2.N G h).trans (final V O B c)

/-! ## Entry and exit of the arrays -/

/-- The proof data's arrays at any contents, one by one: thirteen distinct whole buffers at the full share. -/
theorem arrays_pts (c : Dev nD) (G : (w : Fin cfg2.W) → Buf (Elt F) ((cfg2.win w).arr.view.loc (c : Thread nD τ))) :
    ((xdat V O B c).arrays G : sProp 𝕄)
      = iprop((((c : Thread nD τ).loc main_v9_0) ↦{fullShare} G 0) ∗ (((c : Thread nD τ).loc main_v9_1) ↦{fullShare} G 1)
        ∗ (((c : Thread nD τ).loc main_v10) ↦{fullShare} G 2) ∗ (((c : Thread nD τ).loc main_v11) ↦{fullShare} G 3)
        ∗ (((c : Thread nD τ).loc main_arg3) ↦{fullShare} G 4) ∗ (((c : Thread nD τ).loc main_v12) ↦{fullShare} G 5)
        ∗ (((c : Thread nD τ).loc main_arg5) ↦{fullShare} G 6) ∗ (((c : Thread nD τ).loc main_v13) ↦{fullShare} G 7)
        ∗ (((c : Thread nD τ).loc main_arg8) ↦{fullShare} G 8) ∗ (((c : Thread nD τ).loc main_v14) ↦{fullShare} G 9)
        ∗ (((c : Thread nD τ).loc main_arg10) ↦{fullShare} G 10) ∗ (((c : Thread nD τ).loc main_v15) ↦{fullShare} G 11)
        ∗ (((c : Thread nD τ).loc main_v16) ↦{fullShare} G 12)) := by
  have h : ((xdat V O B c).arrays G : sProp 𝕄)
      = bigSep Finset.univ fun w : Fin 13 => (((c : Thread nD τ).loc (Pipeline.arrRef spec2 w)) ↦{fullShare} G w : sProp 𝕄) := by
    unfold Dat.arrays
    exact bigSep_congr fun w _ => by rw [(arr_whole2 w).set_eq_univ, xshare_eq]
  rw [h, bigSep_W2]

/-- ENTRY: the thirteen distinct buffers behind the windows, each whole at the full share at its entry contents, make
    the proof data's arrays. -/
theorem arrays_entry (c : Dev nD) :
    iprop((((c : Thread nD τ).loc main_v9_0) ↦{fullShare} V c main_v9_0) ∗ (((c : Thread nD τ).loc main_v9_1) ↦{fullShare} V c main_v9_1)
        ∗ (((c : Thread nD τ).loc main_v10) ↦{fullShare} V c main_v10) ∗ (((c : Thread nD τ).loc main_v11) ↦{fullShare} V c main_v11)
        ∗ (((c : Thread nD τ).loc main_arg3) ↦{fullShare} V c main_arg3) ∗ (((c : Thread nD τ).loc main_v12) ↦{fullShare} V c main_v12)
        ∗ (((c : Thread nD τ).loc main_arg5) ↦{fullShare} V c main_arg5) ∗ (((c : Thread nD τ).loc main_v13) ↦{fullShare} V c main_v13)
        ∗ (((c : Thread nD τ).loc main_arg8) ↦{fullShare} V c main_arg8) ∗ (((c : Thread nD τ).loc main_v14) ↦{fullShare} V c main_v14)
        ∗ (((c : Thread nD τ).loc main_arg10) ↦{fullShare} V c main_arg10) ∗ (((c : Thread nD τ).loc main_v15) ↦{fullShare} V c main_v15)
        ∗ (((c : Thread nD τ).loc main_v16) ↦{fullShare} V c main_v16))
      ⊢ ((dat V O B c).arrays (dat V O B c).A : sProp 𝕄) := by
  show _ ⊢ ((xdat V O B c).arrays (xdat V O B c).A : sProp 𝕄)
  rw [arrays_pts]
  exact .rfl

/-- EXIT: after every write-back the twelve inputs' buffers are whole at the full share at their entry contents again,
    and the output's at `finalOut`. -/
theorem arraysAt_exit (c : Dev nD) :
    ((dat V O B c).arraysAt cfg2.N : sProp 𝕄)
      ⊢ iprop((((c : Thread nD τ).loc main_v9_0) ↦{fullShare} V c main_v9_0) ∗ (((c : Thread nD τ).loc main_v9_1) ↦{fullShare} V c main_v9_1)
        ∗ (((c : Thread nD τ).loc main_v10) ↦{fullShare} V c main_v10) ∗ (((c : Thread nD τ).loc main_v11) ↦{fullShare} V c main_v11)
        ∗ (((c : Thread nD τ).loc main_arg3) ↦{fullShare} V c main_arg3) ∗ (((c : Thread nD τ).loc main_v12) ↦{fullShare} V c main_v12)
        ∗ (((c : Thread nD τ).loc main_arg5) ↦{fullShare} V c main_arg5) ∗ (((c : Thread nD τ).loc main_v13) ↦{fullShare} V c main_v13)
        ∗ (((c : Thread nD τ).loc main_arg8) ↦{fullShare} V c main_arg8) ∗ (((c : Thread nD τ).loc main_v14) ↦{fullShare} V c main_v14)
        ∗ (((c : Thread nD τ).loc main_arg10) ↦{fullShare} V c main_arg10) ∗ (((c : Thread nD τ).loc main_v15) ↦{fullShare} V c main_v15)
        ∗ (((c : Thread nD τ).loc main_v16) ↦{fullShare} finalOut V c)) := by
  refine ((xdat V O B c).toR_arraysAt_post cfg2.N).trans ?_
  rw [arrays_pts, final, arrAt_0, arrAt_1, arrAt_2, arrAt_3, arrAt_4, arrAt_5, arrAt_6, arrAt_7, arrAt_8, arrAt_9, arrAt_10, arrAt_11]

/-! ## The invariant at the first and the last point -/

/-- The invariant at the first point is the scoped buffers no window stages (no table is prefetched). -/
theorem hin (c : Dev nD) (pf : sProp 𝕄) :
    iprop((emp : sProp 𝕄) ∗ pf ∗ Pipeline.scopedRest spec2 c) ⊢ (dat V O B c).Φ 0 := by
  rw [Φ_eq]
  iintro ⟨-, -, Hr⟩
  iexact Hr

/-- The invariant at the last point gives them back; the body has no semaphore of its own. -/
theorem hout (c : Dev nD) :
    (dat V O B c).Φ (Fin.last cfg2.N)
      ⊢ iprop((emp : sProp 𝕄) ∗ Pipeline.ownSems0 (fun k : PEmpty => k.elim) c ∗ Pipeline.scopedRest spec2 c) := by
  rw [Φ_eq, Pipeline.ownSems0_none]
  iintro Hr
  isplitr; · iempintro
  isplitr; · iempintro
  iexact Hr

end Cert.KernelIdeal.Mlp

end
-- ==== Proof.ScSeg.lean ====
/-
  The two block pipelines as regions of the host program.

  Both pipelines' proof data are stated at the buffer contents found when the region is entered, so one family covers
  both: entered from the held buffers at a valuation `W`, a region takes the buffers behind its windows out of the held
  set, runs, and puts them back, its outputs at what the pipeline left. The matrix unit's processor owes its start signals
  to the sparse processors all along; a region pays none of it, and its own waits on the staging semaphores sit at the
  lowest level, below everything owed.
-/
import proofs.«204570_g59167469470423_cont_9to1_m_669_24_alg».proof.Proof.ScGhost
import proofs.«204570_g59167469470423_cont_9to1_m_669_24_alg».proof.Proof.ScHeld
import proofs.«204570_g59167469470423_cont_9to1_m_669_24_alg».proof.Proof.PackDat
import proofs.«204570_g59167469470423_cont_9to1_m_669_24_alg».proof.Proof.MlpSeg

noncomputable section

namespace Cert.KernelIdeal.Seg

open Cert.KernelIdeal Cert.KernelIdeal.Gen Cert.KernelIdeal.Base Cert.KernelIdeal.Ghost Cert.KernelIdeal.Held

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

variable (W : Dev nD → Valuation τ sig (Elt F)) (O : CellTallies nD τ sig (HIx 1)) (B : Set (SemLoc sig × HIx 1))

abbrev dref (r : Ref sig .tc) : DevRef τ sig := Proc.devRef .tc r

/-- The valuation as the pipelines' proof data read it: per reference of the matrix unit's processor. -/
abbrev refsOf (c : Dev nD) (b : Ref sig .tc) : Buf (Elt F) ((c : Thread nD τ).loc b) := W c (dref b)

/-- Both pipelines' proof data at the contents `W`. -/
def fam : (p : Fin 2) → (c : Dev nD) → RDat τ (Elt F) (HIx 1) ℕ UU ℕ (Pipeline.pin (pcfgs (F := F)) adm p) c
  | ⟨0, _⟩ => fun c => Pack.dat (refsOf W) O B c
  | ⟨1, _⟩ => fun c => Mlp.dat (refsOf W) O B c

theorem fam_zero (c : Dev nD) : fam W O B 0 c = Pack.dat (refsOf W) O B c := rfl
theorem fam_one (c : Dev nD) : fam W O B 1 c = Mlp.dat (refsOf W) O B c := rfl

/-! ## Taking buffers out of the held set by name -/

/-- Membership of a named buffer in the held set less some other named buffers. -/
macro "mem_held" : tactic =>
  `(tactic| repeat (first | exact mem_uc _ rfl | refine Finset.mem_erase.mpr ⟨StableHlo.devRef_ne_of_ne (by decide), ?_⟩))

/-- A named buffer of the held set, and the rest. -/
theorem take_ref (c : Dev nD) (S : Finset (DevRef τ sig)) (Wc : Valuation τ sig (Elt F)) (r : Ref sig .tc) (hb : dref r ∈ S) :
    (StableHlo.held (c : Thread nD τ) S Wc : sProp (MM F))
      = iprop((((c : Thread nD τ).loc r) ↦{fullShare} (Wc (dref r) : Buf (Elt F) ((c : Thread nD τ).loc r)))
          ∗ StableHlo.held (c : Thread nD τ) (S.erase (dref r)) Wc) :=
  held_take (c : Thread nD τ) S Wc hb

/-- A named buffer put back at the contents it was taken out at. -/
theorem put_ref_same (c : Dev nD) (S : Finset (DevRef τ sig)) (Wc : Valuation τ sig (Elt F)) (r : Ref sig .tc) (hb : dref r ∈ S) :
    iprop((((c : Thread nD τ).loc r) ↦{fullShare} (Wc (dref r) : Buf (Elt F) ((c : Thread nD τ).loc r)))
        ∗ StableHlo.held (c : Thread nD τ) (S.erase (dref r)) Wc) ⊢ (StableHlo.held (c : Thread nD τ) S Wc : sProp (MM F)) :=
  Entails.of_eq (take_ref c S Wc r hb).symm

/-- A named buffer put back at new contents. -/
theorem put_ref (c : Dev nD) (S : Finset (DevRef τ sig)) (Wc : Valuation τ sig (Elt F)) (r : Ref sig .tc) (hb : dref r ∈ S)
    (x : Buf (Elt F) ((c : Thread nD τ).loc r)) :
    iprop((((c : Thread nD τ).loc r) ↦{fullShare} x) ∗ StableHlo.held (c : Thread nD τ) (S.erase (dref r)) Wc)
      ⊢ (StableHlo.held (c : Thread nD τ) S (Function.update Wc (dref r) x) : sProp (MM F)) :=
  held_put (c : Thread nD τ) S Wc hb x

/-! ## The first pipeline: the two packed tables -/

-- The held set, less the buffers behind the first pipeline's windows one after the other.
abbrev A0 : Finset (DevRef τ sig) := Pipeline.ucRefs τ sig
abbrev A1 : Finset (DevRef τ sig) := (A0).erase (dref main_v8_0)
abbrev A2 : Finset (DevRef τ sig) := (A1).erase (dref main_v8_1)
abbrev A3 : Finset (DevRef τ sig) := (A2).erase (dref main_v0)
abbrev A4 : Finset (DevRef τ sig) := (A3).erase (dref main_v1)
abbrev A5 : Finset (DevRef τ sig) := (A4).erase (dref main_v7)

/-- The valuation after the first pipeline: the two packed tables at what it left. -/
abbrev W0out (c : Dev nD) (G0 : Buf (Elt F) ((c : Thread nD τ).loc main_v8_0)) (G1 : Buf (Elt F) ((c : Thread nD τ).loc main_v8_1)) : Valuation τ sig (Elt F) :=
  Function.update (Function.update (W c) (dref main_v8_1) G1) (dref main_v8_0) G0

theorem take0 (c : Dev nD) :
    (StableHlo.held (c : Thread nD τ) (Pipeline.ucRefs τ sig) (W c) : sProp (MM F))
      = iprop((((c : Thread nD τ).loc main_v8_0) ↦{fullShare} (W c (dref main_v8_0) : Buf (Elt F) ((c : Thread nD τ).loc main_v8_0)))
          ∗ (((c : Thread nD τ).loc main_v8_1) ↦{fullShare} (W c (dref main_v8_1) : Buf (Elt F) ((c : Thread nD τ).loc main_v8_1)))
          ∗ (((c : Thread nD τ).loc main_v0) ↦{fullShare} (W c (dref main_v0) : Buf (Elt F) ((c : Thread nD τ).loc main_v0)))
          ∗ (((c : Thread nD τ).loc main_v1) ↦{fullShare} (W c (dref main_v1) : Buf (Elt F) ((c : Thread nD τ).loc main_v1)))
          ∗ (((c : Thread nD τ).loc main_v7) ↦{fullShare} (W c (dref main_v7) : Buf (Elt F) ((c : Thread nD τ).loc main_v7)))
          ∗ StableHlo.held (c : Thread nD τ) A5 (W c)) := by
  rw [take_ref c A0 (W c) main_v8_0 (by mem_held),
    take_ref c A1 (W c) main_v8_1 (by mem_held),
    take_ref c A2 (W c) main_v0 (by mem_held),
    take_ref c A3 (W c) main_v1 (by mem_held),
    take_ref c A4 (W c) main_v7 (by mem_held)]

theorem put0 (c : Dev nD) (G0 : Buf (Elt F) ((c : Thread nD τ).loc main_v8_0)) (G1 : Buf (Elt F) ((c : Thread nD τ).loc main_v8_1)) :
    iprop((((c : Thread nD τ).loc main_v8_0) ↦{fullShare} G0) ∗ (((c : Thread nD τ).loc main_v8_1) ↦{fullShare} G1)
        ∗ (((c : Thread nD τ).loc main_v0) ↦{fullShare} (W c (dref main_v0) : Buf (Elt F) ((c : Thread nD τ).loc main_v0))) ∗ (((c : Thread nD τ).loc main_v1) ↦{fullShare} (W c (dref main_v1) : Buf (Elt F) ((c : Thread nD τ).loc main_v1))) ∗ (((c : Thread nD τ).loc main_v7) ↦{fullShare} (W c (dref main_v7) : Buf (Elt F) ((c : Thread nD τ).loc main_v7)))
        ∗ StableHlo.held (c : Thread nD τ) A5 (W c))
      ⊢ (StableHlo.held (c : Thread nD τ) (Pipeline.ucRefs τ sig) (W0out W c G0 G1) : sProp (MM F)) := by
  iintro ⟨H_v8_0, H_v8_1, H_v0, H_v1, H_v7, Hr⟩
  ihave Hr := (put_ref_same c A4 (W c) main_v7 (by mem_held)) $$ [H_v7 Hr]
  · isplitl [H_v7]; · iexact H_v7
    iexact Hr
  ihave Hr := (put_ref_same c A3 (W c) main_v1 (by mem_held)) $$ [H_v1 Hr]
  · isplitl [H_v1]; · iexact H_v1
    iexact Hr
  ihave Hr := (put_ref_same c A2 (W c) main_v0 (by mem_held)) $$ [H_v0 Hr]
  · isplitl [H_v0]; · iexact H_v0
    iexact Hr
  ihave Hr := (put_ref c A1 (W c) main_v8_1 (by mem_held) G1) $$ [H_v8_1 Hr]
  · isplitl [H_v8_1]; · iexact H_v8_1
    iexact Hr
  ihave Hr := (put_ref c A0 (Function.update (W c) (dref main_v8_1) G1) main_v8_0 (by mem_held) G0) $$ [H_v8_0 Hr]
  · isplitl [H_v8_0]; · iexact H_v8_0
    iexact Hr
  iexact Hr

set_option maxHeartbeats 2000000 in
/-- THE FIRST REGION: entered from the held buffers at `W` and the tallies owed, it leaves the buffers held at `W` with
    the two packed tables at contents the pipeline may leave, the tallies unchanged. -/
def reg0 (hO : ∀ g, O g none = 0) :
    Pipeline.RDat.RegionSeg (pcfgs (F := F)) adm (fam W O B) (none : HIx 1) (defs₀ (F := F)) 𝒱₀ (K (F := F)).L (K (F := F)).lev 0 where
  win := winFacts₀0
  block_pos := block_pos0
  stage_whole := stage_whole0
  K := Pack.ownK
  osem := Pack.osem
  ho := Pack.ho
  hbody c := Pack.body_obligation (refsOf W) O B c
  hwaits c := Pipeline.RDat.cellsWaits_intro (Pipeline.pin (pcfgs (F := F)) adm) (fam W O B) none 0 c fun w s t => by
    rw [show ((fam W O B) 0 c).owed t = O from rfl]; exact (K (F := F)).mayWait_none _ hO
  pre c := iprop(StableHlo.held (c : Thread nD τ) (Pipeline.ucRefs τ sig) (W c) ∗ (Pack.dat (refsOf W) O B c).owesAt none 0)
  post c := iprop(∃ (G0 : Buf (Elt F) ((c : Thread nD τ).loc main_v8_0)) (G1 : Buf (Elt F) ((c : Thread nD τ).loc main_v8_1)),
    ⌜(Pack.dat (refsOf W) O B c).ArrAt 5 cfg0.N G0 ∧ (Pack.dat (refsOf W) O B c).ArrAt 6 cfg0.N G1⌝
      ∗ StableHlo.held (c : Thread nD τ) (Pipeline.ucRefs τ sig) (W0out W c G0 G1)
      ∗ (Pack.dat (refsOf W) O B c).owesAt none (Fin.last cfg0.N))
  X _ := iprop(emp)
  Y _ := iprop(emp)
  Z c := StableHlo.held (c : Thread nD τ) A5 (W c)
  hentry c := by
    show iprop((StableHlo.held (c : Thread nD τ) (Pipeline.ucRefs τ sig) (W c) ∗ (Pack.dat (refsOf W) O B c).owesAt none 0) ∗ Pipeline.ownSems0 Pack.osem c ∗ _)
      ⊢ |={Set.univ}=> iprop((Pack.dat (refsOf W) O B c).arrays (Pack.dat (refsOf W) O B c).A ∗ _ ∗ (Pack.dat (refsOf W) O B c).owesAt none 0 ∗ emp ∗ StableHlo.held (c : Thread nD τ) A5 (W c))
    rw [take0]
    iintro ⟨⟨⟨H_v8_0, H_v8_1, H_v0, H_v1, H_v7, Hr⟩, HO⟩, -, -⟩
    imodintro
    isplitl [H_v8_0 H_v8_1 H_v0 H_v1 H_v7]
    · iapply (Pack.arrays_entry (refsOf W) O B c)
      isplitl [H_v0]; · iexact H_v0
      isplitl [H_v1]; · iexact H_v1
      isplitl [H_v7]; · iexact H_v7
      isplitl [H_v8_0]; · iexact H_v8_0
      iexact H_v8_1
    isplitr; · unfold Pipeline.prefHeld; rw [show (Finset.univ : Finset (Fin 0)) = ∅ from rfl, BI.bigSep_empty]; iempintro
    isplitl [HO]; · iexact HO
    isplitr; · iempintro
    iexact Hr
  hin c := Pack.hin (refsOf W) O B c _ _
  hout c := Pack.hout (refsOf W) O B c
  hexit c := by
    show iprop((Pack.dat (refsOf W) O B c).arraysAt cfg0.N ∗ (Pack.dat (refsOf W) O B c).owesAt none (Fin.last cfg0.N) ∗ emp ∗ StableHlo.held (c : Thread nD τ) A5 (W c)) ⊢ _
    iintro ⟨Ha, HO, -, Hr⟩
    ihave H := (Pack.arraysAt_exit (refsOf W) O B c) $$ Ha
    icases H with ⟨%G0, %G1, %hG, H_v0, H_v1, H_v7, H_v8_0, H_v8_1⟩
    imodintro
    iexists G0, G1
    isplitr; · ipureintro; exact hG
    isplitl [H_v0 H_v1 H_v7 H_v8_0 H_v8_1 Hr]
    · iapply (put0 W c G0 G1)
      isplitl [H_v8_0]; · iexact H_v8_0
      isplitl [H_v8_1]; · iexact H_v8_1
      isplitl [H_v0]; · iexact H_v0
      isplitl [H_v1]; · iexact H_v1
      isplitl [H_v7]; · iexact H_v7
      iexact Hr
    iexact HO

/-! ## The second pipeline: the two towers and their inner product -/

-- The held set, less the buffers behind the second pipeline's windows one after the other.
abbrev E0 : Finset (DevRef τ sig) := Pipeline.ucRefs τ sig
abbrev E1 : Finset (DevRef τ sig) := (E0).erase (dref main_v16)
abbrev E2 : Finset (DevRef τ sig) := (E1).erase (dref main_v9_0)
abbrev E3 : Finset (DevRef τ sig) := (E2).erase (dref main_v9_1)
abbrev E4 : Finset (DevRef τ sig) := (E3).erase (dref main_v10)
abbrev E5 : Finset (DevRef τ sig) := (E4).erase (dref main_v11)
abbrev E6 : Finset (DevRef τ sig) := (E5).erase (dref main_arg3)
abbrev E7 : Finset (DevRef τ sig) := (E6).erase (dref main_v12)
abbrev E8 : Finset (DevRef τ sig) := (E7).erase (dref main_arg5)
abbrev E9 : Finset (DevRef τ sig) := (E8).erase (dref main_v13)
abbrev E10 : Finset (DevRef τ sig) := (E9).erase (dref main_arg8)
abbrev E11 : Finset (DevRef τ sig) := (E10).erase (dref main_v14)
abbrev E12 : Finset (DevRef τ sig) := (E11).erase (dref main_arg10)
abbrev E13 : Finset (DevRef τ sig) := (E12).erase (dref main_v15)

/-- The valuation after the second pipeline: its output at the function of its inputs the pipeline computes. -/
abbrev W1out (c : Dev nD) : Valuation τ sig (Elt F) :=
  Function.update (W c) (dref main_v16) (Mlp.finalOut (refsOf W) c)

theorem take1 (c : Dev nD) :
    (StableHlo.held (c : Thread nD τ) (Pipeline.ucRefs τ sig) (W c) : sProp (MM F))
      = iprop((((c : Thread nD τ).loc main_v16) ↦{fullShare} (W c (dref main_v16) : Buf (Elt F) ((c : Thread nD τ).loc main_v16)))
          ∗ (((c : Thread nD τ).loc main_v9_0) ↦{fullShare} (W c (dref main_v9_0) : Buf (Elt F) ((c : Thread nD τ).loc main_v9_0)))
          ∗ (((c : Thread nD τ).loc main_v9_1) ↦{fullShare} (W c (dref main_v9_1) : Buf (Elt F) ((c : Thread nD τ).loc main_v9_1)))
          ∗ (((c : Thread nD τ).loc main_v10) ↦{fullShare} (W c (dref main_v10) : Buf (Elt F) ((c : Thread nD τ).loc main_v10)))
          ∗ (((c : Thread nD τ).loc main_v11) ↦{fullShare} (W c (dref main_v11) : Buf (Elt F) ((c : Thread nD τ).loc main_v11)))
          ∗ (((c : Thread nD τ).loc main_arg3) ↦{fullShare} (W c (dref main_arg3) : Buf (Elt F) ((c : Thread nD τ).loc main_arg3)))
          ∗ (((c : Thread nD τ).loc main_v12) ↦{fullShare} (W c (dref main_v12) : Buf (Elt F) ((c : Thread nD τ).loc main_v12)))
          ∗ (((c : Thread nD τ).loc main_arg5) ↦{fullShare} (W c (dref main_arg5) : Buf (Elt F) ((c : Thread nD τ).loc main_arg5)))
          ∗ (((c : Thread nD τ).loc main_v13) ↦{fullShare} (W c (dref main_v13) : Buf (Elt F) ((c : Thread nD τ).loc main_v13)))
          ∗ (((c : Thread nD τ).loc main_arg8) ↦{fullShare} (W c (dref main_arg8) : Buf (Elt F) ((c : Thread nD τ).loc main_arg8)))
          ∗ (((c : Thread nD τ).loc main_v14) ↦{fullShare} (W c (dref main_v14) : Buf (Elt F) ((c : Thread nD τ).loc main_v14)))
          ∗ (((c : Thread nD τ).loc main_arg10) ↦{fullShare} (W c (dref main_arg10) : Buf (Elt F) ((c : Thread nD τ).loc main_arg10)))
          ∗ (((c : Thread nD τ).loc main_v15) ↦{fullShare} (W c (dref main_v15) : Buf (Elt F) ((c : Thread nD τ).loc main_v15)))
          ∗ StableHlo.held (c : Thread nD τ) E13 (W c)) := by
  rw [take_ref c E0 (W c) main_v16 (by mem_held),
    take_ref c E1 (W c) main_v9_0 (by mem_held),
    take_ref c E2 (W c) main_v9_1 (by mem_held),
    take_ref c E3 (W c) main_v10 (by mem_held),
    take_ref c E4 (W c) main_v11 (by mem_held),
    take_ref c E5 (W c) main_arg3 (by mem_held),
    take_ref c E6 (W c) main_v12 (by mem_held),
    take_ref c E7 (W c) main_arg5 (by mem_held),
    take_ref c E8 (W c) main_v13 (by mem_held),
    take_ref c E9 (W c) main_arg8 (by mem_held),
    take_ref c E10 (W c) main_v14 (by mem_held),
    take_ref c E11 (W c) main_arg10 (by mem_held),
    take_ref c E12 (W c) main_v15 (by mem_held)]

theorem put1 (c : Dev nD) (G : Buf (Elt F) ((c : Thread nD τ).loc main_v16)) :
    iprop((((c : Thread nD τ).loc main_v16) ↦{fullShare} G)
        ∗ (((c : Thread nD τ).loc main_v9_0) ↦{fullShare} (W c (dref main_v9_0) : Buf (Elt F) ((c : Thread nD τ).loc main_v9_0)))
        ∗ (((c : Thread nD τ).loc main_v9_1) ↦{fullShare} (W c (dref main_v9_1) : Buf (Elt F) ((c : Thread nD τ).loc main_v9_1)))
        ∗ (((c : Thread nD τ).loc main_v10) ↦{fullShare} (W c (dref main_v10) : Buf (Elt F) ((c : Thread nD τ).loc main_v10)))
        ∗ (((c : Thread nD τ).loc main_v11) ↦{fullShare} (W c (dref main_v11) : Buf (Elt F) ((c : Thread nD τ).loc main_v11)))
        ∗ (((c : Thread nD τ).loc main_arg3) ↦{fullShare} (W c (dref main_arg3) : Buf (Elt F) ((c : Thread nD τ).loc main_arg3)))
        ∗ (((c : Thread nD τ).loc main_v12) ↦{fullShare} (W c (dref main_v12) : Buf (Elt F) ((c : Thread nD τ).loc main_v12)))
        ∗ (((c : Thread nD τ).loc main_arg5) ↦{fullShare} (W c (dref main_arg5) : Buf (Elt F) ((c : Thread nD τ).loc main_arg5)))
        ∗ (((c : Thread nD τ).loc main_v13) ↦{fullShare} (W c (dref main_v13) : Buf (Elt F) ((c : Thread nD τ).loc main_v13)))
        ∗ (((c : Thread nD τ).loc main_arg8) ↦{fullShare} (W c (dref main_arg8) : Buf (Elt F) ((c : Thread nD τ).loc main_arg8)))
        ∗ (((c : Thread nD τ).loc main_v14) ↦{fullShare} (W c (dref main_v14) : Buf (Elt F) ((c : Thread nD τ).loc main_v14)))
        ∗ (((c : Thread nD τ).loc main_arg10) ↦{fullShare} (W c (dref main_arg10) : Buf (Elt F) ((c : Thread nD τ).loc main_arg10)))
        ∗ (((c : Thread nD τ).loc main_v15) ↦{fullShare} (W c (dref main_v15) : Buf (Elt F) ((c : Thread nD τ).loc main_v15)))
        ∗ StableHlo.held (c : Thread nD τ) E13 (W c))
      ⊢ (StableHlo.held (c : Thread nD τ) (Pipeline.ucRefs τ sig) (Function.update (W c) (dref main_v16) G) : sProp (MM F)) := by
  iintro ⟨H_v16, H_v9_0, H_v9_1, H_v10, H_v11, H_arg3, H_v12, H_arg5, H_v13, H_arg8, H_v14, H_arg10, H_v15, Hr⟩
  ihave Hr := (put_ref_same c E12 (W c) main_v15 (by mem_held)) $$ [H_v15 Hr]
  · isplitl [H_v15]; · iexact H_v15
    iexact Hr
  ihave Hr := (put_ref_same c E11 (W c) main_arg10 (by mem_held)) $$ [H_arg10 Hr]
  · isplitl [H_arg10]; · iexact H_arg10
    iexact Hr
  ihave Hr := (put_ref_same c E10 (W c) main_v14 (by mem_held)) $$ [H_v14 Hr]
  · isplitl [H_v14]; · iexact H_v14
    iexact Hr
  ihave Hr := (put_ref_same c E9 (W c) main_arg8 (by mem_held)) $$ [H_arg8 Hr]
  · isplitl [H_arg8]; · iexact H_arg8
    iexact Hr
  ihave Hr := (put_ref_same c E8 (W c) main_v13 (by mem_held)) $$ [H_v13 Hr]
  · isplitl [H_v13]; · iexact H_v13
    iexact Hr
  ihave Hr := (put_ref_same c E7 (W c) main_arg5 (by mem_held)) $$ [H_arg5 Hr]
  · isplitl [H_arg5]; · iexact H_arg5
    iexact Hr
  ihave Hr := (put_ref_same c E6 (W c) main_v12 (by mem_held)) $$ [H_v12 Hr]
  · isplitl [H_v12]; · iexact H_v12
    iexact Hr
  ihave Hr := (put_ref_same c E5 (W c) main_arg3 (by mem_held)) $$ [H_arg3 Hr]
  · isplitl [H_arg3]; · iexact H_arg3
    iexact Hr
  ihave Hr := (put_ref_same c E4 (W c) main_v11 (by mem_held)) $$ [H_v11 Hr]
  · isplitl [H_v11]; · iexact H_v11
    iexact Hr
  ihave Hr := (put_ref_same c E3 (W c) main_v10 (by mem_held)) $$ [H_v10 Hr]
  · isplitl [H_v10]; · iexact H_v10
    iexact Hr
  ihave Hr := (put_ref_same c E2 (W c) main_v9_1 (by mem_held)) $$ [H_v9_1 Hr]
  · isplitl [H_v9_1]; · iexact H_v9_1
    iexact Hr
  ihave Hr := (put_ref_same c E1 (W c) main_v9_0 (by mem_held)) $$ [H_v9_0 Hr]
  · isplitl [H_v9_0]; · iexact H_v9_0
    iexact Hr
  ihave Hr := (put_ref c E0 (W c) main_v16 (by mem_held) G) $$ [H_v16 Hr]
  · isplitl [H_v16]; · iexact H_v16
    iexact Hr
  iexact Hr

set_option maxHeartbeats 2000000 in
/-- THE SECOND REGION: entered from the held buffers at `W` and the tallies owed, it leaves them held at `W` with its
    output at the named function of its inputs, the tallies unchanged. -/
def reg1 (hO : ∀ g, O g none = 0) :
    Pipeline.RDat.RegionSeg (pcfgs (F := F)) adm (fam W O B) (none : HIx 1) (defs₀ (F := F)) 𝒱₀ (K (F := F)).L (K (F := F)).lev 1 where
  win := winFacts2.to₀
  block_pos := block_pos2
  stage_whole := stage_whole2
  K := PEmpty
  osem := fun k : PEmpty => k.elim
  ho := Pipeline.OwnSemFacts.none _
  hbody c := Mlp.body_obligation (refsOf W) O B c
  hwaits c := Pipeline.RDat.cellsWaits_intro (Pipeline.pin (pcfgs (F := F)) adm) (fam W O B) none 1 c fun w s t => by
    rw [show ((fam W O B) 1 c).owed t = O from rfl]; exact (K (F := F)).mayWait_none _ hO
  pre c := iprop(StableHlo.held (c : Thread nD τ) (Pipeline.ucRefs τ sig) (W c) ∗ (Mlp.dat (refsOf W) O B c).owesAt none 0)
  post c := iprop(StableHlo.held (c : Thread nD τ) (Pipeline.ucRefs τ sig) (W1out W c)
      ∗ (Mlp.dat (refsOf W) O B c).owesAt none (Fin.last cfg2.N))
  X _ := iprop(emp)
  Y _ := iprop(emp)
  Z c := StableHlo.held (c : Thread nD τ) E13 (W c)
  hentry c := by
    show iprop((StableHlo.held (c : Thread nD τ) (Pipeline.ucRefs τ sig) (W c) ∗ (Mlp.dat (refsOf W) O B c).owesAt none 0) ∗ Pipeline.ownSems0 (fun k : PEmpty => k.elim) c ∗ _)
      ⊢ |={Set.univ}=> iprop((Mlp.dat (refsOf W) O B c).arrays (Mlp.dat (refsOf W) O B c).A ∗ _ ∗ (Mlp.dat (refsOf W) O B c).owesAt none 0 ∗ emp ∗ StableHlo.held (c : Thread nD τ) E13 (W c))
    rw [take1]
    iintro ⟨⟨⟨H_v16, H_v9_0, H_v9_1, H_v10, H_v11, H_arg3, H_v12, H_arg5, H_v13, H_arg8, H_v14, H_arg10, H_v15, Hr⟩, HO⟩, -, -⟩
    imodintro
    isplitl [H_v16 H_v9_0 H_v9_1 H_v10 H_v11 H_arg3 H_v12 H_arg5 H_v13 H_arg8 H_v14 H_arg10 H_v15]
    · iapply (Mlp.arrays_entry (refsOf W) O B c)
      isplitl [H_v9_0]; · iexact H_v9_0
      isplitl [H_v9_1]; · iexact H_v9_1
      isplitl [H_v10]; · iexact H_v10
      isplitl [H_v11]; · iexact H_v11
      isplitl [H_arg3]; · iexact H_arg3
      isplitl [H_v12]; · iexact H_v12
      isplitl [H_arg5]; · iexact H_arg5
      isplitl [H_v13]; · iexact H_v13
      isplitl [H_arg8]; · iexact H_arg8
      isplitl [H_v14]; · iexact H_v14
      isplitl [H_arg10]; · iexact H_arg10
      isplitl [H_v15]; · iexact H_v15
      iexact H_v16
    isplitr; · unfold Pipeline.prefHeld; rw [show (Finset.univ : Finset (Fin 0)) = ∅ from rfl, BI.bigSep_empty]; iempintro
    isplitl [HO]; · iexact HO
    isplitr; · iempintro
    iexact Hr
  hin c := Mlp.hin (refsOf W) O B c _
  hout c := Mlp.hout (refsOf W) O B c
  hexit c := by
    show iprop((Mlp.dat (refsOf W) O B c).arraysAt cfg2.N ∗ (Mlp.dat (refsOf W) O B c).owesAt none (Fin.last cfg2.N) ∗ emp ∗ StableHlo.held (c : Thread nD τ) E13 (W c)) ⊢ _
    iintro ⟨Ha, HO, -, Hr⟩
    ihave H := (Mlp.arraysAt_exit (refsOf W) O B c) $$ Ha
    icases H with ⟨H_v9_0, H_v9_1, H_v10, H_v11, H_arg3, H_v12, H_arg5, H_v13, H_arg8, H_v14, H_arg10, H_v15, H_v16⟩
    imodintro
    isplitl [H_v16 H_v9_0 H_v9_1 H_v10 H_v11 H_arg3 H_v12 H_arg5 H_v13 H_arg8 H_v14 H_arg10 H_v15 Hr]
    · iapply (put1 W c (Mlp.finalOut (refsOf W) c))
      isplitl [H_v16]; · iexact H_v16
      isplitl [H_v9_0]; · iexact H_v9_0
      isplitl [H_v9_1]; · iexact H_v9_1
      isplitl [H_v10]; · iexact H_v10
      isplitl [H_v11]; · iexact H_v11
      isplitl [H_arg3]; · iexact H_arg3
      isplitl [H_v12]; · iexact H_v12
      isplitl [H_arg5]; · iexact H_arg5
      isplitl [H_v13]; · iexact H_v13
      isplitl [H_arg8]; · iexact H_arg8
      isplitl [H_v14]; · iexact H_v14
      isplitl [H_arg10]; · iexact H_arg10
      isplitl [H_v15]; · iexact H_v15
      iexact Hr
    iexact HO

end Cert.KernelIdeal.Seg

end
-- ==== Proof.ScRegion.lean ====
/-
  One block pipeline entered from the host program of a program that also runs tiles on the sparse processors.

  The pipeline library proves a region's step in the pipelines' own signature; the host program here lives in the larger
  signature that adds the dispatch labels. A call of a pipeline's entry label in the larger signature is the lifted call,
  and every proof about a program lifts with it, so the region's step holds verbatim in the larger signature, with any
  continuation attached.
-/
import proofs.«204570_g59167469470423_cont_9to1_m_669_24_alg».proof.Proof.ScGhost

noncomputable section

namespace Cert.KernelIdeal.Region

open Cert.KernelIdeal Cert.KernelIdeal.Gen Cert.KernelIdeal.Base Cert.KernelIdeal.Ghost

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-- The lifted call of pipeline `p`'s entry is the printed statement. -/
theorem lift_entry (p : Fin 2) :
    (Prog.lift (.customCall (SparseCore.inner (Pipeline.entry p)) ()) :
        Prog (TpuEff nD τ sig (Elt F) (SparseCore.Sig (ΛP (F := F)) 1) .tc) PUnit)
      = SparseCore.liftProg (Prog.lift (.customCall (Pipeline.entry p) ())) := rfl

set_option maxHeartbeats 4000000 in
set_option backward.isDefEq.respectTransparency.types false in
/-- A region's step in the program's signature: from the region boundary, the record's entry state, the level facts
    and the pipeline's launch ghost state, the printed call runs to the boundary and the record's exit state, for any
    continuation. -/
theorem wp_region {p : Fin 2}
    (rdats : (p : Fin 2) → (c : Dev nD) → Pipeline.RDat τ (Elt F) (HIx 1) ℕ UU ℕ (Pipeline.pin (pcfgs (F := F)) adm p) c)
    (R : Pipeline.RDat.RegionSeg (pcfgs (F := F)) adm rdats (none : HIx 1) (defs₀ (F := F)) 𝒱₀ (K (F := F)).L (K (F := F)).lev p)
    (d : Dev nD) {α : Type}
    (k : PUnit → Prog (TpuEff nD τ sig (Elt F) (SparseCore.Sig (ΛP (F := F)) 1) .tc) α) (Φ : α → sProp (MM F)) :
    iprop((iprop(boundary (T d) ∗ R.post d) -∗ wp frame (wpE ((K (F := F)).defs (D (F := F))) 𝒱 (T d) none) Set.univ (k ⟨⟩) Φ)
        ∗ boundary (T d) ∗ R.pre d ∗ levAts (K (F := F)).L (K (F := F)).lev
        ∗ pipeGhost (F := F) p d)
      ⊢ wp frame (wpE ((K (F := F)).defs (D (F := F))) 𝒱 (T d) none) Set.univ
          (Prog.lift (.customCall (SparseCore.inner (Pipeline.entry p)) ()) >>= k) Φ := by
  have h1 := Pipeline.RDat.RegionSeg.wp (pcfgs (F := F)) adm rdats (none : HIx 1) cellOf_inj (EP (F := F)) (defs₀ (F := F)) 𝒱₀
    (K (F := F)).L (K (F := F)).lev R d none (fun _ h => nomatch h)
    (fun _ => (.ret ⟨⟩ : Prog (TpuEff nD τ sig (Elt F) (ΛP (F := F)) .tc) PUnit)) (fun _ => iprop(boundary (T d) ∗ R.post d))
  have h2 := (K (F := F)).wp_liftProg (D (F := F)) 𝒱 (T d) Set.univ none
    (Prog.lift (.customCall (Pipeline.entry p) ()) : Prog (TpuEff nD τ sig (Elt F) (ΛP (F := F)) .tc) PUnit)
    (fun _ => iprop(boundary (T d) ∗ R.post d))
  rw [wp_bind, lift_entry]
  iintro ⟨Hk, Hbd, Hpre, #Hla, Hg, Ht⟩
  iapply (wp_wand_r frame _ Set.univ)
  isplitr [Hk]
  · iapply h2
    iapply h1
    isplitr
    · iintro H; rw [wp_ret]; imodintro; iexact H
    isplitl [Hbd]; · iexact Hbd
    isplitl [Hpre]; · iexact Hpre
    isplitr; · iexact Hla
    isplitl [Hg] <;> iassumption
  · iintro %_ H
    iapply Hk; iexact H

end Cert.KernelIdeal.Region

end
-- ==== Proof.TileDefs.lean ====
/-
  One tile's task in the row-gather kernel: what it is handed, what it hands back, and the value it leaves.

  The kernel runs on 2 x 16 tiles. Tile (c, s) owns the 512 consecutive batch entries starting at
  1024 s + 512 c, in two chunks of 256. For each chunk it copies the 256 user ids into a scratch list, folds every
  id w into the packed table's row range (w if w < 50176, else w - 50176), gathers the 256 rows the folded list names
  from the packed user table into a row scratch, does the same for the item ids and the packed item table, and copies
  the two row scratches out to rows [base, base + 256) of the two outputs. Every copy completes on a semaphore of its
  own and is waited for before its buffers are touched again, so the tile needs no schedule: its transfers run on
  the counters of the schedule-free protocol.

  The value: output row b of the user output is row foldRow (uid b) of the packed user table, whatever that table
  holds; the same for the item side.
-/
import proofs.«204570_g59167469470423_cont_9to1_m_669_24_alg».proof.KernelIdeal
import proofs.«204570_g59167469470423_cont_9to1_m_669_24_alg».proof.Proof.Gen.KernelIdeal
import proofs.«204570_g59167469470423_cont_9to1_m_669_24_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.ValueIdx
import Idealize.ShloMosaic.Lib.Tactic

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU] [CountersIn UU]

local notation "𝕄" => MT nD τ sig (HIx 1) (Elt F) ℕ UU ℕ

/-! ## Places -/

/-- The six arrays the kernel is passed, as locations of device d. -/
abbrev uidLoc (d : Dev nD) : Loc nD τ sig := (SparseCore.T d).loc main_arg0
abbrev iidLoc (d : Dev nD) : Loc nD τ sig := (SparseCore.T d).loc main_arg1
abbrev utLoc (d : Dev nD) : Loc nD τ sig := (SparseCore.T d).loc main_v8_0
abbrev itLoc (d : Dev nD) : Loc nD τ sig := (SparseCore.T d).loc main_v8_1
abbrev ouLoc (d : Dev nD) : Loc nD τ sig := (SparseCore.T d).loc main_v9_0
abbrev oiLoc (d : Dev nD) : Loc nD τ sig := (SparseCore.T d).loc main_v9_1

/-- The tile at grid coordinates L. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The first batch entry of chunk r of tile L. -/
def base (L : grid1.Coords) (r : ℕ) : ℕ := 1024 * (L 1).val + 512 * (L 0).val + 256 * r

/-! ## The fold and the value -/

/-- An id folded into the packed table's row range. -/
def foldN (w : BitVec 32) : ℕ := if w.toNat < 50176 then w.toNat else w.toNat - 50176

/-- The same as a row of the packed table; the remainder only makes the definition total (ids are at most 99999). -/
def foldRow (w : BitVec 32) : Fin 50176 := ⟨foldN w % 50176, Nat.mod_lt _ (by decide)⟩

theorem foldRow_val {w : BitVec 32} (h : w.toNat ≤ 99999) : (foldRow w).val = foldN w := by
  unfold foldRow foldN; simp only; split <;> omega

/-- The output the kernel leaves, as a function of the packed table and the id array: row b is the table's row
    foldRow (ids b). -/
def gRow (f8 : S50176x128.Idx → Elt F .f32) (ids : S16384.Idx → BitVec 32) : S16384x128.Idx → Elt F .f32 :=
  fun x => f8 (ix2 (foldRow (ids (ix1 (x 0)))) (x 1))

/-! ## The output chunks, as the program slices them -/

abbrev oRect0 (L : grid1.Coords) : Rect S16384x128 := Rect.unit (s := S16384x128) (k1_off4 L 0#32) S256x128.size (k1_off4_inb L 0)
abbrev oRect1 (L : grid1.Coords) : Rect S16384x128 := Rect.unit (s := S16384x128) (k1_off4 L 256#32) S256x128.size (k1_off4_inb L 1)
/-- The elements of chunk r of tile L in a [16384, 128] output. -/
def oSet (L : grid1.Coords) : Fin 2 → Finset S16384x128.Idx
  | 0 => (oRect0 L).set
  | 1 => (oRect1 L).set

/-! ## What a tile is handed and hands back -/

section Pay

variable (G8u G8i : (S50176x128.Idx → Elt F .f32) → Prop) (R9u R9i : Fin 16384 → (Fin 128 → Elt F .f32) → Prop)
variable (d : Dev nD) (L : grid1.Coords) (q : PosShare TreeShare)
variable (uid : Buf (Elt F) (uidLoc d)) (iid : Buf (Elt F) (iidLoc d))

/-- A read share of both id arrays at their contents and of both packed tables at admissible contents; the tile's
    two chunks of both outputs, outright, at any contents. -/
def tileGo : sProp 𝕄 :=
  iprop((uidLoc d ↦{q} uid) ∗ (iidLoc d ↦{q} iid)
    ∗ (∃ f8 : Buf (Elt F) (utLoc d), ⌜G8u f8⌝ ∗ utLoc d ↦{q} f8) ∗ (∃ f8 : Buf (Elt F) (itLoc d), ⌜G8i f8⌝ ∗ itLoc d ↦{q} f8)
    ∗ (∃ g, ouLoc d ↦[oSet L 0]{fullShare} g) ∗ (∃ g, ouLoc d ↦[oSet L 1]{fullShare} g)
    ∗ (∃ g, oiLoc d ↦[oSet L 0]{fullShare} g) ∗ (∃ g, oiLoc d ↦[oSet L 1]{fullShare} g))

/-- Every row of chunk r of tile L satisfies R. -/
def RowsOK (R : Fin 16384 → (Fin 128 → Elt F .f32) → Prop) (r : ℕ) (g : S16384x128.Idx → Elt F .f32) : Prop :=
  ∀ b : Fin 16384, base L r ≤ b.val → b.val < base L r + 256 → R b (fun l => g (ix2 b l))

/-- The shares back, the tables again at admissible contents; each output chunk at contents whose rows are as claimed. -/
def tileTd : sProp 𝕄 :=
  iprop((uidLoc d ↦{q} uid) ∗ (iidLoc d ↦{q} iid)
    ∗ (∃ f8 : Buf (Elt F) (utLoc d), ⌜G8u f8⌝ ∗ utLoc d ↦{q} f8) ∗ (∃ f8 : Buf (Elt F) (itLoc d), ⌜G8i f8⌝ ∗ itLoc d ↦{q} f8)
    ∗ (∃ g : Buf (Elt F) (ouLoc d), ⌜RowsOK L R9u 0 g⌝ ∗ ouLoc d ↦[oSet L 0]{fullShare} g)
    ∗ (∃ g : Buf (Elt F) (ouLoc d), ⌜RowsOK L R9u 1 g⌝ ∗ ouLoc d ↦[oSet L 1]{fullShare} g)
    ∗ (∃ g : Buf (Elt F) (oiLoc d), ⌜RowsOK L R9i 0 g⌝ ∗ oiLoc d ↦[oSet L 0]{fullShare} g)
    ∗ (∃ g : Buf (Elt F) (oiLoc d), ⌜RowsOK L R9i 1 g⌝ ∗ oiLoc d ↦[oSet L 1]{fullShare} g))

end Pay

end Cert.KernelIdeal.Tile

end
-- ==== Proof.ScPay.lean ====
/-
  What the handshakes of the one vector-subcore call carry.

  The call is handed, for each of the 2 x 16 tiles, a read share of the two id arrays and of the two packed tables and
  the tile's own two 256-row chunks of each output; it hands back the shares and the chunks, each chunk's rows as
  claimed. A sparse processor's part is just its sixteen tiles' parts side by side, so that dealing a processor's part
  to its tiles, and collecting it, is the identity. The 32 read shares of an array are the read tokens of the full
  share, one per tile, numbered 16 c + i.
-/
import proofs.«204570_g59167469470423_cont_9to1_m_669_24_alg».proof.Proof.ScBase
import proofs.«204570_g59167469470423_cont_9to1_m_669_24_alg».proof.Proof.TileDefs

noncomputable section

namespace Cert.KernelIdeal.Pay

open Cert.KernelIdeal Cert.KernelIdeal.Gen Cert.KernelIdeal.Base Cert.KernelIdeal.Tile

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The grid coordinates of tile `i` of sparse processor `c` of the call. -/
def tileL (c : Fin ((K (F := F)).nCore 0)) (i : Fin ((K (F := F)).nSub 0)) : grid1.Coords :=
  fun | 0 => c | 1 => i | ⟨_ + 2, h⟩ => absurd h (Nat.not_lt.2 (Nat.le_add_left _ _))

/-- The tile's number among the 32. -/
def tileNo (c : Fin ((K (F := F)).nCore 0)) (i : Fin ((K (F := F)).nSub 0)) : Fin 32 := ⟨16 * c.val + i.val, by
  have hc : c.val < 2 := c.isLt
  have hi : i.val < 16 := i.isLt
  omega⟩

/-- The tile's read share of the arrays every tile reads: its read token of the full share. -/
def qOf (c : Fin ((K (F := F)).nCore 0)) (i : Fin ((K (F := F)).nSub 0)) : PosShare TreeShare :=
  Transfers.shareTok fullShare 32 (tileNo (F := F) c i)

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

abbrev go0 (d : Dev nD) (c : Fin ((K (F := F)).nCore 0)) (i : Fin ((K (F := F)).nSub 0)) : sProp (MM F) :=
  tileGo (UU := UU) G8u G8i d (tileL (F := F) c i) (qOf (F := F) c i) (uid d) (iid d)
abbrev td0 (d : Dev nD) (c : Fin ((K (F := F)).nCore 0)) (i : Fin ((K (F := F)).nSub 0)) : sProp (MM F) :=
  tileTd (UU := UU) G8u G8i R9u R9i d (tileL (F := F) c i) (qOf (F := F) c i) (uid d) (iid d)

/-- The record. -/
def P : (K (F := F)).Pay (nD := nD) (Val := Elt F) (Name := ℕ) (U := UU) where
  st := fun q d c => match q with | 0 => bigSep Finset.univ fun i => go0 G8u G8i uid iid d c i
  dn := fun q d c => match q with | 0 => bigSep Finset.univ fun i => td0 G8u G8i R9u R9i uid iid d c i
  go := fun q d c i => match q with | 0 => go0 G8u G8i uid iid d c i
  td := fun q d c i => match q with | 0 => td0 G8u G8i R9u R9i uid iid d c i
  x := fun _ _ => iprop(emp)

theorem P_x (q : Fin 1) (thr : Thread nD τ) : (P G8u G8i R9u R9i uid iid).x q thr = iprop(emp) := rfl
theorem P_ox : (P G8u G8i R9u R9i uid iid).ox = fun _ _ => 0 := rfl
theorem P_go (d : Dev nD) (c) (i) : (P G8u G8i R9u R9i uid iid).go 0 d c i = go0 G8u G8i uid iid d c i := rfl
theorem P_td (d : Dev nD) (c) (i) : (P G8u G8i R9u R9i uid iid).td 0 d c i = td0 G8u G8i R9u R9i uid iid d c i := rfl
theorem P_st (d : Dev nD) (c) : (P G8u G8i R9u R9i uid iid).st 0 d c = bigSep Finset.univ fun i => go0 G8u G8i uid iid d c i := rfl
theorem P_dn (d : Dev nD) (c) : (P G8u G8i R9u R9i uid iid).dn 0 d c = bigSep Finset.univ fun i => td0 G8u G8i R9u R9i uid iid d c i := rfl

set_option synthInstance.maxHeartbeats 1000000 in
set_option maxHeartbeats 1000000 in
instance P_storable : (P G8u G8i R9u R9i uid iid).IsStorable where
  st q d c := match q with
    | 0 => by show BI.Storable (upEmb : UEmb _ (MM F)) (bigSep Finset.univ fun i => go0 G8u G8i uid iid d c i); unfold go0 tileGo; infer_instance
  dn q d c := match q with
    | 0 => by show BI.Storable (upEmb : UEmb _ (MM F)) (bigSep Finset.univ fun i => td0 G8u G8i R9u R9i uid iid d c i); unfold td0 tileTd; infer_instance
  go q d c i := match q with
    | 0 => by show BI.Storable (upEmb : UEmb _ (MM F)) (go0 G8u G8i uid iid d c i); unfold go0 tileGo; infer_instance
  td q d c i := match q with
    | 0 => by show BI.Storable (upEmb : UEmb _ (MM F)) (td0 G8u G8i R9u R9i uid iid d c i); unfold td0 tileTd; infer_instance

/-- Dealing a sparse processor's part to its tiles and collecting theirs: nothing to do. -/
theorem vecSplit : (K (F := F)).VecSplit' (P G8u G8i R9u R9i uid iid) 0 := by
  intro d c
  rw [P_st, P_dn]
  iintro H; imodintro
  isplitl [H]; · iexact H
  iintro H; iexact H

end

end Cert.KernelIdeal.Pay

end
-- ==== Proof.ScCall.lean ====
/-
  The vector-subcore call seen from the host program: what it gives up at the call and what it has again after it.

  At the call the host program holds the two id arrays, the two packed tables and the two outputs whole. Each of the
  four read-only arrays is cut into a remainder, which the host program keeps, and 32 read tokens, one per tile,
  numbered 16 c + i; each output is cut into its 64 chunks of 256 rows, two per tile. After the call the tokens
  rejoin the remainder: a returned table token may name other contents, but it shares every element with the remainder,
  so its contents are the remainder's. The 64 chunks, each at contents of its own whose rows are as claimed, join to
  one array: every row lies in exactly one chunk, so every row of the joined array is as claimed.
-/
import proofs.«204570_g59167469470423_cont_9to1_m_669_24_alg».proof.Proof.ScPay

noncomputable section

namespace Cert.KernelIdeal.Call

open Cert.KernelIdeal Cert.KernelIdeal.Gen Cert.KernelIdeal.Base Cert.KernelIdeal.Tile Cert.KernelIdeal.Pay

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- What the host program keeps of the four read-only arrays during the call: the remainder of each after its 32
    read tokens are split off. -/
def rem (d : Dev nD) (f8u : Buf (Elt F) (utLoc d)) (f8i : Buf (Elt F) (itLoc d)) : sProp (MM F) :=
  iprop((uidLoc d ↦{Transfers.shareDrop fullShare 32} uid d) ∗ (iidLoc d ↦{Transfers.shareDrop fullShare 32} iid d)
    ∗ (utLoc d ↦{Transfers.shareDrop fullShare 32} f8u) ∗ (itLoc d ↦{Transfers.shareDrop fullShare 32} f8i))

/-! ## The 32 tiles, numbered -/

theorem tileNo_injective :
    Function.Injective fun p : Fin ((K (F := F)).nCore 0) × Fin ((K (F := F)).nSub 0) => tileNo (F := F) p.1 p.2 := by
  rintro ⟨c, i⟩ ⟨c', i'⟩ h
  have hv : 16 * c.val + i.val = 16 * c'.val + i'.val := congrArg Fin.val h
  have hi : i.val < 16 := i.isLt
  have hi' : i'.val < 16 := i'.isLt
  exact Prod.ext (Fin.ext (by show c.val = c'.val; omega)) (Fin.ext (by show i.val = i'.val; omega))

theorem tileNo_image :
    (Finset.univ.image fun p : Fin ((K (F := F)).nCore 0) × Fin ((K (F := F)).nSub 0) => tileNo (F := F) p.1 p.2) = Finset.univ := by
  refine Finset.eq_univ_iff_forall.mpr fun t => Finset.mem_image.mpr ?_
  have ht : t.val < 32 := t.isLt
  refine ⟨(⟨t.val / 16, by show t.val / 16 < 2; omega⟩, ⟨t.val % 16, by show t.val % 16 < 16; omega⟩), Finset.mem_univ _, Fin.ext ?_⟩
  show 16 * (t.val / 16) + t.val % 16 = t.val
  omega

/-- A `bigSep` over the 32 numbers is the `bigSep` over the processors of the `bigSep` over their tiles. -/
theorem bigSep_tiles (Φ : Fin 32 → sProp (MM F)) :
    bigSep Finset.univ Φ
      = bigSep Finset.univ fun c : Fin ((K (F := F)).nCore 0) => bigSep Finset.univ fun i : Fin ((K (F := F)).nSub 0) =>
          Φ (tileNo (F := F) c i) := by
  rw [← bigSep_univ_prod (fun p : Fin ((K (F := F)).nCore 0) × Fin ((K (F := F)).nSub 0) => Φ (tileNo (F := F) p.1 p.2)),
    ← tileNo_image (F := F), bigSep_image_of_injOn (tileNo_injective (F := F)).injOn]

/-! ## The 64 chunks of an output -/

/-- Chunk `r` of tile `L` is the rows `[base L r, base L r + 256)`. -/
theorem mem_oSet (L : grid1.Coords) (r : Fin 2) (x : S16384x128.Idx) :
    x ∈ oSet L r ↔ base L r.val ≤ (x 0).val ∧ (x 0).val < base L r.val + 256 := by
  have h1 : (x 1).val < 128 := (x 1).isLt
  match r with
  | 0 =>
    show x ∈ (oRect0 L).set ↔ _
    rw [Rect.mem_set_unit]
    have e : k1_off4 L 0#32 = ![1024 * (L 1).val + 512 * (L 0).val + 256 * 0, 0] := k1_off4_eq L 0
    rw [e]
    unfold base
    constructor
    · intro h; have := h 0; simpa using this
    · intro h a
      match a with
      | ⟨0, _⟩ => simpa using h
      | ⟨1, _⟩ => exact ⟨Nat.zero_le _, by show (x 1).val < 0 + 128; omega⟩
  | 1 =>
    show x ∈ (oRect1 L).set ↔ _
    rw [Rect.mem_set_unit]
    have e : k1_off4 L 256#32 = ![1024 * (L 1).val + 512 * (L 0).val + 256 * 1, 0] := k1_off4_eq L 1
    rw [e]
    unfold base
    constructor
    · intro h; have := h 0; simpa using this
    · intro h a
      match a with
      | ⟨0, _⟩ => simpa using h
      | ⟨1, _⟩ => exact ⟨Nat.zero_le _, by show (x 1).val < 0 + 128; omega⟩

/-- The chunk of an output that processor `c`, tile `i`, chunk number `r` name. -/
def chunk (t : Fin ((K (F := F)).nCore 0) × Fin ((K (F := F)).nSub 0) × Fin 2) : Finset S16384x128.Idx :=
  oSet (tileL (F := F) t.1 t.2.1) t.2.2

theorem base_tileL (c : Fin ((K (F := F)).nCore 0)) (i : Fin ((K (F := F)).nSub 0)) (r : ℕ) :
    base (tileL (F := F) c i) r = 1024 * i.val + 512 * c.val + 256 * r := rfl

theorem mem_chunk (c : Fin ((K (F := F)).nCore 0)) (i : Fin ((K (F := F)).nSub 0)) (r : Fin 2) (x : S16384x128.Idx) :
    x ∈ chunk (F := F) (c, i, r) ↔ 1024 * i.val + 512 * c.val + 256 * r.val ≤ (x 0).val ∧ (x 0).val < 1024 * i.val + 512 * c.val + 256 * r.val + 256 := by
  unfold chunk; rw [mem_oSet, base_tileL]

/-- Two chunks with a common row are the same chunk. -/
theorem chunk_apart {c c' : Fin ((K (F := F)).nCore 0)} {i i' : Fin ((K (F := F)).nSub 0)} {r r' : Fin 2} {x : S16384x128.Idx}
    (hne : ((c, i, r) : Fin ((K (F := F)).nCore 0) × Fin ((K (F := F)).nSub 0) × Fin 2) ≠ (c', i', r'))
    (hx : 1024 * i.val + 512 * c.val + 256 * r.val ≤ (x 0).val ∧ (x 0).val < 1024 * i.val + 512 * c.val + 256 * r.val + 256)
    (hx' : 1024 * i'.val + 512 * c'.val + 256 * r'.val ≤ (x 0).val ∧ (x 0).val < 1024 * i'.val + 512 * c'.val + 256 * r'.val + 256) : False := by
  apply hne
  have hc : c.val < 2 := c.isLt
  have hc' : c'.val < 2 := c'.isLt
  have hr : r.val < 2 := r.isLt
  have hr' : r'.val < 2 := r'.isLt
  have hi : i.val < 16 := i.isLt
  have hi' : i'.val < 16 := i'.isLt
  have h : c.val = c'.val ∧ i.val = i'.val ∧ r.val = r'.val := by omega
  exact Prod.ext (Fin.ext h.1) (Prod.ext (Fin.ext h.2.1) (Fin.ext h.2.2))

/-- Every row lies in a chunk. -/
theorem chunk_exists (x : S16384x128.Idx) : ∃ t : Fin ((K (F := F)).nCore 0) × Fin ((K (F := F)).nSub 0) × Fin 2, x ∈ chunk (F := F) t := by
  have hb : (x 0).val < 16384 := (x 0).isLt
  refine ⟨(⟨((x 0).val % 1024) / 512, by show ((x 0).val % 1024) / 512 < 2; omega⟩, ⟨(x 0).val / 1024, by show (x 0).val / 1024 < 16; omega⟩,
    ⟨((x 0).val % 512) / 256, by omega⟩), ?_⟩
  rw [mem_chunk]
  show 1024 * ((x 0).val / 1024) + 512 * (((x 0).val % 1024) / 512) + 256 * (((x 0).val % 512) / 256) ≤ (x 0).val
    ∧ (x 0).val < 1024 * ((x 0).val / 1024) + 512 * (((x 0).val % 1024) / 512) + 256 * (((x 0).val % 512) / 256) + 256
  omega

/-- An array whole is its pieces along any family, indexed by processor, tile and chunk number, of pairwise disjoint
    sets that cover it. -/
theorem chunks_eq {ℓ : Loc nD τ sig} (Kc : Fin ((K (F := F)).nCore 0) × Fin ((K (F := F)).nSub 0) × Fin 2 → Finset (Idx ℓ))
    (hd : ∀ t ∈ (Finset.univ : Finset (Fin ((K (F := F)).nCore 0) × Fin ((K (F := F)).nSub 0) × Fin 2)), ∀ t' ∈ (Finset.univ : Finset (Fin ((K (F := F)).nCore 0) × Fin ((K (F := F)).nSub 0) × Fin 2)), t ≠ t' → Disjoint (Kc t) (Kc t'))
    (hc : (Finset.univ : Finset (Fin ((K (F := F)).nCore 0) × Fin ((K (F := F)).nSub 0) × Fin 2)).biUnion Kc = Finset.univ) (g : Buf (Elt F) ℓ) :
    (ℓ ↦{fullShare} g : sProp (MM F))
      = bigSep Finset.univ fun c : Fin ((K (F := F)).nCore 0) => bigSep Finset.univ fun i : Fin ((K (F := F)).nSub 0) =>
          iprop((ℓ ↦[Kc (c, i, 0)]{fullShare} g) ∗ (ℓ ↦[Kc (c, i, 1)]{fullShare} g)) := by
  have h : (ℓ ↦[(Finset.univ : Finset (Fin ((K (F := F)).nCore 0) × Fin ((K (F := F)).nSub 0) × Fin 2)).biUnion Kc]{fullShare} g : sProp (MM F)) = _ := pointsTo_biUnion Finset.univ Kc hd
  rw [hc] at h
  refine (show (ℓ ↦{fullShare} g : sProp (MM F)) = _ from h).trans ?_
  rw [bigSep_univ_prod]
  refine bigSep_congr fun c _ => ?_
  rw [bigSep_univ_prod]
  refine bigSep_congr fun i _ => ?_
  rw [bigSep_univ_two]

theorem ou_chunks (d : Dev nD) (g : Buf (Elt F) (ouLoc d)) :
    (ouLoc d ↦{fullShare} g : sProp (MM F))
      = bigSep Finset.univ fun c : Fin ((K (F := F)).nCore 0) => bigSep Finset.univ fun i : Fin ((K (F := F)).nSub 0) =>
          iprop((ouLoc d ↦[oSet (tileL (F := F) c i) 0]{fullShare} g) ∗ (ouLoc d ↦[oSet (tileL (F := F) c i) 1]{fullShare} g)) := by
  refine chunks_eq (F := F) (ℓ := ouLoc d) (fun t => chunk (F := F) t) ?_ ?_ g
  · rintro ⟨c, i, r⟩ - ⟨c', i', r'⟩ - hne
    rw [Finset.disjoint_left]
    intro x hx hx'
    exact chunk_apart (F := F) hne ((mem_chunk (F := F) c i r x).mp hx) ((mem_chunk (F := F) c' i' r' x).mp hx')
  · refine Finset.eq_univ_iff_forall.mpr fun x => Finset.mem_biUnion.mpr ?_
    obtain ⟨t, ht⟩ := chunk_exists (F := F) x
    exact ⟨t, Finset.mem_univ _, ht⟩

theorem oi_chunks (d : Dev nD) (g : Buf (Elt F) (oiLoc d)) :
    (oiLoc d ↦{fullShare} g : sProp (MM F))
      = bigSep Finset.univ fun c : Fin ((K (F := F)).nCore 0) => bigSep Finset.univ fun i : Fin ((K (F := F)).nSub 0) =>
          iprop((oiLoc d ↦[oSet (tileL (F := F) c i) 0]{fullShare} g) ∗ (oiLoc d ↦[oSet (tileL (F := F) c i) 1]{fullShare} g)) := by
  refine chunks_eq (F := F) (ℓ := oiLoc d) (fun t => chunk (F := F) t) ?_ ?_ g
  · rintro ⟨c, i, r⟩ - ⟨c', i', r'⟩ - hne
    rw [Finset.disjoint_left]
    intro x hx hx'
    exact chunk_apart (F := F) hne ((mem_chunk (F := F) c i r x).mp hx) ((mem_chunk (F := F) c' i' r' x).mp hx')
  · refine Finset.eq_univ_iff_forall.mpr fun x => Finset.mem_biUnion.mpr ?_
    obtain ⟨t, ht⟩ := chunk_exists (F := F) x
    exact ⟨t, Finset.mem_univ _, ht⟩
/-! ## A read-only array: remainder and tokens -/

theorem toks_tiles {ℓ : Loc nD τ sig} (f : Buf (Elt F) ℓ) :
    (ℓ ↦{fullShare} f : sProp (MM F))
      ⊣⊢ iprop((ℓ ↦{Transfers.shareDrop fullShare 32} f)
          ∗ bigSep Finset.univ fun c : Fin ((K (F := F)).nCore 0) => bigSep Finset.univ fun i : Fin ((K (F := F)).nSub 0) =>
              ℓ ↦{qOf (F := F) c i} f) := by
  have h : (ℓ ↦[Finset.univ]{fullShare} f : sProp (MM F)) ⊣⊢ _ := Transfers.pointsTo_toks fullShare 32
  rw [bigSep_tiles] at h
  exact h

theorem bigSep2_mono {Φ Ψ : Fin ((K (F := F)).nCore 0) → Fin ((K (F := F)).nSub 0) → sProp (MM F)} (h : ∀ c i, Φ c i ⊢ Ψ c i) :
    (bigSep Finset.univ fun c => bigSep Finset.univ fun i => Φ c i) ⊢ bigSep Finset.univ fun c => bigSep Finset.univ fun i => Ψ c i :=
  bigSep_mono fun c _ => bigSep_mono fun i _ => h c i

/-- Each tile's table token, at the contents the host program holds: admissible contents. -/
theorem tabs_intro {ℓ : Loc nD τ sig} (G : Buf (Elt F) ℓ → Prop) (f : Buf (Elt F) ℓ) (h : G f) :
    (bigSep Finset.univ fun c : Fin ((K (F := F)).nCore 0) => bigSep Finset.univ fun i : Fin ((K (F := F)).nSub 0) =>
        (ℓ ↦{qOf (F := F) c i} f : sProp (MM F)))
      ⊢ bigSep Finset.univ fun c : Fin ((K (F := F)).nCore 0) => bigSep Finset.univ fun i : Fin ((K (F := F)).nSub 0) =>
          iprop(∃ f8 : Buf (Elt F) ℓ, ⌜G f8⌝ ∗ ℓ ↦{qOf (F := F) c i} f8) :=
  bigSep2_mono (F := F) fun c i => by
    iintro H
    iexists f
    isplitr
    · ipureintro; exact h
    · iexact H

/-- Each chunk, at the contents the host program holds: some contents. -/
theorem chunks_intro {ℓ : Loc nD τ sig} (Kc : Fin ((K (F := F)).nCore 0) → Fin ((K (F := F)).nSub 0) → Finset (Idx ℓ)) (g : Buf (Elt F) ℓ) :
    (bigSep Finset.univ fun c : Fin ((K (F := F)).nCore 0) => bigSep Finset.univ fun i : Fin ((K (F := F)).nSub 0) =>
        (ℓ ↦[Kc c i]{fullShare} g : sProp (MM F)))
      ⊢ bigSep Finset.univ fun c : Fin ((K (F := F)).nCore 0) => bigSep Finset.univ fun i : Fin ((K (F := F)).nSub 0) =>
          iprop(∃ g' : Buf (Elt F) ℓ, ℓ ↦[Kc c i]{fullShare} g') :=
  bigSep2_mono (F := F) fun c i => by
    iintro H
    iexists g
    iexact H

/-! ## At the call -/

/-- At the call: each read-only array cut into the remainder and the 32 tiles' tokens, each output into its 64
    chunks; the tables' tokens at the contents the host program holds, which are admissible. -/
theorem call_split (d : Dev nD) (f8u : Buf (Elt F) (utLoc d)) (f8i : Buf (Elt F) (itLoc d))
    (gu : Buf (Elt F) (ouLoc d)) (gi : Buf (Elt F) (oiLoc d)) (h8u : G8u f8u) (h8i : G8i f8i) :
    iprop((uidLoc d ↦{fullShare} uid d) ∗ (iidLoc d ↦{fullShare} iid d) ∗ (utLoc d ↦{fullShare} f8u) ∗ (itLoc d ↦{fullShare} f8i)
        ∗ (ouLoc d ↦{fullShare} gu) ∗ (oiLoc d ↦{fullShare} gi))
      ⊢ iprop(rem uid iid d f8u f8i
          ∗ bigSep Finset.univ fun c : Fin ((K (F := F)).nCore 0) => (Cert.KernelIdeal.Pay.P G8u G8i R9u R9i uid iid).st 0 d c) := by
  rw [ou_chunks, oi_chunks]
  simp only [Cert.KernelIdeal.Pay.P_st, go0, tileGo, bigSep_sep']
  unfold rem
  iintro ⟨Hu, Hi, Hut, Hit, ⟨Hou0, Hou1⟩, ⟨Hoi0, Hoi1⟩⟩
  ihave Hu := (toks_tiles (F := F) _).1 $$ Hu
  icases Hu with ⟨Hu0, Hus⟩
  ihave Hi := (toks_tiles (F := F) _).1 $$ Hi
  icases Hi with ⟨Hi0, His⟩
  ihave Hut := (toks_tiles (F := F) _).1 $$ Hut
  icases Hut with ⟨Hut0, Huts⟩
  ihave Hit := (toks_tiles (F := F) _).1 $$ Hit
  icases Hit with ⟨Hit0, Hits⟩
  isplitl [Hu0 Hi0 Hut0 Hit0]
  · isplitl [Hu0]; · iexact Hu0
    isplitl [Hi0]; · iexact Hi0
    isplitl [Hut0]; · iexact Hut0
    iexact Hit0
  isplitl [Hus]; · iexact Hus
  isplitl [His]; · iexact His
  isplitl [Huts]
  · iapply (tabs_intro (F := F) (ℓ := utLoc d) G8u f8u h8u); iexact Huts
  isplitl [Hits]
  · iapply (tabs_intro (F := F) (ℓ := itLoc d) G8i f8i h8i); iexact Hits
  isplitl [Hou0]
  · iapply (chunks_intro (F := F) (ℓ := ouLoc d) (fun c i => oSet (tileL (F := F) c i) 0) gu); iexact Hou0
  isplitl [Hou1]
  · iapply (chunks_intro (F := F) (ℓ := ouLoc d) (fun c i => oSet (tileL (F := F) c i) 1) gu); iexact Hou1
  isplitl [Hoi0]
  · iapply (chunks_intro (F := F) (ℓ := oiLoc d) (fun c i => oSet (tileL (F := F) c i) 0) gi); iexact Hoi0
  · iapply (chunks_intro (F := F) (ℓ := oiLoc d) (fun c i => oSet (tileL (F := F) c i) 1) gi); iexact Hoi1

end

end Cert.KernelIdeal.Call

end
-- ==== Proof.ChainFrame.lean ====
/-
  The host program cut at its three calls, and what each host stretch leaves alone.

  The host program is nine tensor operations (two transposes and the 64 × 64 identity built from two iotas), the call that
  packs the tables, the call that gathers the rows, six reshapes, the call that evaluates the towers, and one reshape.
  Here the three stretches of tensor operations are named as lists, the host program is shown to be those lists run in
  order around the three calls, and for each stretch: which references it writes, that it touches unscoped references of
  the host processor only, that it allocates nothing, and that a reference it does not write keeps its contents. All of
  it holds at every float instance.
-/
import proofs.«204570_g59167469470423_cont_9to1_m_669_24_alg».proof.KernelIdeal
import proofs.«204570_g59167469470423_cont_9to1_m_669_24_alg».proof.Proof.Gen.KernelIdeal
import Idealize.ShloMosaic.Lib.StableHlo.Run
import Idealize.ShloMosaic.Lib.Pipeline.Frame

noncomputable section

namespace Cert.KernelIdeal.ChainFrame

open Cert.KernelIdeal Cert.KernelIdeal.Gen
open Idealize.ShloMosaic Idealize.SL.Sem

variable {F : FTy → Type} [FloatOps F]

/-! ## The three stretches -/

/-- The nine operations before the packing call: the two tables transposed, and the 64 × 64 identity as
    `convert (iota₀ + 0 == iota₁)`. -/
abbrev hostA : List (HloOp τ sig (Elt F)) :=
  [
    StableHlo.unary main_arg2 main_v0 ((transpose S64x100001 [1, 0] · Facts₀.transposes_S100001x64_S64x100001_1_0) : (⟨S100001x64, .f32⟩ : BufTy).Contents (Elt F) → (⟨S64x100001, .f32⟩ : BufTy).Contents (Elt F)),
    StableHlo.unary main_arg7 main_v1 ((transpose S64x100001 [1, 0] · Facts₀.transposes_S100001x64_S64x100001_1_0) : (⟨S100001x64, .f32⟩ : BufTy).Contents (Elt F) → (⟨S64x100001, .f32⟩ : BufTy).Contents (Elt F)),
    StableHlo.nullary main_v2 (iotaInDim S64x64 32 0),
    StableHlo.nullary main_v3 (iotaInDim S64x64 32 1),
    StableHlo.nullary main_c (constantI S_ 32 0#32),
    StableHlo.unary main_c main_v4 (broadcastInDim S64x64 ![] Facts₀.bcast_S_S64x64 : (⟨S_, .i32⟩ : BufTy).Contents (Elt F) → (⟨S64x64, .i32⟩ : BufTy).Contents (Elt F)),
    StableHlo.binary main_v2 main_v4 main_v5 (addi : (⟨S64x64, .i32⟩ : BufTy).Contents (Elt F) → (⟨S64x64, .i32⟩ : BufTy).Contents (Elt F) → (⟨S64x64, .i32⟩ : BufTy).Contents (Elt F)),
    StableHlo.binary main_v5 main_v3 main_v6 (cmpi .eq : (⟨S64x64, .i32⟩ : BufTy).Contents (Elt F) → (⟨S64x64, .i32⟩ : BufTy).Contents (Elt F) → (⟨S64x64, .i1⟩ : BufTy).Contents (Elt F)),
    StableHlo.unary main_v6 main_v7 (uitofp .f32 : (⟨S64x64, .i1⟩ : BufTy).Contents (Elt F) → (⟨S64x64, .f32⟩ : BufTy).Contents (Elt F)) ]

/-- The six reshapes between the gather and the tower call: the two id arrays as columns, the four biases as rows. -/
abbrev hostB : List (HloOp τ sig (Elt F)) :=
  [
    StableHlo.reshape main_arg0 main_v10 rfl Facts₀.shapeCasts_S16384_S16384x1,
    StableHlo.reshape main_arg1 main_v11 rfl Facts₀.shapeCasts_S16384_S16384x1,
    StableHlo.reshape main_arg4 main_v12 rfl Facts₀.shapeCasts_S128_S1x128,
    StableHlo.reshape main_arg6 main_v13 rfl Facts₀.shapeCasts_S64_S1x64,
    StableHlo.reshape main_arg9 main_v14 rfl Facts₀.shapeCasts_S128_S1x128,
    StableHlo.reshape main_arg11 main_v15 rfl Facts₀.shapeCasts_S64_S1x64 ]

/-- The last reshape: the 128 × 128 block of results as one array of 16384. -/
abbrev hostC : List (HloOp τ sig (Elt F)) :=
  [
    StableHlo.reshape main_v16 main_v17 rfl Facts₀.shapeCasts_S128x128_S16384 ]

/-! ## The host program is the stretches around the calls -/

/-- The host program: stretch A, the packing call, the gather, stretch B, the tower call, stretch C. -/
theorem main_eq (d : Dev nD) : main (F := F) d =
    (StableHlo.seq hostA >>= fun _ =>
      Prog.lift (.customCall (SparseCore.inner (Pipeline.entry 0)) ()) >>= fun _ =>
      sc.run d 0 >>= fun _ =>
      StableHlo.seq hostB >>= fun _ =>
      Prog.lift (.customCall (SparseCore.inner (Pipeline.entry 1)) ()) >>= fun _ =>
      StableHlo.seq hostC) := by
  first | rfl | fail "main_eq rfl"

/-! ## What the stretches touch, allocate and write -/

theorem hostA_tc : (hostA : List (HloOp τ sig (Elt F))).Forall fun op => op.bufs ⊆ StableHlo.tcRefs τ sig :=
  ⟨StableHlo.unary_bufs_sub .., StableHlo.unary_bufs_sub .., StableHlo.nullary_bufs_sub .., StableHlo.nullary_bufs_sub ..,
    StableHlo.nullary_bufs_sub .., StableHlo.unary_bufs_sub .., StableHlo.binary_bufs_sub .., StableHlo.binary_bufs_sub ..,
    StableHlo.unary_bufs_sub ..⟩
theorem hostB_tc : (hostB : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..,
    StableHlo.reshape_bufs_sub .., StableHlo.reshape_bufs_sub ..⟩
theorem hostC_tc : (hostC : List (HloOp τ sig (Elt F))).Forall fun op => op.bufs ⊆ StableHlo.tcRefs τ sig :=
  StableHlo.reshape_bufs_sub ..

/-- Every operation of a stretch touches unscoped references of the host processor only. -/
theorem hostA_sub : ∀ op ∈ (hostA : List (HloOp τ sig (Elt F))), op.bufs ⊆ Pipeline.ucRefs τ sig :=
  fun op h => Pipeline.sub_ucRefs op ((List.forall_iff_forall_mem.mp hostA_tc) op h)
theorem hostB_sub : ∀ op ∈ (hostB : List (HloOp τ sig (Elt F))), op.bufs ⊆ Pipeline.ucRefs τ sig :=
  fun op h => Pipeline.sub_ucRefs op ((List.forall_iff_forall_mem.mp hostB_tc) op h)
theorem hostC_sub : ∀ op ∈ (hostC : List (HloOp τ sig (Elt F))), op.bufs ⊆ Pipeline.ucRefs τ sig :=
  fun op h => Pipeline.sub_ucRefs op ((List.forall_iff_forall_mem.mp hostC_tc) op h)

/-- No operation of a stretch allocates. -/
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor
theorem hostC_fresh : (hostC : List (HloOp τ sig (Elt F))).Forall fun op => op.fresh = ∅ := by
  simp only [List.Forall]; repeat' constructor

/-- The references each stretch writes. -/
abbrev hostA_W : List (Ref sig .tc) := [main_v0, main_v1, main_v2, main_v3, main_c, main_v4, main_v5, main_v6, main_v7]
abbrev hostB_W : List (Ref sig .tc) := [main_v10, main_v11, main_v12, main_v13, main_v14, main_v15]
abbrev hostC_W : List (Ref sig .tc) := [main_v17]

theorem hostA_writes : (hostA : List (HloOp τ sig (Elt F))).Forall fun op => op.writes ⊆ (hostA_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
theorem hostB_writes : (hostB : List (HloOp τ sig (Elt F))).Forall fun op => op.writes ⊆ (hostB_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
theorem hostC_writes : (hostC : List (HloOp τ sig (Elt F))).Forall fun op => op.writes ⊆ (hostC_W.map (Proc.devRef (τ := τ) .tc)).toFinset := by
  simp only [List.Forall]
  simp only [StableHlo.nullary_writes, StableHlo.unary_writes, StableHlo.binary_writes, StableHlo.reshape_writes, Finset.singleton_subset_iff, List.mem_toFinset]; exact List.mem_map_of_mem (by decide)

/-! ## What each stretch leaves unchanged -/

theorem after_A_of (V : Valuation τ sig (Elt F)) (r : Ref sig .tc) (h : r ∉ hostA_W) :
    StableHlo.after hostA V (Proc.devRef .tc r) = V (Proc.devRef .tc r) :=
  StableHlo.after_of_writes_sub hostA _ hostA_writes h
theorem after_B_of (V : Valuation τ sig (Elt F)) (r : Ref sig .tc) (h : r ∉ hostB_W) :
    StableHlo.after hostB V (Proc.devRef .tc r) = V (Proc.devRef .tc r) :=
  StableHlo.after_of_writes_sub hostB _ hostB_writes h
theorem after_C_of (V : Valuation τ sig (Elt F)) (r : Ref sig .tc) (h : r ∉ hostC_W) :
    StableHlo.after hostC V (Proc.devRef .tc r) = V (Proc.devRef .tc r) :=
  StableHlo.after_of_writes_sub hostC _ hostC_writes h

end Cert.KernelIdeal.ChainFrame

end
-- ==== Proof.ScMainDefs.lean ====
/-
  The host program on the matrix unit's processor, from the launch to its return.

  Nine host operations build the two transposed tables and the identity matrix; the first block pipeline packs the tables;
  the call to the sparse processors gathers one packed row per batch entry and table; six reshapes lay the ids and biases
  out as the second pipeline's windows want them; the second pipeline computes the two towers and their inner product; a
  last reshape flattens the result. The buffers that are not scoped are held whole throughout, at a valuation that follows
  the program: the launch memory, then each stretch's operations applied, then what each region and the call leave.
  What the proof knows of the packed tables, of the gathered rows and of the final array is carried as three predicates,
  linked by two hypotheses; at the bit-exact reading they are trivial, at the extended reals they are the values.
-/
import proofs.«204570_g59167469470423_cont_9to1_m_669_24_alg».proof.Proof.ScSeg
import proofs.«204570_g59167469470423_cont_9to1_m_669_24_alg».proof.Proof.ScRegion
import proofs.«204570_g59167469470423_cont_9to1_m_669_24_alg».proof.Proof.ScCall
import proofs.«204570_g59167469470423_cont_9to1_m_669_24_alg».proof.Proof.ChainFrame

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)

abbrev dref (r : Ref sig .tc) : DevRef τ sig := Proc.devRef .tc r

/-! ## The valuations along the program -/

/-- At the launch. -/
abbrev V0 (d : Dev nD) : Valuation τ sig (Elt F) := fun b => m (d, b)
/-- After the first host stretch. -/
abbrev VA (d : Dev nD) : Valuation τ sig (Elt F) := StableHlo.after hostA (V0 m d)
/-- After the first pipeline, which leaves `G0`, `G1` in the packed tables. -/
abbrev V2 (d : Dev nD) (G0 : Buf (Elt F) ((d : Thread nD τ).loc main_v8_0)) (G1 : Buf (Elt F) ((d : Thread nD τ).loc main_v8_1)) : Valuation τ sig (Elt F) :=
  Seg.W0out (fun d => VA m d) d G0 G1
/-- After the call, which leaves `gu`, `gi` in the gathered rows. -/
abbrev V3 (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) :=
  Function.update (Function.update (V2 m d G0 G1) (dref main_v9_0) gu) (dref main_v9_1) gi
/-- After the second host stretch. -/
abbrev VB (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := StableHlo.after hostB (V3 m d G0 G1 gu gi)
/-- After the second pipeline. -/
abbrev V5 (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := Seg.W1out (fun d => VB m d G0 G1 gu gi) d
/-- After the last host stretch. -/
abbrev VC (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := StableHlo.after hostC (V5 m d G0 G1 gu gi)

/-! ## What is known of the values, abstractly -/

variable (G8u G8i : (S50176x128.Idx → Elt F .f32) → Prop) (R9u R9i : Fin 16384 → (Fin 128 → Elt F .f32) → Prop)
variable (Q17 : (d : Dev nD) → Buf (Elt F) ((d : Thread nD τ).loc main_v17) → Prop)

abbrev uid (d : Dev nD) : Buf (Elt F) (uidLoc d) := m (uidLoc d)
abbrev iid (d : Dev nD) : Buf (Elt F) (iidLoc d) := m (iidLoc d)

abbrev PP : (K (F := F)).Pay (nD := nD) (Val := Elt F) (Name := ℕ) (U := UU) := Pay.P G8u G8i R9u R9i (uid m) (iid m)

/-- The bound on the pairs the host program's waits have recorded before call `n`: at or below level `8 n`. -/
abbrev Bn (d : Dev nD) (n : ℕ) : Set (SemLoc sig × HIx 1) := {p | (K (F := F)).lev (T d, p.1) p.2 ≤ 8 * n}

/-- What the first pipeline may leave in the packed tables is admissible. -/
def HPack : Prop := ∀ (d : Dev nD) (O : CellTallies nD τ sig (HIx 1)) (B : Set (SemLoc sig × HIx 1))
    (G0 : Buf (Elt F) ((d : Thread nD τ).loc main_v8_0)) (G1 : Buf (Elt F) ((d : Thread nD τ).loc main_v8_1)),
  (Pack.dat (Seg.refsOf fun d => VA m d) O B d).ArrAt 5 cfg0.N G0 ∧ (Pack.dat (Seg.refsOf fun d => VA m d) O B d).ArrAt 6 cfg0.N G1 → G8u G0 ∧ G8i G1

/-- The final array is as claimed, whatever admissible rows were gathered. -/
def HFinal : Prop := ∀ (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)),
  (∀ b : Fin 16384, R9u b (fun l => gu (ix2 b l))) → (∀ b : Fin 16384, R9i b (fun l => gi (ix2 b l))) → Q17 d (VC m d G0 G1 gu gi (dref main_v17))

/-- The host program's last assertion: the buffers held at a valuation whose arguments are the launch's and whose
    result is as claimed. -/
def ArgsKept (d : Dev nD) (Wf : Valuation τ sig (Elt F)) : Prop :=
  Wf (dref main_arg0) = m ((d : Thread nD τ).loc main_arg0) ∧ Wf (dref main_arg1) = m ((d : Thread nD τ).loc main_arg1)
  ∧ Wf (dref main_arg2) = m ((d : Thread nD τ).loc main_arg2) ∧ Wf (dref main_arg3) = m ((d : Thread nD τ).loc main_arg3)
  ∧ Wf (dref main_arg4) = m ((d : Thread nD τ).loc main_arg4) ∧ Wf (dref main_arg5) = m ((d : Thread nD τ).loc main_arg5)
  ∧ Wf (dref main_arg6) = m ((d : Thread nD τ).loc main_arg6) ∧ Wf (dref main_arg7) = m ((d : Thread nD τ).loc main_arg7)
  ∧ Wf (dref main_arg8) = m ((d : Thread nD τ).loc main_arg8) ∧ Wf (dref main_arg9) = m ((d : Thread nD τ).loc main_arg9)
  ∧ Wf (dref main_arg10) = m ((d : Thread nD τ).loc main_arg10) ∧ Wf (dref main_arg11) = m ((d : Thread nD τ).loc main_arg11)

def FIN (d : Dev nD) : sProp (MM F) :=
  iprop(∃ Wf : Valuation τ sig (Elt F), ⌜ArgsKept m d Wf ∧ Q17 d (Wf (dref main_v17))⌝ ∗ StableHlo.held (T d) (Pipeline.ucRefs τ sig) Wf)

/-! ## The handshake state of the host program's thread, opened at what it owes -/

/-- Everything of the thread's handshake state before call `n` but what it owes. -/
def tcRest (d : Dev nD) (n : ℕ) : sProp (MM F) :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt (EH (F := F)) d n : sProp (MM F))
      = iprop((∃ W, ⌜(K (F := F)).WBelow (T d) W (8 * n)⌝ ∗ owes (T d) ((K (F := F)).Otc d n) W) ∗ tcRest (F := F) d n) := rfl

/-- What the host program's thread owes sits at the calls' indices, never at the kernels' own. -/
theorem Otc_none (d : Dev nD) (n : ℕ) (g : GSem nD τ sig) : (K (F := F)).Otc d n g none = 0 := by
  by_contra h
  have := (K (F := F)).lev_of_Otc_pos (Nat.pos_of_ne_zero h)
  rw [(K (F := F)).lev_none] at this
  omega

end Cert.KernelIdeal.Main

end
-- ==== Proof.ScStageHead.lean ====
/-
  The head of the host program: the nine host operations and the first block pipeline.

  From the launch contents the operations build the two transposed tables and the identity matrix; the pipeline packs
  the tables. Afterwards the held buffers are at the launch valuation with the operations applied and the two packed
  tables at what the pipeline left, which is admissible; what the thread owes is what it owed.
-/
import proofs.«204570_g59167469470423_cont_9to1_m_669_24_alg».proof.Proof.ScMainDefs

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ)
variable (G8u G8i : (S50176x128.Idx → Elt F .f32) → Prop) (R9u R9i : Fin 16384 → (Fin 128 → Elt F .f32) → Prop)

/-- The buffers the launch deals the host program's thread are the held set at the launch valuation. -/
theorem unscoped_held (d : Dev nD) :
    (unscopedBufs d (fun b => m ((SparseCore.T (τ := τ) d).loc b)) : sProp (MM F)) ⊢ StableHlo.held (SparseCore.T (τ := τ) d) (Pipeline.ucRefs τ sig) (V0 m d) := by
  rw [← Pipeline.unscopedBufs_held (Ix := HIx 1) (Name := ℕ) (U := UU) (Lvl := ℕ) d (V0 m d)]

set_option maxHeartbeats 2000000 in
set_option backward.isDefEq.respectTransparency.types false in
/-- The head, for any continuation `k` proved from what the head leaves (`hk`), a frame `R` riding along. -/
theorem stage_head (hpack : HPack m G8u G8i) (κ : GSem nD τ sig → ℕ) (d : Dev nD) (Wt : Waits sig (HIx 1))
    (hWt : (K (F := F)).WBelow (T d) Wt (8 * 0)) {α : Type}
    (k : PUnit → Prog (TpuEff nD τ sig (Elt F) (SparseCore.Sig (ΛP (F := F)) 1) .tc) α) (Φ : α → sProp (MM F)) (R : sProp (MM F))
    (hk : ∀ (G0 : Buf (Elt F) ((d : Thread nD τ).loc main_v8_0)) (G1 : Buf (Elt F) ((d : Thread nD τ).loc main_v8_1)) (Wt' : Waits sig (HIx 1)),
      G8u G0 → G8i G1 → (K (F := F)).WBelow (T d) Wt' (8 * 0) →
      iprop(R ∗ boundary (T d) ∗ StableHlo.held (T d) (Pipeline.ucRefs τ sig) (V2 m d G0 G1) ∗ owes (T d) ((K (F := F)).Otc d 0) Wt')
        ⊢ wp frame (wpE ((K (F := F)).defs (D (F := F))) 𝒱 (T d) none) Set.univ (k ⟨⟩) Φ) :
    iprop((K (F := F)).ctx (EH (F := F)) (PP m G8u G8i R9u R9i) κ ∗ boundary (T d) ∗ StableHlo.held (T d) (Pipeline.ucRefs τ sig) (V0 m d)
        ∗ owes (T d) ((K (F := F)).Otc d 0) Wt ∗ pipeGhost (F := F) 0 d ∗ R)
      ⊢ wp frame (wpE ((K (F := F)).defs (D (F := F))) 𝒱 (T d) none) Set.univ
          (StableHlo.seq hostA >>= fun _ => Prog.lift (.customCall (SparseCore.inner (Pipeline.entry 0)) ()) >>= k) Φ := by
  have hA := StableHlo.wp_seq (defs := (K (F := F)).defs (D (F := F))) 𝒱 none Set.univ d (Pipeline.ucRefs τ sig)
    (fun _ => Prog.lift (.customCall (SparseCore.inner (Pipeline.entry 0)) ()) >>= k) (K := Φ) hostA hostA_sub
    (fun op h => (List.forall_iff_forall_mem.mp hostA_fresh) op h) (V0 m d)
  have hR : iprop((iprop(boundary (T d) ∗ (∃ (G0 : Buf (Elt F) ((d : Thread nD τ).loc main_v8_0)) (G1 : Buf (Elt F) ((d : Thread nD τ).loc main_v8_1)),
            ⌜(Pack.dat (Seg.refsOf fun d => VA m d) ((K (F := F)).Otc d 0) (Bn (F := F) d 0) d).ArrAt 5 cfg0.N G0
              ∧ (Pack.dat (Seg.refsOf fun d => VA m d) ((K (F := F)).Otc d 0) (Bn (F := F) d 0) d).ArrAt 6 cfg0.N G1⌝
            ∗ StableHlo.held (T d) (Pipeline.ucRefs τ sig) (Seg.W0out (fun d => VA m d) d G0 G1)
            ∗ (Pack.dat (Seg.refsOf fun d => VA m d) ((K (F := F)).Otc d 0) (Bn (F := F) d 0) d).owesAt none (Fin.last cfg0.N)))
          -∗ wp frame (wpE ((K (F := F)).defs (D (F := F))) 𝒱 (T d) none) Set.univ (k ⟨⟩) Φ)
        ∗ boundary (T d)
        ∗ (StableHlo.held (T d) (Pipeline.ucRefs τ sig) (VA m d)
            ∗ (Pack.dat (Seg.refsOf fun d => VA m d) ((K (F := F)).Otc d 0) (Bn (F := F) d 0) d).owesAt none 0)
        ∗ levAts (K (F := F)).L (K (F := F)).lev ∗ pipeGhost (F := F) 0 d)
      ⊢ wp frame (wpE ((K (F := F)).defs (D (F := F))) 𝒱 (T d) none) Set.univ
          (Prog.lift (.customCall (SparseCore.inner (Pipeline.entry 0)) ()) >>= k) Φ :=
    Region.wp_region (p := 0) (Seg.fam (fun d => VA m d) ((K (F := F)).Otc d 0) (Bn (F := F) d 0))
      (Seg.reg0 (fun d => VA m d) ((K (F := F)).Otc d 0) (Bn (F := F) d 0) (Otc_none d 0)) d k Φ
  iintro ⟨#Hctx, Hbd, Hh, HO, Hg0, HR⟩
  iapply hA $$ [Hbd Hh]
  · isplitl [Hbd]; · iexact Hbd
    iexact Hh
  iintro ⟨Hbd, Hh⟩
  iapply hR
  isplitr [Hbd Hh HO Hg0]
  rotate_left
  · isplitl [Hbd]; · iexact Hbd
    isplitl [Hh HO]
    · isplitl [Hh]; · iexact Hh
      iexists Wt; isplitr
      · ipureintro; exact fun p hp => Or.inl (hWt p (Finset.mem_coe.mp hp))
      iexact HO
    isplitr; · iapply (SparseCore.Cfg.ctx_levAts κ); iexact Hctx
    iexact Hg0
  iintro ⟨Hbd, Hpost⟩
  icases Hpost with ⟨%G0, %G1, %hG, Hh, ⟨%Wt2, %hWt2, HO⟩⟩
  obtain ⟨h8u, h8i⟩ := hpack d _ _ G0 G1 hG
  have hW2 : (K (F := F)).WBelow (T d) Wt2 (8 * 0) := by
    intro p hp
    rcases hWt2 (Finset.mem_coe.mpr hp) with h | ⟨w, s, rfl⟩
    · exact h
    · rw [(K (F := F)).lev_none]
  iapply (hk G0 G1 Wt2 h8u h8i hW2)
  isplitl [HR]; · iexact HR
  isplitl [Hbd]; · iexact Hbd
  isplitl [Hh]; · iexact Hh
  iexact HO

end Cert.KernelIdeal.Main

end
-- ==== Proof.ScSite.lean ====
/-
  The six arrays of the call to the sparse processors, taken out of the host program's held buffers and put back.

  The call reads the two id arrays and the two packed tables and writes the two arrays of gathered rows. They are taken
  out of the held set by name, the outputs first, so that putting everything back, the outputs at what the call left,
  updates the valuation at the first output and then at the second.
-/
import proofs.«204570_g59167469470423_cont_9to1_m_669_24_alg».proof.Proof.ScSeg

noncomputable section

namespace Cert.KernelIdeal.Site

open Cert.KernelIdeal Cert.KernelIdeal.Gen Cert.KernelIdeal.Base Cert.KernelIdeal.Held Cert.KernelIdeal.Seg

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (Wc : Valuation τ sig (Elt F))

-- The held set, less the call's six arrays one after the other.
abbrev C0 : Finset (DevRef τ sig) := Pipeline.ucRefs τ sig
abbrev C1 : Finset (DevRef τ sig) := (C0).erase (dref main_v9_1)
abbrev C2 : Finset (DevRef τ sig) := (C1).erase (dref main_v9_0)
abbrev C3 : Finset (DevRef τ sig) := (C2).erase (dref main_arg0)
abbrev C4 : Finset (DevRef τ sig) := (C3).erase (dref main_arg1)
abbrev C5 : Finset (DevRef τ sig) := (C4).erase (dref main_v8_0)
abbrev C6 : Finset (DevRef τ sig) := (C5).erase (dref main_v8_1)

theorem take6 :
    (StableHlo.held (d : Thread nD τ) (Pipeline.ucRefs τ sig) Wc : sProp (MM F))
      = iprop((((d : Thread nD τ).loc main_v9_1) ↦{fullShare} (Wc (dref main_v9_1) : Buf (Elt F) ((d : Thread nD τ).loc main_v9_1)))
          ∗ (((d : Thread nD τ).loc main_v9_0) ↦{fullShare} (Wc (dref main_v9_0) : Buf (Elt F) ((d : Thread nD τ).loc main_v9_0)))
          ∗ (((d : Thread nD τ).loc main_arg0) ↦{fullShare} (Wc (dref main_arg0) : Buf (Elt F) ((d : Thread nD τ).loc main_arg0)))
          ∗ (((d : Thread nD τ).loc main_arg1) ↦{fullShare} (Wc (dref main_arg1) : Buf (Elt F) ((d : Thread nD τ).loc main_arg1)))
          ∗ (((d : Thread nD τ).loc main_v8_0) ↦{fullShare} (Wc (dref main_v8_0) : Buf (Elt F) ((d : Thread nD τ).loc main_v8_0)))
          ∗ (((d : Thread nD τ).loc main_v8_1) ↦{fullShare} (Wc (dref main_v8_1) : Buf (Elt F) ((d : Thread nD τ).loc main_v8_1)))
          ∗ StableHlo.held (d : Thread nD τ) C6 Wc) := by
  rw [take_ref d C0 Wc main_v9_1 (by mem_held),
    take_ref d C1 Wc main_v9_0 (by mem_held),
    take_ref d C2 Wc main_arg0 (by mem_held),
    take_ref d C3 Wc main_arg1 (by mem_held),
    take_ref d C4 Wc main_v8_0 (by mem_held),
    take_ref d C5 Wc main_v8_1 (by mem_held)]

theorem put6 (gu : Buf (Elt F) ((d : Thread nD τ).loc main_v9_0)) (gi : Buf (Elt F) ((d : Thread nD τ).loc main_v9_1)) :
    iprop((((d : Thread nD τ).loc main_v9_1) ↦{fullShare} gi) ∗ (((d : Thread nD τ).loc main_v9_0) ↦{fullShare} gu)
        ∗ (((d : Thread nD τ).loc main_arg0) ↦{fullShare} (Wc (dref main_arg0) : Buf (Elt F) ((d : Thread nD τ).loc main_arg0)))
        ∗ (((d : Thread nD τ).loc main_arg1) ↦{fullShare} (Wc (dref main_arg1) : Buf (Elt F) ((d : Thread nD τ).loc main_arg1)))
        ∗ (((d : Thread nD τ).loc main_v8_0) ↦{fullShare} (Wc (dref main_v8_0) : Buf (Elt F) ((d : Thread nD τ).loc main_v8_0)))
        ∗ (((d : Thread nD τ).loc main_v8_1) ↦{fullShare} (Wc (dref main_v8_1) : Buf (Elt F) ((d : Thread nD τ).loc main_v8_1)))
        ∗ StableHlo.held (d : Thread nD τ) C6 Wc)
      ⊢ (StableHlo.held (d : Thread nD τ) (Pipeline.ucRefs τ sig)
          (Function.update (Function.update Wc (dref main_v9_0) gu) (dref main_v9_1) gi) : sProp (MM F)) := by
  iintro ⟨H_v9_1, H_v9_0, H_arg0, H_arg1, H_v8_0, H_v8_1, Hr⟩
  ihave Hr := (Seg.put_ref_same d C5 Wc main_v8_1 (by mem_held)) $$ [H_v8_1 Hr]
  · isplitl [H_v8_1]; · iexact H_v8_1
    iexact Hr
  ihave Hr := (Seg.put_ref_same d C4 Wc main_v8_0 (by mem_held)) $$ [H_v8_0 Hr]
  · isplitl [H_v8_0]; · iexact H_v8_0
    iexact Hr
  ihave Hr := (Seg.put_ref_same d C3 Wc main_arg1 (by mem_held)) $$ [H_arg1 Hr]
  · isplitl [H_arg1]; · iexact H_arg1
    iexact Hr
  ihave Hr := (Seg.put_ref_same d C2 Wc main_arg0 (by mem_held)) $$ [H_arg0 Hr]
  · isplitl [H_arg0]; · iexact H_arg0
    iexact Hr
  ihave Hr := (Seg.put_ref d C1 Wc main_v9_0 (by mem_held) gu) $$ [H_v9_0 Hr]
  · isplitl [H_v9_0]; · iexact H_v9_0
    iexact Hr
  ihave Hr := (Seg.put_ref d C0 (Function.update Wc (dref main_v9_0) gu) main_v9_1 (by mem_held) gi) $$ [H_v9_1 Hr]
  · isplitl [H_v9_1]; · iexact H_v9_1
    iexact Hr
  iexact Hr

end Cert.KernelIdeal.Site

end
-- ==== Proof.ScCallJoin.lean ====
/-
  After the vector-subcore call: the tokens and the chunks rejoined.

  The host program kept the remainder of each read-only array while the 32 tiles held its read tokens. A returned token
  of an id array names the array's contents, so remainder and tokens join to the whole array. A returned token of a
  packed table may name other contents, but it shares every element with the remainder, so its contents are the
  remainder's, and again remainder and tokens join. Each output comes back as 64 chunks of 256 rows, each at contents of
  its own; every row lies in exactly one chunk, so the chunks join to one array whose every row is as claimed of its chunk.
-/
import proofs.«204570_g59167469470423_cont_9to1_m_669_24_alg».proof.Proof.ScCall

noncomputable section

namespace Cert.KernelIdeal.Call

open Cert.KernelIdeal Cert.KernelIdeal.Gen Cert.KernelIdeal.Base Cert.KernelIdeal.Tile Cert.KernelIdeal.Pay

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- The chunks' index set: sparse processor, tile, chunk number. -/
abbrev ChunkIx : Type := Fin ((K (F := F)).nCore 0) × Fin ((K (F := F)).nSub 0) × Fin 2

/-! ## A resource carried through a family -/

/-- If a resource survives each summand's change, it survives the change of every summand. -/
theorem thread {ι : Type} [DecidableEq ι] (S : Finset ι) (R : sProp 𝕄) (Φ Ψ : ι → sProp 𝕄)
    (h : ∀ t, iprop(R ∗ Φ t) ⊢ iprop(R ∗ Ψ t)) : iprop(R ∗ bigSep S Φ) ⊢ iprop(R ∗ bigSep S Ψ) := by
  induction S using Finset.induction_on with
  | empty => rw [bigSep_empty, bigSep_empty]
  | insert t S ht ih =>
    have e : bigSep (insert t S) Φ = iprop(Φ t ∗ bigSep S Φ) := bigSep_insert ht
    have e' : bigSep (insert t S) Ψ = iprop(Ψ t ∗ bigSep S Ψ) := bigSep_insert ht
    rw [e, e']
    iintro ⟨H0, Ht, HS⟩
    ihave H := ih $$ [H0 HS]
    · isplitl [H0]; · iexact H0
      iexact HS
    icases H with ⟨H0, HS⟩
    ihave H := (h t) $$ [H0 Ht]
    · isplitl [H0]; · iexact H0
      iexact Ht
    icases H with ⟨H0, Ht⟩
    isplitl [H0]; · iexact H0
    isplitl [Ht]; · iexact Ht
    iexact HS

/-! ## Tokens -/

section Tokens

variable {ℓ : Loc nD τ sig}

/-- A token at some contents beside the remainder is a token at the remainder's contents. -/
theorem pin_one {q0 q : PosShare TreeShare} (G : Buf (Elt F) ℓ → Prop) (f : Buf (Elt F) ℓ) :
    iprop((ℓ ↦{q0} f) ∗ ∃ f' : Buf (Elt F) ℓ, ⌜G f'⌝ ∗ ℓ ↦{q} f') ⊢ (iprop((ℓ ↦{q0} f) ∗ ℓ ↦{q} f) : sProp 𝕄) := by
  iintro ⟨H0, %f', -, H1⟩
  ihave Hag := (persistent_entails_right pointsTo_agree) $$ [H0 H1]
  · isplitl [H0]; · iexact H0
    iexact H1
  icases Hag with ⟨%hag, H0, H1⟩
  ihave H1' := (Entails.of_eq (pointsTo_congr (f := f') (g := f) fun i hi => (hag i (Finset.mem_inter.mpr ⟨hi, hi⟩)).1.symm)) $$ H1
  isplitl [H0]; · iexact H0
  iexact H1'

/-- The remainder and the tiles' tokens, each token at contents of its own, are the whole array at the remainder's. -/
theorem toks_join_pinned (G : Buf (Elt F) ℓ → Prop) (f : Buf (Elt F) ℓ) :
    iprop((ℓ ↦{Transfers.shareDrop fullShare 32} f)
        ∗ bigSep Finset.univ fun c : Fin ((K (F := F)).nCore 0) => bigSep Finset.univ fun i : Fin ((K (F := F)).nSub 0) =>
            iprop(∃ f' : Buf (Elt F) ℓ, ⌜G f'⌝ ∗ ℓ ↦{qOf (F := F) c i} f'))
      ⊢ (ℓ ↦{fullShare} f : sProp 𝕄) := by
  classical
  refine (thread Finset.univ _ _ (fun c : Fin ((K (F := F)).nCore 0) => bigSep Finset.univ fun i : Fin ((K (F := F)).nSub 0) =>
      (ℓ ↦{qOf (F := F) c i} f : sProp 𝕄)) fun c => ?_).trans (toks_tiles (F := F) f).2
  exact thread Finset.univ _ _ _ fun i => pin_one (q := qOf (F := F) c i) G f

end Tokens

/-! ## Chunks -/

section Chunks

variable {ℓ : Loc nD τ sig}

/-- Chunks along a family of pairwise disjoint sets that cover the array, each at contents of its own of which something
    is known, are the whole array at contents that agree with each chunk's on its set. -/
theorem chunks_join (Kc : ChunkIx (F := F) → Finset (Idx ℓ))
    (hd : ∀ t ∈ (Finset.univ : Finset (ChunkIx (F := F))), ∀ t' ∈ (Finset.univ : Finset (ChunkIx (F := F))), t ≠ t' → Disjoint (Kc t) (Kc t'))
    (hc : (Finset.univ : Finset (ChunkIx (F := F))).biUnion Kc = Finset.univ)
    (φ : ChunkIx (F := F) → Buf (Elt F) ℓ → Prop) (z : Buf (Elt F) ℓ) :
    iprop((bigSep Finset.univ fun c : Fin ((K (F := F)).nCore 0) => bigSep Finset.univ fun i : Fin ((K (F := F)).nSub 0) =>
          iprop(∃ g : Buf (Elt F) ℓ, ⌜φ (c, i, 0) g⌝ ∗ ℓ ↦[Kc (c, i, 0)]{fullShare} g))
        ∗ (bigSep Finset.univ fun c : Fin ((K (F := F)).nCore 0) => bigSep Finset.univ fun i : Fin ((K (F := F)).nSub 0) =>
          iprop(∃ g : Buf (Elt F) ℓ, ⌜φ (c, i, 1) g⌝ ∗ ℓ ↦[Kc (c, i, 1)]{fullShare} g)))
      ⊢ (iprop(∃ g : Buf (Elt F) ℓ, ⌜∀ t, ∃ g', φ t g' ∧ ∀ x ∈ Kc t, g x = g' x⌝ ∗ ℓ ↦{fullShare} g) : sProp 𝕄) := by
  classical
  have e : (bigSep Finset.univ fun t : ChunkIx (F := F) =>
        (iprop(∃ g : Buf (Elt F) ℓ, ⌜φ t g⌝ ∗ ℓ ↦[Kc t]{fullShare} g) : sProp 𝕄))
      = iprop((bigSep Finset.univ fun c : Fin ((K (F := F)).nCore 0) => bigSep Finset.univ fun i : Fin ((K (F := F)).nSub 0) =>
          iprop(∃ g : Buf (Elt F) ℓ, ⌜φ (c, i, 0) g⌝ ∗ ℓ ↦[Kc (c, i, 0)]{fullShare} g))
        ∗ (bigSep Finset.univ fun c : Fin ((K (F := F)).nCore 0) => bigSep Finset.univ fun i : Fin ((K (F := F)).nSub 0) =>
          iprop(∃ g : Buf (Elt F) ℓ, ⌜φ (c, i, 1) g⌝ ∗ ℓ ↦[Kc (c, i, 1)]{fullShare} g))) := by
    rw [← bigSep_sep', bigSep_univ_prod]
    refine bigSep_congr fun c _ => ?_
    rw [← bigSep_sep', bigSep_univ_prod]
    refine bigSep_congr fun i _ => ?_
    rw [bigSep_univ_two]
  rw [← e]
  refine (@bigSep_exists_pi 𝕄 _ (ChunkIx (F := F)) _ (fun _ => Buf (Elt F) ℓ) (fun _ => ⟨z⟩) Finset.univ
    (fun t g => (iprop(⌜φ t g⌝ ∗ ℓ ↦[Kc t]{fullShare} g) : sProp 𝕄))).trans ?_
  iintro ⟨%gs, H⟩
  ihave H2 := (BI.bigSep_pure_sep Finset.univ (fun t : ChunkIx (F := F) => φ t (gs t))
    (fun t : ChunkIx (F := F) => (ℓ ↦[Kc t]{fullShare} gs t : sProp 𝕄))) $$ H
  icases H2 with ⟨%hφ, H⟩
  ihave H' := (pointsTo_biUnion_join (ℓ := ℓ) Finset.univ Kc gs z hd) $$ H
  icases H' with ⟨%g, %hg, Hg⟩
  rw [hc]
  iexists g
  isplitr
  · ipureintro
    exact fun t => ⟨gs t, hφ t (Finset.mem_univ _), fun x hx => hg t (Finset.mem_univ _) x hx⟩
  · iexact Hg

end Chunks

/-- One output's 64 chunks, each at contents of its own whose rows are as claimed, are the output whole at contents whose
    every row is as claimed. Stated at a location whose index type is the output's. -/
theorem rows_of_chunks (R : Fin 16384 → (Fin 128 → Elt F .f32) → Prop) (g : S16384x128.Idx → Elt F .f32)
    (h : ∀ t : ChunkIx (F := F), ∃ g' : S16384x128.Idx → Elt F .f32,
      RowsOK (tileL (F := F) t.1 t.2.1) R t.2.2.val g' ∧ ∀ x ∈ chunk (F := F) t, g x = g' x) (b : Fin 16384) :
    R b (fun l => g (ix2 b l)) := by
  obtain ⟨⟨c, i, r⟩, ht⟩ := chunk_exists (F := F) (ix2 b (0 : Fin 128))
  obtain ⟨g', hrows, hg⟩ := h (c, i, r)
  have hm := (mem_chunk (F := F) c i r (ix2 b (0 : Fin 128))).mp ht
  have hfun : (fun l => g (ix2 b l)) = fun l => g' (ix2 b l) :=
    funext fun l => hg (ix2 b l) ((mem_chunk (F := F) c i r (ix2 b l)).mpr hm)
  rw [hfun]
  exact hrows b (by rw [base_tileL]; exact hm.1) (by rw [base_tileL]; exact hm.2)

/-! ## The join -/

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- After the call: tokens and chunks rejoined, every row of the outputs as claimed. -/
theorem call_join' (d : Dev nD) (f8u : Buf (Elt F) (utLoc d)) (f8i : Buf (Elt F) (itLoc d)) :
    iprop(rem uid iid d f8u f8i
        ∗ bigSep Finset.univ fun c : Fin ((K (F := F)).nCore 0) => (Cert.KernelIdeal.Pay.P G8u G8i R9u R9i uid iid).dn 0 d c)
      ⊢ iprop(∃ (gu : Buf (Elt F) (ouLoc d)) (gi : Buf (Elt F) (oiLoc d)),
          ⌜(∀ b : Fin 16384, R9u b (fun l => gu (ix2 b l))) ∧ (∀ b : Fin 16384, R9i b (fun l => gi (ix2 b l)))⌝
          ∗ (uidLoc d ↦{fullShare} uid d) ∗ (iidLoc d ↦{fullShare} iid d) ∗ (utLoc d ↦{fullShare} f8u) ∗ (itLoc d ↦{fullShare} f8i)
          ∗ (ouLoc d ↦{fullShare} gu) ∗ (oiLoc d ↦{fullShare} gi)) := by
  have z : Elt F .f32 := (f8u : S50176x128.Idx → Elt F .f32) (ix2 (⟨0, by decide⟩ : Fin 50176) (⟨0, by decide⟩ : Fin 128))
  have hjou : iprop((bigSep Finset.univ fun c : Fin ((K (F := F)).nCore 0) => bigSep Finset.univ fun i : Fin ((K (F := F)).nSub 0) =>
          iprop(∃ g : Buf (Elt F) (ouLoc d), ⌜RowsOK (tileL (F := F) c i) R9u 0 g⌝ ∗ ouLoc d ↦[oSet (tileL (F := F) c i) 0]{fullShare} g))
        ∗ (bigSep Finset.univ fun c : Fin ((K (F := F)).nCore 0) => bigSep Finset.univ fun i : Fin ((K (F := F)).nSub 0) =>
          iprop(∃ g : Buf (Elt F) (ouLoc d), ⌜RowsOK (tileL (F := F) c i) R9u 1 g⌝ ∗ ouLoc d ↦[oSet (tileL (F := F) c i) 1]{fullShare} g)))
      ⊢ (iprop(∃ g : Buf (Elt F) (ouLoc d), ⌜∀ t : ChunkIx (F := F), ∃ g' : Buf (Elt F) (ouLoc d),
          RowsOK (tileL (F := F) t.1 t.2.1) R9u t.2.2.val g' ∧ ∀ x ∈ chunk (F := F) t, g x = g' x⌝ ∗ ouLoc d ↦{fullShare} g) : sProp 𝕄) := by
    refine chunks_join (F := F) (ℓ := ouLoc d) (fun t => chunk (F := F) t) ?_ ?_
      (fun t g => RowsOK (tileL (F := F) t.1 t.2.1) R9u t.2.2.val g) (fun _ => z)
    · rintro ⟨c, i, r⟩ - ⟨c', i', r'⟩ - hne
      rw [Finset.disjoint_left]
      intro x hx hx'
      exact chunk_apart (F := F) hne ((mem_chunk (F := F) c i r x).mp hx) ((mem_chunk (F := F) c' i' r' x).mp hx')
    · refine Finset.eq_univ_iff_forall.mpr fun x => Finset.mem_biUnion.mpr ?_
      obtain ⟨t, ht⟩ := chunk_exists (F := F) x
      exact ⟨t, Finset.mem_univ _, ht⟩
  have hjoi : iprop((bigSep Finset.univ fun c : Fin ((K (F := F)).nCore 0) => bigSep Finset.univ fun i : Fin ((K (F := F)).nSub 0) =>
          iprop(∃ g : Buf (Elt F) (oiLoc d), ⌜RowsOK (tileL (F := F) c i) R9i 0 g⌝ ∗ oiLoc d ↦[oSet (tileL (F := F) c i) 0]{fullShare} g))
        ∗ (bigSep Finset.univ fun c : Fin ((K (F := F)).nCore 0) => bigSep Finset.univ fun i : Fin ((K (F := F)).nSub 0) =>
          iprop(∃ g : Buf (Elt F) (oiLoc d), ⌜RowsOK (tileL (F := F) c i) R9i 1 g⌝ ∗ oiLoc d ↦[oSet (tileL (F := F) c i) 1]{fullShare} g)))
      ⊢ (iprop(∃ g : Buf (Elt F) (oiLoc d), ⌜∀ t : ChunkIx (F := F), ∃ g' : Buf (Elt F) (oiLoc d),
          RowsOK (tileL (F := F) t.1 t.2.1) R9i t.2.2.val g' ∧ ∀ x ∈ chunk (F := F) t, g x = g' x⌝ ∗ oiLoc d ↦{fullShare} g) : sProp 𝕄) := by
    refine chunks_join (F := F) (ℓ := oiLoc d) (fun t => chunk (F := F) t) ?_ ?_
      (fun t g => RowsOK (tileL (F := F) t.1 t.2.1) R9i t.2.2.val g) (fun _ => z)
    · rintro ⟨c, i, r⟩ - ⟨c', i', r'⟩ - hne
      rw [Finset.disjoint_left]
      intro x hx hx'
      exact chunk_apart (F := F) hne ((mem_chunk (F := F) c i r x).mp hx) ((mem_chunk (F := F) c' i' r' x).mp hx')
    · refine Finset.eq_univ_iff_forall.mpr fun x => Finset.mem_biUnion.mpr ?_
      obtain ⟨t, ht⟩ := chunk_exists (F := F) x
      exact ⟨t, Finset.mem_univ _, ht⟩
  simp only [Cert.KernelIdeal.Pay.P_dn, td0, tileTd, bigSep_sep']
  unfold rem
  iintro ⟨⟨Ru, Ri, Rtu, Rti⟩, HA, HB, HC, HD, HE0, HE1, HF0, HF1⟩
  ihave Hu := (toks_tiles (F := F) (ℓ := uidLoc d) (uid d)).2 $$ [Ru HA]
  · isplitl [Ru]; · iexact Ru
    iexact HA
  ihave Hi := (toks_tiles (F := F) (ℓ := iidLoc d) (iid d)).2 $$ [Ri HB]
  · isplitl [Ri]; · iexact Ri
    iexact HB
  ihave Htu := (toks_join_pinned (F := F) (ℓ := utLoc d) G8u f8u) $$ [Rtu HC]
  · isplitl [Rtu]; · iexact Rtu
    iexact HC
  ihave Hti := (toks_join_pinned (F := F) (ℓ := itLoc d) G8i f8i) $$ [Rti HD]
  · isplitl [Rti]; · iexact Rti
    iexact HD
  ihave Hou := hjou $$ [HE0 HE1]
  · isplitl [HE0]; · iexact HE0
    iexact HE1
  icases Hou with ⟨%gu, %hgu, Hou⟩
  ihave Hoi := hjoi $$ [HF0 HF1]
  · isplitl [HF0]; · iexact HF0
    iexact HF1
  icases Hoi with ⟨%gi, %hgi, Hoi⟩
  iexists gu
  iexists gi
  isplitr
  · ipureintro
    exact ⟨rows_of_chunks (F := F) R9u gu hgu, rows_of_chunks (F := F) R9i gi hgi⟩
  isplitl [Hu]; · iexact Hu
  isplitl [Hi]; · iexact Hi
  isplitl [Htu]; · iexact Htu
  isplitl [Hti]; · iexact Hti
  isplitl [Hou]; · iexact Hou
  iexact Hoi

end

end Cert.KernelIdeal.Call

end
-- ==== Proof.ScStageCall.lean ====
/-
  The call to the sparse processors, within the host program.

  At the call the host program holds every unscoped buffer whole, the packed tables at admissible contents. The six
  arrays of the call are taken out of the held set; the four read-only ones are cut into remainder and tokens and the
  two outputs into chunks, which is what the call is handed; the call runs; what it hands back rejoins to the six
  arrays whole, the read-only ones at the contents they had and the outputs at contents every row of which is as
  claimed; and the six arrays go back into the held set, the valuation updated at the two outputs.
-/
import proofs.«204570_g59167469470423_cont_9to1_m_669_24_alg».proof.Proof.ScMainDefs
import proofs.«204570_g59167469470423_cont_9to1_m_669_24_alg».proof.Proof.ScSite
import proofs.«204570_g59167469470423_cont_9to1_m_669_24_alg».proof.Proof.ScCallJoin

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

set_option maxHeartbeats 2000000 in
/-- The call, with any continuation: the continuation runs from the handshake state after the call and the held
    buffers at the valuation updated with what the call left in the two outputs, whose rows are as claimed. -/
theorem stage_call (κ : GSem nD τ sig → ℕ) (d : Dev nD)
    (G0 : Buf (Elt F) ((d : Thread nD τ).loc main_v8_0)) (G1 : Buf (Elt F) ((d : Thread nD τ).loc main_v8_1))
    (h8u : G8u G0) (h8i : G8i G1) {α : Type}
    (k : PUnit → Prog (TpuEff nD τ sig (Elt F) (SparseCore.Sig (ΛP (F := F)) 1) .tc) α) (Φ : α → sProp (MM F)) :
    iprop((K (F := F)).ctx (EH (F := F)) (PP m G8u G8i R9u R9i) κ ∗ (K (F := F)).tcSt (EH (F := F)) d 0
        ∗ StableHlo.held (T d) (Pipeline.ucRefs τ sig) (V2 m d G0 G1)
        ∗ (∀ (gu : Buf (Elt F) ((d : Thread nD τ).loc main_v9_0)) (gi : Buf (Elt F) ((d : Thread nD τ).loc main_v9_1)),
            ⌜(∀ b : Fin 16384, R9u b (fun l => gu (ix2 b l))) ∧ (∀ b : Fin 16384, R9i b (fun l => gi (ix2 b l)))⌝
            -∗ iprop((K (F := F)).tcSt (EH (F := F)) d 1 ∗ StableHlo.held (T d) (Pipeline.ucRefs τ sig) (V3 m d G0 G1 gu gi))
            -∗ wp frame (wpE ((K (F := F)).defs (D (F := F))) 𝒱 (T d) none) Set.univ (k ⟨⟩) Φ))
      ⊢ wp frame (wpE ((K (F := F)).defs (D (F := F))) 𝒱 (T d) none) Set.univ ((K (F := F)).run d 0 >>= k) Φ := by
  -- the four read-only arrays at the held valuation: the ids as launched, the packed tables at G0, G1
  have e0 : (V2 m d G0 G1 (dref main_arg0) : Buf (Elt F) ((d : Thread nD τ).loc main_arg0)) = uid m d :=
    (Function.update_of_ne (StableHlo.devRef_ne_of_ne (by decide : main_arg0 ≠ main_v8_0)) _ _).trans
      ((Function.update_of_ne (StableHlo.devRef_ne_of_ne (by decide : main_arg0 ≠ main_v8_1)) _ _).trans
        ((after_A_of _ main_arg0 (by decide)).trans rfl))
  have e1 : (V2 m d G0 G1 (dref main_arg1) : Buf (Elt F) ((d : Thread nD τ).loc main_arg1)) = iid m d :=
    (Function.update_of_ne (StableHlo.devRef_ne_of_ne (by decide : main_arg1 ≠ main_v8_0)) _ _).trans
      ((Function.update_of_ne (StableHlo.devRef_ne_of_ne (by decide : main_arg1 ≠ main_v8_1)) _ _).trans
        ((after_A_of _ main_arg1 (by decide)).trans rfl))
  have e80 : (V2 m d G0 G1 (dref main_v8_0) : Buf (Elt F) ((d : Thread nD τ).loc main_v8_0)) = G0 :=
    Function.update_self _ _ _
  have e81 : (V2 m d G0 G1 (dref main_v8_1) : Buf (Elt F) ((d : Thread nD τ).loc main_v8_1)) = G1 :=
    (Function.update_of_ne (StableHlo.devRef_ne_of_ne (by decide : main_v8_1 ≠ main_v8_0)) _ _).trans (Function.update_self _ _ _)
  have htake := Site.take6 (F := F) d (V2 m d G0 G1)
  rw [e0, e1, e80, e81] at htake
  have hput := fun gu gi => Site.put6 (F := F) d (V2 m d G0 G1) gu gi
  simp only [e0, e1, e80, e81] at hput
  have hsplit := Call.call_split (F := F) G8u G8i R9u R9i (uid m) (iid m) d G0 G1
    (V2 m d G0 G1 (dref main_v9_0) : Buf (Elt F) ((d : Thread nD τ).loc main_v9_0))
    (V2 m d G0 G1 (dref main_v9_1) : Buf (Elt F) ((d : Thread nD τ).loc main_v9_1)) h8u h8i
  have hjoin := Call.call_join' (F := F) G8u G8i R9u R9i (uid m) (iid m) d G0 G1
  rw [wp_bind]
  iintro ⟨#Hctx, Hst, Hh, Hk⟩
  ihave Hh := (Entails.of_eq htake) $$ Hh
  icases Hh with ⟨H91, H90, Ha0, Ha1, H80, H81, Hrest⟩
  ihave Hs := hsplit $$ [Ha0 Ha1 H80 H81 H90 H91]
  · isplitl [Ha0]; · iexact Ha0
    isplitl [Ha1]; · iexact Ha1
    isplitl [H80]; · iexact H80
    isplitl [H81]; · iexact H81
    isplitl [H90]; · iexact H90
    iexact H91
  icases Hs with ⟨Hrem, Hsts⟩
  iapply ((K (F := F)).wp_run (D (F := F)) 𝒱 (EH := EH (F := F)) (P := PP m G8u G8i R9u R9i) κ d 0) $$ [Hst Hsts Hrem Hrest Hk]
  isplitr; · iexact Hctx
  isplitl [Hst]; · iexact Hst
  isplitl [Hsts]; · iexact Hsts
  iintro ⟨Hst, Hdn⟩
  ihave Hj := hjoin $$ [Hrem Hdn]
  · isplitl [Hrem]; · iexact Hrem
    iexact Hdn
  icases Hj with ⟨%gu, %gi, %hfacts, Ha0, Ha1, H80, H81, H90, H91⟩
  ihave Hh := (hput gu gi) $$ [H91 H90 Ha0 Ha1 H80 H81 Hrest]
  · isplitl [H91]; · iexact H91
    isplitl [H90]; · iexact H90
    isplitl [Ha0]; · iexact Ha0
    isplitl [Ha1]; · iexact Ha1
    isplitl [H80]; · iexact H80
    isplitl [H81]; · iexact H81
    iexact Hrest
  ispecialize Hk $$ %gu %gi %hfacts
  iapply Hk
  isplitl [Hst]; · iexact Hst
  iexact Hh

end Cert.KernelIdeal.Main

end
-- ==== Proof.ScFin.lean ====
/-
  The end of the host program: its arguments are still the launch memory's, and the final state is read.

  No host operation writes an argument, neither pipeline has an argument among its outputs, and the call to the sparse
  processors writes the gathered rows only: so the last valuation agrees with the launch memory at the twelve arguments.
  Holding every unscoped buffer whole at that valuation beside the state, the memory's contents at those buffers are the
  valuation's: the arguments read as at the launch and the result as the last valuation has it.
-/
import proofs.«204570_g59167469470423_cont_9to1_m_669_24_alg».proof.Proof.ScMainDefs

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ)
variable (Q17 : (d : Dev nD) → Buf (Elt F) ((d : Thread nD τ).loc main_v17) → Prop)

/-! ## The arguments at the last valuation -/

/-- A buffer no host stretch writes, that is no output of either pipeline and no result of the call, holds at the last
    valuation what the launch memory held. -/
theorem VC_of (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) (r : Ref sig .tc)
    (hA : r ∉ hostA_W) (hB : r ∉ hostB_W) (hC : r ∉ hostC_W)
    (h80 : r ≠ main_v8_0) (h81 : r ≠ main_v8_1) (h90 : r ≠ main_v9_0) (h91 : r ≠ main_v9_1) (h16 : r ≠ main_v16) :
    VC m d G0 G1 gu gi (dref r) = m ((d : Thread nD τ).loc r) := by
  refine (after_C_of _ r hC).trans ?_
  refine (Function.update_of_ne (StableHlo.devRef_ne_of_ne h16) _ _).trans ?_
  refine (after_B_of _ r hB).trans ?_
  refine (Function.update_of_ne (StableHlo.devRef_ne_of_ne h91) _ _).trans ?_
  refine (Function.update_of_ne (StableHlo.devRef_ne_of_ne h90) _ _).trans ?_
  refine (Function.update_of_ne (StableHlo.devRef_ne_of_ne h80) _ _).trans ?_
  refine (Function.update_of_ne (StableHlo.devRef_ne_of_ne h81) _ _).trans ?_
  exact (after_A_of _ r hA).trans rfl

/-- The twelve arguments of the last valuation are the launch memory's, whatever the pipelines and the call left in
    their outputs. -/
theorem argsKept (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) :
    ArgsKept m d (VC m d G0 G1 gu gi) :=
  ⟨VC_of m d G0 G1 gu gi main_arg0 (by decide) (by decide) (by decide) (by decide) (by decide) (by decide) (by decide) (by decide),
    VC_of m d G0 G1 gu gi main_arg1 (by decide) (by decide) (by decide) (by decide) (by decide) (by decide) (by decide) (by decide),
    VC_of m d G0 G1 gu gi main_arg2 (by decide) (by decide) (by decide) (by decide) (by decide) (by decide) (by decide) (by decide),
    VC_of m d G0 G1 gu gi main_arg3 (by decide) (by decide) (by decide) (by decide) (by decide) (by decide) (by decide) (by decide),
    VC_of m d G0 G1 gu gi main_arg4 (by decide) (by decide) (by decide) (by decide) (by decide) (by decide) (by decide) (by decide),
    VC_of m d G0 G1 gu gi main_arg5 (by decide) (by decide) (by decide) (by decide) (by decide) (by decide) (by decide) (by decide),
    VC_of m d G0 G1 gu gi main_arg6 (by decide) (by decide) (by decide) (by decide) (by decide) (by decide) (by decide) (by decide),
    VC_of m d G0 G1 gu gi main_arg7 (by decide) (by decide) (by decide) (by decide) (by decide) (by decide) (by decide) (by decide),
    VC_of m d G0 G1 gu gi main_arg8 (by decide) (by decide) (by decide) (by decide) (by decide) (by decide) (by decide) (by decide),
    VC_of m d G0 G1 gu gi main_arg9 (by decide) (by decide) (by decide) (by decide) (by decide) (by decide) (by decide) (by decide),
    VC_of m d G0 G1 gu gi main_arg10 (by decide) (by decide) (by decide) (by decide) (by decide) (by decide) (by decide) (by decide),
    VC_of m d G0 G1 gu gi main_arg11 (by decide) (by decide) (by decide) (by decide) (by decide) (by decide) (by decide) (by decide)⟩

/-! ## The final state, read -/

/-- What the final state is read as: each argument's buffer as at the launch, and the result's as claimed. -/
def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)
    ∧ s'.mem.mem ((d : Thread nD τ).loc main_arg6) = m ((d : Thread nD τ).loc main_arg6)
    ∧ s'.mem.mem ((d : Thread nD τ).loc main_arg7) = m ((d : Thread nD τ).loc main_arg7)
    ∧ s'.mem.mem ((d : Thread nD τ).loc main_arg8) = m ((d : Thread nD τ).loc main_arg8)
    ∧ s'.mem.mem ((d : Thread nD τ).loc main_arg9) = m ((d : Thread nD τ).loc main_arg9)
    ∧ s'.mem.mem ((d : Thread nD τ).loc main_arg10) = m ((d : Thread nD τ).loc main_arg10)
    ∧ s'.mem.mem ((d : Thread nD τ).loc main_arg11) = m ((d : Thread nD τ).loc main_arg11))
  ∧ Q17 d (s'.mem.mem ((d : Thread nD τ).loc main_v17))

/-- The host program's last assertion, read against the state. -/
theorem hfin (d : Dev nD) (s' : Phys nD τ sig (Elt F)) :
    iprop(FIN m Q17 d ∗ SI s') ⊢ (⌜fq m Q17 d s'⌝ : sProp (MM F)) := by
  unfold FIN StableHlo.held
  iintro ⟨⟨%Wf, %hW, Hh⟩, HSI⟩
  obtain ⟨hk, hq⟩ := hW
  ihave Hr := (pointsTo_read_all (Pipeline.ucRefs τ sig) (fun b => ((SparseCore.T (τ := τ) d).1, b)) Wf s') $$ [Hh HSI]
  · isplitl [Hh] <;> iassumption
  icases Hr with ⟨%h, -⟩
  ipureintro
  have rd : ∀ r : Ref sig .tc, (Proc.devRef (τ := τ) .tc r).isScoped = false →
      s'.mem.mem ((d : Thread nD τ).loc r) = Wf (dref r) := fun r hr => h (dref r) (mem_uc r hr)
  unfold ArgsKept at hk
  obtain ⟨k0, k1, k2, k3, k4, k5, k6, k7, k8, k9, k10, k11⟩ := hk
  refine ⟨⟨(rd main_arg0 (by decide)).trans k0,
    (rd main_arg1 (by decide)).trans k1,
    (rd main_arg2 (by decide)).trans k2,
    (rd main_arg3 (by decide)).trans k3,
    (rd main_arg4 (by decide)).trans k4,
    (rd main_arg5 (by decide)).trans k5,
    (rd main_arg6 (by decide)).trans k6,
    (rd main_arg7 (by decide)).trans k7,
    (rd main_arg8 (by decide)).trans k8,
    (rd main_arg9 (by decide)).trans k9,
    (rd main_arg10 (by decide)).trans k10,
    (rd main_arg11 (by decide)).trans k11⟩, ?_⟩
  rw [rd main_v17 (by decide)]
  exact hq

end Cert.KernelIdeal.Main

end
-- ==== Proof.ScStageTail.lean ====
/-
  The end of the host program: the second host stretch, the tower pipeline, the last reshape.

  From the buffers held at the valuation the call left, the six reshapes run to the next valuation; the tower pipeline is
  entered from there, with what the thread owes unchanged and its recorded waits within the bound below the call's own
  level, and leaves its output at the function of its inputs it computes; the last reshape runs; and the buffers are held
  at the last valuation, whose arguments are the launch memory's and whose result is as claimed.
-/
import proofs.«204570_g59167469470423_cont_9to1_m_669_24_alg».proof.Proof.ScMainDefs
import proofs.«204570_g59167469470423_cont_9to1_m_669_24_alg».proof.Proof.ScFin

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-! ## The two host stretches -/

set_option backward.isDefEq.respectTransparency.types false in
/-- The six reshapes, with any continuation. -/
theorem tail_hostB (d : Dev nD) (V : Valuation τ sig (Elt F)) {β : Type}
    (k : PUnit → Prog (TpuEff nD τ sig (Elt F) (SparseCore.Sig (ΛP (F := F)) 1) .tc) β) (Φ : β → sProp (MM F)) :
    iprop(boundary (T d) ∗ StableHlo.held (T d) (Pipeline.ucRefs τ sig) V)
      ⊢ iprop((iprop(boundary (T d) ∗ StableHlo.held (T d) (Pipeline.ucRefs τ sig) (StableHlo.after hostB V))
            -∗ wp frame (wpE ((K (F := F)).defs (D (F := F))) 𝒱 (T d) none) Set.univ (k ⟨⟩) Φ)
          -∗ wp frame (wpE ((K (F := F)).defs (D (F := F))) 𝒱 (T d) none) Set.univ (StableHlo.seq hostB >>= k) Φ) :=
  StableHlo.wp_seq (defs := (K (F := F)).defs (D (F := F))) 𝒱 none Set.univ d (Pipeline.ucRefs τ sig) k hostB hostB_sub
    (fun op h => (List.forall_iff_forall_mem.mp hostB_fresh) op h) V

set_option backward.isDefEq.respectTransparency.types false in
/-- The last reshape, with any continuation. -/
theorem tail_hostC (d : Dev nD) (V : Valuation τ sig (Elt F)) {β : Type}
    (k : PUnit → Prog (TpuEff nD τ sig (Elt F) (SparseCore.Sig (ΛP (F := F)) 1) .tc) β) (Φ : β → sProp (MM F)) :
    iprop(boundary (T d) ∗ StableHlo.held (T d) (Pipeline.ucRefs τ sig) V)
      ⊢ iprop((iprop(boundary (T d) ∗ StableHlo.held (T d) (Pipeline.ucRefs τ sig) (StableHlo.after hostC V))
            -∗ wp frame (wpE ((K (F := F)).defs (D (F := F))) 𝒱 (T d) none) Set.univ (k ⟨⟩) Φ)
          -∗ wp frame (wpE ((K (F := F)).defs (D (F := F))) 𝒱 (T d) none) Set.univ (StableHlo.seq hostC >>= k) Φ) :=
  StableHlo.wp_seq (defs := (K (F := F)).defs (D (F := F))) 𝒱 none Set.univ d (Pipeline.ucRefs τ sig) k hostC hostC_sub
    (fun op h => (List.forall_iff_forall_mem.mp hostC_fresh) op h) V

/-- The last reshape as the last statement: the buffers held at the valuation after it. -/
theorem tail_hostC_last (d : Dev nD) (V : Valuation τ sig (Elt F)) (Φ : PUnit → sProp (MM F)) :
    iprop(boundary (T d) ∗ StableHlo.held (T d) (Pipeline.ucRefs τ sig) V
        ∗ (iprop(boundary (T d) ∗ StableHlo.held (T d) (Pipeline.ucRefs τ sig) (StableHlo.after hostC V)) -∗ Φ ⟨⟩))
      ⊢ wp frame (wpE ((K (F := F)).defs (D (F := F))) 𝒱 (T d) none) Set.univ
          (StableHlo.seq hostC : Prog (TpuEff nD τ sig (Elt F) (SparseCore.Sig (ΛP (F := F)) 1) .tc) PUnit) Φ := by
  have e : (StableHlo.seq hostC : Prog (TpuEff nD τ sig (Elt F) (SparseCore.Sig (ΛP (F := F)) 1) .tc) PUnit)
      = StableHlo.seq hostC >>= fun _ => pure ⟨⟩ := (bind_pure _).symm
  rw [e]
  iintro ⟨Hbd, Hh, Hk⟩
  iapply (tail_hostC (F := F) d V (fun _ => pure ⟨⟩) Φ) $$ [Hbd Hh]
  · isplitl [Hbd]; · iexact Hbd
    iexact Hh
  iintro H
  rw [show (pure ⟨⟩ : Prog (TpuEff nD τ sig (Elt F) (SparseCore.Sig (ΛP (F := F)) 1) .tc) PUnit) = .ret ⟨⟩ from rfl, wp_ret]
  imodintro
  iapply Hk
  iexact H

/-! ## The tower pipeline -/

/-- A set of recorded pairs within the bound of call 1 and the pipeline's own pairs lies below the call's level. -/
theorem wbelow_of_bound (d : Dev nD) (W : Dev nD → Valuation τ sig (Elt F)) (t : Fin (cfg2.N + 1)) (W' : Waits sig (HIx 1))
    (h : (↑W' : Set (SemLoc sig × HIx 1)) ⊆ (Mlp.dat (Seg.refsOf W) ((K (F := F)).Otc d 1) (Bn (F := F) d 1) d).bound none t) :
    (K (F := F)).WBelow (T d) W' 8 := by
  intro p hp
  rcases h hp with hb | ⟨w, s, rfl⟩
  · exact le_of_le_of_eq hb (Nat.mul_one 8)
  · rw [(K (F := F)).lev_none]; exact Nat.zero_le _

/-- A set of recorded pairs below the call's level lies within the bound the pipeline is entered with. -/
theorem bound_of_wbelow (d : Dev nD) (W : Dev nD → Valuation τ sig (Elt F)) (t : Fin (cfg2.N + 1)) (Wt : Waits sig (HIx 1))
    (h : (K (F := F)).WBelow (T d) Wt 8) :
    (↑Wt : Set (SemLoc sig × HIx 1)) ⊆ (Mlp.dat (Seg.refsOf W) ((K (F := F)).Otc d 1) (Bn (F := F) d 1) d).bound none t :=
  fun p hp => Or.inl (le_of_le_of_eq (h p hp) (Nat.mul_one 8).symm)

set_option maxHeartbeats 2000000 in
set_option backward.isDefEq.respectTransparency.types false in
/-- The tower pipeline entered from the buffers held at `W d`, with any continuation: it leaves them held with its output
    at the function of its inputs it computes, what the thread owes unchanged, its recorded pairs still below the call's
    level. -/
theorem tail_region (κ : GSem nD τ sig → ℕ) (d : Dev nD) (W : Dev nD → Valuation τ sig (Elt F)) (Wt : Waits sig (HIx 1))
    (hWt : (K (F := F)).WBelow (T d) Wt 8) {α : Type}
    (k : PUnit → Prog (TpuEff nD τ sig (Elt F) (SparseCore.Sig (ΛP (F := F)) 1) .tc) α) (Φ : α → sProp (MM F)) :
    iprop((K (F := F)).ctx (EH (F := F)) (PP m G8u G8i R9u R9i) κ ∗ boundary (T d)
        ∗ StableHlo.held (T d) (Pipeline.ucRefs τ sig) (W d) ∗ owes (T d) ((K (F := F)).Otc d 1) Wt ∗ pipeGhost (F := F) 1 d
        ∗ (iprop(boundary (T d) ∗ StableHlo.held (T d) (Pipeline.ucRefs τ sig) (Seg.W1out W d)
              ∗ ∃ W', ⌜(K (F := F)).WBelow (T d) W' 8⌝ ∗ owes (T d) ((K (F := F)).Otc d 1) W')
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  have hR : iprop((iprop(boundary (T d) ∗ (StableHlo.held (d : Thread nD τ) (Pipeline.ucRefs τ sig) (Seg.W1out W d)
            ∗ (Mlp.dat (Seg.refsOf W) ((K (F := F)).Otc d 1) (Bn (F := F) d 1) d).owesAt none (Fin.last cfg2.N)))
          -∗ wp frame (wpE ((K (F := F)).defs (D (F := F))) 𝒱 (T d) none) Set.univ (k ⟨⟩) Φ)
        ∗ boundary (T d)
        ∗ (StableHlo.held (d : Thread nD τ) (Pipeline.ucRefs τ sig) (W d)
            ∗ (Mlp.dat (Seg.refsOf W) ((K (F := F)).Otc d 1) (Bn (F := F) d 1) d).owesAt none 0)
        ∗ levAts (K (F := F)).L (K (F := F)).lev ∗ pipeGhost (F := F) 1 d)
      ⊢ wp frame (wpE ((K (F := F)).defs (D (F := F))) 𝒱 (T d) none) Set.univ
          (Prog.lift (.customCall (SparseCore.inner (Pipeline.entry 1)) ()) >>= k) Φ :=
    Region.wp_region (F := F) (p := 1) (Seg.fam W ((K (F := F)).Otc d 1) (Bn (F := F) d 1))
      (Seg.reg1 W ((K (F := F)).Otc d 1) (Bn (F := F) d 1) (Otc_none (F := F) d 1)) d k Φ
  iintro ⟨#Hctx, Hbd, Hh, HO, Hg, Hk⟩
  iapply hR
  isplitl [Hk]
  · iintro ⟨Hbd, Hh, %W', %hW', HO⟩
    iapply Hk
    isplitl [Hbd]; · iexact Hbd
    isplitl [Hh]; · iexact Hh
    iexists W'
    isplitr
    · ipureintro; exact wbelow_of_bound (F := F) d W _ W' hW'
    · iexact HO
  isplitl [Hbd]; · iexact Hbd
  isplitl [Hh HO]
  · isplitl [Hh]; · iexact Hh
    iexists Wt
    isplitr
    · ipureintro; exact bound_of_wbelow (F := F) d W _ Wt hWt
    · iexact HO
  isplitr
  · iapply (SparseCore.Cfg.ctx_levAts κ); iexact Hctx
  iexact Hg

set_option maxHeartbeats 2000000 in
set_option backward.isDefEq.respectTransparency.types false in
/-- THE TAIL of the host program on device `d`, from the state after the call. -/
theorem stage_tail (hfinal : HFinal m R9u R9i Q17) (κ : GSem nD τ sig → ℕ) (d : Dev nD)
    (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1))
    (h9u : ∀ b : Fin 16384, R9u b (fun l => gu (ix2 b l))) (h9i : ∀ b : Fin 16384, R9i b (fun l => gi (ix2 b l)))
    (Wt : Waits sig (HIx 1)) (hWt : (K (F := F)).WBelow (T d) Wt 8) :
    iprop((K (F := F)).ctx (EH (F := F)) (PP m G8u G8i R9u R9i) κ ∗ boundary (T d)
        ∗ StableHlo.held (T d) (Pipeline.ucRefs τ sig) (V3 m d G0 G1 gu gi)
        ∗ owes (T d) ((K (F := F)).Otc d 1) Wt ∗ pipeGhost (F := F) 1 d)
      ⊢ wp frame (wpE ((K (F := F)).defs (D (F := F))) 𝒱 (T d) none) Set.univ
          (StableHlo.seq hostB >>= fun _ => Prog.lift (.customCall (SparseCore.inner (Pipeline.entry 1)) ()) >>= fun _ => StableHlo.seq hostC)
          (fun _ => iprop((∃ W', ⌜(K (F := F)).WBelow (T d) W' 8⌝ ∗ owes (T d) ((K (F := F)).Otc d 1) W') ∗ FIN m Q17 d)) := by
  iintro ⟨#Hctx, Hbd, Hh, HO, Hg⟩
  iapply (tail_hostB (F := F) d (V3 m d G0 G1 gu gi)
    (fun _ => Prog.lift (.customCall (SparseCore.inner (Pipeline.entry 1)) ()) >>= fun _ => StableHlo.seq hostC)
    (fun _ => iprop((∃ W', ⌜(K (F := F)).WBelow (T d) W' 8⌝ ∗ owes (T d) ((K (F := F)).Otc d 1) W') ∗ FIN m Q17 d))) $$ [Hbd Hh]
  · isplitl [Hbd]; · iexact Hbd
    iexact Hh
  iintro ⟨Hbd, Hh⟩
  iapply (tail_region m G8u G8i R9u R9i κ d (fun d => VB m d G0 G1 gu gi) Wt hWt (fun _ => StableHlo.seq hostC)
    (fun _ => iprop((∃ W', ⌜(K (F := F)).WBelow (T d) W' 8⌝ ∗ owes (T d) ((K (F := F)).Otc d 1) W') ∗ FIN m Q17 d)))
  isplitr; · iexact Hctx
  isplitl [Hbd]; · iexact Hbd
  isplitl [Hh]; · iexact Hh
  isplitl [HO]; · iexact HO
  isplitl [Hg]; · iexact Hg
  iintro ⟨Hbd, Hh, HW⟩
  iapply (tail_hostC_last (F := F) d (V5 m d G0 G1 gu gi)
    (fun _ => iprop((∃ W', ⌜(K (F := F)).WBelow (T d) W' 8⌝ ∗ owes (T d) ((K (F := F)).Otc d 1) W') ∗ FIN m Q17 d)))
  isplitl [Hbd]; · iexact Hbd
  isplitl [Hh]; · iexact Hh
  iintro ⟨-, Hh⟩
  isplitl [HW]; · iexact HW
  unfold FIN
  iexists (VC m d G0 G1 gu gi)
  isplitr
  · ipureintro; exact ⟨argsKept m d G0 G1 gu gi, hfinal d G0 G1 gu gi h9u h9i⟩
  · iexact Hh

end Cert.KernelIdeal.Main

end
-- ==== Proof.ScMain.lean ====
/-
  The host program on the matrix unit's processor, run: its head, the call to the sparse processors and its tail, each
  proved by itself for any continuation, composed; the thread's handshake state is opened at what it owes around each
  block pipeline and closed again around the call.
-/
import proofs.«204570_g59167469470423_cont_9to1_m_669_24_alg».proof.Proof.ScStageHead
import proofs.«204570_g59167469470423_cont_9to1_m_669_24_alg».proof.Proof.ScStageCall
import proofs.«204570_g59167469470423_cont_9to1_m_669_24_alg».proof.Proof.ScStageTail

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-- What follows the first pipeline. -/
abbrev afterPack (d : Dev nD) : Prog (TpuEff nD τ sig (Elt F) (SparseCore.Sig (ΛP (F := F)) 1) .tc) PUnit :=
  (K (F := F)).run d 0 >>= fun _ => StableHlo.seq hostB >>= fun _ =>
    Prog.lift (.customCall (SparseCore.inner (Pipeline.entry 1)) ()) >>= fun _ => StableHlo.seq hostC

set_option maxHeartbeats 2000000 in
set_option backward.isDefEq.respectTransparency.types false in
/-- The call and the tail, from the packed tables: the thread's handshake state before the call, the held buffers, the
    region boundary and the second pipeline's launch ghost state. -/
theorem call_then_tail (hfinal : HFinal m R9u R9i Q17) (κ : GSem nD τ sig → ℕ) (d : Dev nD)
    (G0 : Buf (Elt F) ((d : Thread nD τ).loc main_v8_0)) (G1 : Buf (Elt F) ((d : Thread nD τ).loc main_v8_1)) (h8u : G8u G0) (h8i : G8i G1) :
    iprop((K (F := F)).ctx (EH (F := F)) (PP m G8u G8i R9u R9i) κ ∗ (K (F := F)).tcSt (EH (F := F)) d 0
        ∗ StableHlo.held (T d) (Pipeline.ucRefs τ sig) (V2 m d G0 G1) ∗ boundary (T d) ∗ pipeGhost (F := F) 1 d)
      ⊢ wp frame (wpE ((K (F := F)).defs (D (F := F))) 𝒱 (T d) none) Set.univ (afterPack (F := F) d)
          fun _ => iprop((K (F := F)).tcSt (EH (F := F)) d 1 ∗ FIN m Q17 d) := by
  iintro ⟨#Hctx, Hst, Hh, Hbd, Hg1⟩
  iapply (stage_call m G8u G8i R9u R9i κ d G0 G1 h8u h8i _ _)
  isplitr; · iexact Hctx
  isplitl [Hst]; · iexact Hst
  isplitl [Hh]; · iexact Hh
  iintro %gu %gi %hf ⟨Hst1, Hh⟩
  ihave Hst1' := (Entails.of_eq (tcSt_eq (F := F) d 1)) $$ Hst1
  icases Hst1' with ⟨⟨%W1, %hW1, HO⟩, Hrest1⟩
  iapply (wp_wand_r frame _ Set.univ)
  isplitl [Hbd Hh HO Hg1]
  · iapply (stage_tail m G8u G8i R9u R9i Q17 hfinal κ d G0 G1 gu gi hf.1 hf.2 W1 hW1)
    isplitr; · iexact Hctx
    isplitl [Hbd]; · iexact Hbd
    isplitl [Hh]; · iexact Hh
    isplitl [HO]; · iexact HO
    iexact Hg1
  · iintro %_ ⟨HO', HF⟩
    isplitl [HO' Hrest1]
    · iapply (Entails.of_eq (tcSt_eq (F := F) d 1).symm)
      isplitl [HO']; · iexact HO'
      iexact Hrest1
    iexact HF

set_option maxHeartbeats 2000000 in
set_option backward.isDefEq.respectTransparency.types false in
/-- THE HOST PROGRAM on device `d`: from what the launch deals its thread to its handshake state after the one call and
    the final assertion. -/
theorem hmain (hpack : HPack m G8u G8i) (hfinal : HFinal m R9u R9i Q17) (hU : ∀ d j, (uid m d j).toNat ≤ 99999)
    (κ : GSem nD τ sig → ℕ) (d : Dev nD) :
    iprop((K (F := F)).ctx (EH (F := F)) (PP m G8u G8i R9u R9i) κ ∗ (K (F := F)).tcSt (EH (F := F)) d 0 ∗ (K (F := F)).tcRes m ρ d ∗ G (F := F) d)
      ⊢ wp frame (wpE ((K (F := F)).defs (D (F := F))) 𝒱 (T d) none) Set.univ (main (F := F) d)
          fun _ => iprop((K (F := F)).tcSt (EH (F := F)) d 1 ∗ FIN m Q17 d) := by
  have hk : ∀ (G0 : Buf (Elt F) ((d : Thread nD τ).loc main_v8_0)) (G1 : Buf (Elt F) ((d : Thread nD τ).loc main_v8_1)) (Wt' : Waits sig (HIx 1)),
      G8u G0 → G8i G1 → (K (F := F)).WBelow (T d) Wt' (8 * 0) →
      iprop(iprop((K (F := F)).ctx (EH (F := F)) (PP m G8u G8i R9u R9i) κ ∗ tcRest (F := F) d 0 ∗ pipeGhost (F := F) 1 d)
          ∗ boundary (T d) ∗ StableHlo.held (T d) (Pipeline.ucRefs τ sig) (V2 m d G0 G1) ∗ owes (T d) ((K (F := F)).Otc d 0) Wt')
        ⊢ wp frame (wpE ((K (F := F)).defs (D (F := F))) 𝒱 (T d) none) Set.univ (afterPack (F := F) d)
            fun _ => iprop((K (F := F)).tcSt (EH (F := F)) d 1 ∗ FIN m Q17 d) := by
    intro G0 G1 Wt' h8u h8i hW'
    iintro ⟨⟨#Hctx, Hrest, Hg1⟩, Hbd, Hh, HO⟩
    iapply (call_then_tail m G8u G8i R9u R9i Q17 hfinal κ d G0 G1 h8u h8i)
    isplitr; · iexact Hctx
    isplitl [HO Hrest]
    · iapply (Entails.of_eq (tcSt_eq (F := F) d 0).symm)
      isplitl [HO]
      · iexists Wt'; isplitr; · ipureintro; exact hW'
        iexact HO
      iexact Hrest
    isplitl [Hh]; · iexact Hh
    isplitl [Hbd]; · iexact Hbd
    iexact Hg1
  rw [main_eq]
  unfold SparseCore.Cfg.tcRes
  iintro ⟨#Hctx, Hst, ⟨Hbd, Hub, -, -⟩, ⟨Hg0, Hg1⟩⟩
  ihave Hh := (unscoped_held m d) $$ Hub
  ihave Hst' := (Entails.of_eq (tcSt_eq (F := F) d 0)) $$ Hst
  icases Hst' with ⟨⟨%Wt, %hWt, HO⟩, Hrest⟩
  iapply (stage_head m G8u G8i R9u R9i hpack κ d Wt hWt _ _ _ hk)
  isplitr; · iexact Hctx
  isplitl [Hbd]; · iexact Hbd
  isplitl [Hh]; · iexact Hh
  isplitl [HO]; · iexact HO
  isplitl [Hg0]; · iexact Hg0
  isplitr; · iexact Hctx
  isplitl [Hrest]; · iexact Hrest
  iexact Hg1

end Cert.KernelIdeal.Main

end
-- ==== Proof.TileSetup.lean ====
/-
  The tile's own storage, named: its eight transfer semaphores at zero and its four scratch buffers, taken out of the
  subcore's scoped storage; and the arrays as the tile's memrefs address them.
-/
import proofs.«204570_g59167469470423_cont_9to1_m_669_24_alg».proof.Proof.TileDefs
import proofs.«204570_g59167469470423_cont_9to1_m_669_24_alg».proof.Proof.ScBase

noncomputable section

namespace Cert.KernelIdeal.Tile

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-- A big star over a finite set splits along a subset. -/
theorem bigSep_split_subset {I : Type} [DecidableEq I] {s t : Finset I} (h : t ⊆ s) (Φ : I → sProp (MM F)) :
    bigSep s Φ = iprop(bigSep t Φ ∗ bigSep (s \ t) Φ) := by
  conv_lhs => rw [← Finset.union_sdiff_of_subset h]
  exact SparseCore.bigSep_union' Finset.disjoint_sdiff

theorem ref_ni0 : (cc1_scratch0 : Ref sig .scVector) ∉ ({cc1_scratch1, cc1_scratch2, cc1_scratch3} : Finset (Ref sig .scVector)) := by decide
theorem ref_ni1 : (cc1_scratch1 : Ref sig .scVector) ∉ ({cc1_scratch2, cc1_scratch3} : Finset (Ref sig .scVector)) := by decide
theorem ref_ni2 : (cc1_scratch2 : Ref sig .scVector) ∉ ({cc1_scratch3} : Finset (Ref sig .scVector)) := by decide

section Own

variable (d : Dev nD) (L : grid1.Coords)

/-- One of the tile's transfer semaphores, as a cell. -/
abbrev semOf (sm : DmaSems sig S_) : GSem nD τ sig := (thr d L, .dma sm.sem)

/-- The eight semaphores the kernel is passed. -/
def sems8 : Finset (SemLoc sig) :=
  {.dma cc1_scratch4.sem, .dma cc1_scratch5.sem, .dma cc1_scratch6.sem, .dma cc1_scratch7.sem,
   .dma cc1_scoped0.sem, .dma cc1_scoped1.sem, .dma cc1_scoped2.sem, .dma cc1_scoped3.sem}

/-- The tile's eight cells. -/
def cells8 : Finset (GSem nD τ sig) := sems8.image fun sm => ((thr d L, sm) : GSem nD τ sig)

theorem cells8_sub : cells8 d L ⊆ ownCells (thr d L) := by
  intro g hg
  obtain ⟨sm, hsm, rfl⟩ := Finset.mem_image.mp hg
  rw [mem_ownCells]
  have hsc : ∀ sm ∈ (sems8 : Finset (SemLoc sig)), sm.isScoped .scVector = true := by decide
  exact ⟨rfl, hsc sm hsm⟩

theorem ownSems0_V8 :
    (ownSems0 (thr d L) : sProp (MM F))
      = iprop((semVal (semOf d L cc1_scratch4) 0 ∗ semVal (semOf d L cc1_scratch5) 0 ∗ semVal (semOf d L cc1_scratch6) 0
          ∗ semVal (semOf d L cc1_scratch7) 0 ∗ semVal (semOf d L cc1_scoped0) 0 ∗ semVal (semOf d L cc1_scoped1) 0
          ∗ semVal (semOf d L cc1_scoped2) 0 ∗ semVal (semOf d L cc1_scoped3) 0)
          ∗ bigSep (ownCells (thr d L) \ cells8 d L) fun g => semVal g 0) := by
  unfold SparseCore.Cfg.ownSems0
  rw [bigSep_split_subset (cells8_sub d L)]
  unfold cells8
  rw [SparseCore.bigSep_image_of_injOn (fun a _ b _ e => (Prod.mk.inj e).2)]
  unfold sems8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The four scratch buffers the kernel is passed. -/
def refs4 : Finset (Ref sig .scVector) := {cc1_scratch0, cc1_scratch1, cc1_scratch2, cc1_scratch3}

/-- The tile's four scratch buffers, as buffers of the device. -/
def bufs4 : Finset (DevRef τ sig) := refs4.image fun b => (Proc.scVector (cV L) (jV L)).devRef b

theorem bufs4_sub : bufs4 L ⊆ ownRefs (τ := τ) (.scVector (cV L) (jV L)) := by
  intro b hb
  obtain ⟨r, hr, rfl⟩ := Finset.mem_image.mp hb
  simp only [refs4, Finset.mem_insert, Finset.mem_singleton] at hr
  rcases hr with rfl | rfl | rfl | rfl <;> exact SparseCore.Cfg.mem_ownRefs_of_owner rfl

theorem ownBufs_V4 :
    (ownBufs (thr d L) : sProp (MM F))
      = iprop(((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f))
          ∗ bigSep (ownRefs (τ := τ) (.scVector (cV L) (jV L)) \ bufs4 L) fun b => iprop(∃ f, ((d, b) : Loc nD τ sig) ↦{fullShare} f)) := by
  unfold SparseCore.Cfg.ownBufs
  refine (bigSep_split_subset (bufs4_sub L) _).trans ?_
  unfold bufs4
  rw [SparseCore.bigSep_image_of_injOn (fun a _ b _ e => Proc.devRef_injective _ e)]
  unfold refs4
  rw [SparseCore.bigSep_insert' ref_ni0, SparseCore.bigSep_insert' ref_ni1, SparseCore.bigSep_insert' ref_ni2, bigSep_singleton]

end Own

/-! ## The arrays as the tile's memrefs address them -/

section Spell

variable (d : Dev nD) (L : grid1.Coords)

/-- The kernel's operands, as the body table passes them. -/
abbrev uidW : Memref sig .scVector .hbm S16384 .i32 := Memref.whole main_arg0_scv
abbrev iidW : Memref sig .scVector .hbm S16384 .i32 := Memref.whole main_arg1_scv
abbrev utW : Memref sig .scVector .hbm S50176x128 .f32 := Memref.whole main_v8_0_scv
abbrev itW : Memref sig .scVector .hbm S50176x128 .f32 := Memref.whole main_v8_1_scv
abbrev ouW : Memref sig .scVector .hbm S16384x128 .f32 := Memref.whole main_v9_0_scv
abbrev oiW : Memref sig .scVector .hbm S16384x128 .f32 := Memref.whole main_v9_1_scv
abbrev sU : Memref sig .scVector .vmem S256 .i32 := Memref.whole cc1_scratch0
abbrev sI : Memref sig .scVector .vmem S256 .i32 := Memref.whole cc1_scratch1
abbrev rU : Memref sig .scVector .vmem S256x128 .f32 := Memref.whole cc1_scratch2
abbrev rI : Memref sig .scVector .vmem S256x128 .f32 := Memref.whole cc1_scratch3

/-- The output chunks as the program slices them. -/
abbrev ouC0 : Memref sig .scVector .hbm S256x128 .f32 := ouW.slice (oRect0 L) (fun _ => rfl)
abbrev ouC1 : Memref sig .scVector .hbm S256x128 .f32 := ouW.slice (oRect1 L) (fun _ => rfl)
abbrev oiC0 : Memref sig .scVector .hbm S256x128 .f32 := oiW.slice (oRect0 L) (fun _ => rfl)
abbrev oiC1 : Memref sig .scVector .hbm S256x128 .f32 := oiW.slice (oRect1 L) (fun _ => rfl)

theorem pts_uid (q : PosShare TreeShare) (f : Buf (Elt F) (uidLoc d)) :
    ((uidW).view.loc (thr d L) ↦{q} f : sProp (MM F)) = uidLoc d ↦{q} f := by simp only [Memref.view_whole, View.set_whole]
theorem pts_iid (q : PosShare TreeShare) (f : Buf (Elt F) (iidLoc d)) :
    ((iidW).view.loc (thr d L) ↦{q} f : sProp (MM F)) = iidLoc d ↦{q} f := by simp only [Memref.view_whole, View.set_whole]
theorem pts_ut (q : PosShare TreeShare) (f : Buf (Elt F) (utLoc d)) :
    ((utW).view.loc (thr d L) ↦{q} f : sProp (MM F)) = utLoc d ↦{q} f := by simp only [Memref.view_whole, View.set_whole]
theorem pts_it (q : PosShare TreeShare) (f : Buf (Elt F) (itLoc d)) :
    ((itW).view.loc (thr d L) ↦{q} f : sProp (MM F)) = itLoc d ↦{q} f := by simp only [Memref.view_whole, View.set_whole]

theorem set_ouC0 : (ouC0 L).view.set = oSet L 0 := by
  show ((View.whole (main_v9_0_scv : Ref sig .scVector)).slice (oRect0 L)).set = (oRect0 L).set
  rw [View.set_slice]; exact Finset.map_refl
theorem set_ouC1 : (ouC1 L).view.set = oSet L 1 := by
  show ((View.whole (main_v9_0_scv : Ref sig .scVector)).slice (oRect1 L)).set = (oRect1 L).set
  rw [View.set_slice]; exact Finset.map_refl
theorem set_oiC0 : (oiC0 L).view.set = oSet L 0 := by
  show ((View.whole (main_v9_1_scv : Ref sig .scVector)).slice (oRect0 L)).set = (oRect0 L).set
  rw [View.set_slice]; exact Finset.map_refl
theorem set_oiC1 : (oiC1 L).view.set = oSet L 1 := by
  show ((View.whole (main_v9_1_scv : Ref sig .scVector)).slice (oRect1 L)).set = (oRect1 L).set
  rw [View.set_slice]; exact Finset.map_refl

theorem pts_ouC0 (f : Buf (Elt F) (ouLoc d)) :
    ((ouC0 L).view.loc (thr d L) ↦[(ouC0 L).view.set]{fullShare} f : sProp (MM F)) = ouLoc d ↦[oSet L 0]{fullShare} f := by rw [set_ouC0]
theorem pts_ouC1 (f : Buf (Elt F) (ouLoc d)) :
    ((ouC1 L).view.loc (thr d L) ↦[(ouC1 L).view.set]{fullShare} f : sProp (MM F)) = ouLoc d ↦[oSet L 1]{fullShare} f := by rw [set_ouC1]
theorem pts_oiC0 (f : Buf (Elt F) (oiLoc d)) :
    ((oiC0 L).view.loc (thr d L) ↦[(oiC0 L).view.set]{fullShare} f : sProp (MM F)) = oiLoc d ↦[oSet L 0]{fullShare} f := by rw [set_oiC0]
theorem pts_oiC1 (f : Buf (Elt F) (oiLoc d)) :
    ((oiC1 L).view.loc (thr d L) ↦[(oiC1 L).view.set]{fullShare} f : sProp (MM F)) = oiLoc d ↦[oSet L 1]{fullShare} f := by rw [set_oiC1]

theorem pts_sU (f : Buf (Elt F) ((thr d L).loc cc1_scratch0)) :
    ((sU).view.loc (thr d L) ↦{fullShare} f : sProp (MM F)) = (thr d L).loc cc1_scratch0 ↦{fullShare} f := rfl
theorem pts_sI (f : Buf (Elt F) ((thr d L).loc cc1_scratch1)) :
    ((sI).view.loc (thr d L) ↦{fullShare} f : sProp (MM F)) = (thr d L).loc cc1_scratch1 ↦{fullShare} f := rfl
theorem pts_rU (f : Buf (Elt F) ((thr d L).loc cc1_scratch2)) :
    ((rU).view.loc (thr d L) ↦{fullShare} f : sProp (MM F)) = (thr d L).loc cc1_scratch2 ↦{fullShare} f := rfl
theorem pts_rI (f : Buf (Elt F) ((thr d L).loc cc1_scratch3)) :
    ((rI).view.loc (thr d L) ↦{fullShare} f : sProp (MM F)) = (thr d L).loc cc1_scratch3 ↦{fullShare} f := rfl

end Spell

end Cert.KernelIdeal.Tile

end
-- ==== Proof.TileFold.lean ====
/-
  The fold on words: what the kernel's compare-subtract-select computes on an id, and that under the id bound it is the
  fold on numbers and names a row of the packed table.
-/
import proofs.«204570_g59167469470423_cont_9to1_m_669_24_alg».proof.Proof.TileDefs

noncomputable section

namespace Cert.KernelIdeal.Tile

open Cert.KernelIdeal Cert.KernelIdeal.Gen
open Idealize.ShloMosaic

variable {F : FTy → Type} [FloatOps F]

/-- The kernel's fold of one id: the id if it is below 50176 as a signed word, else the id less 50176. -/
def foldW (w : BitVec 32) : BitVec 32 := Scalar.select (IntOp.cmpi .slt w 50176#32) w (IntOp.subi w 50176#32)

theorem k1_pay1_apply (v : Vec F S16 .i32) (j : S16.Idx) : k1_pay1 v j = foldW (v j) := by
  unfold k1_pay1 foldW; simp only [shapeCast, select, cmpi, subi, broadcast, Shape.reshapeEquiv_self]
theorem k1_pay2_apply (v : Vec F S16 .i32) (j : S16.Idx) : k1_pay2 v j = foldW (v j) := by
  unfold k1_pay2 foldW; simp only [shapeCast, select, cmpi, subi, broadcast, Shape.reshapeEquiv_self]
theorem k1_pay3_apply (v : Vec F S16 .i32) (j : S16.Idx) : k1_pay3 v j = foldW (v j) := by
  unfold k1_pay3 foldW; simp only [shapeCast, select, cmpi, subi, broadcast, Shape.reshapeEquiv_self]
theorem k1_pay4_apply (v : Vec F S16 .i32) (j : S16.Idx) : k1_pay4 v j = foldW (v j) := by
  unfold k1_pay4 foldW; simp only [shapeCast, select, cmpi, subi, broadcast, Shape.reshapeEquiv_self]

/-- Under the id bound the folded word's value is the folded number. -/
theorem foldW_toNat {w : BitVec 32} (h : w.toNat ≤ 99999) : (foldW w).toNat = foldN w := by
  unfold foldW foldN
  have hs : w.slt 50176#32 = decide (w.toNat < 50176) := by
    rw [BitVec.slt_eq_decide]
    simp only [BitVec.toInt_eq_toNat_cond, BitVec.toNat_ofNat]
    congr 1; apply propext; constructor <;> intro h' <;> omega
  by_cases hlt : w.toNat < 50176
  · have : IntOp.cmpi .slt w 50176#32 = 1#1 := by simp [IntOp.cmpi, hs, hlt]
    rw [this, if_pos hlt]; rfl
  · have : IntOp.cmpi .slt w 50176#32 = 0#1 := by simp [IntOp.cmpi, hs, hlt]
    rw [this, if_neg hlt]
    show (w - 50176#32).toNat = _
    rw [BitVec.toNat_sub]; simp only [BitVec.toNat_ofNat]; omega

/-- and it names a row of the packed table. -/
theorem foldW_lt {w : BitVec 32} (h : w.toNat ≤ 99999) : (foldW w).toNat < 50176 := by
  rw [foldW_toNat h]; unfold foldN; split <;> omega

theorem foldW_row {w : BitVec 32} (h : w.toNat ≤ 99999) : (⟨(foldW w).toNat, foldW_lt h⟩ : Fin 50176) = foldRow w :=
  Fin.ext (by rw [foldRow_val h]; exact foldW_toNat h)

end Cert.KernelIdeal.Tile

end
-- ==== Proof.TileLoop.lean ====
/-
  The fold loop on an id scratch: after k trips the lanes below 16 k are folded and the rest are as fetched; one trip
  takes k to k + 1; after sixteen every lane is folded and, under the id bound, names a row of the packed table.
-/
import proofs.«204570_g59167469470423_cont_9to1_m_669_24_alg».proof.Proof.TileSetup
import proofs.«204570_g59167469470423_cont_9to1_m_669_24_alg».proof.Proof.TileFold
import Idealize.ShloMosaic.Lib.Writes

noncomputable section

namespace Cert.KernelIdeal.Tile

open Cert.KernelIdeal Cert.KernelIdeal.Gen Cert.KernelIdeal.Base
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type}

/-- An id scratch after k trips of the fold loop: the lanes below 16 k folded, the rest as fetched. -/
def foldBuf (ids : S256.Idx → BitVec 32) (k : ℕ) : S256.Idx → BitVec 32 :=
  fun j => if (j 0).val < 16 * k then foldW (ids j) else ids j

theorem foldBuf_zero (ids : S256.Idx → BitVec 32) : foldBuf ids 0 = ids := by
  funext j; unfold foldBuf; rw [if_neg (by omega)]

theorem foldBuf_all (ids : S256.Idx → BitVec 32) : foldBuf ids 16 = fun j => foldW (ids j) := by
  funext j; unfold foldBuf; rw [if_pos (by have := (j 0).isLt; show (j 0).val < 256; exact this)]

theorem foldBuf_all_lt (ids : S256.Idx → BitVec 32) (h : ∀ j, (ids j).toNat ≤ 99999) (x : S256.Idx) :
    (foldBuf ids 16 x).toNat < 50176 := by
  rw [foldBuf_all]; exact foldW_lt (h x)

/-- One trip on the first id scratch. -/
theorem foldBuf_step_sU (ids : S256.Idx → BitVec 32) (k : ℕ) (off : Fin 1 → ℕ) (hoff : off = ![16 * k])
    (inb : ∀ a, off a + S16.size a ≤ S256.size a) (w : S16.Idx → BitVec 32)
    (hw : ∀ x, w x = foldW (foldBuf ids k ((Rect.unit (s := S256) off S16.size inb).emb x))) :
    (sU).view.writes (Elt F) (foldBuf ids k) [⟨Rect.unit (s := S256) off S16.size inb, w⟩] = foldBuf ids (k + 1) := by
  subst hoff
  funext i
  by_cases hi : i ∈ (Rect.unit (s := S256) ![16 * k] S16.size inb).set
  · rw [← Rect.map_emb_univ] at hi
    obtain ⟨x, -, rfl⟩ := Finset.mem_map.mp hi
    have h1 := View.read_writes_cons_emb (v := (sU).view) (Val := Elt F) (f := foldBuf ids k) (Rect.unit (s := S256) ![16 * k] S16.size inb) w [] x
    have e : (((Rect.unit (s := S256) ![16 * k] S16.size inb).emb x) 0 : ℕ) = 16 * k + (x 0).val := by
      rw [Rect.emb_apply]; simp
    have hx : (x 0).val < 16 := (x 0).isLt
    refine h1.trans ?_
    rw [hw x]; unfold foldBuf
    rw [if_neg (by omega), if_pos (by omega)]
  · have h2 := View.read_writes_apply_of_forall_not_mem (v := (sU).view) (Val := Elt F) (f := foldBuf ids k) i
      [⟨Rect.unit (s := S256) ![16 * k] S16.size inb, w⟩] (by
        intro p hp; rw [List.mem_singleton] at hp; subst hp; exact hi)
    refine h2.trans ?_
    rw [Rect.mem_set_unit] at hi
    have hi' : ¬ (16 * k ≤ (i 0).val ∧ (i 0).val < 16 * k + 16) := fun h => hi (fun a => by
      obtain rfl : a = 0 := Subsingleton.elim _ _
      simpa using h)
    show foldBuf ids k i = foldBuf ids (k + 1) i
    unfold foldBuf
    by_cases hlt : (i 0).val < 16 * k
    · rw [if_pos hlt, if_pos (by omega)]
    · rw [if_neg hlt, if_neg (by omega)]

/-- One trip on the second id scratch. -/
theorem foldBuf_step_sI (ids : S256.Idx → BitVec 32) (k : ℕ) (off : Fin 1 → ℕ) (hoff : off = ![16 * k])
    (inb : ∀ a, off a + S16.size a ≤ S256.size a) (w : S16.Idx → BitVec 32)
    (hw : ∀ x, w x = foldW (foldBuf ids k ((Rect.unit (s := S256) off S16.size inb).emb x))) :
    (sI).view.writes (Elt F) (foldBuf ids k) [⟨Rect.unit (s := S256) off S16.size inb, w⟩] = foldBuf ids (k + 1) := by
  subst hoff
  funext i
  by_cases hi : i ∈ (Rect.unit (s := S256) ![16 * k] S16.size inb).set
  · rw [← Rect.map_emb_univ] at hi
    obtain ⟨x, -, rfl⟩ := Finset.mem_map.mp hi
    have h1 := View.read_writes_cons_emb (v := (sI).view) (Val := Elt F) (f := foldBuf ids k) (Rect.unit (s := S256) ![16 * k] S16.size inb) w [] x
    have e : (((Rect.unit (s := S256) ![16 * k] S16.size inb).emb x) 0 : ℕ) = 16 * k + (x 0).val := by
      rw [Rect.emb_apply]; simp
    have hx : (x 0).val < 16 := (x 0).isLt
    refine h1.trans ?_
    rw [hw x]; unfold foldBuf
    rw [if_neg (by omega), if_pos (by omega)]
  · have h2 := View.read_writes_apply_of_forall_not_mem (v := (sI).view) (Val := Elt F) (f := foldBuf ids k) i
      [⟨Rect.unit (s := S256) ![16 * k] S16.size inb, w⟩] (by
        intro p hp; rw [List.mem_singleton] at hp; subst hp; exact hi)
    refine h2.trans ?_
    rw [Rect.mem_set_unit] at hi
    have hi' : ¬ (16 * k ≤ (i 0).val ∧ (i 0).val < 16 * k + 16) := fun h => hi (fun a => by
      obtain rfl : a = 0 := Subsingleton.elim _ _
      simpa using h)
    show foldBuf ids k i = foldBuf ids (k + 1) i
    unfold foldBuf
    by_cases hlt : (i 0).val < 16 * k
    · rw [if_pos hlt, if_pos (by omega)]
    · rw [if_neg hlt, if_neg (by omega)]

/-- A copy into the whole of an id scratch leaves exactly what was copied. -/
theorem pts_write_whole_sU (d : Dev nD) (L : grid1.Coords) (fs w : Buf (Elt F) ((thr d L).loc cc1_scratch0)) :
    ((sU).view.loc (thr d L) ↦{fullShare} View.write (Elt F) (Memref.whole cc1_scratch0).view fs w Finset.univ : Idealize.SL.BI.sProp (MM F))
      = ((sU).view.loc (thr d L) ↦{fullShare} w) := by
  have e : View.write (Elt F) (Memref.whole cc1_scratch0).view fs w Finset.univ = w := View.write_whole_univ (Val := Elt F) cc1_scratch0 fs w
  rw [e]
theorem pts_write_whole_sI (d : Dev nD) (L : grid1.Coords) (fs w : Buf (Elt F) ((thr d L).loc cc1_scratch1)) :
    ((sI).view.loc (thr d L) ↦{fullShare} View.write (Elt F) (Memref.whole cc1_scratch1).view fs w Finset.univ : Idealize.SL.BI.sProp (MM F))
      = ((sI).view.loc (thr d L) ↦{fullShare} w) := by
  have e : View.write (Elt F) (Memref.whole cc1_scratch1).view fs w Finset.univ = w := View.write_whole_univ (Val := Elt F) cc1_scratch1 fs w
  rw [e]

theorem inv_start_sU (d : Dev nD) (L : grid1.Coords) (fs w : Buf (Elt F) ((thr d L).loc cc1_scratch0)) :
    ((sU).view.loc (thr d L) ↦{fullShare} View.write (Elt F) (Memref.whole cc1_scratch0).view fs w Finset.univ : Idealize.SL.BI.sProp (MM F))
      = ((sU).view.loc (thr d L) ↦{fullShare} foldBuf w 0) := by
  rw [foldBuf_zero]; exact pts_write_whole_sU d L fs w
theorem inv_start_sI (d : Dev nD) (L : grid1.Coords) (fs w : Buf (Elt F) ((thr d L).loc cc1_scratch1)) :
    ((sI).view.loc (thr d L) ↦{fullShare} View.write (Elt F) (Memref.whole cc1_scratch1).view fs w Finset.univ : Idealize.SL.BI.sProp (MM F))
      = ((sI).view.loc (thr d L) ↦{fullShare} foldBuf w 0) := by
  rw [foldBuf_zero]; exact pts_write_whole_sI d L fs w

/-! ## The id chunks, as the program slices them, and what a fetch of one lands -/

abbrev uidC0 (L : grid1.Coords) : Memref sig .scVector .hbm S256 .i32 := uidW.slice (Rect.unit (s := S16384) (k1_off1 L 0#32) S256.size (k1_off1_inb L 0)) (fun _ => rfl)
abbrev uidC1 (L : grid1.Coords) : Memref sig .scVector .hbm S256 .i32 := uidW.slice (Rect.unit (s := S16384) (k1_off1 L 256#32) S256.size (k1_off1_inb L 1)) (fun _ => rfl)
abbrev iidC0 (L : grid1.Coords) : Memref sig .scVector .hbm S256 .i32 := iidW.slice (Rect.unit (s := S16384) (k1_off1 L 0#32) S256.size (k1_off1_inb L 0)) (fun _ => rfl)
abbrev iidC1 (L : grid1.Coords) : Memref sig .scVector .hbm S256 .i32 := iidW.slice (Rect.unit (s := S16384) (k1_off1 L 256#32) S256.size (k1_off1_inb L 1)) (fun _ => rfl)

/-- The 256 ids a fetch of chunk r lands in the id scratch. -/
def idsU (d : Dev nD) (L : grid1.Coords) (uid : Buf (Elt F) (uidLoc d)) : Fin 2 → S256.Idx → BitVec 32
  | 0 => ReadAs.same.apply ((uidC0 L).view.read (Elt F) uid)
  | 1 => ReadAs.same.apply ((uidC1 L).view.read (Elt F) uid)
def idsI (d : Dev nD) (L : grid1.Coords) (iid : Buf (Elt F) (iidLoc d)) : Fin 2 → S256.Idx → BitVec 32
  | 0 => ReadAs.same.apply ((iidC0 L).view.read (Elt F) iid)
  | 1 => ReadAs.same.apply ((iidC1 L).view.read (Elt F) iid)

end Cert.KernelIdeal.Tile

end
-- ==== Proof.TileValue.lean ====
/-
  The value a gather leaves: with the id list folded, the element the gather delivers at position x of the row scratch is
  the element of gRow at the output index that x is copied to. Both the id chunk and the output chunk start at the same
  batch entry (the same word of the program), so no closed form of the offsets is needed.
-/
import proofs.«204570_g59167469470423_cont_9to1_m_669_24_alg».proof.Proof.TileLoop

noncomputable section

namespace Cert.KernelIdeal.Tile

open Cert.KernelIdeal Cert.KernelIdeal.Gen Cert.KernelIdeal.Base
open Idealize.ShloMosaic Idealize.ShloMosaic.ValueIdx

variable {F : FTy → Type}

/-- In a list of 256 entries, row-major order is the entry's position. -/
theorem rowMajor_symm_val (k : Fin S256.numel) : ((S256.rowMajor.symm k) 0).val = k.val := by
  have h := Shape.rowMajor_val_one (d := ![256]) (S256.rowMajor.symm k)
  rw [Equiv.apply_symm_apply] at h; exact h.symm

/-- Reading, at any position, contents whose last write was a piece covering the whole view gives that piece. -/
theorem writes_whole_read {κ : Kind} {sp : Space} {s : Shape} {e : EltTy} (v : View sig κ sp s e) (g : v.ty.Contents (Elt F))
    (P : s.Idx → Elt F e) (rest : List (View.Piece (Elt F) s e)) (x : s.Idx) :
    v.read (Elt F) (v.writes (Elt F) g (⟨Rect.whole s, P⟩ :: rest)) x = P x := by
  have h := View.read_writes_cons_emb (v := v) (Val := Elt F) (f := g) (Rect.whole s) P rest x
  rwa [Rect.emb_whole_apply] at h

/-- The element a gather over a folded id list delivers at position x is gRow at any output index with x's row, offset by
    the chunk's first batch entry, and x's lane. -/
theorem gather_gRow (L : grid1.Coords) (c : BitVec 32) (f8 : S50176x128.Idx → Elt F .f32) (ids : S16384.Idx → BitVec 32)
    (hb : ∀ j, (ids j).toNat ≤ 99999) (lst : S256.Idx → BitVec 32)
    (hn : S256.numel = S256x128.size gathers_S50176x128_S256x128.axis')
    (hin : ∀ x, (lst x).toNat < S50176x128.size gathers_S50176x128_S256x128.axis)
    (hlst : ∀ j : S256.Idx, ∃ J : S16384.Idx, (J 0).val = k1_off1 L c 0 + (j 0).val ∧ lst j = foldW (ids J))
    (x : S256x128.Idx) (i : S16384x128.Idx) (hi0 : (i 0).val = k1_off4 L c 0 + (x 0).val) (hi1 : (i 1).val = (x 1).val) :
    SparseCore.gatherPayload gathers_S50176x128_S256x128 f8 (SparseCore.rows (F := F) lst hn hin) x = gRow f8 ids i := by
  unfold SparseCore.gatherPayload gRow
  congr 1
  funext b
  apply Fin.ext
  match b with
  | ⟨0, hb0⟩ =>
    have h0 := Shape.Gathers.idx_axis gathers_S50176x128_S256x128 (SparseCore.rows (F := F) lst hn hin) x
    have e0 : (gathers_S50176x128_S256x128.idx (SparseCore.rows (F := F) lst hn hin) x ⟨0, hb0⟩).val
        = (SparseCore.rows (F := F) lst hn hin (x gathers_S50176x128_S256x128.axis')).val := congrArg Fin.val h0
    refine e0.trans ?_
    unfold SparseCore.rows
    obtain ⟨J, hJ0, hJ⟩ := hlst (S256.rowMajor.symm ((x gathers_S50176x128_S256x128.axis').cast hn.symm))
    show (lst _).toNat = (foldRow (ids (ix1 (i 0)))).val
    rw [hJ, foldW_toNat (hb J), foldRow_val (hb _)]
    have eJ : J = ix1 (i 0) := by
      funext a
      obtain rfl : a = 0 := Subsingleton.elim _ _
      apply Fin.ext
      rw [hJ0, rowMajor_symm_val]
      show k1_off1 L c 0 + (x 0).val = (i 0).val
      rw [hi0]; rfl
    exact congrArg (fun J => foldN (ids J)) eJ
  | ⟨1, hb1⟩ =>
    have h1 := Shape.Gathers.idx_of_ne gathers_S50176x128_S256x128 (SparseCore.rows (F := F) lst hn hin) x ⟨1, hb1⟩ (by show (1 : ℕ) ≠ 0; omega)
    refine h1.trans ?_
    show (x 1).val = (i 1).val
    exact hi1.symm

/-- The gather's source, a slice of the packed table at offset zero and full size, reads the table itself. -/
theorem read_src_u (d : Dev nD) (f8 : Buf (Elt F) (utLoc d)) :
    (utW.slice (Rect.unit (s := S50176x128) ![0, 0] S50176x128.size inb_S50176x128_S50176x128_0_0) (fun _ => rfl)).view.read (Elt F) f8 = f8 := by
  funext y
  refine (View.read_apply _ _).trans ((cast_eq _ _).trans (congrArg f8 ?_))
  funext b; apply Fin.ext
  show (![0, 0] : Fin 2 → ℕ) b + 1 * (y b).val = (y b).val
  match b with
  | ⟨0, _⟩ => simp
  | ⟨1, _⟩ => simp
theorem read_src_i (d : Dev nD) (f8 : Buf (Elt F) (itLoc d)) :
    (itW.slice (Rect.unit (s := S50176x128) ![0, 0] S50176x128.size inb_S50176x128_S50176x128_0_0) (fun _ => rfl)).view.read (Elt F) f8 = f8 := by
  funext y
  refine (View.read_apply _ _).trans ((cast_eq _ _).trans (congrArg f8 ?_))
  funext b; apply Fin.ext
  show (![0, 0] : Fin 2 → ℕ) b + 1 * (y b).val = (y b).val
  match b with
  | ⟨0, _⟩ => simp
  | ⟨1, _⟩ => simp

/-- Contents whose last write covered all of ouC0 agree, on the chunk, with any whole-array function the written piece
    reads off at the chunk's positions. -/
theorem chunk_congr_ouC0 (L : grid1.Coords) (g0 : (ouC0 L).view.ty.Contents (Elt F)) (P : S256x128.Idx → Elt F .f32)
    (rest : List (View.Piece (Elt F) S256x128 .f32)) (T : S16384x128.Idx → Elt F .f32) (hP : ∀ x, P x = T ((oRect0 L).emb x)) :
    ∀ i ∈ oSet L 0, ((ouC0 L).view.writes (Elt F) g0 (⟨Rect.whole S256x128, P⟩ :: rest)) i = T i := by
  intro i hi
  have hi' : i ∈ (oRect0 L).set := hi
  rw [← Rect.map_emb_univ] at hi'
  obtain ⟨x, -, rfl⟩ := Finset.mem_map.mp hi'
  have h := writes_whole_read (F := F) (v := (ouC0 L).view) g0 P rest x
  rw [View.read_apply] at h
  exact ((cast_eq _ _).symm.trans h).trans (hP x)

/-- Contents whose last write covered all of ouC1 agree, on the chunk, with any whole-array function the written piece
    reads off at the chunk's positions. -/
theorem chunk_congr_ouC1 (L : grid1.Coords) (g0 : (ouC1 L).view.ty.Contents (Elt F)) (P : S256x128.Idx → Elt F .f32)
    (rest : List (View.Piece (Elt F) S256x128 .f32)) (T : S16384x128.Idx → Elt F .f32) (hP : ∀ x, P x = T ((oRect1 L).emb x)) :
    ∀ i ∈ oSet L 1, ((ouC1 L).view.writes (Elt F) g0 (⟨Rect.whole S256x128, P⟩ :: rest)) i = T i := by
  intro i hi
  have hi' : i ∈ (oRect1 L).set := hi
  rw [← Rect.map_emb_univ] at hi'
  obtain ⟨x, -, rfl⟩ := Finset.mem_map.mp hi'
  have h := writes_whole_read (F := F) (v := (ouC1 L).view) g0 P rest x
  rw [View.read_apply] at h
  exact ((cast_eq _ _).symm.trans h).trans (hP x)

/-- Contents whose last write covered all of oiC0 agree, on the chunk, with any whole-array function the written piece
    reads off at the chunk's positions. -/
theorem chunk_congr_oiC0 (L : grid1.Coords) (g0 : (oiC0 L).view.ty.Contents (Elt F)) (P : S256x128.Idx → Elt F .f32)
    (rest : List (View.Piece (Elt F) S256x128 .f32)) (T : S16384x128.Idx → Elt F .f32) (hP : ∀ x, P x = T ((oRect0 L).emb x)) :
    ∀ i ∈ oSet L 0, ((oiC0 L).view.writes (Elt F) g0 (⟨Rect.whole S256x128, P⟩ :: rest)) i = T i := by
  intro i hi
  have hi' : i ∈ (oRect0 L).set := hi
  rw [← Rect.map_emb_univ] at hi'
  obtain ⟨x, -, rfl⟩ := Finset.mem_map.mp hi'
  have h := writes_whole_read (F := F) (v := (oiC0 L).view) g0 P rest x
  rw [View.read_apply] at h
  exact ((cast_eq _ _).symm.trans h).trans (hP x)

/-- Contents whose last write covered all of oiC1 agree, on the chunk, with any whole-array function the written piece
    reads off at the chunk's positions. -/
theorem chunk_congr_oiC1 (L : grid1.Coords) (g0 : (oiC1 L).view.ty.Contents (Elt F)) (P : S256x128.Idx → Elt F .f32)
    (rest : List (View.Piece (Elt F) S256x128 .f32)) (T : S16384x128.Idx → Elt F .f32) (hP : ∀ x, P x = T ((oRect1 L).emb x)) :
    ∀ i ∈ oSet L 1, ((oiC1 L).view.writes (Elt F) g0 (⟨Rect.whole S256x128, P⟩ :: rest)) i = T i := by
  intro i hi
  have hi' : i ∈ (oRect1 L).set := hi
  rw [← Rect.map_emb_univ] at hi'
  obtain ⟨x, -, rfl⟩ := Finset.mem_map.mp hi'
  have h := writes_whole_read (F := F) (v := (oiC1 L).view) g0 P rest x
  rw [View.read_apply] at h
  exact ((cast_eq _ _).symm.trans h).trans (hP x)

/-- The element the gather delivers at position x, for a folded list fetched from the id chunk at word c, is gRow at the
    position of the output chunk at the same word. -/
theorem gather_chunk (L : grid1.Coords) (c : BitVec 32) (inbI : ∀ a, k1_off1 L c a + S256.size a ≤ S16384.size a)
    (inbO : ∀ a, k1_off4 L c a + S256x128.size a ≤ S16384x128.size a)
    (f8 : S50176x128.Idx → Elt F .f32) (ids : S16384.Idx → BitVec 32) (hb : ∀ j, (ids j).toNat ≤ 99999)
    (fetched : S256.Idx → BitVec 32) (hf : ∀ j, fetched j = ids ((Rect.unit (s := S16384) (k1_off1 L c) S256.size inbI).emb j))
    (hn : S256.numel = S256x128.size gathers_S50176x128_S256x128.axis')
    (hin : ∀ x, (foldBuf fetched 16 x).toNat < S50176x128.size gathers_S50176x128_S256x128.axis) (x : S256x128.Idx) :
    SparseCore.gatherPayload gathers_S50176x128_S256x128 f8 (SparseCore.rows (F := F) (foldBuf fetched 16) hn hin) x
      = gRow f8 ids ((Rect.unit (s := S16384x128) (k1_off4 L c) S256x128.size inbO).emb x) := by
  refine gather_gRow (F := F) L c f8 ids hb (foldBuf fetched 16) hn hin
    (fun j => ⟨(Rect.unit (s := S16384) (k1_off1 L c) S256.size inbI).emb j, ?_, ?_⟩) x _ ?_ ?_
  · show k1_off1 L c 0 + 1 * (j 0).val = _; omega
  · rw [foldBuf_all]
    show foldW (fetched j) = _
    rw [hf]
  · show k1_off4 L c 0 + 1 * (x 0).val = _; omega
  · show k1_off4 L c 1 + 1 * (x 1).val = _
    have : k1_off4 L c 1 = 0 := rfl
    omega

end Cert.KernelIdeal.Tile

end
-- ==== Proof.TileBody.lean ====
/-
  The tile's task, run once at a symbolic place: from the id arrays and packed tables read-shared and the tile's two
  chunks of both outputs, to the same shares back and the chunks holding the gathered rows.

  The order of the task, twice (chunk 0, then chunk 1): fetch 256 user ids into the first id scratch and wait; fold
  them in place, sixteen lanes a trip; start the gather of the rows they name from the packed user table into the first
  row scratch; fetch, fold and start the gather for the item ids likewise; wait for the user gather and start copying
  the first row scratch out to the chunk of the user output; wait for the item gather and start copying the second row
  scratch out to the chunk of the item output; wait for both copies. Each of the eight transfers completes on a
  semaphore that carries nothing else at the time, and no buffer is touched between a transfer's start and its wait, so
  every step is one of the schedule-free protocol. The loops go by an invariant on the id scratch (lanes below 16 k
  folded); after sixteen trips every lane is folded, which under the id bound is the in-range fact the gather asks for.
  At the end each output chunk holds one whole-chunk piece, the row scratch read back, and that piece is, position by
  position, the table row at the folded id.
-/
import proofs.«204570_g59167469470423_cont_9to1_m_669_24_alg».proof.Proof.TileSetup
import proofs.«204570_g59167469470423_cont_9to1_m_669_24_alg».proof.Proof.TileValue

noncomputable section

namespace Cert.KernelIdeal.Tile

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Body

variable (d : Dev nD) (L : grid1.Coords) (q : PosShare TreeShare)
variable (uid : Buf (Elt F) (uidLoc d)) (iid : Buf (Elt F) (iidLoc d))
variable (f8u : Buf (Elt F) (utLoc d)) (f8i : Buf (Elt F) (itLoc d))

/-- What the task starts from, at explicit contents of the packed tables and of the output chunks. -/
def tileIn (gu0 gu1 : Buf (Elt F) (ouLoc d)) (gi0 gi1 : Buf (Elt F) (oiLoc d)) : sProp (MM F) :=
  iprop((uidLoc d ↦{q} uid) ∗ (iidLoc d ↦{q} iid) ∗ (utLoc d ↦{q} f8u) ∗ (itLoc d ↦{q} f8i)
    ∗ (ouLoc d ↦[oSet L 0]{fullShare} gu0) ∗ (ouLoc d ↦[oSet L 1]{fullShare} gu1)
    ∗ (oiLoc d ↦[oSet L 0]{fullShare} gi0) ∗ (oiLoc d ↦[oSet L 1]{fullShare} gi1))

/-- What it ends with: the shares at the same contents, the chunks at the gathered rows. -/
def tileOut : sProp (MM F) :=
  iprop((uidLoc d ↦{q} uid) ∗ (iidLoc d ↦{q} iid) ∗ (utLoc d ↦{q} f8u) ∗ (itLoc d ↦{q} f8i)
    ∗ (ouLoc d ↦[oSet L 0]{fullShare} gRow f8u uid) ∗ (ouLoc d ↦[oSet L 1]{fullShare} gRow f8u uid)
    ∗ (oiLoc d ↦[oSet L 0]{fullShare} gRow f8i iid) ∗ (oiLoc d ↦[oSet L 1]{fullShare} gRow f8i iid))

/-- The loop invariant on the first id scratch. -/
def inv1 (ids : S256.Idx → BitVec 32) (k : ℕ) (_ : BitVec 32) : sProp (MM F) :=
  iprop((sU).view.loc (thr d L) ↦{fullShare} foldBuf ids k)

/-- The loop invariant on the second id scratch. -/
def inv2 (ids : S256.Idx → BitVec 32) (k : ℕ) (_ : BitVec 32) : sProp (MM F) :=
  iprop((sI).view.loc (thr d L) ↦{fullShare} foldBuf ids k)

/-- The task on vector subcore (L 0, L 1) of device d. -/
theorem tile_body (hF : (K (F := F)).Facts) (hU : ∀ j, (uid j).toNat ≤ 99999) (hI : ∀ j, (iid j).toNat ≤ 99999)
    (gu0 gu1 : Buf (Elt F) (ouLoc d)) (gi0 gi1 : Buf (Elt F) (oiLoc d))
    (O : CellTallies nD τ sig (HIx 1)) (W : Waits sig (HIx 1)) (hO : ∀ g, O g none = 0) :
    iprop(levAts (K (F := F)).L (K (F := F)).lev ∗ emp ∗ tileIn d L q uid iid f8u f8i gu0 gu1 gi0 gi1
        ∗ scopedBufs (thr d L) ∗ scopedSems0 (thr d L) ∗ owes (thr d L) O W)
      ⊢ wp frame (wpE (defs₀ (F := F)) 𝒱₀ (thr d L) none) Set.univ
          (cc1_k L (Memref.whole main_arg0_scv) (Memref.isWhole_whole _) (Memref.whole main_arg1_scv) (Memref.isWhole_whole _)
            (Memref.whole main_v8_0_scv) (Memref.isWhole_whole _) (Memref.whole main_v8_1_scv) (Memref.isWhole_whole _)
            (Memref.whole main_v9_0_scv) (Memref.isWhole_whole _) (Memref.whole main_v9_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          fun _ => iprop(tileOut d L q uid iid f8u f8i ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  unfold tileIn tileOut
  rw [(K (F := F)).scopedBufs_V hF d (cV L) (jV L), SparseCore.Cfg.scopedSems0_V (Val := Elt F) d (cV L) (jV L), ownSems0_V8, ownBufs_V4]
  iintro ⟨#Hlv, -, ⟨Hu, Hi, Hut, Hit, Hou0, Hou1, Hoi0, Hoi1⟩, ⟨⟨⟨%fs0, Hs0⟩, ⟨%fs1, Hs1⟩, ⟨%fs2, Hs2⟩, ⟨%fs3, Hs3⟩⟩, Hbufs⟩,
    ⟨⟨H4, H5, H6, H7, Hc0, Hc1, Hc2, Hc3⟩, Hsems⟩, HO⟩
  ihave Hmw := ((K (F := F)).mayWaits_none (thr := thr d L) hO) $$ Hlv
  ihave Hu := (Entails.of_eq (pts_uid (F := F) d L q _).symm) $$ Hu
  ihave Hi := (Entails.of_eq (pts_iid (F := F) d L q _).symm) $$ Hi
  ihave Hut := (Entails.of_eq (pts_ut (F := F) d L q _).symm) $$ Hut
  ihave Hit := (Entails.of_eq (pts_it (F := F) d L q _).symm) $$ Hit
  ihave Hou0 := (Entails.of_eq (pts_ouC0 (F := F) d L _).symm) $$ Hou0
  ihave Hou1 := (Entails.of_eq (pts_ouC1 (F := F) d L _).symm) $$ Hou1
  ihave Hoi0 := (Entails.of_eq (pts_oiC0 (F := F) d L _).symm) $$ Hoi0
  ihave Hoi1 := (Entails.of_eq (pts_oiC1 (F := F) d L _).symm) $$ Hoi1
  ihave Hs0 := (Entails.of_eq (pts_sU (F := F) d L _).symm) $$ Hs0
  ihave Hs1 := (Entails.of_eq (pts_sI (F := F) d L _).symm) $$ Hs1
  ihave Hs2 := (Entails.of_eq (pts_rU (F := F) d L _).symm) $$ Hs2
  ihave Hs3 := (Entails.of_eq (pts_rI (F := F) d L _).symm) $$ Hs3
  sl_exec
  sl_for (inv1 (F := F) d L (idsU d L uid 0)) $$ [Hs0]
  case region =>
    intro k _
    unfold inv1
    iintro Hs0
    sl_exec
    sl_step
    rw [foldBuf_step_sU (F := F) (idsU d L uid 0) k.val (k1_off2 k) (k1_off2_eq k) (k1_off2_inb k) _ (fun x => by
      show k1_pay1 (View.readAt (Elt F) (sU).view (Rect.unit (s := S256) (k1_off2 k) S16.size (k1_off2_inb k)).toLoadRect (foldBuf (idsU d L uid 0) k.val)) x = _
      rw [k1_pay1_apply]; rfl)]
    iexact Hs0
  · unfold inv1
    iapply (Entails.of_eq (inv_start_sU (F := F) d L _ _)); iexact Hs0
  iintro %_ Hs0
  unfold inv1
  have hinU0 : ∀ x, ((sU).view.read (Elt F) (foldBuf (idsU d L uid 0) 16) x).toNat < S50176x128.size gathers_S50176x128_S256x128.axis :=
    fun x => foldBuf_all_lt _ (fun j => hU _) x
  sl_exec
  sl_for (inv2 (F := F) d L (idsI d L iid 0)) $$ [Hs1]
  case region =>
    intro k _
    unfold inv2
    iintro Hs1
    sl_exec
    sl_step
    rw [foldBuf_step_sI (F := F) (idsI d L iid 0) k.val (k1_off3 k) (k1_off3_eq k) (k1_off3_inb k) _ (fun x => by
      show k1_pay2 (View.readAt (Elt F) (sI).view (Rect.unit (s := S256) (k1_off3 k) S16.size (k1_off3_inb k)).toLoadRect (foldBuf (idsI d L iid 0) k.val)) x = _
      rw [k1_pay2_apply]; rfl)]
    iexact Hs1
  · unfold inv2
    iapply (Entails.of_eq (inv_start_sI (F := F) d L _ _)); iexact Hs1
  iintro %_ Hs1
  unfold inv2
  have hinI0 : ∀ x, ((sI).view.read (Elt F) (foldBuf (idsI d L iid 0) 16) x).toNat < S50176x128.size gathers_S50176x128_S256x128.axis :=
    fun x => foldBuf_all_lt _ (fun j => hI _) x
  sl_exec
  sl_for (inv1 (F := F) d L (idsU d L uid 1)) $$ [Hs0]
  case region =>
    intro k _
    unfold inv1
    iintro Hs0
    sl_exec
    sl_step
    rw [foldBuf_step_sU (F := F) (idsU d L uid 1) k.val (k1_off5 k) (k1_off5_eq k) (k1_off5_inb k) _ (fun x => by
      show k1_pay3 (View.readAt (Elt F) (sU).view (Rect.unit (s := S256) (k1_off5 k) S16.size (k1_off5_inb k)).toLoadRect (foldBuf (idsU d L uid 1) k.val)) x = _
      rw [k1_pay3_apply]; rfl)]
    iexact Hs0
  · unfold inv1
    iapply (Entails.of_eq (inv_start_sU (F := F) d L _ _)); iexact Hs0
  iintro %_ Hs0
  unfold inv1
  have hinU1 : ∀ x, ((sU).view.read (Elt F) (foldBuf (idsU d L uid 1) 16) x).toNat < S50176x128.size gathers_S50176x128_S256x128.axis :=
    fun x => foldBuf_all_lt _ (fun j => hU _) x
  sl_exec
  sl_for (inv2 (F := F) d L (idsI d L iid 1)) $$ [Hs1]
  case region =>
    intro k _
    unfold inv2
    iintro Hs1
    sl_exec
    sl_step
    rw [foldBuf_step_sI (F := F) (idsI d L iid 1) k.val (k1_off6 k) (k1_off6_eq k) (k1_off6_inb k) _ (fun x => by
      show k1_pay4 (View.readAt (Elt F) (sI).view (Rect.unit (s := S256) (k1_off6 k) S16.size (k1_off6_inb k)).toLoadRect (foldBuf (idsI d L iid 1) k.val)) x = _
      rw [k1_pay4_apply]; rfl)]
    iexact Hs1
  · unfold inv2
    iapply (Entails.of_eq (inv_start_sI (F := F) d L _ _)); iexact Hs1
  iintro %_ Hs1
  unfold inv2
  have hinI1 : ∀ x, ((sI).view.read (Elt F) (foldBuf (idsI d L iid 1) 16) x).toNat < S50176x128.size gathers_S50176x128_S256x128.axis :=
    fun x => foldBuf_all_lt _ (fun j => hI _) x
  sl_exec
  sl_step
  isplitl [Hu Hi Hut Hit Hou0 Hou1 Hoi0 Hoi1]
  · isplitl [Hu]; · iapply (Entails.of_eq (pts_uid (F := F) d L q _)); iexact Hu
    isplitl [Hi]; · iapply (Entails.of_eq (pts_iid (F := F) d L q _)); iexact Hi
    isplitl [Hut]; · iapply (Entails.of_eq (pts_ut (F := F) d L q _)); iexact Hut
    isplitl [Hit]; · iapply (Entails.of_eq (pts_it (F := F) d L q _)); iexact Hit
    isplitl [Hou0]
    · iapply (Entails.of_eq ((pts_ouC0 (F := F) d L _).trans (pointsTo_congr (chunk_congr_ouC0 (F := F) L _ _ _ (gRow f8u uid) ?hPu0))))
      rotate_left
      · iexact Hou0
      intro x
      refine (writes_whole_read (F := F) (v := (rU).view) _ _ _ x).trans ?_
      show SparseCore.gatherPayload gathers_S50176x128_S256x128 ((utW.slice (Rect.unit (s := S50176x128) ![0, 0] S50176x128.size inb_S50176x128_S50176x128_0_0) (fun _ => rfl)).view.read (Elt F) f8u)
          (SparseCore.rows (F := F) (foldBuf (idsU d L uid 0) 16) _ hinU0) x = _
      rw [read_src_u]
      exact gather_chunk (F := F) L 0#32 (k1_off1_inb L 0) (k1_off4_inb L 0) f8u uid hU (idsU d L uid 0)
        (fun j => (View.read_apply _ _).trans (cast_eq _ _)) _ hinU0 x
    isplitl [Hou1]
    · iapply (Entails.of_eq ((pts_ouC1 (F := F) d L _).trans (pointsTo_congr (chunk_congr_ouC1 (F := F) L _ _ _ (gRow f8u uid) ?hPu1))))
      rotate_left
      · iexact Hou1
      intro x
      refine (writes_whole_read (F := F) (v := (rU).view) _ _ _ x).trans ?_
      show SparseCore.gatherPayload gathers_S50176x128_S256x128 ((utW.slice (Rect.unit (s := S50176x128) ![0, 0] S50176x128.size inb_S50176x128_S50176x128_0_0) (fun _ => rfl)).view.read (Elt F) f8u)
          (SparseCore.rows (F := F) (foldBuf (idsU d L uid 1) 16) _ hinU1) x = _
      rw [read_src_u]
      exact gather_chunk (F := F) L 256#32 (k1_off1_inb L 1) (k1_off4_inb L 1) f8u uid hU (idsU d L uid 1)
        (fun j => (View.read_apply _ _).trans (cast_eq _ _)) _ hinU1 x
    isplitl [Hoi0]
    · iapply (Entails.of_eq ((pts_oiC0 (F := F) d L _).trans (pointsTo_congr (chunk_congr_oiC0 (F := F) L _ _ _ (gRow f8i iid) ?hPi0))))
      rotate_left
      · iexact Hoi0
      intro x
      refine (writes_whole_read (F := F) (v := (rI).view) _ _ _ x).trans ?_
      show SparseCore.gatherPayload gathers_S50176x128_S256x128 ((itW.slice (Rect.unit (s := S50176x128) ![0, 0] S50176x128.size inb_S50176x128_S50176x128_0_0) (fun _ => rfl)).view.read (Elt F) f8i)
          (SparseCore.rows (F := F) (foldBuf (idsI d L iid 0) 16) _ hinI0) x = _
      rw [read_src_i]
      exact gather_chunk (F := F) L 0#32 (k1_off1_inb L 0) (k1_off4_inb L 0) f8i iid hI (idsI d L iid 0)
        (fun j => (View.read_apply _ _).trans (cast_eq _ _)) _ hinI0 x
    · iapply (Entails.of_eq ((pts_oiC1 (F := F) d L _).trans (pointsTo_congr (chunk_congr_oiC1 (F := F) L _ _ _ (gRow f8i iid) ?hPi1))))
      rotate_left
      · iexact Hoi1
      intro x
      refine (writes_whole_read (F := F) (v := (rI).view) _ _ _ x).trans ?_
      show SparseCore.gatherPayload gathers_S50176x128_S256x128 ((itW.slice (Rect.unit (s := S50176x128) ![0, 0] S50176x128.size inb_S50176x128_S50176x128_0_0) (fun _ => rfl)).view.read (Elt F) f8i)
          (SparseCore.rows (F := F) (foldBuf (idsI d L iid 1) 16) _ hinI1) x = _
      rw [read_src_i]
      exact gather_chunk (F := F) L 256#32 (k1_off1_inb L 1) (k1_off4_inb L 1) f8i iid hI (idsI d L iid 1)
        (fun j => (View.read_apply _ _).trans (cast_eq _ _)) _ hinI1 x
  isplitl [Hs0 Hs1 Hs2 Hs3 Hbufs]
  · isplitl [Hs0 Hs1 Hs2 Hs3]
    · isplitl [Hs0]; · iexists _; iexact Hs0
      isplitl [Hs1]; · iexists _; iexact Hs1
      isplitl [Hs2]; · iexists _; iexact Hs2
      iexists _; iexact Hs3
    · iexact Hbufs
  isplitl [H4 H5 H6 H7 Hc0 Hc1 Hc2 Hc3 Hsems]
  · isplitl [H4 H5 H6 H7 Hc0 Hc1 Hc2 Hc3]
    · isplitl [H4]; · iexact H4
      isplitl [H5]; · iexact H5
      isplitl [H6]; · iexact H6
      isplitl [H7]; · iexact H7
      isplitl [Hc0]; · iexact Hc0
      isplitl [Hc1]; · iexact Hc1
      isplitl [Hc2]; · iexact Hc2
      iexact Hc3
    · iexact Hsems
  iexists _; isplitr
  rotate_left
  · iexact HO
  · ipureintro; intro p hp
    simp only [Finset.mem_insert] at hp
    rcases hp with rfl | rfl | rfl | rfl | rfl | rfl | rfl | rfl | rfl | rfl | rfl | rfl | hp
    all_goals first | exact .inr rfl | exact .inl hp

end Body

end Cert.KernelIdeal.Tile

end
-- ==== Proof.TileObl.lean ====
/-
  The tile's obligation to the launch theorem: handed its payload, the tile's kernel runs and hands the result payload
  back. The packed tables arrive at some admissible contents; the rows the tile leaves are rows of those tables, so they
  are as claimed by the linking hypotheses.
-/
import proofs.«204570_g59167469470423_cont_9to1_m_669_24_alg».proof.Proof.TileBody
import proofs.«204570_g59167469470423_cont_9to1_m_669_24_alg».proof.Proof.ScPay

noncomputable section

namespace Cert.KernelIdeal.Tile

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's row of the body table, on a vector subcore. -/
theorem defs₀_vector (c : Fin τ.nSC) (s : Fin τ.nSub) :
    defs₀ (F := F) (.scVector c s) 1 ()
      = SparseCore.onTile hcore1 hsub1 (fun c s => cc1_k (fun | 0 => c | 1 => s | ⟨_ + 2, h⟩ => absurd h (Nat.not_lt.2 (Nat.le_add_left _ _)))
          (Memref.whole main_arg0_scv) (Memref.isWhole_whole _) (Memref.whole main_arg1_scv) (Memref.isWhole_whole _)
          (Memref.whole main_v8_0_scv) (Memref.isWhole_whole _) (Memref.whole main_v8_1_scv) (Memref.isWhole_whole _)
          (Memref.whole main_v9_0_scv) (Memref.isWhole_whole _) (Memref.whole main_v9_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scoped0 cc1_scoped1 cc1_scoped2 cc1_scoped3) ⟨⟩ c s := rfl

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- The rows of a chunk of the gathered output are as claimed, the table being admissible. -/
theorem rowsOK_gRow {G8 : (S50176x128.Idx → Elt F .f32) → Prop} {R9 : Fin 16384 → (Fin 128 → Elt F .f32) → Prop}
    (ids : S16384.Idx → BitVec 32) (hlink : ∀ f8, G8 f8 → ∀ b : Fin 16384, R9 b (fun l => f8 (ix2 (foldRow (ids (ix1 b))) l)))
    (f8 : S50176x128.Idx → Elt F .f32) (h8 : G8 f8) (L : grid1.Coords) (r : ℕ) : RowsOK L R9 r (gRow f8 ids) :=
  fun b _ _ => hlink f8 h8 b

/-- What the task ends with is what the call takes back. -/
theorem post_weaken (d : Dev nD) (L : grid1.Coords) (q : PosShare TreeShare)
    (hlinkU : ∀ f8, G8u f8 → ∀ b : Fin 16384, R9u b (fun l => f8 (ix2 (foldRow (uid d (ix1 b))) l)))
    (hlinkI : ∀ f8, G8i f8 → ∀ b : Fin 16384, R9i b (fun l => f8 (ix2 (foldRow (iid d (ix1 b))) l)))
    (f8u : Buf (Elt F) (utLoc d)) (f8i : Buf (Elt F) (itLoc d)) (hu : G8u f8u) (hi : G8i f8i)
    {A B : sProp (MM F)} {thr : Thread nD τ} {O : CellTallies nD τ sig (HIx 1)} {W : Waits sig (HIx 1)} {c : Fin 1} :
    iprop(tileOut d L q (uid d) (iid d) f8u f8i ∗ A ∗ B ∗ ∃ W', ⌜∀ p ∈ W', p ∈ W ∨ p.2 = none⌝ ∗ owes thr O W')
      ⊢ iprop(tileTd (UU := UU) G8u G8i R9u R9i d L q (uid d) (iid d) ∗ A ∗ B
          ∗ ∃ W', ⌜∀ p ∈ W', p ∈ W ∨ p.2 = none ∨ p.2 = some c⌝ ∗ owes thr O W') := by
  unfold tileOut tileTd
  iintro ⟨⟨Hu, Hi, Hut, Hit, Hou0, Hou1, Hoi0, Hoi1⟩, HA, HB, %W', %hW', HO⟩
  isplitl [Hu Hi Hut Hit Hou0 Hou1 Hoi0 Hoi1]
  · isplitl [Hu]; · iexact Hu
    isplitl [Hi]; · iexact Hi
    isplitl [Hut]; · iexists f8u; isplitr; · ipureintro; exact hu
                     iexact Hut
    isplitl [Hit]; · iexists f8i; isplitr; · ipureintro; exact hi
                     iexact Hit
    isplitl [Hou0]; · iexists _; isplitr; · ipureintro; exact rowsOK_gRow (uid d) hlinkU f8u hu L 0
                      iexact Hou0
    isplitl [Hou1]; · iexists _; isplitr; · ipureintro; exact rowsOK_gRow (uid d) hlinkU f8u hu L 1
                      iexact Hou1
    isplitl [Hoi0]; · iexists _; isplitr; · ipureintro; exact rowsOK_gRow (iid d) hlinkI f8i hi L 0
                      iexact Hoi0
    iexists _; isplitr; · ipureintro; exact rowsOK_gRow (iid d) hlinkI f8i hi L 1
    iexact Hoi1
  isplitl [HA]; · iexact HA
  isplitl [HB]; · iexact HB
  iexists W'; isplitr
  · ipureintro; exact fun p hp => (hW' p hp).imp_right Or.inl
  · iexact HO

theorem tileObl (hU : ∀ d j, (uid d j).toNat ≤ 99999) (hI : ∀ d j, (iid d j).toNat ≤ 99999)
    (hlinkU : ∀ d f8, G8u f8 → ∀ b : Fin 16384, R9u b (fun l => f8 (ix2 (foldRow (uid d (ix1 b))) l)))
    (hlinkI : ∀ d f8, G8i f8 → ∀ b : Fin 16384, R9i b (fun l => f8 (ix2 (foldRow (iid d (ix1 b))) l))) :
    (K (F := F)).TileObl (D (F := F)) 𝒱 (Pay.P G8u G8i R9u R9i uid iid) v₀ 0 := by
  intro d c i O W hO _ _
  simp only [Pay.P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [Pay.P_x, Pay.P_go, Pay.P_td]
  unfold Pay.go0 Pay.td0 tileGo
  show (_ : sProp (MM F)) ⊢ _
  iintro ⟨Hlv, He, ⟨Hu, Hi, ⟨%f8u, %hu, Hut⟩, ⟨%f8i, %hi, Hit⟩, ⟨%gu0, Hou0⟩, ⟨%gu1, Hou1⟩, ⟨%gi0, Hoi0⟩, ⟨%gi1, Hoi1⟩⟩, Hsb, Hss, HO⟩
  iapply ((tile_body (F := F) d (Pay.tileL (F := F) c i) (Pay.qOf (F := F) c i) (uid d) (iid d) f8u f8i facts (hU d) (hI d)
      gu0 gu1 gi0 gi1 O W hO).trans
    (wp_mono frame _ _ fun _ => post_weaken G8u G8i R9u R9i uid iid d (Pay.tileL (F := F) c i) (Pay.qOf (F := F) c i)
      (hlinkU d) (hlinkI d) f8u f8i hu hi)) $$ [Hlv He Hu Hi Hut Hit Hou0 Hou1 Hoi0 Hoi1 Hsb Hss HO]
  unfold tileIn
  isplitl [Hlv]; · iexact Hlv
  isplitl [He]; · iexact He
  isplitl [Hu Hi Hut Hit Hou0 Hou1 Hoi0 Hoi1]
  · isplitl [Hu]; · iexact Hu
    isplitl [Hi]; · iexact Hi
    isplitl [Hut]; · iexact Hut
    isplitl [Hit]; · iexact Hit
    isplitl [Hou0]; · iexact Hou0
    isplitl [Hou1]; · iexact Hou1
    isplitl [Hoi0]; · iexact Hoi0
    iexact Hoi1
  isplitl [Hsb]; · iexact Hsb
  isplitl [Hss]; · iexact Hss
  iexact HO

end

end Cert.KernelIdeal.Tile

end
-- ==== Proof.ScRun.lean ====
/-
  The run of the whole program: the launch element of the ghost state, and the launch theorem for programs with
  vector-subcore calls applied to the host program's proof, the tile's task and the way a sparse processor's part splits
  among its tiles. Every weakly fair execution of the thirty-five threads terminates without a fault, leaves the twelve
  arguments as launched and the result as the host program's proof claims it.
-/
import proofs.«204570_g59167469470423_cont_9to1_m_669_24_alg».proof.Proof.ScMain
import proofs.«204570_g59167469470423_cont_9to1_m_669_24_alg».proof.Proof.ScFin
import proofs.«204570_g59167469470423_cont_9to1_m_669_24_alg».proof.Proof.TileObl
import proofs.«204570_g59167469470423_cont_9to1_m_669_24_alg».proof.Proof.ScGhost
import proofs.«204570_g59167469470423_cont_9to1_m_669_24_alg».proof.Proof.ScPay
import Idealize.ShloMosaic.Lib.SparseCore.Launch

noncomputable section

namespace Cert.KernelIdeal.Main

open Cert.KernelIdeal Cert.KernelIdeal.Gen Cert.KernelIdeal.Base Cert.KernelIdeal.Ghost Cert.KernelIdeal.Held
open Cert.KernelIdeal.Tile Cert.KernelIdeal.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-! ## The launch element -/

/-- No thread is dealt anything for a protocol of its own. -/
theorem Px_emp : (bigSep Finset.univ fun thr : Thread nD τ => bigSep Finset.univ fun q : Fin 1 => (PP m G8u G8i R9u R9i).x q thr)
    = (iprop(emp) : sProp (MM F)) := by
  have h1 : ∀ thr : Thread nD τ, (bigSep Finset.univ fun q : Fin 1 => (PP m G8u G8i R9u R9i).x q thr) = (iprop(emp) : sProp (MM F)) :=
    fun thr => bigSep_emp_const _
  simp only [h1]
  exact bigSep_emp_const _

/-- The launch element makes the handshakes' rounds and, on each device, both pipelines' staging cells; the credit and the
    free semaphores are not needed. -/
theorem hu₀ : iprop(ownU (u₀ (F := F)) ∗ (PP m G8u G8i R9u R9i).oxCred ∗ (K (F := F)).freeSems0)
    ⊢ |={Set.univ}=> iprop(BI.own (EH (F := F) (initOf (K (F := F)).hsCells (K (F := F)).hsToks)) ∗ bigSep Finset.univ (G (F := F))
        ∗ bigSep Finset.univ fun thr : Thread nD τ => bigSep Finset.univ fun q : Fin 1 => (PP m G8u G8i R9u R9i).x q thr) := by
  rw [Px_emp]
  iintro ⟨Hu, -, -⟩
  imod (fund_G (F := F)) $$ Hu with ⟨HH, HG⟩
  imodintro
  isplitl [HH]; · iexact HH
  isplitl [HG]; · iexact HG
  iempintro

/-! ## The program's run -/

/-- What every final memory satisfies: on each device the twelve arguments as launched, and the result as claimed. -/
def QC : PUnit × MemSt nD τ sig (Elt F) → Prop := fun r => ∀ d : Dev nD,
  (r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7)
    ∧ r.2.mem ((d : Thread nD τ).loc main_arg8) = m ((d : Thread nD τ).loc main_arg8)
    ∧ r.2.mem ((d : Thread nD τ).loc main_arg9) = m ((d : Thread nD τ).loc main_arg9)
    ∧ r.2.mem ((d : Thread nD τ).loc main_arg10) = m ((d : Thread nD τ).loc main_arg10)
    ∧ r.2.mem ((d : Thread nD τ).loc main_arg11) = m ((d : Thread nD τ).loc main_arg11))
  ∧ Q17 d (r.2.mem ((d : Thread nD τ).loc main_v17))

/-- THE RUN of all thirty-five threads from memory `m` with every counter at zero: every weakly fair execution terminates,
    nothing faults, and every final memory has the arguments as launched and the result as claimed. -/
theorem run_main (hpack : HPack m G8u G8i) (hfinal : HFinal m R9u R9i Q17)
    (hU : ∀ d j, (uid m d j).toNat ≤ 99999) (hI : ∀ d j, (iid m d j).toNat ≤ 99999)
    (hlinkU : ∀ d f8, G8u f8 → ∀ b : Fin 16384, R9u b (fun l => f8 (ix2 (foldRow (uid m d (ix1 b))) l)))
    (hlinkI : ∀ d f8, G8i f8 → ∀ b : Fin 16384, R9i b (fun l => f8 (ix2 (foldRow (iid m d (ix1 b))) l))) :
    θ_run (Cert.KernelIdeal.defs (F := F)) (Cert.KernelIdeal.threads (F := F)) ⟨m, fun _ => 0, ρ⟩ (QC m Q17) :=
  SparseCore.Cfg.θ_run_sc (K := K (F := F)) (D := D (F := F)) (𝒱 := 𝒱) (EH := EH (F := F)) (P := PP m G8u G8i R9u R9i) facts v₀
    (fun q hq => match q with | 0 => nomatch hq)
    (fun q _ => match q with | 0 => tileObl G8u G8i R9u R9i (uid m) (iid m) hU hI hlinkU hlinkI)
    (fun q _ => match q with | 0 => SparseCore.Cfg.VecSplit.of_plain (Pay.vecSplit G8u G8i R9u R9i (uid m) (iid m)))
    m ρ main (G (F := F)) (FIN m Q17) (u₀ (F := F)) (hu₀ m G8u G8i R9u R9i) (hmain m ρ G8u G8i R9u R9i Q17 hpack hfinal hU)
    (fq m Q17) (hfin m Q17) (QC m Q17) (fun _ h => h)

/-- The frame reading of the run: the claim about the result dropped. -/
theorem run_frame (hpack : HPack m G8u G8i) (hfinal : HFinal m R9u R9i Q17)
    (hU : ∀ d j, (uid m d j).toNat ≤ 99999) (hI : ∀ d j, (iid m d j).toNat ≤ 99999)
    (hlinkU : ∀ d f8, G8u f8 → ∀ b : Fin 16384, R9u b (fun l => f8 (ix2 (foldRow (uid m d (ix1 b))) l)))
    (hlinkI : ∀ d f8, G8i f8 → ∀ b : Fin 16384, R9i b (fun l => f8 (ix2 (foldRow (iid m d (ix1 b))) l))) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := F)) _ _).mono (fun _ h c => (h c).1)
    (run_main m ρ G8u G8i R9u R9i Q17 hpack hfinal hU hI hlinkU hlinkI)

end Cert.KernelIdeal.Main

end
-- ==== Proof.Spec.lean ====
/-
  The function both programs compute, index by index, on the extended reals.

  A batch entry `i` names one row of each table by its id. Each tower takes that row `x` (64 numbers) to
  `max (max (x · W1 + b1) 0 · W2 + b2) 0` (64 numbers): a matrix product, a bias and a clamp at zero, twice. The result at
  `i` is the clamp at zero of the inner product of the two towers' rows. Nothing here needs finiteness: the two programs
  build this same expression, term for term.
-/
import Idealize.ShloMosaic.PureOps.Ideal
import Idealize.ShloMosaic.Lib.ValueIdx

noncomputable section

namespace Cert.Spec

open Idealize.ShloMosaic Idealize.ShloMosaic.ValueIdx

/-- The table row an id names. Ids lie in `[0, 99999]` under the precondition; the clamp only makes the definition total. -/
def rowOf (w : BitVec 32) : Fin 100001 := ⟨min w.toNat 100000, by omega⟩

/-- The first layer of a tower at table row `r`, unit `k`: `max (Σ_e tab[r, e] · W1[e, k] + b1[k]) 0`. -/
def hidden (tab : (⟨2, ![100001, 64]⟩ : Shape).Idx → EReal) (W1 : (⟨2, ![64, 128]⟩ : Shape).Idx → EReal)
    (b1 : (⟨1, ![128]⟩ : Shape).Idx → EReal) (r : Fin 100001) (k : Fin 128) : EReal :=
  max ((∑ e : Fin 64, tab (ix2 r e) * W1 (ix2 e k)) + b1 (ix1 k)) 0

/-- A tower at table row `r`, output unit `j`: `max (Σ_k hidden[r, k] · W2[k, j] + b2[j]) 0`. -/
def tower (tab : (⟨2, ![100001, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (r : Fin 100001) (j : Fin 64) : EReal :=
  max ((∑ k : Fin 128, hidden tab W1 b1 r k * W2 (ix2 k j)) + b2 (ix1 j)) 0

/-- The result at batch entry `i`: the clamp at zero of the inner product of the user tower at row `uid[i]` and the item
    tower at row `iid[i]`. -/
def G (uid iid : (⟨1, ![16384]⟩ : Shape).Idx → BitVec 32)
    (ut : (⟨2, ![100001, 64]⟩ : Shape).Idx → EReal) (uW1 : (⟨2, ![64, 128]⟩ : Shape).Idx → EReal)
    (ub1 : (⟨1, ![128]⟩ : Shape).Idx → EReal) (uW2 : (⟨2, ![128, 64]⟩ : Shape).Idx → EReal) (ub2 : (⟨1, ![64]⟩ : Shape).Idx → EReal)
    (it : (⟨2, ![100001, 64]⟩ : Shape).Idx → EReal) (iW1 : (⟨2, ![64, 128]⟩ : Shape).Idx → EReal)
    (ib1 : (⟨1, ![128]⟩ : Shape).Idx → EReal) (iW2 : (⟨2, ![128, 64]⟩ : Shape).Idx → EReal) (ib2 : (⟨1, ![64]⟩ : Shape).Idx → EReal) :
    (⟨1, ![16384]⟩ : Shape).Idx → EReal :=
  fun i => max (∑ j : Fin 64, tower ut uW1 ub1 uW2 ub2 (rowOf (uid i)) j * tower it iW1 ib1 iW2 ib2 (rowOf (iid i)) j) 0

end Cert.Spec

end
-- ==== Proof.PreFold.lean ====
/-
  The fold of an id into a half table, as words.

  The packed tables have 50176 rows: row `r` holds table rows `r` and `50176 + r` side by side. An id `w ≤ 99999` is
  folded to `w` when `w < 50176` (signed) and to `w - 50176` otherwise; the folded word names a row of the packed table,
  and which half of that row holds the id's table row is decided by the same comparison. Everything here is about
  32-bit words and the vector operations read at one index; no float instance and no program enters.
-/
import Idealize.ShloMosaic.Lib.ValueIdx
import Idealize.ShloMosaic.Lib.Affine
import Idealize.ShloMosaic.Lib.Pipeline.Value

noncomputable section

namespace Cert.PreFold

open Idealize.ShloMosaic

/-- The folded word: `w` below 50176 (signed), `w - 50176` otherwise. -/
def foldW (w : BitVec 32) : BitVec 32 := if w.slt 50176#32 then w else w - 50176#32

/-- For an id in range the signed comparison with 50176 is the comparison of the unsigned readings. -/
theorem slt_iff (w : BitVec 32) (hw : w.toNat ≤ 99999) : w.slt 50176#32 = true ↔ w.toNat < 50176 := by
  rw [BitVec.slt_iff_toInt_lt, BitVec.toInt_eq_toNat_of_lt (by omega), show (50176#32 : BitVec 32).toInt = 50176 from by decide]
  omega

/-- The same, on the printed comparison's bit. -/
theorem cmpi_slt_iff (w : BitVec 32) (hw : w.toNat ≤ 99999) : IntOp.cmpi .slt w 50176#32 = 1#1 ↔ w.toNat < 50176 := by
  rw [IntOp.cmpi_slt, BitVec.toInt_eq_toNat_of_lt (by omega), show (50176#32 : BitVec 32).toInt = 50176 from by decide]
  omega

/-- The comparison's bit when it is not 1. -/
theorem cmpi_slt_eq_zero_iff (w : BitVec 32) (hw : w.toNat ≤ 99999) : IntOp.cmpi .slt w 50176#32 = 0#1 ↔ 50176 ≤ w.toNat := by
  constructor
  · intro h
    have : ¬ w.toNat < 50176 := fun hlt => by
      rw [(cmpi_slt_iff w hw).2 hlt] at h
      exact absurd h (by decide)
    omega
  · intro h
    exact ValueIdx.eq_zero_of_ne_one fun h1 => by
      have := (cmpi_slt_iff w hw).1 h1
      omega

/-- An id below 50176 is its own fold. -/
theorem foldW_lo (w : BitVec 32) (hw : w.toNat < 50176) : foldW w = w := by
  unfold foldW
  rw [if_pos ((slt_iff w (by omega)).2 hw)]

/-- An id in `[50176, 99999]` folds to itself less 50176. -/
theorem foldW_hi (w : BitVec 32) (hw : w.toNat ≤ 99999) (h : 50176 ≤ w.toNat) : foldW w = w - 50176#32 := by
  unfold foldW
  rw [if_neg (fun hs => by have := (slt_iff w hw).1 hs; omega)]

/-- The unsigned reading of the difference, for an id at least 50176. -/
theorem toNat_sub_50176 (w : BitVec 32) (h : 50176 ≤ w.toNat) : (w - 50176#32).toNat = w.toNat - 50176 := by
  have hlt := w.isLt
  rw [BitVec.toNat_sub, show (50176#32 : BitVec 32).toNat = 50176 from by decide]
  omega

theorem foldW_toNat_lo (w : BitVec 32) (hw : w.toNat < 50176) : (foldW w).toNat = w.toNat := by
  rw [foldW_lo w hw]

theorem foldW_toNat_hi (w : BitVec 32) (hw : w.toNat ≤ 99999) (h : 50176 ≤ w.toNat) : (foldW w).toNat = w.toNat - 50176 := by
  rw [foldW_hi w hw h, toNat_sub_50176 w h]

/-- The fold of an id in range names a row of the packed table. -/
theorem foldW_lt (w : BitVec 32) (hw : w.toNat ≤ 99999) : (foldW w).toNat < 50176 := by
  by_cases h : w.toNat < 50176
  · rw [foldW_toNat_lo w h]; exact h
  · rw [foldW_toNat_hi w hw (by omega)]; omega

/-- The fold of an id in range, in one line: the remainder by 50176. -/
theorem foldW_toNat (w : BitVec 32) (hw : w.toNat ≤ 99999) : (foldW w).toNat = w.toNat % 50176 := by
  by_cases h : w.toNat < 50176
  · rw [foldW_toNat_lo w h]; omega
  · rw [foldW_toNat_hi w hw (by omega)]; omega

/-- The id back from its fold and its half: `w = fold w + 50176 · [50176 ≤ w]`. -/
theorem toNat_eq_foldW_add (w : BitVec 32) (hw : w.toNat ≤ 99999) :
    w.toNat = (foldW w).toNat + (if w.toNat < 50176 then 0 else 50176) := by
  by_cases h : w.toNat < 50176
  · rw [foldW_toNat_lo w h, if_pos h]; rfl
  · rw [foldW_toNat_hi w hw (by omega), if_neg h]; omega

/-! ## The printed vector operations at an index -/

variable {s : Shape}

/-- `select (cmpi slt v 50176) v (subi v 50176)` read at an index is the fold of the word there. -/
theorem fold_apply (v : IVec s 32) (j : s.Idx) :
    select (cmpi .slt v (broadcast s 50176#32)) v (subi v (broadcast s 50176#32)) j = foldW (v j) := by
  show Scalar.select (IntOp.cmpi .slt (v j) 50176#32) (v j) (v j - 50176#32) = foldW (v j)
  unfold foldW
  by_cases h : (v j).slt 50176#32 = true
  · have hc : IntOp.cmpi .slt (v j) 50176#32 = 1#1 := by simp only [IntOp.cmpi, h]; rfl
    rw [hc, ValueIdx.select_one, if_pos h]
  · have hb : (v j).slt 50176#32 = false := by simpa using h
    have hc : IntOp.cmpi .slt (v j) 50176#32 = 0#1 := by simp only [IntOp.cmpi, hb]; rfl
    rw [hc, ValueIdx.select_zero, if_neg h]

/-- The same between the two identity shape casts the printed loop body wraps it in (the stored payload of the fold
    loop, as a function of the loaded vector). -/
theorem pay_apply (h : s.ShapeCasts s) (v : IVec s 32) (j : s.Idx) :
    shapeCast s (select (cmpi .slt (shapeCast s v h) (broadcast s 50176#32)) (shapeCast s v h)
      (subi (shapeCast s v h) (broadcast s 50176#32))) h j = foldW (v j) := by
  rw [shapeCast_self, shapeCast_self, fold_apply]

end Cert.PreFold

end
-- ==== Proof.ChainValue.lean ====
/-
  The values the host stretches and the two data-movement calls hand on, on the extended reals.

  Three things are fixed here. First, what is known of a packed table: row `r` of the packed table holds table row `r`
  in its first 64 columns and table row `50176 + r` in its last 64 (where that row exists). Second, what is asked of a
  gathered row: the half of it that the id selects is the id's table row. The first implies the second at the folded id,
  by the arithmetic of the fold. Third, the host stretches read at an index: a transpose swaps the coordinates, the
  compared iotas are the identity matrix, a reshape keeps the row-major position.
-/
import proofs.«204570_g59167469470423_cont_9to1_m_669_24_alg».proof.Proof.ChainFrame
import proofs.«204570_g59167469470423_cont_9to1_m_669_24_alg».proof.Proof.Spec
import proofs.«204570_g59167469470423_cont_9to1_m_669_24_alg».proof.Proof.PreFold
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Chain

open Cert.KernelIdeal Cert.KernelIdeal.Gen Cert.KernelIdeal.ChainFrame
open Idealize.ShloMosaic Idealize.ShloMosaic.ValueIdx Idealize.SL.Sem

/-! ## The packed table and the gathered row -/

/-- What is known of a packed table `f8` of the table `tab`: row `r` holds table row `r` in columns `[0, 64)` and, where
    it exists, table row `50176 + r` in columns `[64, 128)`. -/
def G8 (tab : S100001x64.Idx → EReal) (f8 : S50176x128.Idx → EReal) : Prop :=
  ∀ (r : Fin 50176) (e : Fin 64),
    f8 (ix2 r ⟨e.val, by omega⟩) = tab (ix2 ⟨r.val, by omega⟩ e) ∧
    ∀ h : 50176 + r.val ≤ 100000, f8 (ix2 r ⟨64 + e.val, by omega⟩) = tab (ix2 ⟨50176 + r.val, by omega⟩ e)

/-- What is asked of the row gathered for batch entry `b`: the half the id selects is the id's table row. -/
def R9 (ids : S16384.Idx → BitVec 32) (tab : S100001x64.Idx → EReal) (b : Fin 16384) (row : Fin 128 → EReal) : Prop :=
  ∀ e : Fin 64,
    (if (ids (ix1 b)).toNat < 50176 then row ⟨e.val, by omega⟩ else row ⟨64 + e.val, by omega⟩)
      = tab (ix2 (Cert.Spec.rowOf (ids (ix1 b))) e)

/-- The packed table's row at the folded id is a row as asked. -/
theorem link (ids : S16384.Idx → BitVec 32) (tab : S100001x64.Idx → EReal) (hids : ∀ i, (ids i).toNat ≤ 99999)
    (f8 : S50176x128.Idx → EReal) (h8 : G8 tab f8) (b : Fin 16384) :
    R9 ids tab b (fun l => f8 (ix2 ⟨(Cert.PreFold.foldW (ids (ix1 b))).toNat, Cert.PreFold.foldW_lt _ (hids _)⟩ l)) := by
  intro e
  have hw := hids (ix1 b)
  by_cases h : (ids (ix1 b)).toNat < 50176
  · rw [if_pos h]
    refine ((h8 ⟨_, Cert.PreFold.foldW_lt _ hw⟩ e).1).trans (congrArg (fun q => tab (ix2 q e)) (Fin.ext ?_))
    show (Cert.PreFold.foldW (ids (ix1 b))).toNat = min (ids (ix1 b)).toNat 100000
    rw [Cert.PreFold.foldW_toNat_lo _ h]; omega
  · rw [if_neg h]
    have hf := Cert.PreFold.foldW_toNat_hi _ hw (by omega)
    refine ((h8 ⟨_, Cert.PreFold.foldW_lt _ hw⟩ e).2 (by show 50176 + (Cert.PreFold.foldW (ids (ix1 b))).toNat ≤ 100000; omega)).trans
      (congrArg (fun q => tab (ix2 q e)) (Fin.ext ?_))
    show 50176 + (Cert.PreFold.foldW (ids (ix1 b))).toNat = min (ids (ix1 b)).toNat 100000
    omega

/-! ## Words and reshapes at an index -/

/-- The compared iotas at `(a, b)`: the bit of `a = b`. -/
theorem eye_word (a b : Fin 64) :
    IntOp.cmpi .eq (IntOp.addi (BitVec.ofNat 32 a.val) 0#32) (BitVec.ofNat 32 b.val) = if a = b then 1#1 else 0#1 := by
  by_cases h : a = b
  · subst h
    rw [if_pos rfl]
    exact IntOp.cmpi_eq.2 (by simp [IntOp.addi])
  · rw [if_neg h]
    refine eq_zero_of_ne_one fun h1 => h (Fin.ext ?_)
    rw [IntOp.cmpi_eq] at h1
    have h2 := congrArg BitVec.toNat h1
    simp [IntOp.addi, BitVec.toNat_ofNat] at h2
    omega

/-- An `[a]` array cast to a column `[a, 1]` reads, at `(i, u)`, the operand at `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An `[r, c]` array cast to `[r * c]` reads, at `b`, the operand at `(b / c, b % c)`. -/
theorem shapeCast_rc_flat_apply {r c n : ℕ} {α : Type} (x : (⟨2, ![r, c]⟩ : Shape).Idx → α) (h : (⟨2, ![r, c]⟩ : Shape).ShapeCasts ⟨1, ![n]⟩)
    (b : Fin n) (i : Fin r) (j : Fin c) (hb : b.val = i.val * c + j.val) : shapeCast ⟨1, ![n]⟩ x h (ix1 b) = x (ix2 i j) :=
  shapeCast_apply x h _ _ (by
    rw [Shape.rowMajor_val_two, Shape.rowMajor_val_one]
    show i.val * c + j.val = b.val
    exact hb.symm)

/-! ## Stretch A read at an index -/

variable (V : Valuation τ sig (Elt Ideal))

/-- The first table transposed. -/
theorem after_A_v0 (e : Fin 64) (r : Fin 100001) :
    StableHlo.after (hostA (F := Ideal)) V (Proc.devRef .tc main_v0) (ix2 e r) = V (Proc.devRef .tc main_arg2) (ix2 r e) := by
  have h : StableHlo.after (hostA (F := Ideal)) V (Proc.devRef .tc main_v0)
      = transpose S64x100001 [1, 0] (V (Proc.devRef .tc main_arg2)) Facts₀.transposes_S100001x64_S64x100001_1_0 := by
    dsimp only [hostA]
    after_results
  rw [h]
  exact transpose_ix2_apply _ _ e r

/-- The second table transposed. -/
theorem after_A_v1 (e : Fin 64) (r : Fin 100001) :
    StableHlo.after (hostA (F := Ideal)) V (Proc.devRef .tc main_v1) (ix2 e r) = V (Proc.devRef .tc main_arg7) (ix2 r e) := by
  have h : StableHlo.after (hostA (F := Ideal)) V (Proc.devRef .tc main_v1)
      = transpose S64x100001 [1, 0] (V (Proc.devRef .tc main_arg7)) Facts₀.transposes_S100001x64_S64x100001_1_0 := by
    dsimp only [hostA]
    after_results
  rw [h]
  exact transpose_ix2_apply _ _ e r

/-- The identity matrix. -/
theorem after_A_v7 (a b : Fin 64) :
    StableHlo.after (hostA (F := Ideal)) V (Proc.devRef .tc main_v7) (ix2 a b) = if a = b then (1 : EReal) else 0 := by
  have h : StableHlo.after (hostA (F := Ideal)) V (Proc.devRef .tc main_v7)
      = (uitofp .f32 (cmpi .eq (addi (iotaInDim S64x64 32 0) (broadcastInDim S64x64 ![] Facts₀.bcast_S_S64x64 (constantI S_ 32 0#32)))
          (iotaInDim S64x64 32 1)) : FVec Ideal S64x64 .f32) := by
    dsimp only [hostA]
    after_results
  rw [h]
  show (((IntOp.cmpi .eq (IntOp.addi (BitVec.ofNat 32 a.val) 0#32) (BitVec.ofNat 32 b.val)).toNat : ℝ) : EReal) = _
  rw [eye_word]
  by_cases hab : a = b
  · rw [if_pos hab, if_pos hab]; simp
  · rw [if_neg hab, if_neg hab]; simp

/-! ## Stretch B read at an index -/

variable (W : Valuation τ sig (Elt Ideal))

/-- The user ids as a column. -/
theorem after_B_v10 (b : Fin 16384) (u : Fin 1) :
    StableHlo.after (hostB (F := Ideal)) W (Proc.devRef .tc main_v10) (ix2 b u) = W (Proc.devRef .tc main_arg0) (ix1 b) := by
  have h : StableHlo.after (hostB (F := Ideal)) W (Proc.devRef .tc main_v10)
      = shapeCast S16384x1 (W (Proc.devRef .tc main_arg0)) Facts₀.shapeCasts_S16384_S16384x1 := by
    dsimp only [hostB]
    after_results
    rfl
  rw [h]
  exact shapeCast_a_a1_apply _ _ b u
/-- The item ids as a column. -/
theorem after_B_v11 (b : Fin 16384) (u : Fin 1) :
    StableHlo.after (hostB (F := Ideal)) W (Proc.devRef .tc main_v11) (ix2 b u) = W (Proc.devRef .tc main_arg1) (ix1 b) := by
  have h : StableHlo.after (hostB (F := Ideal)) W (Proc.devRef .tc main_v11)
      = shapeCast S16384x1 (W (Proc.devRef .tc main_arg1)) Facts₀.shapeCasts_S16384_S16384x1 := by
    dsimp only [hostB]
    after_results
    rfl
  rw [h]
  exact shapeCast_a_a1_apply _ _ b u
/-- The four biases as rows. -/
theorem after_B_v12 (u : Fin 1) (k : Fin 128) :
    StableHlo.after (hostB (F := Ideal)) W (Proc.devRef .tc main_v12) (ix2 u k) = W (Proc.devRef .tc main_arg4) (ix1 k) := by
  have h : StableHlo.after (hostB (F := Ideal)) W (Proc.devRef .tc main_v12)
      = shapeCast S1x128 (W (Proc.devRef .tc main_arg4)) Facts₀.shapeCasts_S128_S1x128 := by
    dsimp only [hostB]
    after_results
    rfl
  rw [h]
  exact shapeCast_a_1a_apply _ _ u k
theorem after_B_v13 (u : Fin 1) (k : Fin 64) :
    StableHlo.after (hostB (F := Ideal)) W (Proc.devRef .tc main_v13) (ix2 u k) = W (Proc.devRef .tc main_arg6) (ix1 k) := by
  have h : StableHlo.after (hostB (F := Ideal)) W (Proc.devRef .tc main_v13)
      = shapeCast S1x64 (W (Proc.devRef .tc main_arg6)) Facts₀.shapeCasts_S64_S1x64 := by
    dsimp only [hostB]
    after_results
    rfl
  rw [h]
  exact shapeCast_a_1a_apply _ _ u k
theorem after_B_v14 (u : Fin 1) (k : Fin 128) :
    StableHlo.after (hostB (F := Ideal)) W (Proc.devRef .tc main_v14) (ix2 u k) = W (Proc.devRef .tc main_arg9) (ix1 k) := by
  have h : StableHlo.after (hostB (F := Ideal)) W (Proc.devRef .tc main_v14)
      = shapeCast S1x128 (W (Proc.devRef .tc main_arg9)) Facts₀.shapeCasts_S128_S1x128 := by
    dsimp only [hostB]
    after_results
    rfl
  rw [h]
  exact shapeCast_a_1a_apply _ _ u k
theorem after_B_v15 (u : Fin 1) (k : Fin 64) :
    StableHlo.after (hostB (F := Ideal)) W (Proc.devRef .tc main_v15) (ix2 u k) = W (Proc.devRef .tc main_arg11) (ix1 k) := by
  have h : StableHlo.after (hostB (F := Ideal)) W (Proc.devRef .tc main_v15)
      = shapeCast S1x64 (W (Proc.devRef .tc main_arg11)) Facts₀.shapeCasts_S64_S1x64 := by
    dsimp only [hostB]
    after_results
    rfl
  rw [h]
  exact shapeCast_a_1a_apply _ _ u k

/-! ## Stretch C read at an index -/

/-- The 128 × 128 block of results read as one array: entry `b` is at row `b / 128`, column `b % 128`. -/
theorem after_C_v17 (b : Fin 16384) :
    StableHlo.after (hostC (F := Ideal)) W (Proc.devRef .tc main_v17) (ix1 b)
      = W (Proc.devRef .tc main_v16) (ix2 ⟨b.val / 128, by omega⟩ ⟨b.val % 128, by omega⟩) := by
  have h : StableHlo.after (hostC (F := Ideal)) W (Proc.devRef .tc main_v17)
      = shapeCast S16384 (W (Proc.devRef .tc main_v16)) Facts₀.shapeCasts_S128x128_S16384 := by
    dsimp only [hostC]
    after_results
    rfl
  rw [h]
  exact shapeCast_rc_flat_apply _ _ b _ _ (by show b.val = b.val / 128 * 128 + b.val % 128; omega)

end Cert.KernelIdeal.Chain

end
-- ==== Proof.PackValue.lean ====
import proofs.«204570_g59167469470423_cont_9to1_m_669_24_alg».proof.Proof.PackDat
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Pack

open Cert.KernelIdeal Cert.KernelIdeal.Gen Cert.KernelIdeal.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf)

open Idealize.ShloMosaic.ValueIdx

/-! ## What the packed arrays hold, on the extended reals

Each output row `r` holds table row `r` in its first 64 columns and table row `50176 + r` in its last 64, wherever that
row exists: a contraction of a table column block with the identity over the 64 table columns has one nonzero term. -/

/-- The contraction over the first axis of both operands, read at an index: the sum over the contracted coordinate. -/
theorem matmulT_apply (A : FVec Ideal S64x1024 .f32) (I : FVec Ideal S64x64 .f32) (r : Fin 1024) (e : Fin 64) :
    matmul dot_S64x1024_S64x64_S1024x64_0_0_1_1_n_n none A I (constant (F := Ideal) S1024x64 .f32 0x00000000#32) (ix2 r e)
      = ∑ k : Fin 64, A (ix2 k r) * I (ix2 k e) := by
  refine (Ideal.matmul_constant_zero_apply _ _ _ _ _).trans ?_
  rw [← Equiv.sum_comp (contrEquiv1 dot_S64x1024_S64x64_S1024x64_0_0_1_1_n_n 64 rfl rfl).symm]
  refine Finset.sum_congr rfl fun k _ => ?_
  have ck := contrEquiv1_symm_val dot_S64x1024_S64x64_S1024x64_0_0_1_1_n_n 64 rfl rfl k
  have l2 : (dot_S64x1024_S64x64_S1024x64_0_0_1_1_n_n).lhsIdx (ix2 r e) ((contrEquiv1 _ 64 rfl rfl).symm k) = ix2 k r := by
    funext ax; apply Fin.ext
    match ax with
    | ⟨0, _⟩ => simp [DotDims.lhsIdx, dot_S64x1024_S64x64_S1024x64_0_0_1_1_n_n]; exact ck
    | ⟨1, _⟩ => simp [DotDims.lhsIdx, dot_S64x1024_S64x64_S1024x64_0_0_1_1_n_n]; rfl
  have r2 : (dot_S64x1024_S64x64_S1024x64_0_0_1_1_n_n).rhsIdx (ix2 r e) ((contrEquiv1 _ 64 rfl rfl).symm k) = ix2 k e := by
    funext ax; apply Fin.ext
    match ax with
    | ⟨0, _⟩ => simp [DotDims.rhsIdx, dot_S64x1024_S64x64_S1024x64_0_0_1_1_n_n]; exact ck
    | ⟨1, _⟩ => simp [DotDims.rhsIdx, dot_S64x1024_S64x64_S1024x64_0_0_1_1_n_n]; rfl
  rw [l2, r2]

/-- With the identity as second operand the contraction keeps one term: the transposed entry. -/
theorem matmulT_identity (A : FVec Ideal S64x1024 .f32) (I : FVec Ideal S64x64 .f32)
    (hI : ∀ a b : Fin 64, I (ix2 a b) = if a = b then (1 : EReal) else (0 : EReal)) (r : Fin 1024) (e : Fin 64) :
    matmul dot_S64x1024_S64x64_S1024x64_0_0_1_1_n_n none A I (constant (F := Ideal) S1024x64 .f32 0x00000000#32) (ix2 r e) = A (ix2 e r) := by
  rw [matmulT_apply, Finset.sum_eq_single e]
  · rw [hI e e, if_pos rfl]; exact mul_one _
  · intro k _ hk; rw [hI k e, if_neg hk]; exact mul_zero _
  · intro h; exact absurd (Finset.mem_univ e) h

variable (V : (c : Dev nD) → (b : Ref sig .tc) → Buf (Elt Ideal) ((c : Thread nD τ).loc b))
variable (O : CellTallies nD τ sig (HIx 1)) (B : Set (SemLoc sig × HIx 1))

/-! ### Where the input windows' blocks sit -/

/-- Windows 0 and 2 at point `t`: all 64 table columns, table rows `1024 t … 1024 t + 1023`, never cut. -/
theorem idx0 : ∀ t : Fin cfg0.N, (cfg0.win 0).index t (0 : Fin 2) * (cfg0.win 0).size (0 : Fin 2) = 0
      ∧ (cfg0.win 0).xsize (cfg0.grid.coords t) (0 : Fin 2) = 64
      ∧ (cfg0.win 0).index t (1 : Fin 2) * (cfg0.win 0).size (1 : Fin 2) = t.val * 1024
      ∧ (cfg0.win 0).xsize (cfg0.grid.coords t) (1 : Fin 2) = 1024 :=
  (by decide +kernel : ∀ t : Fin grid0.N, win0_0.index t (0 : Fin 2) * win0_0.size (0 : Fin 2) = 0
      ∧ win0_0.xsize (grid0.coords t) (0 : Fin 2) = 64
      ∧ win0_0.index t (1 : Fin 2) * win0_0.size (1 : Fin 2) = t.val * 1024
      ∧ win0_0.xsize (grid0.coords t) (1 : Fin 2) = 1024)
theorem idx2 : ∀ t : Fin cfg0.N, (cfg0.win 2).index t (0 : Fin 2) * (cfg0.win 2).size (0 : Fin 2) = 0
      ∧ (cfg0.win 2).xsize (cfg0.grid.coords t) (0 : Fin 2) = 64
      ∧ (cfg0.win 2).index t (1 : Fin 2) * (cfg0.win 2).size (1 : Fin 2) = t.val * 1024
      ∧ (cfg0.win 2).xsize (cfg0.grid.coords t) (1 : Fin 2) = 1024 :=
  (by decide +kernel : ∀ t : Fin grid0.N, win0_2.index t (0 : Fin 2) * win0_2.size (0 : Fin 2) = 0
      ∧ win0_2.xsize (grid0.coords t) (0 : Fin 2) = 64
      ∧ win0_2.index t (1 : Fin 2) * win0_2.size (1 : Fin 2) = t.val * 1024
      ∧ win0_2.xsize (grid0.coords t) (1 : Fin 2) = 1024)
/-- Windows 1 and 3 at point `t`: table rows from `50176 + 1024 t`, cut where the table ends (100001 rows). -/
theorem idx1 : ∀ t : Fin cfg0.N, (cfg0.win 1).index t (0 : Fin 2) * (cfg0.win 1).size (0 : Fin 2) = 0
      ∧ (cfg0.win 1).xsize (cfg0.grid.coords t) (0 : Fin 2) = 64
      ∧ (cfg0.win 1).index t (1 : Fin 2) * (cfg0.win 1).size (1 : Fin 2) = 50176 + t.val * 1024
      ∧ (cfg0.win 1).xsize (cfg0.grid.coords t) (1 : Fin 2) = min 1024 (100001 - (50176 + t.val * 1024)) :=
  (by decide +kernel : ∀ t : Fin grid0.N, win0_1.index t (0 : Fin 2) * win0_1.size (0 : Fin 2) = 0
      ∧ win0_1.xsize (grid0.coords t) (0 : Fin 2) = 64
      ∧ win0_1.index t (1 : Fin 2) * win0_1.size (1 : Fin 2) = 50176 + t.val * 1024
      ∧ win0_1.xsize (grid0.coords t) (1 : Fin 2) = min 1024 (100001 - (50176 + t.val * 1024)))
theorem idx3 : ∀ t : Fin cfg0.N, (cfg0.win 3).index t (0 : Fin 2) * (cfg0.win 3).size (0 : Fin 2) = 0
      ∧ (cfg0.win 3).xsize (cfg0.grid.coords t) (0 : Fin 2) = 64
      ∧ (cfg0.win 3).index t (1 : Fin 2) * (cfg0.win 3).size (1 : Fin 2) = 50176 + t.val * 1024
      ∧ (cfg0.win 3).xsize (cfg0.grid.coords t) (1 : Fin 2) = min 1024 (100001 - (50176 + t.val * 1024)) :=
  (by decide +kernel : ∀ t : Fin grid0.N, win0_3.index t (0 : Fin 2) * win0_3.size (0 : Fin 2) = 0
      ∧ win0_3.xsize (grid0.coords t) (0 : Fin 2) = 64
      ∧ win0_3.index t (1 : Fin 2) * win0_3.size (1 : Fin 2) = 50176 + t.val * 1024
      ∧ win0_3.xsize (grid0.coords t) (1 : Fin 2) = min 1024 (100001 - (50176 + t.val * 1024)))
/-- The identity's window: the whole 64 × 64 array at every point. -/
theorem idx4 : ∀ t : Fin cfg0.N, (cfg0.win 4).index t (0 : Fin 2) * (cfg0.win 4).size (0 : Fin 2) = 0
      ∧ (cfg0.win 4).xsize (cfg0.grid.coords t) (0 : Fin 2) = 64
      ∧ (cfg0.win 4).index t (1 : Fin 2) * (cfg0.win 4).size (1 : Fin 2) = 0
      ∧ (cfg0.win 4).xsize (cfg0.grid.coords t) (1 : Fin 2) = 64 :=
  (by decide +kernel : ∀ t : Fin grid0.N, win0_4.index t (0 : Fin 2) * win0_4.size (0 : Fin 2) = 0
      ∧ win0_4.xsize (grid0.coords t) (0 : Fin 2) = 64
      ∧ win0_4.index t (1 : Fin 2) * win0_4.size (1 : Fin 2) = 0
      ∧ win0_4.xsize (grid0.coords t) (1 : Fin 2) = 64)

/-! ### A fetched buffer, read where the fetch filled it -/

/-- Where the fetch filled the buffer it holds the block. -/
theorem fblk_apply (c : Dev nD) (w : Fin cfg0.W) (t : Fin cfg0.N) (d : (cfg0.win w).block.Idx → Elt Ideal (cfg0.win w).elt)
    (j : (cfg0.win w).block.Idx) (h : ∀ a, (j a).val < (cfg0.win w).xsize (cfg0.grid.coords t) a) :
    fblk V c w t d j = iblk V c w t (fun a => ⟨(j a).val, h a⟩) := by
  unfold fblk Window.fill
  rw [dif_pos (((cfg0.win w).moved_iff _ j).mpr h)]

/-- Window 0's fetched buffer at `(k, j)` holds the first transposed table at `(k, 1024 t + j)`. -/
theorem fblk0_apply (c : Dev nD) (t : Fin cfg0.N) (d : Vec Ideal S64x1024 .f32) (k : Fin 64) (jr : Fin 1024) (col : Fin 100001)
    (hcol : t.val * 1024 + jr.val = col.val) :
    fblk V c 0 t d (ix2 k jr) = (V c main_v0 : S64x100001.Idx → EReal) (ix2 k col) := by
  obtain ⟨a0, a1, b0, b1⟩ := idx0 t
  rw [fblk_apply V c 0 t d (ix2 k jr) (fun a => by
    match a with
    | ⟨0, _⟩ => show k.val < (cfg0.win 0).xsize (cfg0.grid.coords t) 0; rw [a1]; exact k.isLt
    | ⟨1, _⟩ => show jr.val < (cfg0.win 0).xsize (cfg0.grid.coords t) 1; rw [b1]; exact jr.isLt)]
  show V c main_v0 (((cfg0.win 0).blk t).view.emb _) = V c main_v0 (ix2 k col)
  refine congrArg _ (funext fun a => Fin.ext ?_)
  match a with
  | ⟨0, _⟩ => show (cfg0.win 0).index t 0 * (cfg0.win 0).size 0 + 1 * k.val = k.val; rw [a0]; omega
  | ⟨1, _⟩ => show (cfg0.win 0).index t 1 * (cfg0.win 0).size 1 + 1 * jr.val = col.val; rw [b0]; omega

/-- Window 1's fetched buffer at `(k, j)` holds the first transposed table at `(k, 50176 + 1024 t + j)`, where the table
    has that column (past its end the buffer holds what nothing names). -/
theorem fblk1_apply (c : Dev nD) (t : Fin cfg0.N) (d : Vec Ideal S64x1024 .f32) (k : Fin 64) (jr : Fin 1024) (col : Fin 100001)
    (hcol : 50176 + t.val * 1024 + jr.val = col.val) :
    fblk V c 1 t d (ix2 k jr) = (V c main_v0 : S64x100001.Idx → EReal) (ix2 k col) := by
  obtain ⟨a0, a1, b0, b1⟩ := idx1 t
  have hc := col.isLt
  rw [fblk_apply V c 1 t d (ix2 k jr) (fun a => by
    match a with
    | ⟨0, _⟩ => show k.val < (cfg0.win 1).xsize (cfg0.grid.coords t) 0; rw [a1]; exact k.isLt
    | ⟨1, _⟩ => show jr.val < (cfg0.win 1).xsize (cfg0.grid.coords t) 1; rw [b1]; have := jr.isLt; omega)]
  show V c main_v0 (((cfg0.win 1).blk t).view.emb _) = V c main_v0 (ix2 k col)
  refine congrArg _ (funext fun a => Fin.ext ?_)
  match a with
  | ⟨0, _⟩ => show (cfg0.win 1).index t 0 * (cfg0.win 1).size 0 + 1 * k.val = k.val; rw [a0]; omega
  | ⟨1, _⟩ => show (cfg0.win 1).index t 1 * (cfg0.win 1).size 1 + 1 * jr.val = col.val; rw [b0]; omega

/-- Window 0's fetched buffer at `(k, j)` holds the first transposed table at `(k, 1024 t + j)`. -/
theorem fblk2_apply (c : Dev nD) (t : Fin cfg0.N) (d : Vec Ideal S64x1024 .f32) (k : Fin 64) (jr : Fin 1024) (col : Fin 100001)
    (hcol : t.val * 1024 + jr.val = col.val) :
    fblk V c 2 t d (ix2 k jr) = (V c main_v1 : S64x100001.Idx → EReal) (ix2 k col) := by
  obtain ⟨a0, a1, b0, b1⟩ := idx2 t
  rw [fblk_apply V c 2 t d (ix2 k jr) (fun a => by
    match a with
    | ⟨0, _⟩ => show k.val < (cfg0.win 2).xsize (cfg0.grid.coords t) 0; rw [a1]; exact k.isLt
    | ⟨1, _⟩ => show jr.val < (cfg0.win 2).xsize (cfg0.grid.coords t) 1; rw [b1]; exact jr.isLt)]
  show V c main_v1 (((cfg0.win 2).blk t).view.emb _) = V c main_v1 (ix2 k col)
  refine congrArg _ (funext fun a => Fin.ext ?_)
  match a with
  | ⟨0, _⟩ => show (cfg0.win 2).index t 0 * (cfg0.win 2).size 0 + 1 * k.val = k.val; rw [a0]; omega
  | ⟨1, _⟩ => show (cfg0.win 2).index t 1 * (cfg0.win 2).size 1 + 1 * jr.val = col.val; rw [b0]; omega

/-- Window 3's likewise, of the second table. -/
theorem fblk3_apply (c : Dev nD) (t : Fin cfg0.N) (d : Vec Ideal S64x1024 .f32) (k : Fin 64) (jr : Fin 1024) (col : Fin 100001)
    (hcol : 50176 + t.val * 1024 + jr.val = col.val) :
    fblk V c 3 t d (ix2 k jr) = (V c main_v1 : S64x100001.Idx → EReal) (ix2 k col) := by
  obtain ⟨a0, a1, b0, b1⟩ := idx3 t
  have hc := col.isLt
  rw [fblk_apply V c 3 t d (ix2 k jr) (fun a => by
    match a with
    | ⟨0, _⟩ => show k.val < (cfg0.win 3).xsize (cfg0.grid.coords t) 0; rw [a1]; exact k.isLt
    | ⟨1, _⟩ => show jr.val < (cfg0.win 3).xsize (cfg0.grid.coords t) 1; rw [b1]; have := jr.isLt; omega)]
  show V c main_v1 (((cfg0.win 3).blk t).view.emb _) = V c main_v1 (ix2 k col)
  refine congrArg _ (funext fun a => Fin.ext ?_)
  match a with
  | ⟨0, _⟩ => show (cfg0.win 3).index t 0 * (cfg0.win 3).size 0 + 1 * k.val = k.val; rw [a0]; omega
  | ⟨1, _⟩ => show (cfg0.win 3).index t 1 * (cfg0.win 3).size 1 + 1 * jr.val = col.val; rw [b0]; omega

/-- The identity's fetched buffer is the identity array. -/
theorem fblk4_apply (c : Dev nD) (d : Vec Ideal S64x64 .f32) (a b : Fin 64) :
    fblk V c 4 t0 d (ix2 a b) = (V c main_v7 : S64x64.Idx → EReal) (ix2 a b) := by
  obtain ⟨a0, a1, b0, b1⟩ := idx4 t0
  rw [fblk_apply V c 4 t0 d (ix2 a b) (fun ax => by
    match ax with
    | ⟨0, _⟩ => show a.val < (cfg0.win 4).xsize (cfg0.grid.coords t0) 0; rw [a1]; exact a.isLt
    | ⟨1, _⟩ => show b.val < (cfg0.win 4).xsize (cfg0.grid.coords t0) 1; rw [b1]; exact b.isLt)]
  show V c main_v7 (((cfg0.win 4).blk t0).view.emb _) = V c main_v7 (ix2 a b)
  refine congrArg _ (funext fun ax => Fin.ext ?_)
  match ax with
  | ⟨0, _⟩ => show (cfg0.win 4).index t0 0 * (cfg0.win 4).size 0 + 1 * a.val = a.val; rw [a0]; omega
  | ⟨1, _⟩ => show (cfg0.win 4).index t0 1 * (cfg0.win 4).size 1 + 1 * b.val = b.val; rw [b0]; omega

/-! ### The payloads, index by index -/

/-- The payload's low half at `(j, e)` is the first column block at `(e, j)`, its high half the second's: each half is a
    contraction with the identity. -/
theorem pay1_lo (x1 x2 : Vec Ideal S64x1024 .f32) (x5 : Vec Ideal S64x64 .f32)
    (hI5 : ∀ a b : Fin 64, x5 (ix2 a b) = if a = b then (1 : EReal) else (0 : EReal)) (jr : Fin 1024) (e : Fin 64) :
    k0_pay1 x1 x5 x2 x5 (ix2 jr ⟨e.val, by omega⟩) = x1 (ix2 e jr) := by
  unfold k0_pay1
  refine (concatenate_pair_apply_left (t := S1024x128) (s₁ := S1024x64) (s₂ := S1024x64) (1 : Fin 2) _ _ _
    (ix2 jr (⟨e.val, by omega⟩ : Fin 128)) rfl (ix2 jr e) (fun b => by match b with | ⟨0, _⟩ => rfl | ⟨1, _⟩ => rfl)).trans ?_
  rw [shapeCast_self, shapeCast_self]
  exact matmulT_identity x1 x5 hI5 jr e
theorem pay1_hi (x1 x2 : Vec Ideal S64x1024 .f32) (x5 : Vec Ideal S64x64 .f32)
    (hI5 : ∀ a b : Fin 64, x5 (ix2 a b) = if a = b then (1 : EReal) else (0 : EReal)) (jr : Fin 1024) (e : Fin 64) :
    k0_pay1 x1 x5 x2 x5 (ix2 jr ⟨64 + e.val, by omega⟩) = x2 (ix2 e jr) := by
  unfold k0_pay1
  refine (concatenate_pair_apply_right (t := S1024x128) (s₁ := S1024x64) (s₂ := S1024x64) (1 : Fin 2) _ _ _
    (ix2 jr (⟨64 + e.val, by omega⟩ : Fin 128)) rfl rfl (ix2 jr e)
    (fun b hb => by match b with | ⟨0, _⟩ => rfl | ⟨1, _⟩ => exact absurd rfl hb)
    (by show e.val + 64 = 64 + e.val; omega)).trans ?_
  rw [shapeCast_self, shapeCast_self]
  exact matmulT_identity x2 x5 hI5 jr e

/-- The payload's low half at `(j, e)` is the first column block at `(e, j)`, its high half the second's: each half is a
    contraction with the identity. -/
theorem pay2_lo (x1 x2 : Vec Ideal S64x1024 .f32) (x5 : Vec Ideal S64x64 .f32)
    (hI5 : ∀ a b : Fin 64, x5 (ix2 a b) = if a = b then (1 : EReal) else (0 : EReal)) (jr : Fin 1024) (e : Fin 64) :
    k0_pay2 x1 x5 x2 x5 (ix2 jr ⟨e.val, by omega⟩) = x1 (ix2 e jr) := by
  unfold k0_pay2
  refine (concatenate_pair_apply_left (t := S1024x128) (s₁ := S1024x64) (s₂ := S1024x64) (1 : Fin 2) _ _ _
    (ix2 jr (⟨e.val, by omega⟩ : Fin 128)) rfl (ix2 jr e) (fun b => by match b with | ⟨0, _⟩ => rfl | ⟨1, _⟩ => rfl)).trans ?_
  rw [shapeCast_self, shapeCast_self]
  exact matmulT_identity x1 x5 hI5 jr e
theorem pay2_hi (x1 x2 : Vec Ideal S64x1024 .f32) (x5 : Vec Ideal S64x64 .f32)
    (hI5 : ∀ a b : Fin 64, x5 (ix2 a b) = if a = b then (1 : EReal) else (0 : EReal)) (jr : Fin 1024) (e : Fin 64) :
    k0_pay2 x1 x5 x2 x5 (ix2 jr ⟨64 + e.val, by omega⟩) = x2 (ix2 e jr) := by
  unfold k0_pay2
  refine (concatenate_pair_apply_right (t := S1024x128) (s₁ := S1024x64) (s₂ := S1024x64) (1 : Fin 2) _ _ _
    (ix2 jr (⟨64 + e.val, by omega⟩ : Fin 128)) rfl rfl (ix2 jr e)
    (fun b hb => by match b with | ⟨0, _⟩ => rfl | ⟨1, _⟩ => exact absurd rfl hb)
    (by show e.val + 64 = 64 + e.val; omega)).trans ?_
  rw [shapeCast_self, shapeCast_self]
  exact matmulT_identity x2 x5 hI5 jr e

/-! ### The packed arrays -/

/-- Whatever the first packed array may hold after the region: the low half of row `r` is column `r` of the first
    transposed table, and the high half is column `50176 + r` where the table has one. -/
theorem out0_value (c : Dev nD)
    (hI : ∀ a b : Fin 64, (V c main_v7 : S64x64.Idx → EReal) (ix2 a b) = if a = b then (1 : EReal) else (0 : EReal))
    (G : Buf (Elt Ideal) ((c : Thread nD τ).loc main_v8_0)) (h : (dat V O B c).ArrAt 5 cfg0.N G)
    (r : Fin 50176) (e : Fin 64) :
    (G : S50176x128.Idx → EReal) (ix2 r ⟨e.val, by omega⟩) = (V c main_v0 : S64x100001.Idx → EReal) (ix2 e ⟨r.val, by omega⟩)
      ∧ ∀ hr : 50176 + r.val ≤ 100000,
          (G : S50176x128.Idx → EReal) (ix2 r ⟨64 + e.val, by omega⟩) = (V c main_v0 : S64x100001.Idx → EReal) (ix2 e ⟨50176 + r.val, by omega⟩) := by
  have hrlt := r.isLt
  have hN : cfg0.N = 49 := N_0
  obtain ⟨t, ht⟩ : ∃ t : Fin cfg0.N, t.val = r.val / 1024 := ⟨⟨r.val / 1024, by rw [hN]; omega⟩, rfl⟩
  obtain ⟨jr, hjr⟩ : ∃ jr : Fin 1024, jr.val = r.val % 1024 := ⟨⟨r.val % 1024, Nat.mod_lt _ (by norm_num)⟩, rfl⟩
  obtain ⟨d0, d1, d4, hX⟩ := arrAt_out0 V O B c G h t
  obtain ⟨a0, a1, b0, b1⟩ := idx5 t
  have hG : ∀ col : Fin 128, (G : S50176x128.Idx → EReal) (ix2 r col)
      = k0_pay1 (fblk V c 0 t d0) (fblk V c 4 t0 d4) (fblk V c 1 t d1) (fblk V c 4 t0 d4) (ix2 jr col) := fun col => by
    rw [← hX]
    show G (ix2 r col) = G (((cfg0.win 5).blk t).view.emb (ix2 jr col))
    refine congrArg _ (funext fun a => Fin.ext ?_)
    match a with
    | ⟨0, _⟩ => show r.val = (cfg0.win 5).index t 0 * (cfg0.win 5).size 0 + 1 * jr.val; rw [a0, ht, hjr]; omega
    | ⟨1, _⟩ => show col.val = (cfg0.win 5).index t 1 * (cfg0.win 5).size 1 + 1 * col.val; rw [b0]; omega
  have hI4 : ∀ a b : Fin 64, fblk V c 4 t0 d4 (ix2 a b) = if a = b then (1 : EReal) else (0 : EReal) :=
    fun a b => (fblk4_apply V c d4 a b).trans (hI a b)
  refine ⟨?_, fun hr2 => ?_⟩
  · rw [hG, pay1_lo _ _ _ hI4]
    exact fblk0_apply V c t d0 e jr ⟨r.val, by omega⟩ (by show t.val * 1024 + jr.val = r.val; rw [ht, hjr]; omega)
  · rw [hG, pay1_hi _ _ _ hI4]
    exact fblk1_apply V c t d1 e jr ⟨50176 + r.val, by omega⟩ (by show 50176 + t.val * 1024 + jr.val = 50176 + r.val; rw [ht, hjr]; omega)

/-- The second packed array likewise, of the second transposed table. -/
theorem out1_value (c : Dev nD)
    (hI : ∀ a b : Fin 64, (V c main_v7 : S64x64.Idx → EReal) (ix2 a b) = if a = b then (1 : EReal) else (0 : EReal))
    (G : Buf (Elt Ideal) ((c : Thread nD τ).loc main_v8_1)) (h : (dat V O B c).ArrAt 6 cfg0.N G)
    (r : Fin 50176) (e : Fin 64) :
    (G : S50176x128.Idx → EReal) (ix2 r ⟨e.val, by omega⟩) = (V c main_v1 : S64x100001.Idx → EReal) (ix2 e ⟨r.val, by omega⟩)
      ∧ ∀ hr : 50176 + r.val ≤ 100000,
          (G : S50176x128.Idx → EReal) (ix2 r ⟨64 + e.val, by omega⟩) = (V c main_v1 : S64x100001.Idx → EReal) (ix2 e ⟨50176 + r.val, by omega⟩) := by
  have hrlt := r.isLt
  have hN : cfg0.N = 49 := N_0
  obtain ⟨t, ht⟩ : ∃ t : Fin cfg0.N, t.val = r.val / 1024 := ⟨⟨r.val / 1024, by rw [hN]; omega⟩, rfl⟩
  obtain ⟨jr, hjr⟩ : ∃ jr : Fin 1024, jr.val = r.val % 1024 := ⟨⟨r.val % 1024, Nat.mod_lt _ (by norm_num)⟩, rfl⟩
  obtain ⟨d0, d1, d4, hX⟩ := arrAt_out1 V O B c G h t
  obtain ⟨a0, a1, b0, b1⟩ := idx6 t
  have hG : ∀ col : Fin 128, (G : S50176x128.Idx → EReal) (ix2 r col)
      = k0_pay2 (fblk V c 2 t d0) (fblk V c 4 t0 d4) (fblk V c 3 t d1) (fblk V c 4 t0 d4) (ix2 jr col) := fun col => by
    rw [← hX]
    show G (ix2 r col) = G (((cfg0.win 6).blk t).view.emb (ix2 jr col))
    refine congrArg _ (funext fun a => Fin.ext ?_)
    match a with
    | ⟨0, _⟩ => show r.val = (cfg0.win 6).index t 0 * (cfg0.win 6).size 0 + 1 * jr.val; rw [a0, ht, hjr]; omega
    | ⟨1, _⟩ => show col.val = (cfg0.win 6).index t 1 * (cfg0.win 6).size 1 + 1 * col.val; rw [b0]; omega
  have hI4 : ∀ a b : Fin 64, fblk V c 4 t0 d4 (ix2 a b) = if a = b then (1 : EReal) else (0 : EReal) :=
    fun a b => (fblk4_apply V c d4 a b).trans (hI a b)
  refine ⟨?_, fun hr2 => ?_⟩
  · rw [hG, pay2_lo _ _ _ hI4]
    exact fblk2_apply V c t d0 e jr ⟨r.val, by omega⟩ (by show t.val * 1024 + jr.val = r.val; rw [ht, hjr]; omega)
  · rw [hG, pay2_hi _ _ _ hI4]
    exact fblk3_apply V c t d1 e jr ⟨50176 + r.val, by omega⟩ (by show 50176 + t.val * 1024 + jr.val = 50176 + r.val; rw [ht, hjr]; omega)

end Cert.KernelIdeal.Pack

end
-- ==== Proof.MlpPayValue.lean ====
/-
  The payloads of the second block pipeline's body at the extended reals, index by index: the selected half of a row, the
  matrix products as sums over the contracted coordinate, the bias rows, the clamps at zero, the sum along a row and the
  final row-major regrouping of 1024 results into 8 rows of 128.
-/
import proofs.«204570_g59167469470423_cont_9to1_m_669_24_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Mlp

open Cert.KernelIdeal Cert.KernelIdeal.Gen
open Idealize.ShloMosaic Idealize.ShloMosaic.ValueIdx

theorem ofBool_eq_one (b : Bool) : (BitVec.ofBool b = 1#1) = (b = true) := by cases b <;> decide

/-- The id column broadcast along the lanes. -/
theorem bcast_col (x : IVec S1024x1 1) (r : Fin 1024) (e : Fin 64) :
    broadcastTo S1024x64 x broadcasts_S1024x1_S1024x64 (ix2 r e) = x (ix2 r 0) :=
  broadcastTo_apply x _ (ix2 r e) (ix2 r 0) (fun a => by
    match a with
    | ⟨0, _⟩ => rfl
    | ⟨1, _⟩ => rfl)

/-- A select on the broadcast comparison of the id column with 50176: the `if` on the row's id. -/
theorem sel_apply (v11 : Vec Ideal S1024x1 .i32) (v15 v17 : Vec Ideal S1024x64 .f32) (r : Fin 1024) (e : Fin 64) :
    select (broadcastTo S1024x64 (cmpi CmpIPredicate.slt v11 (broadcast S1024x1 50176#32)) broadcasts_S1024x1_S1024x64) v15 v17 (ix2 r e)
      = if (v11 (ix2 r 0)).slt 50176#32 = true then v15 (ix2 r e) else v17 (ix2 r e) := by
  rw [select_apply, bcast_col]
  show Scalar.select (IntOp.cmpi .slt (v11 (ix2 r 0)) 50176#32) (v15 (ix2 r e)) (v17 (ix2 r e)) = _
  unfold Scalar.select IntOp.cmpi
  cases BitVec.slt (v11 (ix2 r 0)) 50176#32 <;> simp

/-- The selected half of a row. -/
theorem pay2_apply (v11 : Vec Ideal S1024x1 .i32) (v15 v17 : Vec Ideal S1024x64 .f32) (r : Fin 1024) (e : Fin 64) :
    k2_pay2 (F := Ideal) v11 v15 v17 (ix2 r e)
      = if (v11 (ix2 r 0)).slt 50176#32 = true then v15 (ix2 r e) else v17 (ix2 r e) := by
  unfold k2_pay2
  simp only [shapeCast_self]
  exact sel_apply v11 v15 v17 r e

/-- The product of an 1024 x 64 by a 64 x 128 matrix into a zero accumulator, at an index: the sum over the contracted coordinate. -/
theorem mm1_apply (A : FVec Ideal S1024x64 .f32) (Bm : FVec Ideal S64x128 .f32) (r : Fin 1024) (k : Fin 128) :
    matmul dot_S1024x64_S64x128_S1024x128_1_0_0_1_n_n none A Bm (constant S1024x128 .f32 0x00000000#32) (ix2 r k)
      = ∑ e : Fin 64, A (ix2 r e) * Bm (ix2 e k) := by
  show FloatOps.matmul dot_S1024x64_S64x128_S1024x128_1_0_0_1_n_n none A Bm (constant S1024x128 .f32 0x00000000#32) (ix2 r k) = _
  rw [Ideal.matmul_constant_zero_apply, ← Equiv.sum_comp (contrEquiv1 dot_S1024x64_S64x128_S1024x128_1_0_0_1_n_n 64 rfl rfl).symm]
  refine Finset.sum_congr rfl fun c _ => ?_
  have c2 := contrEquiv1_symm_val dot_S1024x64_S64x128_S1024x128_1_0_0_1_n_n 64 rfl rfl c
  have l2 : dot_S1024x64_S64x128_S1024x128_1_0_0_1_n_n.lhsIdx (ix2 r k) ((contrEquiv1 dot_S1024x64_S64x128_S1024x128_1_0_0_1_n_n 64 rfl rfl).symm c) = ix2 r c := by
    funext ax; apply Fin.ext
    match ax with
    | ⟨0, _⟩ => simp [DotDims.lhsIdx, dot_S1024x64_S64x128_S1024x128_1_0_0_1_n_n]; rfl
    | ⟨1, _⟩ => exact (dot_S1024x64_S64x128_S1024x128_1_0_0_1_n_n.lhsIdx_val_of_single (cl := 1) rfl (ix2 r k) _).trans c2
  have r2 : dot_S1024x64_S64x128_S1024x128_1_0_0_1_n_n.rhsIdx (ix2 r k) ((contrEquiv1 dot_S1024x64_S64x128_S1024x128_1_0_0_1_n_n 64 rfl rfl).symm c) = ix2 c k := by
    funext ax; apply Fin.ext
    match ax with
    | ⟨0, _⟩ => exact (dot_S1024x64_S64x128_S1024x128_1_0_0_1_n_n.rhsIdx_val_of_single (cr := 0) rfl (ix2 r k) _).trans c2
    | ⟨1, _⟩ => simp [DotDims.rhsIdx, dot_S1024x64_S64x128_S1024x128_1_0_0_1_n_n]; rfl
  rw [l2, r2]

/-- The product of an 1024 x 128 by a 128 x 64 matrix into a zero accumulator, at an index: the sum over the contracted coordinate. -/
theorem mm2_apply (A : FVec Ideal S1024x128 .f32) (Bm : FVec Ideal S128x64 .f32) (r : Fin 1024) (k : Fin 64) :
    matmul dot_S1024x128_S128x64_S1024x64_1_0_0_1_n_n none A Bm (constant S1024x64 .f32 0x00000000#32) (ix2 r k)
      = ∑ e : Fin 128, A (ix2 r e) * Bm (ix2 e k) := by
  show FloatOps.matmul dot_S1024x128_S128x64_S1024x64_1_0_0_1_n_n none A Bm (constant S1024x64 .f32 0x00000000#32) (ix2 r k) = _
  rw [Ideal.matmul_constant_zero_apply, ← Equiv.sum_comp (contrEquiv1 dot_S1024x128_S128x64_S1024x64_1_0_0_1_n_n 128 rfl rfl).symm]
  refine Finset.sum_congr rfl fun c _ => ?_
  have c2 := contrEquiv1_symm_val dot_S1024x128_S128x64_S1024x64_1_0_0_1_n_n 128 rfl rfl c
  have l2 : dot_S1024x128_S128x64_S1024x64_1_0_0_1_n_n.lhsIdx (ix2 r k) ((contrEquiv1 dot_S1024x128_S128x64_S1024x64_1_0_0_1_n_n 128 rfl rfl).symm c) = ix2 r c := by
    funext ax; apply Fin.ext
    match ax with
    | ⟨0, _⟩ => simp [DotDims.lhsIdx, dot_S1024x128_S128x64_S1024x64_1_0_0_1_n_n]; rfl
    | ⟨1, _⟩ => exact (dot_S1024x128_S128x64_S1024x64_1_0_0_1_n_n.lhsIdx_val_of_single (cl := 1) rfl (ix2 r k) _).trans c2
  have r2 : dot_S1024x128_S128x64_S1024x64_1_0_0_1_n_n.rhsIdx (ix2 r k) ((contrEquiv1 dot_S1024x128_S128x64_S1024x64_1_0_0_1_n_n 128 rfl rfl).symm c) = ix2 c k := by
    funext ax; apply Fin.ext
    match ax with
    | ⟨0, _⟩ => exact (dot_S1024x128_S128x64_S1024x64_1_0_0_1_n_n.rhsIdx_val_of_single (cr := 0) rfl (ix2 r k) _).trans c2
    | ⟨1, _⟩ => simp [DotDims.rhsIdx, dot_S1024x128_S128x64_S1024x64_1_0_0_1_n_n]; rfl
  rw [l2, r2]

/-- A bias row broadcast down the rows. -/
theorem bcast_row128 (x : FVec Ideal S1x128 .f32) (r : Fin 1024) (k : Fin 128) :
    broadcastTo S1024x128 x broadcasts_S1x128_S1024x128 (ix2 r k) = x (ix2 0 k) :=
  broadcastTo_apply x _ (ix2 r k) (ix2 0 k) (fun a => by
    match a with
    | ⟨0, _⟩ => rfl
    | ⟨1, _⟩ => rfl)
theorem bcast_row64 (x : FVec Ideal S1x64 .f32) (r : Fin 1024) (j : Fin 64) :
    broadcastTo S1024x64 x broadcasts_S1x64_S1024x64 (ix2 r j) = x (ix2 0 j) :=
  broadcastTo_apply x _ (ix2 r j) (ix2 0 j) (fun a => by
    match a with
    | ⟨0, _⟩ => rfl
    | ⟨1, _⟩ => rfl)

/-- The zero the body clamps at. -/
theorem zero_f32 : (Scalar.ofBits (F := Ideal) .f32 0x00000000#32 : EReal) = 0 := Ideal.ofBits_zero_f32

/-- The sum along a row of 64 lanes. -/
theorem rowsum_apply (src : FVec Ideal S1024x64 .f32) (hφ : FKind.Formats FTy.f32)
    (hacc : (0x00000000#32 : BitVec FTy.f32.bits) = FKind.add.neutral .f32 hφ) (r : Fin 1024) :
    multiReduction .add [1] S1024 src 0x00000000#32 reduces_S1024x64_S1024 hφ hacc (ix1 r) = ∑ j : Fin 64, src (ix2 r j) := by
  refine (Ideal.multiReduction_add_single src 0x00000000#32 reduces_S1024x64_S1024 hφ hacc (ix1 r)).trans ?_
  refine Finset.sum_congr rfl fun j _ => congrArg src ?_
  funext c; apply Fin.ext
  match c with
  | ⟨0, _⟩ => simp [Shape.Reduces.lift_val, Shape.Reduces.liftVal]
  | ⟨1, _⟩ => simp [Shape.Reduces.lift_val, Shape.Reduces.liftVal]

/-- The 1024 row results laid out as 8 rows of 128 lanes, row-major. -/
theorem reshape_apply (x : FVec Ideal S1024 .f32) (p : Fin 8) (q : Fin 128) :
    shapeCast S8x128 x shapeCasts_S1024_S8x128 (ix2 p q) = x (ix1 ⟨128 * p.val + q.val, by omega⟩) :=
  shapeCast_apply x _ (ix2 p q) (ix1 ⟨128 * p.val + q.val, by omega⟩) (by
    rw [Shape.rowMajor_val_one, Shape.rowMajor_val_two]
    show 128 * p.val + q.val = p.val * 128 + q.val
    omega)

/-- The first tower up to its second bias: the second matrix product of the clamped first layer of the selected row. -/
theorem pay3_apply (v0 : Vec Ideal S1024x1 .i32) (v4 v6 : Vec Ideal S1024x64 .f32) (v22 : Vec Ideal S64x128 .f32)
    (v24 : Vec Ideal S1x128 .f32) (v30 : Vec Ideal S128x64 .f32) (r : Fin 1024) (j : Fin 64) :
    k2_pay3 (F := Ideal) v0 v4 v6 v22 v24 v30 (ix2 r j)
      = ∑ k : Fin 128, max ((∑ e : Fin 64, (if (v0 (ix2 r 0)).slt 50176#32 = true then v4 (ix2 r e) else v6 (ix2 r e)) * v22 (ix2 e k))
          + v24 (ix2 0 k)) 0 * v30 (ix2 k j) := by
  unfold k2_pay3
  simp only [mm2_apply, mm1_apply, maximumf_apply, addf_apply, broadcast_apply, bcast_row128, shapeCast_self, zero_f32]
  refine Finset.sum_congr rfl fun k _ => ?_
  refine congrArg (fun z => max (z + v24 (ix2 0 k)) 0 * v30 (ix2 k j)) ?_
  refine Finset.sum_congr rfl fun e _ => ?_
  exact congrArg (· * v22 (ix2 e k)) (sel_apply v0 v4 v6 r e)

/-- The stored value at row `p`, lane `q` of the block: the clamped inner product of the two towers' rows for entry `128 p + q`. -/
theorem pay1_apply (v21 v31 : FVec Ideal S1024x64 .f32) (v33 : FVec Ideal S1x64 .f32) (v38 : Vec Ideal S64x128 .f32)
    (v40 : Vec Ideal S1x128 .f32) (v46 : Vec Ideal S128x64 .f32) (v48 : Vec Ideal S1x64 .f32) (p : Fin 8) (q : Fin 128) :
    k2_pay1 (F := Ideal) v21 v31 v33 v38 v40 v46 v48 (ix2 p q)
      = max (∑ j : Fin 64, max (v31 (ix2 ⟨128 * p.val + q.val, by omega⟩ j) + v33 (ix2 0 j)) 0
          * max ((∑ k : Fin 128, max ((∑ e : Fin 64, v21 (ix2 ⟨128 * p.val + q.val, by omega⟩ e) * v38 (ix2 e k)) + v40 (ix2 0 k)) 0 * v46 (ix2 k j))
              + v48 (ix2 0 j)) 0) 0 := by
  unfold k2_pay1
  simp only [reshape_apply, maximumf_apply, broadcast_apply, zero_f32]
  refine congrArg (max · 0) ?_
  refine (rowsum_apply _ _ _ _).trans ?_
  simp only [maximumf_apply, broadcast_apply, zero_f32, mulf_apply, addf_apply, bcast_row64, bcast_row128,
    shapeCast_self, mm1_apply, mm2_apply]

theorem pay4_eq (v32 : Vec Ideal S1x64 .f32) : k2_pay4 (F := Ideal) v32 = v32 := by
  unfold k2_pay4; exact shapeCast_self _ _

end Cert.KernelIdeal.Mlp

end
-- ==== Proof.MlpValue.lean ====
/-
  The value of the second block pipeline's output array at the extended reals: entry `128 r + q` of the batch, stored at row
  `r`, lane `q`, is the clamp at zero of the inner product of the two towers' rows, each tower run on the half of the
  gathered row that the entry's id selects.
-/
import proofs.«204570_g59167469470423_cont_9to1_m_669_24_alg».proof.Proof.MlpSeg
import proofs.«204570_g59167469470423_cont_9to1_m_669_24_alg».proof.Proof.MlpPayValue
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384
noncomputable section

namespace Cert.KernelIdeal.Mlp

open Cert.KernelIdeal Cert.KernelIdeal.Gen Cert.KernelIdeal.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
/-! ## A tower over a row given as a function -/

/-- The first layer of a tower on the row `x`, unit `k`: `max (Σ_e x[e] · W1[e, k] + b1[k]) 0`. -/
def hiddenRow (x : Fin 64 → EReal) (W1 : S64x128.Idx → EReal) (b1 : Fin 128 → EReal) (k : Fin 128) : EReal :=
  max ((∑ e : Fin 64, x e * W1 (ix2 e k)) + b1 k) 0

/-- A tower on the row `x`, output unit `j`: `max (Σ_k hiddenRow[k] · W2[k, j] + b2[j]) 0`. -/
def towerRow (x : Fin 64 → EReal) (W1 : S64x128.Idx → EReal) (b1 : Fin 128 → EReal) (W2 : S128x64.Idx → EReal)
    (b2 : Fin 64 → EReal) (j : Fin 64) : EReal :=
  max ((∑ k : Fin 128, hiddenRow x W1 b1 k * W2 (ix2 k j)) + b2 j) 0

/-- The half of gathered row `b` its id selects: lanes 0..63 when the id is below 50176 (signed), lanes 64..127 otherwise. -/
def selRow (R : S16384x128.Idx → EReal) (ids : S16384x1.Idx → BitVec 32) (b : Fin 16384) : Fin 64 → EReal :=
  fun e => if (ids (ix2 b 0)).slt 50176#32 = true then R (ix2 b ⟨e.val, by omega⟩) else R (ix2 b ⟨64 + e.val, by omega⟩)

/-- The batch entry output index `i` holds: row `i 0`, lane `i 1` is entry `128 · (i 0) + i 1`. -/
def entryOf (i : S128x128.Idx) : Fin 16384 :=
  ⟨128 * (i 0).val + (i 1).val, by have h0 : (i 0).val < 128 := (i 0).isLt; have h1 : (i 1).val < 128 := (i 1).isLt; omega⟩

/-! ## The blocks read back at the arrays -/

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = t.val ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = 0 ∧ win2_11.index t (1 : Fin 2) = 0 :=
  (by decide +kernel : ∀ t : Fin grid2.N, _)

variable (V : (c : Dev nD) → (b : Ref sig .tc) → Buf (Elt Ideal) ((c : Thread nD τ).loc b))

theorem blk0_apply (c : Dev nD) (t : Fin cfg2.N) (ht : t.val < 16) (r : Fin 1024) (l : Fin 128) :
    iblk V c 0 t (ix2 r l) = V c main_v9_0 (ix2 ⟨1024 * t.val + r.val, by omega⟩ l) := by
  show V c main_v9_0 (((cfg2.win 0).blk t).view.emb (ix2 r l)) = _
  refine congrArg (V c main_v9_0) ?_
  obtain ⟨e0, e1⟩ := idx_0 t
  funext a; apply Fin.ext
  match a with
  | ⟨0, _⟩ => show win2_0.index t (0 : Fin 2) * 1024 + 1 * r.val = 1024 * t.val + r.val; rw [e0]; omega
  | ⟨1, _⟩ => show win2_0.index t (1 : Fin 2) * 128 + 1 * l.val = l.val; rw [e1]; omega
theorem blk1_apply (c : Dev nD) (t : Fin cfg2.N) (ht : t.val < 16) (r : Fin 1024) (l : Fin 128) :
    iblk V c 1 t (ix2 r l) = V c main_v9_1 (ix2 ⟨1024 * t.val + r.val, by omega⟩ l) := by
  show V c main_v9_1 (((cfg2.win 1).blk t).view.emb (ix2 r l)) = _
  refine congrArg (V c main_v9_1) ?_
  obtain ⟨e0, e1⟩ := idx_1 t
  funext a; apply Fin.ext
  match a with
  | ⟨0, _⟩ => show win2_1.index t (0 : Fin 2) * 1024 + 1 * r.val = 1024 * t.val + r.val; rw [e0]; omega
  | ⟨1, _⟩ => show win2_1.index t (1 : Fin 2) * 128 + 1 * l.val = l.val; rw [e1]; omega
theorem blk2_apply (c : Dev nD) (t : Fin cfg2.N) (ht : t.val < 16) (r : Fin 1024) (l : Fin 1) :
    iblk V c 2 t (ix2 r l) = V c main_v10 (ix2 ⟨1024 * t.val + r.val, by omega⟩ l) := by
  show V c main_v10 (((cfg2.win 2).blk t).view.emb (ix2 r l)) = _
  refine congrArg (V c main_v10) ?_
  obtain ⟨e0, e1⟩ := idx_2 t
  funext a; apply Fin.ext
  match a with
  | ⟨0, _⟩ => show win2_2.index t (0 : Fin 2) * 1024 + 1 * r.val = 1024 * t.val + r.val; rw [e0]; omega
  | ⟨1, _⟩ => show win2_2.index t (1 : Fin 2) * 1 + 1 * l.val = l.val; rw [e1]; omega
theorem blk3_apply (c : Dev nD) (t : Fin cfg2.N) (ht : t.val < 16) (r : Fin 1024) (l : Fin 1) :
    iblk V c 3 t (ix2 r l) = V c main_v11 (ix2 ⟨1024 * t.val + r.val, by omega⟩ l) := by
  show V c main_v11 (((cfg2.win 3).blk t).view.emb (ix2 r l)) = _
  refine congrArg (V c main_v11) ?_
  obtain ⟨e0, e1⟩ := idx_3 t
  funext a; apply Fin.ext
  match a with
  | ⟨0, _⟩ => show win2_3.index t (0 : Fin 2) * 1024 + 1 * r.val = 1024 * t.val + r.val; rw [e0]; omega
  | ⟨1, _⟩ => show win2_3.index t (1 : Fin 2) * 1 + 1 * l.val = l.val; rw [e1]; omega
theorem blk4_apply (c : Dev nD) (t : Fin cfg2.N) (y : S64x128.Idx) : iblk V c 4 t y = V c main_arg3 y := by
  show V c main_arg3 (((cfg2.win 4).blk t).view.emb y) = _
  refine congrArg (V c main_arg3) ?_
  obtain ⟨e0, e1⟩ := idx_4 t
  funext a; apply Fin.ext
  match a with
  | ⟨0, _⟩ => show win2_4.index t (0 : Fin 2) * 64 + 1 * (y 0).val = (y 0).val; rw [e0]; omega
  | ⟨1, _⟩ => show win2_4.index t (1 : Fin 2) * 128 + 1 * (y 1).val = (y 1).val; rw [e1]; omega
theorem blk5_apply (c : Dev nD) (t : Fin cfg2.N) (y : S1x128.Idx) : iblk V c 5 t y = V c main_v12 y := by
  show V c main_v12 (((cfg2.win 5).blk t).view.emb y) = _
  refine congrArg (V c main_v12) ?_
  obtain ⟨e0, e1⟩ := idx_5 t
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega
theorem blk6_apply (c : Dev nD) (t : Fin cfg2.N) (y : S128x64.Idx) : iblk V c 6 t y = V c main_arg5 y := by
  show V c main_arg5 (((cfg2.win 6).blk t).view.emb y) = _
  refine congrArg (V c main_arg5) ?_
  obtain ⟨e0, e1⟩ := idx_6 t
  funext a; apply Fin.ext
  match a with
  | ⟨0, _⟩ => show win2_6.index t (0 : Fin 2) * 128 + 1 * (y 0).val = (y 0).val; rw [e0]; omega
  | ⟨1, _⟩ => show win2_6.index t (1 : Fin 2) * 64 + 1 * (y 1).val = (y 1).val; rw [e1]; omega
theorem blk7_apply (c : Dev nD) (t : Fin cfg2.N) (y : S1x64.Idx) : iblk V c 7 t y = V c main_v13 y := by
  show V c main_v13 (((cfg2.win 7).blk t).view.emb y) = _
  refine congrArg (V c main_v13) ?_
  obtain ⟨e0, e1⟩ := idx_7 t
  funext a; apply Fin.ext
  match a with
  | ⟨0, _⟩ => show win2_7.index t (0 : Fin 2) * 1 + 1 * (y 0).val = (y 0).val; rw [e0]; omega
  | ⟨1, _⟩ => show win2_7.index t (1 : Fin 2) * 64 + 1 * (y 1).val = (y 1).val; rw [e1]; omega
theorem blk8_apply (c : Dev nD) (t : Fin cfg2.N) (y : S64x128.Idx) : iblk V c 8 t y = V c main_arg8 y := by
  show V c main_arg8 (((cfg2.win 8).blk t).view.emb y) = _
  refine congrArg (V c main_arg8) ?_
  obtain ⟨e0, e1⟩ := idx_8 t
  funext a; apply Fin.ext
  match a with
  | ⟨0, _⟩ => show win2_8.index t (0 : Fin 2) * 64 + 1 * (y 0).val = (y 0).val; rw [e0]; omega
  | ⟨1, _⟩ => show win2_8.index t (1 : Fin 2) * 128 + 1 * (y 1).val = (y 1).val; rw [e1]; omega
theorem blk9_apply (c : Dev nD) (t : Fin cfg2.N) (y : S1x128.Idx) : iblk V c 9 t y = V c main_v14 y := by
  show V c main_v14 (((cfg2.win 9).blk t).view.emb y) = _
  refine congrArg (V c main_v14) ?_
  obtain ⟨e0, e1⟩ := idx_9 t
  funext a; apply Fin.ext
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega
theorem blk10_apply (c : Dev nD) (t : Fin cfg2.N) (y : S128x64.Idx) : iblk V c 10 t y = V c main_arg10 y := by
  show V c main_arg10 (((cfg2.win 10).blk t).view.emb y) = _
  refine congrArg (V c main_arg10) ?_
  obtain ⟨e0, e1⟩ := idx_10 t
  funext a; apply Fin.ext
  match a with
  | ⟨0, _⟩ => show win2_10.index t (0 : Fin 2) * 128 + 1 * (y 0).val = (y 0).val; rw [e0]; omega
  | ⟨1, _⟩ => show win2_10.index t (1 : Fin 2) * 64 + 1 * (y 1).val = (y 1).val; rw [e1]; omega
theorem blk11_apply (c : Dev nD) (t : Fin cfg2.N) (y : S1x64.Idx) : iblk V c 11 t y = V c main_v15 y := by
  show V c main_v15 (((cfg2.win 11).blk t).view.emb y) = _
  refine congrArg (V c main_v15) ?_
  obtain ⟨e0, e1⟩ := idx_11 t
  funext a; apply Fin.ext
  match a with
  | ⟨0, _⟩ => show win2_11.index t (0 : Fin 2) * 1 + 1 * (y 0).val = (y 0).val; rw [e0]; omega
  | ⟨1, _⟩ => show win2_11.index t (1 : Fin 2) * 64 + 1 * (y 1).val = (y 1).val; rw [e1]; omega

/-! ## The loads' rectangles -/

theorem ld_lo (x : Vec Ideal S1024x128 .f32) (r : Fin 1024) (e : Fin 64) : View.ld x rLo (ix2 r e) = x (ix2 r ⟨e.val, by omega⟩) := by
  show x (rLo.idx (ix2 r e)) = _
  refine congrArg x ?_
  funext a; apply Fin.ext
  match a with
  | ⟨0, _⟩ => show 0 + 1 * r.val = r.val; omega
  | ⟨1, _⟩ => show 0 + 1 * e.val = e.val; omega
theorem ld_hi (x : Vec Ideal S1024x128 .f32) (r : Fin 1024) (e : Fin 64) : View.ld x rHi (ix2 r e) = x (ix2 r ⟨64 + e.val, by omega⟩) := by
  show x (rHi.idx (ix2 r e)) = _
  refine congrArg x ?_
  funext a; apply Fin.ext
  match a with
  | ⟨0, _⟩ => show 0 + 1 * r.val = r.val; omega
  | ⟨1, _⟩ => show 64 + 1 * e.val = 64 + e.val; omega

/-! ## Loads of a block's halves, read at the array -/

theorem ldblk0_lo (c : Dev nD) (t : Fin cfg2.N) (ht : t.val < 16) (r : Fin 1024) (e : Fin 64) :
    View.ld (S := S1024x128) (e' := .f32) (Val := Elt Ideal) (iblk V c 0 t) rLo (ix2 r e)
      = V c main_v9_0 (ix2 ⟨1024 * t.val + r.val, by omega⟩ ⟨e.val, by omega⟩) :=
  (ld_lo (iblk V c 0 t) r e).trans (blk0_apply V c t ht r _)
theorem ldblk0_hi (c : Dev nD) (t : Fin cfg2.N) (ht : t.val < 16) (r : Fin 1024) (e : Fin 64) :
    View.ld (S := S1024x128) (e' := .f32) (Val := Elt Ideal) (iblk V c 0 t) rHi (ix2 r e)
      = V c main_v9_0 (ix2 ⟨1024 * t.val + r.val, by omega⟩ ⟨64 + e.val, by omega⟩) :=
  (ld_hi (iblk V c 0 t) r e).trans (blk0_apply V c t ht r _)
theorem ldblk1_lo (c : Dev nD) (t : Fin cfg2.N) (ht : t.val < 16) (r : Fin 1024) (e : Fin 64) :
    View.ld (S := S1024x128) (e' := .f32) (Val := Elt Ideal) (iblk V c 1 t) rLo (ix2 r e)
      = V c main_v9_1 (ix2 ⟨1024 * t.val + r.val, by omega⟩ ⟨e.val, by omega⟩) :=
  (ld_lo (iblk V c 1 t) r e).trans (blk1_apply V c t ht r _)
theorem ldblk1_hi (c : Dev nD) (t : Fin cfg2.N) (ht : t.val < 16) (r : Fin 1024) (e : Fin 64) :
    View.ld (S := S1024x128) (e' := .f32) (Val := Elt Ideal) (iblk V c 1 t) rHi (ix2 r e)
      = V c main_v9_1 (ix2 ⟨1024 * t.val + r.val, by omega⟩ ⟨64 + e.val, by omega⟩) :=
  (ld_hi (iblk V c 1 t) r e).trans (blk1_apply V c t ht r _)

/-! ## A load through the whole of a buffer reads it where it is asked -/

theorem rW1_idx (y : S64x128.Idx) : rW1.idx y = y := by
  funext a; apply Fin.ext
  match a with
  | ⟨0, _⟩ => show 0 + 1 * (y 0).val = (y 0).val; omega
  | ⟨1, _⟩ => show 0 + 1 * (y 1).val = (y 1).val; omega
theorem rB1_idx (y : S1x128.Idx) : rB1.idx y = y := by
  funext a; apply Fin.ext
  match a with
  | ⟨0, _⟩ => show 0 + 1 * (y 0).val = (y 0).val; omega
  | ⟨1, _⟩ => show 0 + 1 * (y 1).val = (y 1).val; omega
theorem rW2_idx (y : S128x64.Idx) : rW2.idx y = y := by
  funext a; apply Fin.ext
  match a with
  | ⟨0, _⟩ => show 0 + 1 * (y 0).val = (y 0).val; omega
  | ⟨1, _⟩ => show 0 + 1 * (y 1).val = (y 1).val; omega
theorem rB2_idx (y : S1x64.Idx) : rB2.idx y = y := by
  funext a; apply Fin.ext
  match a with
  | ⟨0, _⟩ => show 0 + 1 * (y 0).val = (y 0).val; omega
  | ⟨1, _⟩ => show 0 + 1 * (y 1).val = (y 1).val; omega

/-! ## The value of the output array -/

/-- THE VALUE of the output array after the region, index by index, from the entry contents of the twelve input arrays. -/
theorem finalOut_value (c : Dev nD) (i : S128x128.Idx) :
    finalOut (F := Ideal) V c i
      = max (∑ j : Fin 64,
          towerRow (selRow (V c main_v9_0) (V c main_v10) (entryOf i)) (V c main_arg3) (fun k => V c main_v12 (ix2 0 k))
              (V c main_arg5) (fun j => V c main_v13 (ix2 0 j)) j
            * towerRow (selRow (V c main_v9_1) (V c main_v11) (entryOf i)) (V c main_arg8) (fun k => V c main_v14 (ix2 0 k))
              (V c main_arg10) (fun j => V c main_v15 (ix2 0 j)) j) 0 := by
  have hi0 : (i 0).val < 128 := (i 0).isLt
  have hi1 : (i 1).val < 128 := (i 1).isLt
  have ht : (ptOf i).val < 16 := by show (i 0).val / 8 < 16; omega
  have hrow : (⟨1024 * (ptOf i).val + (128 * ((i 0).val % 8) + (i 1).val), by have : (ptOf i).val = (i 0).val / 8 := rfl; omega⟩ : Fin 16384) = entryOf i :=
    Fin.ext (by show 1024 * ((i 0).val / 8) + (128 * ((i 0).val % 8) + (i 1).val) = 128 * (i 0).val + (i 1).val; omega)
  unfold finalOut outAt
  rw [out_eq]
  unfold pay
  show k2_pay1 _ _ _ _ _ _ _ (ix2 ⟨(i 0).val % 8, Nat.mod_lt _ (by decide)⟩ ⟨(i 1).val, (i 1).isLt⟩) = _
  rw [pay1_apply]
  simp only [pay3_apply, pay2_apply, pay4_eq, View.ld_unit_zero (S := S1024x1) zero_offsets, View.ld_unit_zero (S := S64x128) zero_offsets,
    View.ld_unit_zero (S := S1x128) zero_offsets, View.ld_unit_zero (S := S128x64) zero_offsets, View.ld_unit_zero (S := S1x64) zero_offsets,
    ldblk0_lo V c (ptOf i) ht, ldblk0_hi V c (ptOf i) ht, ldblk1_lo V c (ptOf i) ht, ldblk1_hi V c (ptOf i) ht, rW1_idx, rB1_idx, rW2_idx, rB2_idx, blk2_apply V c (ptOf i) ht, blk3_apply V c (ptOf i) ht,
    blk4_apply, blk5_apply, blk6_apply, blk7_apply, blk8_apply, blk9_apply, blk10_apply, blk11_apply, hrow]
  rfl

end Cert.KernelIdeal.Mlp

end
-- ==== Proof.GlueValue.lean ====
/-
  The joints of the value argument, on the extended reals.

  Two statements join what is known of the three calls. After the first host stretch the packing call's two outputs are
  packed tables of the two argument tables: the call's own statement speaks of the transposed tables and of the identity
  matrix, which the stretch read at an index turns into the argument tables. And from rows as asked of the gather, the
  tower call's output read through the last reshape is the specification: the reshapes of the second stretch hand the
  ids and biases on unchanged, the half of a gathered row its id selects is the id's table row, and a tower over a row
  given as a function is the specification's tower at that table row.
-/
import proofs.«204570_g59167469470423_cont_9to1_m_669_24_alg».proof.Proof.ChainValue
import proofs.«204570_g59167469470423_cont_9to1_m_669_24_alg».proof.Proof.PackValue
import proofs.«204570_g59167469470423_cont_9to1_m_669_24_alg».proof.Proof.MlpValue
import proofs.«204570_g59167469470423_cont_9to1_m_669_24_alg».proof.Proof.Spec
import proofs.«204570_g59167469470423_cont_9to1_m_669_24_alg».proof.Proof.PreFold

noncomputable section

namespace Cert.KernelIdeal.Glue

open Cert.KernelIdeal Cert.KernelIdeal.Gen Cert.KernelIdeal.Base Cert.KernelIdeal.ChainFrame
open Idealize.ShloMosaic Idealize.ShloMosaic.TcCoe Idealize.ShloMosaic.ValueIdx Idealize.SL.Sem
open Idealize.ShloMosaic.SparseCore.Cfg (HIx)
open Idealize.ShloMosaic.Rounds
open scoped BigOperators

/-- A reference of the host processor as a device buffer. -/
abbrev dref (r : Ref sig .tc) : DevRef τ sig := Proc.devRef (τ := τ) .tc r

/-- A valuation as every device's buffer contents. -/
abbrev refsOf (V : Valuation τ sig (Elt Ideal)) : (c : Dev nD) → (b : Ref sig .tc) → Buf (Elt Ideal) ((c : Thread nD τ).loc b) :=
  fun _ b => V (dref b)

/-! ## The packing call's outputs are packed tables -/

theorem pack_G8 (V0 : Valuation τ sig (Elt Ideal)) (d : Dev nD) (O : CellTallies nD τ sig (HIx 1)) (B : Set (SemLoc sig × HIx 1))
    (G0 : Buf (Elt Ideal) ((d : Thread nD τ).loc main_v8_0))
    (h0 : (Pack.dat (refsOf (StableHlo.after (hostA (F := Ideal)) V0)) O B d).ArrAt 5 cfg0.N G0)
    (G1 : Buf (Elt Ideal) ((d : Thread nD τ).loc main_v8_1))
    (h1 : (Pack.dat (refsOf (StableHlo.after (hostA (F := Ideal)) V0)) O B d).ArrAt 6 cfg0.N G1) :
    Chain.G8 (V0 (dref main_arg2)) G0 ∧ Chain.G8 (V0 (dref main_arg7)) G1 := by
  have hI : ∀ a b : Fin 64, (refsOf (StableHlo.after (hostA (F := Ideal)) V0) d main_v7 : S64x64.Idx → EReal) (ix2 a b)
      = if a = b then (1 : EReal) else (0 : EReal) := fun a b => Chain.after_A_v7 V0 a b
  refine ⟨fun r e => ?_, fun r e => ?_⟩
  · obtain ⟨p1, p2⟩ := Pack.out0_value (refsOf (StableHlo.after (hostA (F := Ideal)) V0)) O B d hI G0 h0 r e
    exact ⟨p1.trans (Chain.after_A_v0 V0 e _), fun h => (p2 h).trans (Chain.after_A_v0 V0 e _)⟩
  · obtain ⟨p1, p2⟩ := Pack.out1_value (refsOf (StableHlo.after (hostA (F := Ideal)) V0)) O B d hI G1 h1 r e
    exact ⟨p1.trans (Chain.after_A_v1 V0 e _), fun h => (p2 h).trans (Chain.after_A_v1 V0 e _)⟩

/-! ## From rows as asked to the specification -/

/-- A tower over a row given as a function, with biases given as functions, is the specification's tower at the table
    row the function reads. -/
theorem towerRow_eq (x : Fin 64 → EReal) (tab : S100001x64.Idx → EReal) (row : Fin 100001) (hx : ∀ e, x e = tab (ix2 row e))
    (W1 : S64x128.Idx → EReal) (c1 : Fin 128 → EReal) (b1 : S128.Idx → EReal) (h1 : ∀ k, c1 k = b1 (ix1 k))
    (W2 : S128x64.Idx → EReal) (c2 : Fin 64 → EReal) (b2 : S64.Idx → EReal) (h2 : ∀ j, c2 j = b2 (ix1 j)) (j : Fin 64) :
    Mlp.towerRow x W1 c1 W2 c2 j = Cert.Spec.tower tab W1 b1 W2 b2 row j := by
  unfold Mlp.towerRow Mlp.hiddenRow Cert.Spec.tower Cert.Spec.hidden
  simp only [hx, h1, h2]

/-- The half of a gathered row its id selects is the id's table row, when the row is as asked. -/
theorem selRow_eq (R : S16384x128.Idx → EReal) (ids2 : S16384x1.Idx → BitVec 32) (ids : S16384.Idx → BitVec 32)
    (tab : S100001x64.Idx → EReal) (b : Fin 16384) (hid : ids2 (ix2 b (0 : Fin 1)) = ids (ix1 b))
    (hle : (ids (ix1 b)).toNat ≤ 99999) (h9 : Chain.R9 ids tab b (fun l => R (ix2 b l))) (e : Fin 64) :
    Mlp.selRow R ids2 b e = tab (ix2 (Cert.Spec.rowOf (ids (ix1 b))) e) := by
  unfold Mlp.selRow
  rw [hid]
  have h := h9 e
  by_cases hlt : (ids (ix1 b)).toNat < 50176
  · rw [if_pos hlt] at h
    rw [if_pos ((Cert.PreFold.slt_iff _ hle).2 hlt)]
    exact h
  · rw [if_neg hlt] at h
    rw [if_neg (fun hs => hlt ((Cert.PreFold.slt_iff _ hle).1 hs))]
    exact h

theorem final_G (V3 : Valuation τ sig (Elt Ideal)) (d : Dev nD)
    (hU : ∀ i, (V3 (dref main_arg0) i).toNat ≤ 99999) (hI : ∀ i, (V3 (dref main_arg1) i).toNat ≤ 99999)
    (h9u : ∀ b : Fin 16384, Chain.R9 (V3 (dref main_arg0)) (V3 (dref main_arg2)) b (fun l => V3 (dref main_v9_0) (ix2 b l)))
    (h9i : ∀ b : Fin 16384, Chain.R9 (V3 (dref main_arg1)) (V3 (dref main_arg7)) b (fun l => V3 (dref main_v9_1) (ix2 b l))) :
    StableHlo.after (hostC (F := Ideal))
        (Function.update (StableHlo.after (hostB (F := Ideal)) V3) (dref main_v16)
          (Mlp.finalOut (refsOf (StableHlo.after (hostB (F := Ideal)) V3)) d))
        (dref main_v17)
      = Cert.Spec.G (V3 (dref main_arg0)) (V3 (dref main_arg1)) (V3 (dref main_arg2)) (V3 (dref main_arg3)) (V3 (dref main_arg4))
          (V3 (dref main_arg5)) (V3 (dref main_arg6)) (V3 (dref main_arg7)) (V3 (dref main_arg8)) (V3 (dref main_arg9))
          (V3 (dref main_arg10)) (V3 (dref main_arg11)) := by
  funext i
  obtain ⟨b, rfl⟩ : ∃ b : Fin 16384, i = ix1 b := ⟨i 0, eq_ix1 i⟩
  have he : Mlp.entryOf (ix2 (⟨b.val / 128, by omega⟩ : Fin 128) (⟨b.val % 128, by omega⟩ : Fin 128)) = b :=
    Fin.ext (by show 128 * (b.val / 128) + b.val % 128 = b.val; omega)
  rw [Chain.after_C_v17, Function.update_self, Mlp.finalOut_value, he]
  dsimp only [refsOf, dref]
  rw [after_B_of V3 main_v9_0 (by decide), after_B_of V3 main_v9_1 (by decide), after_B_of V3 main_arg3 (by decide),
    after_B_of V3 main_arg5 (by decide), after_B_of V3 main_arg8 (by decide), after_B_of V3 main_arg10 (by decide)]
  unfold Cert.Spec.G
  refine congrArg (fun s : EReal => max s 0) (Finset.sum_congr rfl fun j _ => ?_)
  refine congrArg₂ (fun p q : EReal => p * q) ?_ ?_
  · exact towerRow_eq _ _ _ (fun e => selRow_eq _ _ _ _ b (Chain.after_B_v10 V3 b 0) (hU _) (h9u b) e)
      _ _ _ (fun k => Chain.after_B_v12 V3 0 k) _ _ _ (fun j' => Chain.after_B_v13 V3 0 j') j
  · exact towerRow_eq _ _ _ (fun e => selRow_eq _ _ _ _ b (Chain.after_B_v11 V3 b 0) (hI _) (h9i b) e)
      _ _ _ (fun k => Chain.after_B_v14 V3 0 k) _ _ _ (fun j' => Chain.after_B_v15 V3 0 j') j

end Cert.KernelIdeal.Glue

end
-- ==== Proof.PreRange.lean ====
/-
  What the precondition says of the two id arrays.

  The printed predicate is a conjunction of twelve `all`-reductions read as one bit: ten say that a float array is finite, two
  say that an id array lies in `[0, 99999]` (signed). The conjunction being 1 makes each conjunct 1; an `all` over an
  array that is 1 makes the compared bit 1 at every index; the two signed comparisons at an index bound the word. Only
  the two integer conjuncts are read; the float ones are split off and dropped, so the statement holds at every float
  instance.
-/
import proofs.«204570_g59167469470423_cont_9to1_m_669_24_alg».proof.Pre_input_domain
import Idealize.ShloMosaic.Lib.ReduceAll
import Idealize.ShloMosaic.Lib.ValueIdx

noncomputable section

namespace Cert.PreRange

open Idealize.ShloMosaic Cert.Pre_input_domain

variable {F : FTy → Type} [FloatOps F] [Cert.Pre_input_domain.Facts]

/-- The scalar shape has one index. -/
instance subsingleton_S_ : Subsingleton S_.Idx := ⟨fun a b => funext fun d => d.elim0⟩

/-- A word that tests `≥ 0` and `≤ 99999` signed lies in `[0, 99999]` read signed. -/
theorem word_signed (w : BitVec 32) (h0 : IntOp.cmpi .sge w 0#32 = 1#1) (h1 : IntOp.cmpi .sle w 99999#32 = 1#1) :
    0 ≤ w.toInt ∧ w.toInt ≤ 99999 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  exact ⟨h0, h1⟩

/-- A word in `[0, 99999]` read signed is at most 99999 read unsigned. -/
theorem toNat_le_of_signed (w : BitVec 32) (h : 0 ≤ w.toInt ∧ w.toInt ≤ 99999) : w.toNat ≤ 99999 := by
  obtain ⟨h0, h1⟩ := h
  have hlt := w.isLt
  rw [BitVec.toInt_eq_toNat_cond] at h0 h1
  split at h0 <;> omega

/-- A word at most 99999 read unsigned lies in `[0, 99999]` read signed. -/
theorem signed_of_toNat_le (w : BitVec 32) (h : w.toNat ≤ 99999) : 0 ≤ w.toInt ∧ w.toInt ≤ 99999 := by
  rw [BitVec.toInt_eq_toNat_of_lt (by omega)]
  omega

/-- An id array whose range conjunct `all ((x ≥ 0) & (x ≤ 99999))` is 1 has every word in `[0, 99999]`, read signed. -/
theorem all_signed (x : IVec S16384 32) (init : IVec S_ 1)
    (h : Host.reduce IntOp.andi
        (andi (cmpi .sge x (broadcastInDim S16384 ![] Facts.bcast_S_S16384 (constantI S_ 32 0#32)))
          (cmpi .sle x (broadcastInDim S16384 ![] Facts.bcast_S_S16384 (constantI S_ 32 99999#32))))
        init Facts.reducesTo_S16384_S_d0 Facts.h_S_ ValueIdx.ix0 = 1#1) (i : S16384.Idx) :
    0 ≤ (x i).toInt ∧ (x i).toInt ≤ 99999 := by
  have hi := Host.reduce_andi_all _ init Facts.reducesTo_S16384_S_d0 Facts.h_S_ ValueIdx.ix0 h i
  obtain ⟨h0, h1⟩ := IntOp.andi_eq_one.1 hi
  exact word_signed (x i) h0 h1

/-- The two range conjuncts of the precondition, read at the predicate's one index. -/
theorem range_conjuncts (a0 a1 : IVec S16384 32) (a2 : FVec F S100001x64 .f32) (a3 : FVec F S64x128 .f32) (a4 : FVec F S128 .f32)
    (a5 : FVec F S128x64 .f32) (a6 : FVec F S64 .f32) (a7 : FVec F S100001x64 .f32) (a8 : FVec F S64x128 .f32)
    (a9 : FVec F S128 .f32) (a10 : FVec F S128x64 .f32) (a11 : FVec F S64 .f32)
    (h : Cert.Pre_input_domain.fn (F := F) a0 a1 a2 a3 a4 a5 a6 a7 a8 a9 a10 a11 = fun _ => 1#1) :
    (∀ i, 0 ≤ (a0 i).toInt ∧ (a0 i).toInt ≤ 99999) ∧ (∀ i, 0 ≤ (a1 i).toInt ∧ (a1 i).toInt ≤ 99999) := by
  have e := congrFun h ValueIdx.ix0
  dsimp only [Cert.Pre_input_domain.fn, Cert.Pre_input_domain.fn_part1, Cert.Pre_input_domain.fn_part2,
    Cert.Pre_input_domain.fn_part3] at e
  -- the outermost `and`: (finiteness and the first range conjunct) and the second range conjunct
  obtain ⟨e55, e61⟩ := IntOp.andi_eq_one.1 e
  obtain ⟨-, e54⟩ := IntOp.andi_eq_one.1 e55
  exact ⟨all_signed a0 _ e54, all_signed a1 _ e61⟩

/-- THE PRECONDITION DECODED: every user id and every item id is at most 99999, read unsigned. -/
theorem ids_in_range (a0 a1 : IVec S16384 32) (a2 : FVec F S100001x64 .f32) (a3 : FVec F S64x128 .f32) (a4 : FVec F S128 .f32)
    (a5 : FVec F S128x64 .f32) (a6 : FVec F S64 .f32) (a7 : FVec F S100001x64 .f32) (a8 : FVec F S64x128 .f32)
    (a9 : FVec F S128 .f32) (a10 : FVec F S128x64 .f32) (a11 : FVec F S64 .f32)
    (h : Cert.Pre_input_domain.fn (F := F) a0 a1 a2 a3 a4 a5 a6 a7 a8 a9 a10 a11 = fun _ => 1#1) :
    (∀ i, (a0 i).toNat ≤ 99999) ∧ (∀ i, (a1 i).toNat ≤ 99999) :=
  ⟨fun i => toNat_le_of_signed _ ((range_conjuncts a0 a1 a2 a3 a4 a5 a6 a7 a8 a9 a10 a11 h).1 i),
   fun i => toNat_le_of_signed _ ((range_conjuncts a0 a1 a2 a3 a4 a5 a6 a7 a8 a9 a10 a11 h).2 i)⟩

/-- The user ids read signed: in `[0, 99999]`. -/
theorem uid_signed (a0 a1 : IVec S16384 32) (a2 : FVec F S100001x64 .f32) (a3 : FVec F S64x128 .f32) (a4 : FVec F S128 .f32)
    (a5 : FVec F S128x64 .f32) (a6 : FVec F S64 .f32) (a7 : FVec F S100001x64 .f32) (a8 : FVec F S64x128 .f32)
    (a9 : FVec F S128 .f32) (a10 : FVec F S128x64 .f32) (a11 : FVec F S64 .f32)
    (h : Cert.Pre_input_domain.fn (F := F) a0 a1 a2 a3 a4 a5 a6 a7 a8 a9 a10 a11 = fun _ => 1#1) (i : S16384.Idx) :
    0 ≤ (a0 i).toInt ∧ (a0 i).toInt ≤ 99999 :=
  (range_conjuncts a0 a1 a2 a3 a4 a5 a6 a7 a8 a9 a10 a11 h).1 i

/-- The item ids read signed: in `[0, 99999]`. -/
theorem iid_signed (a0 a1 : IVec S16384 32) (a2 : FVec F S100001x64 .f32) (a3 : FVec F S64x128 .f32) (a4 : FVec F S128 .f32)
    (a5 : FVec F S128x64 .f32) (a6 : FVec F S64 .f32) (a7 : FVec F S100001x64 .f32) (a8 : FVec F S64x128 .f32)
    (a9 : FVec F S128 .f32) (a10 : FVec F S128x64 .f32) (a11 : FVec F S64 .f32)
    (h : Cert.Pre_input_domain.fn (F := F) a0 a1 a2 a3 a4 a5 a6 a7 a8 a9 a10 a11 = fun _ => 1#1) (i : S16384.Idx) :
    0 ≤ (a1 i).toInt ∧ (a1 i).toInt ≤ 99999 :=
  (range_conjuncts a0 a1 a2 a3 a4 a5 a6 a7 a8 a9 a10 a11 h).2 i

end Cert.PreRange

end
-- ==== Proof.RefOps.lean ====
/-
  The reference as a list of operations, and its value as a term.

  The reference is a straight line of eighty tensor operations once its calls are put in line: two lookups
  (`jnp.take`: the id moved up by the table's length when negative, a mask saying whether the moved id names a
  row, the row gather, and a fill for the rows the mask leaves out), two towers (matrix product, bias, clamp at
  zero, twice), the product of the towers' outputs, its row sum, and a last clamp at zero. Every execution ends
  with each buffer at the operations' composed value of the twelve arguments; `refTerm` names that value at the
  result, built from `takeTerm` (a lookup) and `towerTerm` (a tower over looked-up rows).
-/
import proofs.«204570_g59167469470423_cont_9to1_m_669_24_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The value, as a term of the arguments -/

/-- The index column a lookup gathers with: an id below zero is moved up by the table's length, 100001. -/
def takeIdx (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100001#32))) idx)

/-- Whether the moved id names a row: `0 ≤ id ≤ 100000`, as signed numbers. -/
def takeMask (idx : IVec S16384 32) : IVec S16384 1 :=
  Host.reduce IntOp.andi
    (andi (cmpi .sge (takeIdx idx) (broadcastInDim S16384x1 ![] bcast_S_S16384x1 (constantI S_ 32 0#32)))
      (cmpi .sle (takeIdx idx)
        (broadcastInDim S16384x1 ![0, 1] bcast_S1x1_S16384x1_0_1 (broadcastInDim S1x1 ![1] bcast_S1_S1x1_1 (constantI S1 32 100000#32)))))
    (constantI S_ 1 1#1) reducesTo_S16384x1_S16384_d1 h_S_

/-- A lookup: row `i` is the table's row at the moved id where the mask holds, and the fill elsewhere. -/
def takeTerm (tab : FVec F S100001x64 .f32) (idx : IVec S16384 32) : FVec F S16384x64 .f32 :=
  select (broadcastInDim S16384x64 ![0] bcast_S16384_S16384x64_0 (takeMask idx))
    (Host.gather gather_S100001x64_S16384x1_S16384x64_1_0_n_n_0_1_164 tab (takeIdx idx))
    (broadcastInDim S16384x64 ![] bcast_S_S16384x64 (constant S_ .f32 0x7FC00000#32))

/-- A tower over rows `e`: `max (max (e · W1 + b1) 0 · W2 + b2) 0`. -/
def towerTerm (e : FVec F S16384x64 .f32) (W1 : FVec F S64x128 .f32) (b1 : FVec F S128 .f32) (W2 : FVec F S128x64 .f32)
    (b2 : FVec F S64 .f32) : FVec F S16384x64 .f32 :=
  maximumf
    (addf
      (Host.dotGeneral dot_S16384x128_S128x64_S16384x64_1_0_0_1_n_n none
        (maximumf
          (addf (Host.dotGeneral dot_S16384x64_S64x128_S16384x128_1_0_0_1_n_n none e W1)
            (broadcastInDim S16384x128 ![0, 1] bcast_S1x128_S16384x128_0_1 (broadcastInDim S1x128 ![1] bcast_S128_S1x128_1 b1)))
          (broadcastInDim S16384x128 ![] bcast_S_S16384x128 (constant S_ .f32 0x00000000#32)))
        W2)
      (broadcastInDim S16384x64 ![0, 1] bcast_S1x64_S16384x64_0_1 (broadcastInDim S1x64 ![1] bcast_S64_S1x64_1 b2)))
    (broadcastInDim S16384x64 ![] bcast_S_S16384x64 (constant S_ .f32 0x00000000#32))

/-- The reference's result as a term of its twelve arguments: the clamp at zero of the row sums of the product of
    the two towers over the two lookups. -/
def refTerm (a0 a1 : (⟨S16384, .i32⟩ : BufTy).Contents (Elt F)) (a2 : (⟨S100001x64, .f32⟩ : BufTy).Contents (Elt F))
    (a3 : (⟨S64x128, .f32⟩ : BufTy).Contents (Elt F)) (a4 : (⟨S128, .f32⟩ : BufTy).Contents (Elt F)) (a5 : (⟨S128x64, .f32⟩ : BufTy).Contents (Elt F)) (a6 : (⟨S64, .f32⟩ : BufTy).Contents (Elt F))
    (a7 : (⟨S100001x64, .f32⟩ : BufTy).Contents (Elt F)) (a8 : (⟨S64x128, .f32⟩ : BufTy).Contents (Elt F)) (a9 : (⟨S128, .f32⟩ : BufTy).Contents (Elt F)) (a10 : (⟨S128x64, .f32⟩ : BufTy).Contents (Elt F))
    (a11 : (⟨S64, .f32⟩ : BufTy).Contents (Elt F)) : (⟨S16384, .f32⟩ : BufTy).Contents (Elt F) :=
  maximumf
    (Host.reduceAdd
      (mulf (towerTerm (takeTerm a2 a0) a3 a4 a5 a6) (towerTerm (takeTerm a7 a1) a8 a9 a10 a11))
      (constant S_ .f32 0x00000000#32) reducesTo_S16384x64_S16384_d1 h_S_)
    (broadcastInDim S16384 ![] bcast_S_S16384 (constant S_ .f32 0x00000000#32))

/-! ## The program as a list of operations -/

/-- @main's eighty operations in order, the calls put in line: a lookup is twenty-three (the select that moves a
    negative id is `_where`'s one, into the lookup's own record), a clamp at zero three. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 100001#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 100000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S100001x64, .f32⟩) main_call0.v5 main_call0.v13 (fun x i => Host.gather gather_S100001x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    binary main_v0 main_arg3 main_v1 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)),
    TRef.nullary main_call1.cst (constant S_ .f32 0x00000000#32),
    TRef.unary main_call1.cst main_call1.v0 (broadcastInDim S16384x128 ![] bcast_S_S16384x128),
    TRef.binary (.of main_v4 : TRef sig ⟨S16384x128, .f32⟩) main_call1.v0 main_call1.v1 maximumf,
    binary main_v5 main_arg5 main_v6 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg6 main_v7 (broadcastInDim S1x64 ![1] bcast_S64_S1x64_1 : (⟨S64, .f32⟩ : BufTy).Contents (Elt F) → (⟨S1x64, .f32⟩ : BufTy).Contents (Elt F)),
    unary main_v7 main_v8 (broadcastInDim S16384x64 ![0, 1] bcast_S1x64_S16384x64_0_1 : (⟨S1x64, .f32⟩ : BufTy).Contents (Elt F) → (⟨S16384x64, .f32⟩ : BufTy).Contents (Elt F)),
    binary main_v6 main_v8 main_v9 (addf : (⟨S16384x64, .f32⟩ : BufTy).Contents (Elt F) → (⟨S16384x64, .f32⟩ : BufTy).Contents (Elt F) → (⟨S16384x64, .f32⟩ : BufTy).Contents (Elt F)),
    TRef.nullary main_call2.cst (constant S_ .f32 0x00000000#32),
    TRef.unary main_call2.cst main_call2.v0 (broadcastInDim S16384x64 ![] bcast_S_S16384x64),
    TRef.binary (.of main_v9 : TRef sig ⟨S16384x64, .f32⟩) main_call2.v0 main_call2.v1 maximumf,
    TRef.nullary main_call3.c (constantI S_ 32 0#32),
    TRef.unary main_call3.c main_call3.v0 (broadcastInDim S16384 ![] bcast_S_S16384),
    TRef.binary (.of main_arg1 : TRef sig ⟨S16384, .i32⟩) main_call3.v0 main_call3.v1 (cmpi .slt),
    TRef.nullary main_call3.c_0 (constantI S_ 32 100001#32),
    TRef.unary main_call3.c_0 main_call3.v2 (broadcastInDim S16384 ![] bcast_S_S16384),
    TRef.binary (.of main_arg1 : TRef sig ⟨S16384, .i32⟩) main_call3.v2 main_call3.v3 addi,
    TRef.ternary main_call3.v1 main_call3.v3 (.of main_arg1 : TRef sig ⟨S16384, .i32⟩) main_call3.call0.v0 select,
    TRef.unary main_call3.call0.v0 main_call3.v5 (broadcastInDim S16384x1 ![0] bcast_S16384_S16384x1_0),
    TRef.nullary main_call3.c_1 (constantI S1 32 100000#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg7 : TRef sig ⟨S100001x64, .f32⟩) main_call3.v5 main_call3.v13 (fun x i => Host.gather gather_S100001x64_S16384x1_S16384x64_1_0_n_n_0_1_164 x i),
    TRef.unary main_call3.v12 main_call3.v14 (broadcastInDim S16384x64 ![0] bcast_S16384_S16384x64_0),
    TRef.nullary main_call3.cst (constant S_ .f32 0x7FC00000#32),
    TRef.unary main_call3.cst main_call3.v15 (broadcastInDim S16384x64 ![] bcast_S_S16384x64),
    TRef.ternary main_call3.v14 main_call3.v13 main_call3.v15 main_call3.v16 select,
    binary main_v11 main_arg8 main_v12 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg9 main_v13 (broadcastInDim S1x128 ![1] bcast_S128_S1x128_1 : (⟨S128, .f32⟩ : BufTy).Contents (Elt F) → (⟨S1x128, .f32⟩ : BufTy).Contents (Elt F)),
    unary main_v13 main_v14 (broadcastInDim S16384x128 ![0, 1] bcast_S1x128_S16384x128_0_1 : (⟨S1x128, .f32⟩ : BufTy).Contents (Elt F) → (⟨S16384x128, .f32⟩ : BufTy).Contents (Elt F)),
    binary main_v12 main_v14 main_v15 (addf : (⟨S16384x128, .f32⟩ : BufTy).Contents (Elt F) → (⟨S16384x128, .f32⟩ : BufTy).Contents (Elt F) → (⟨S16384x128, .f32⟩ : BufTy).Contents (Elt F)),
    TRef.nullary main_call4.cst (constant S_ .f32 0x00000000#32),
    TRef.unary main_call4.cst main_call4.v0 (broadcastInDim S16384x128 ![] bcast_S_S16384x128),
    TRef.binary (.of main_v15 : TRef sig ⟨S16384x128, .f32⟩) main_call4.v0 main_call4.v1 maximumf,
    binary main_v16 main_arg10 main_v17 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg11 main_v18 (broadcastInDim S1x64 ![1] bcast_S64_S1x64_1 : (⟨S64, .f32⟩ : BufTy).Contents (Elt F) → (⟨S1x64, .f32⟩ : BufTy).Contents (Elt F)),
    unary main_v18 main_v19 (broadcastInDim S16384x64 ![0, 1] bcast_S1x64_S16384x64_0_1 : (⟨S1x64, .f32⟩ : BufTy).Contents (Elt F) → (⟨S16384x64, .f32⟩ : BufTy).Contents (Elt F)),
    binary main_v17 main_v19 main_v20 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v20 : TRef sig ⟨S16384x64, .f32⟩) main_call5.v0 main_call5.v1 maximumf,
    binary main_v10 main_v21 main_v22 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v22 main_cst main_v23 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    TRef.nullary main_call6.cst (constant S_ .f32 0x00000000#32),
    TRef.unary main_call6.cst main_call6.v0 (broadcastInDim S16384 ![] bcast_S_S16384),
    TRef.binary (.of main_v23 : TRef sig ⟨S16384, .f32⟩) main_call6.v0 main_call6.v1 maximumf ]

/-- @main is that straight line: the calls unfold and sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub ..⟩

/-- Every execution of @main ends with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRun.lean ====
/-
  The reference's run.

  Every execution of the reference ends with the result buffer at `refTerm` of the twelve arguments' launch
  contents and the arguments as they were: the fold of the eighty operations read at the result buffer, each
  operation's result at its own buffer and every other buffer left alone, is `refTerm` by computation.
-/
import proofs.«204570_g59167469470423_cont_9to1_m_669_24_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A value moved to a buffer's own type and back is the value. -/
theorem ofBuf_toBuf {Val : EltTy → Type} {T : BufTy} (x : TRef sig T) (v : T.Contents Val) : x.ofBuf (x.toBuf v) = v := by
  obtain ⟨r, rfl, h2, h3⟩ := x
  rfl

-- the equation is between two deep terms: the gather and the two reductions are kept folded while they are compared
attribute [local irreducible] Host.reduce Host.gather Host.reduceAdd in
set_option maxRecDepth 65536 in
set_option maxHeartbeats 1000000 in
/-- The fold at the result buffer is `refTerm` of the twelve arguments' launch contents: each operation's result
    read at its own buffer, every other buffer left as it was; the typed references' casts are the identity at
    these literal references. The gather, the two reductions and the products stay folded: the equation never looks
    inside them. -/
theorem after_result (V : Valuation τ sig (Elt F)) :
    after ops V (main_v24 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  after_results_simp
  simp only [ofBuf_toBuf]
  rfl

/-! No operation writes an argument: each keeps its launch contents. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp
theorem after_arg4 (V : Valuation τ sig (Elt F)) : after ops V (main_arg4 : DevRef τ sig) = V (main_arg4 : DevRef τ sig) := by
  after_results_simp
theorem after_arg5 (V : Valuation τ sig (Elt F)) : after ops V (main_arg5 : DevRef τ sig) = V (main_arg5 : DevRef τ sig) := by
  after_results_simp
theorem after_arg6 (V : Valuation τ sig (Elt F)) : after ops V (main_arg6 : DevRef τ sig) = V (main_arg6 : DevRef τ sig) := by
  after_results_simp
theorem after_arg7 (V : Valuation τ sig (Elt F)) : after ops V (main_arg7 : DevRef τ sig) = V (main_arg7 : DevRef τ sig) := by
  after_results_simp
theorem after_arg8 (V : Valuation τ sig (Elt F)) : after ops V (main_arg8 : DevRef τ sig) = V (main_arg8 : DevRef τ sig) := by
  after_results_simp
theorem after_arg9 (V : Valuation τ sig (Elt F)) : after ops V (main_arg9 : DevRef τ sig) = V (main_arg9 : DevRef τ sig) := by
  after_results_simp
theorem after_arg10 (V : Valuation τ sig (Elt F)) : after ops V (main_arg10 : DevRef τ sig) = V (main_arg10 : DevRef τ sig) := by
  after_results_simp
theorem after_arg11 (V : Valuation τ sig (Elt F)) : after ops V (main_arg11 : DevRef τ sig) = V (main_arg11 : DevRef τ sig) := by
  after_results_simp

/-- On every device, from any memory with zero counters: every execution of the reference terminates with the
    result at `refTerm` of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v24)
          = refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v24).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _)⟩)
    (run_main (F := Ideal) m ρ)

end Cert.ReferenceIdeal.RefValue

end
-- ==== Proof.RefValue.lean ====
/-
  The reference's value is the specification.

  The reference looks each id up in its table, runs the two towers over the looked-up rows, multiplies their outputs, sums
  each row and clamps at zero. Read at one batch entry this is the specification's expression, once four things are read
  at an index: the lookup (for an id in `[0, 99999]` the id is not moved, the mask holds, the gathered row is the table's
  row at the id, and the fill is not taken), a matrix product (a sum over the contracted coordinate), a bias broadcast
  along the rows, and the row sum.
-/
import proofs.«204570_g59167469470423_cont_9to1_m_669_24_alg».proof.Proof.RefOps
import proofs.«204570_g59167469470423_cont_9to1_m_669_24_alg».proof.Proof.Spec
import Idealize.ShloMosaic.Lib.ValueIdx
import Idealize.ShloMosaic.Lib.Affine
import Idealize.ShloMosaic.Lib.IdealHost
import Idealize.ShloMosaic.Lib.StackMember
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx
open scoped BigOperators

/-! ## Broadcasts read at an index -/

/-- An array along the rows of a one-column matrix. -/
theorem bcast_col_apply {α : Type} (x : S16384.Idx → α) (r : Fin 16384) (z : Fin 1) :
    broadcastInDim S16384x1 ![0] bcast_S16384_S16384x1_0 x (ix2 r z) = x (ix1 r) := by
  unfold broadcastInDim
  refine congrArg x (funext fun a => ?_)
  match a with
  | ⟨0, _⟩ => rfl

/-- An array along the rows of a 64-column matrix. -/
theorem bcast_row64_apply {α : Type} (x : S16384.Idx → α) (r : Fin 16384) (e : Fin 64) :
    broadcastInDim S16384x64 ![0] bcast_S16384_S16384x64_0 x (ix2 r e) = x (ix1 r) := by
  unfold broadcastInDim
  refine congrArg x (funext fun a => ?_)
  match a with
  | ⟨0, _⟩ => rfl

/-- A bias of 128 as every row. -/
theorem bcast_bias128_apply {α : Type} (b : S128.Idx → α) (r : Fin 16384) (k : Fin 128) :
    broadcastInDim S16384x128 ![0, 1] bcast_S1x128_S16384x128_0_1 (broadcastInDim S1x128 ![1] bcast_S128_S1x128_1 b) (ix2 r k)
      = b (ix1 k) := by
  unfold broadcastInDim
  refine congrArg b (funext fun a => ?_)
  match a with
  | ⟨0, _⟩ => rfl

/-- A bias of 64 as every row. -/
theorem bcast_bias64_apply {α : Type} (b : S64.Idx → α) (r : Fin 16384) (j : Fin 64) :
    broadcastInDim S16384x64 ![0, 1] bcast_S1x64_S16384x64_0_1 (broadcastInDim S1x64 ![1] bcast_S64_S1x64_1 b) (ix2 r j)
      = b (ix1 j) := by
  unfold broadcastInDim
  refine congrArg b (funext fun a => ?_)
  match a with
  | ⟨0, _⟩ => rfl

/-! ## An id in range, as a signed number -/

theorem toInt_of_le (v : BitVec 32) (h : v.toNat ≤ 99999) : v.toInt = (v.toNat : Int) :=
  BitVec.toInt_eq_toNat_of_lt (by omega)

theorem slt_zero_of_le (v : BitVec 32) (h : v.toNat ≤ 99999) : IntOp.cmpi .slt v 0#32 = 0#1 :=
  eq_zero_of_ne_one fun h1 => by
    rw [IntOp.cmpi_slt, toInt_of_le v h, show (0#32 : BitVec 32).toInt = 0 from by decide] at h1
    omega

theorem sge_zero_of_le (v : BitVec 32) (h : v.toNat ≤ 99999) : IntOp.cmpi .sge v 0#32 = 1#1 := by
  rw [IntOp.cmpi_sge, toInt_of_le v h, show (0#32 : BitVec 32).toInt = 0 from by decide]
  omega

theorem sle_max_of_le (v : BitVec 32) (h : v.toNat ≤ 99999) : IntOp.cmpi .sle v 100000#32 = 1#1 := by
  rw [IntOp.cmpi_sle, toInt_of_le v h, show (100000#32 : BitVec 32).toInt = 100000 from by decide]
  omega

/-! ## The lookup -/

/-- An id in range is not moved. -/
theorem takeIdx_apply (idx : IVec S16384 32) (hidx : ∀ i, (idx i).toNat ≤ 99999) (r : Fin 16384) (z : Fin 1) :
    takeIdx idx (ix2 r z) = idx (ix1 r) := by
  unfold takeIdx
  rw [bcast_col_apply]
  show Scalar.select (IntOp.cmpi .slt (idx (ix1 r)) 0#32) _ (idx (ix1 r)) = idx (ix1 r)
  rw [slt_zero_of_le _ (hidx _)]
  exact select_zero _ _

/-- A left fold by `and` over ones, from one, is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- For ids in range the mask holds everywhere. -/
theorem takeMask_apply (idx : IVec S16384 32) (hidx : ∀ i, (idx i).toNat ≤ 99999) (j : S16384.Idx) :
    takeMask idx j = 1#1 := by
  unfold takeMask
  rw [Host.reduce_eq_foldl]
  refine foldl_andi_one _ _ fun i _ => ?_
  obtain ⟨r, z, rfl⟩ : ∃ (r : Fin 16384) (z : Fin 1), i = ix2 r z := ⟨i 0, i 1, eq_ix2 i⟩
  show IntOp.andi (IntOp.cmpi .sge (takeIdx idx (ix2 r z)) 0#32) (IntOp.cmpi .sle (takeIdx idx (ix2 r z)) 100000#32) = 1#1
  rw [takeIdx_apply idx hidx, sge_zero_of_le _ (hidx _), sle_max_of_le _ (hidx _)]
  decide

section Gather
variable {α : Type}

/-- The dimension numbers of a row gather: operand `[N, D]`, one start index per result row as a column `[R, 1]`, result
    `[R, D]`; the row axis collapsed, whole rows as slices. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- A ROW GATHER READ AT `(r, e)`: the operand at row `idx[r, 0]`, read signed and clamped into `[0, N − 1]`, column `e`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (e : Fin D) :
    Host.gather (rowDims N D R wf) x idx (ix2 r e)
      = x (ix2 ⟨min (idx (ix2 r (0 : Fin 1))).toInt.toNat (N - 1), by omega⟩ e) := by
  unfold Host.gather
  congr 1
  funext a
  refine Fin.ext ?_
  match a with
  | ⟨0, _⟩ =>
    show (rowDims N D R wf).start (ix2 r e) idx 0 + (rowDims N D R wf).batchCoord (ix2 r e) 0 + (rowDims N D R wf).offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 r e) ⟨List.idxOf (0 : Fin 2) (rowDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N D R wf).start (ix2 r e) idx 1 + (rowDims N D R wf).batchCoord (ix2 r e) 1 + (rowDims N D R wf).offCoord (ix2 r e) 1 = e.val
    rw [GatherDims.batchCoord_eq_zero _ _ _ List.not_mem_nil]
    have hs : (rowDims N D R wf).start (ix2 r e) idx 1 = 0 := by
      unfold GatherDims.start
      rw [dif_neg (show (1 : Fin 2) ∉ (rowDims N D R wf).startIndexMap from
        fun h => Nat.one_ne_zero (congrArg Fin.val (List.mem_singleton.mp h)))]
    have ho : (rowDims N D R wf).offCoord (ix2 r e) 1 = e.val := by
      unfold GatherDims.offCoord
      rw [dif_pos ((GatherDims.mem_sKept _ _).2
        ⟨fun h => Nat.one_ne_zero (congrArg Fin.val (List.mem_singleton.mp h)), List.not_mem_nil⟩)]
      rfl
    rw [hs, ho]
    omega

end Gather

/-- The lookup at `(r, e)` for ids in range: the table's row at the id. -/
theorem takeTerm_apply (tab : FVec Ideal S100001x64 .f32) (idx : IVec S16384 32) (hidx : ∀ i, (idx i).toNat ≤ 99999)
    (r : Fin 16384) (e : Fin 64) :
    takeTerm (F := Ideal) tab idx (ix2 r e) = tab (ix2 (Cert.Spec.rowOf (idx (ix1 r))) e) := by
  unfold takeTerm
  show Scalar.select (broadcastInDim S16384x64 ![0] bcast_S16384_S16384x64_0 (takeMask idx) (ix2 r e))
    (Host.gather gather_S100001x64_S16384x1_S16384x64_1_0_n_n_0_1_164 tab (takeIdx idx) (ix2 r e)) _ = _
  rw [bcast_row64_apply, takeMask_apply idx hidx, select_one]
  refine (gather_rows_apply (N := 100001) (D := 64) (R := 16384) (by decide)
    Cert.ReferenceIdeal.Gen.gather_S100001x64_S16384x1_S16384x64_1_0_n_n_0_1_164_wf tab (takeIdx idx) r e).trans ?_
  refine congrArg (fun q => tab (ix2 q e)) (Fin.ext ?_)
  show min (takeIdx idx (ix2 r (0 : Fin 1))).toInt.toNat (100001 - 1) = min (idx (ix1 r)).toNat 100000
  rw [takeIdx_apply idx hidx, toInt_of_le _ (hidx _)]
  omega

/-! ## A tower -/

/-- One layer read at `(r, j)`: the clamp at zero of the row's product with the weight column plus the bias there. -/
theorem layer_apply {m k n : Nat} (X : FVec Ideal ⟨2, ![m, k]⟩ .f32) (W : FVec Ideal ⟨2, ![k, n]⟩ .f32)
    (d : DotDims ⟨2, ![m, k]⟩ ⟨2, ![k, n]⟩ ⟨2, ![m, n]⟩) (hd : d = DotDims.plain m k n)
    (bias zero : FVec Ideal ⟨2, ![m, n]⟩ .f32) (r : Fin m) (j : Fin n) (β : EReal) (hb : bias (ix2 r j) = β)
    (hz : zero (ix2 r j) = 0) :
    maximumf (addf (Host.dotGeneral d none X W) bias) zero (ix2 r j) = max ((∑ c : Fin k, X (ix2 r c) * W (ix2 c j)) + β) 0 := by
  subst hd
  show max (Host.dotGeneral (DotDims.plain m k n) none X W (ix2 r j) + bias (ix2 r j)) (zero (ix2 r j)) = _
  rw [StackMember.dotGeneral_plain_apply, hb, hz]

/-- The zero splat reads zero. -/
theorem zero_splat_apply {T : Shape} (h : (⟨0, ![]⟩ : Shape).BroadcastsInDim T ![]) (j : T.Idx) :
    broadcastInDim T ![] h (constant (F := Ideal) S_ .f32 0x00000000#32) j = 0 := by
  rw [broadcastInDim_scalar_apply]
  exact Ideal.ofBits_zero_f32

/-- A tower over rows that are table rows: at `(r, j)` the specification's tower at that table row. -/
theorem towerTerm_apply (x : FVec Ideal S16384x64 .f32) (W1 : FVec Ideal S64x128 .f32) (b1 : FVec Ideal S128 .f32)
    (W2 : FVec Ideal S128x64 .f32) (b2 : FVec Ideal S64 .f32) (tab : S100001x64.Idx → EReal) (r : Fin 16384) (row : Fin 100001)
    (hx : ∀ c : Fin 64, x (ix2 r c) = tab (ix2 row c)) (j : Fin 64) :
    towerTerm (F := Ideal) x W1 b1 W2 b2 (ix2 r j) = Cert.Spec.tower tab W1 b1 W2 b2 row j := by
  unfold towerTerm
  refine (layer_apply _ W2 _ rfl _ _ r j (b2 (ix1 j)) (bcast_bias64_apply b2 r j) (zero_splat_apply _ _)).trans ?_
  unfold Cert.Spec.tower
  refine congrArg (fun s => max (s + b2 (ix1 j)) 0) (Finset.sum_congr rfl fun c _ => ?_)
  refine congrArg (· * W2 (ix2 c j)) ?_
  refine (layer_apply x W1 _ rfl _ _ r c (b1 (ix1 c)) (bcast_bias128_apply b1 r c) (zero_splat_apply _ _)).trans ?_
  unfold Cert.Spec.hidden
  simp only [hx]

/-! ## The result -/

/-- THE REFERENCE'S VALUE: for ids in range, the specification of the twelve arguments. -/
theorem refTerm_eq_G (a0 a1 : IVec S16384 32) (a2 : FVec Ideal S100001x64 .f32) (a3 : FVec Ideal S64x128 .f32)
    (a4 : FVec Ideal S128 .f32) (a5 : FVec Ideal S128x64 .f32) (a6 : FVec Ideal S64 .f32) (a7 : FVec Ideal S100001x64 .f32)
    (a8 : FVec Ideal S64x128 .f32) (a9 : FVec Ideal S128 .f32) (a10 : FVec Ideal S128x64 .f32) (a11 : FVec Ideal S64 .f32)
    (h0 : ∀ i, (a0 i).toNat ≤ 99999) (h1 : ∀ i, (a1 i).toNat ≤ 99999) :
    refTerm (F := Ideal) a0 a1 a2 a3 a4 a5 a6 a7 a8 a9 a10 a11 = Cert.Spec.G a0 a1 a2 a3 a4 a5 a6 a7 a8 a9 a10 a11 := by
  funext i
  obtain ⟨b, rfl⟩ : ∃ b : Fin 16384, i = ix1 b := ⟨i 0, eq_ix1 i⟩
  unfold refTerm
  have hR : S16384x64.Reduces [1] S16384 := by decide
  show max (Ideal.hostReduceAdd reducesTo_S16384x64_S16384_d1
      (mulf (towerTerm (takeTerm a2 a0) a3 a4 a5 a6) (towerTerm (takeTerm a7 a1) a8 a9 a10 a11))
      (Ideal.ofBits .f32 0x00000000#32) (ix1 b))
    (broadcastInDim S16384 ![] bcast_S_S16384 (constant (F := Ideal) S_ .f32 0x00000000#32) (ix1 b)) = _
  rw [zero_splat_apply, Ideal.hostReduceAdd_single _ hR, Ideal.ofBits_zero_f32, zero_add]
  unfold Cert.Spec.G
  refine congrArg (fun s => max s 0) (Finset.sum_congr rfl fun j _ => ?_)
  have hl : hR.lift (ix1 b) j = ix2 b j := by
    funext c; refine Fin.ext ?_
    match c with
    | ⟨0, _⟩ => rfl
    | ⟨1, _⟩ => rfl
  rw [hl]
  show towerTerm (takeTerm a2 a0) a3 a4 a5 a6 (ix2 b j) * towerTerm (takeTerm a7 a1) a8 a9 a10 a11 (ix2 b j) = _
  rw [towerTerm_apply (takeTerm a2 a0) a3 a4 a5 a6 a2 b (Cert.Spec.rowOf (a0 (ix1 b))) (fun c => takeTerm_apply a2 a0 h0 b c) j,
    towerTerm_apply (takeTerm a7 a1) a8 a9 a10 a11 a7 b (Cert.Spec.rowOf (a1 (ix1 b))) (fun c => takeTerm_apply a7 a1 h1 b c) j]

end Cert.ReferenceIdeal.RefValue

end
-- ==== Proof.ClaimsIdeal.lean ====
/-
  The claims on the extended reals.

  The program's run is stated over three predicates: what is known of the packed tables, what is asked of the gathered
  rows, and what is claimed of the result. Here they are: a packed table holds table row r in the low half of its row r
  and table row 50176 + r, where there is one, in the high half; the row gathered for a batch entry holds, in the half its
  id selects, the id's table row; the result is the specification of the twelve arguments. The precondition bounds the ids
  by 99999, which is all the links between the three ask. The reference computes the same specification, so from memories
  agreeing on the arguments the two results are equal.
-/
import proofs.«204570_g59167469470423_cont_9to1_m_669_24_alg».proof.Defs
import proofs.«204570_g59167469470423_cont_9to1_m_669_24_alg».proof.Proof.ScRun
import proofs.«204570_g59167469470423_cont_9to1_m_669_24_alg».proof.Proof.TileDefs
import proofs.«204570_g59167469470423_cont_9to1_m_669_24_alg».proof.Proof.GlueValue
import proofs.«204570_g59167469470423_cont_9to1_m_669_24_alg».proof.Proof.ChainValue
import proofs.«204570_g59167469470423_cont_9to1_m_669_24_alg».proof.Proof.PreRange
import proofs.«204570_g59167469470423_cont_9to1_m_669_24_alg».proof.Proof.PreFold
import proofs.«204570_g59167469470423_cont_9to1_m_669_24_alg».proof.Proof.RefRun
import proofs.«204570_g59167469470423_cont_9to1_m_669_24_alg».proof.Proof.RefValue
import proofs.«204570_g59167469470423_cont_9to1_m_669_24_alg».proof.Proof.Spec
import proofs.«204570_g59167469470423_cont_9to1_m_669_24_alg».proof.Proof.Gen.Pre_input_domain

noncomputable section

namespace Cert.Proof.IdealSide

open Cert.KernelIdeal Cert.KernelIdeal.Gen Cert.KernelIdeal.Base Cert.KernelIdeal.Main Cert.KernelIdeal.ChainFrame
open Idealize.ShloMosaic Idealize.ShloMosaic.TcCoe Idealize.ShloMosaic.ValueIdx Idealize.SL.Sem

variable (m : (ℓ : Loc nD τ sig) → Buf (Elt Ideal) ℓ)

/-- The specification of the twelve arguments as device `d` holds them at the launch. -/
def specAt (d : Dev nD) : S16384.Idx → EReal :=
  Cert.Spec.G (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))

/-- What the program claims of its result: it is the specification. -/
abbrev Q17 : (d : Dev nD) → Buf (Elt Ideal) ((d : Thread nD τ).loc main_v17) → Prop := fun d x => x = specAt m d

/-- The ids are in range under the precondition. -/
theorem ids_le (hpre : Cert.Pre_KernelIdeal m) (d : Dev nD) :
    (∀ i, ((m ((d.tc : Thread nD τ).loc main_arg0)) i).toNat ≤ 99999) ∧ (∀ i, ((m ((d.tc : Thread nD τ).loc main_arg1)) i).toNat ≤ 99999) :=
  Cert.PreRange.ids_in_range _ _ _ _ _ _ _ _ _ _ _ _ (hpre d)

/-- The row an id in range folds to, in its two spellings. -/
theorem foldRow_eq (w : BitVec 32) (hw : w.toNat ≤ 99999) :
    Tile.foldRow w = ⟨(Cert.PreFold.foldW w).toNat, Cert.PreFold.foldW_lt w hw⟩ := by
  apply Fin.ext
  rw [Tile.foldRow_val hw]
  show Tile.foldN w = (Cert.PreFold.foldW w).toNat
  unfold Tile.foldN
  by_cases h : w.toNat < 50176
  · rw [if_pos h, Cert.PreFold.foldW_toNat_lo w h]
  · rw [if_neg h, Cert.PreFold.foldW_toNat_hi w hw (by omega)]

/-- With one device, a valuation per device read per reference is the device's valuation read per reference. -/
theorem refsOf_eq (W : Dev nD → Valuation τ sig (Elt Ideal)) : Seg.refsOf W = Glue.refsOf (W 0) := by
  funext c b
  obtain rfl : c = 0 := Subsingleton.elim _ _
  rfl

/-- What the first pipeline leaves is a pair of packed tables of the two argument tables. -/
theorem hpack : HPack m (Chain.G8 (m (((0 : Dev nD).tc : Thread nD τ).loc main_arg2))) (Chain.G8 (m (((0 : Dev nD).tc : Thread nD τ).loc main_arg7))) := by
  intro d O B G0 G1 h
  obtain rfl : d = 0 := Subsingleton.elim _ _
  rw [refsOf_eq (fun d => VA m d)] at h
  exact Glue.pack_G8 (V0 m 0) 0 O B G0 h.1 G1 h.2

/-- A packed table's row at the folded id is a row as asked of the gather. -/
theorem hlinkU (hpre : Cert.Pre_KernelIdeal m) : ∀ (d : Dev nD) f8, Chain.G8 (m (((0 : Dev nD).tc : Thread nD τ).loc main_arg2)) f8 → ∀ b : Fin 16384,
    Chain.R9 (m (((0 : Dev nD).tc : Thread nD τ).loc main_arg0)) (m (((0 : Dev nD).tc : Thread nD τ).loc main_arg2)) b (fun l => f8 (ix2 (Tile.foldRow (uid m d (ix1 b))) l)) := by
  intro d f8 h8 b
  obtain rfl : d = 0 := Subsingleton.elim _ _
  have hids := (ids_le m hpre 0).1
  rw [foldRow_eq _ (hids (ix1 b))]
  exact Chain.link _ _ hids f8 h8 b
theorem hlinkI (hpre : Cert.Pre_KernelIdeal m) : ∀ (d : Dev nD) f8, Chain.G8 (m (((0 : Dev nD).tc : Thread nD τ).loc main_arg7)) f8 → ∀ b : Fin 16384,
    Chain.R9 (m (((0 : Dev nD).tc : Thread nD τ).loc main_arg1)) (m (((0 : Dev nD).tc : Thread nD τ).loc main_arg7)) b (fun l => f8 (ix2 (Tile.foldRow (iid m d (ix1 b))) l)) := by
  intro d f8 h8 b
  obtain rfl : d = 0 := Subsingleton.elim _ _
  have hids := (ids_le m hpre 0).2
  rw [foldRow_eq _ (hids (ix1 b))]
  exact Chain.link _ _ hids f8 h8 b

/-- A buffer the first stretch does not write, that is no packed table and no gathered row, holds after the call what
    the launch memory held. -/
theorem V3_of (d : Dev nD) (G0 : Buf (Elt Ideal) ((d : Thread nD τ).loc main_v8_0)) (G1 : Buf (Elt Ideal) ((d : Thread nD τ).loc main_v8_1))
    (gu : Buf (Elt Ideal) ((d : Thread nD τ).loc main_v9_0)) (gi : Buf (Elt Ideal) ((d : Thread nD τ).loc main_v9_1)) (r : Ref sig .tc)
    (hA : r ∉ hostA_W) (h80 : r ≠ main_v8_0) (h81 : r ≠ main_v8_1) (h90 : r ≠ main_v9_0) (h91 : r ≠ main_v9_1) :
    V3 m d G0 G1 gu gi (dref r) = m ((d.tc : Thread nD τ).loc r) := by
  refine (Function.update_of_ne (StableHlo.devRef_ne_of_ne h91) _ _).trans ?_
  refine (Function.update_of_ne (StableHlo.devRef_ne_of_ne h90) _ _).trans ?_
  refine (Function.update_of_ne (StableHlo.devRef_ne_of_ne h80) _ _).trans ?_
  refine (Function.update_of_ne (StableHlo.devRef_ne_of_ne h81) _ _).trans ?_
  exact (after_A_of _ r hA).trans rfl

/-- From rows as asked, the result is the specification. -/
theorem hfinal (hpre : Cert.Pre_KernelIdeal m) :
    HFinal m (Chain.R9 (m (((0 : Dev nD).tc : Thread nD τ).loc main_arg0)) (m (((0 : Dev nD).tc : Thread nD τ).loc main_arg2))) (Chain.R9 (m (((0 : Dev nD).tc : Thread nD τ).loc main_arg1)) (m (((0 : Dev nD).tc : Thread nD τ).loc main_arg7))) (Q17 m) := by
  intro d G0 G1 gu gi h9u h9i
  obtain rfl : d = 0 := Subsingleton.elim _ _
  have hr := ids_le m hpre 0
  have e0 := V3_of m 0 G0 G1 gu gi main_arg0 (by decide) (by decide) (by decide) (by decide) (by decide)
  have e1 := V3_of m 0 G0 G1 gu gi main_arg1 (by decide) (by decide) (by decide) (by decide) (by decide)
  have e2 := V3_of m 0 G0 G1 gu gi main_arg2 (by decide) (by decide) (by decide) (by decide) (by decide)
  have e3 := V3_of m 0 G0 G1 gu gi main_arg3 (by decide) (by decide) (by decide) (by decide) (by decide)
  have e4 := V3_of m 0 G0 G1 gu gi main_arg4 (by decide) (by decide) (by decide) (by decide) (by decide)
  have e5 := V3_of m 0 G0 G1 gu gi main_arg5 (by decide) (by decide) (by decide) (by decide) (by decide)
  have e6 := V3_of m 0 G0 G1 gu gi main_arg6 (by decide) (by decide) (by decide) (by decide) (by decide)
  have e7 := V3_of m 0 G0 G1 gu gi main_arg7 (by decide) (by decide) (by decide) (by decide) (by decide)
  have e8 := V3_of m 0 G0 G1 gu gi main_arg8 (by decide) (by decide) (by decide) (by decide) (by decide)
  have e9 := V3_of m 0 G0 G1 gu gi main_arg9 (by decide) (by decide) (by decide) (by decide) (by decide)
  have e10 := V3_of m 0 G0 G1 gu gi main_arg10 (by decide) (by decide) (by decide) (by decide) (by decide)
  have e11 := V3_of m 0 G0 G1 gu gi main_arg11 (by decide) (by decide) (by decide) (by decide) (by decide)
  have eg : V3 m 0 G0 G1 gu gi (dref main_v9_0) = gu :=
    (Function.update_of_ne (StableHlo.devRef_ne_of_ne (by decide)) _ _).trans (Function.update_self _ _ _)
  have ei : V3 m 0 G0 G1 gu gi (dref main_v9_1) = gi := Function.update_self _ _ _
  have key := Glue.final_G (V3 m 0 G0 G1 gu gi) 0 (by rw [e0]; exact hr.1) (by rw [e1]; exact hr.2)
    (by rw [e0, e2, eg]; exact h9u) (by rw [e1, e7, ei]; exact h9i)
  rw [e0, e1, e2, e3, e4, e5, e6, e7, e8, e9, e10, e11] at key
  show StableHlo.after hostC (Function.update (VB m 0 G0 G1 gu gi) (dref main_v16)
      (Mlp.finalOut (Seg.refsOf (fun d => VB m d G0 G1 gu gi)) 0)) (dref main_v17) = specAt m 0
  rw [refsOf_eq (fun d => VB m d G0 G1 gu gi)]
  exact key

/-! ## The claims -/

/-- The program read on the extended reals runs and leaves its arguments unchanged. -/
theorem frame_pi : Cert.frame_KernelIdeal := fun m g hpre =>
  (θ_run (Cert.KernelIdeal.defs (F := Ideal)) _ _).mono (fun _ h c => (h c).1)
    (run_main m g _ _ _ _ (Q17 m) (hpack m) (hfinal m hpre)
      (fun d j => (ids_le m hpre d).1 j) (fun d j => (ids_le m hpre d).2 j) (hlinkU m hpre) (hlinkI m hpre))

/-- The reference runs and leaves its arguments unchanged. -/
theorem frame_ri : Cert.frame_ReferenceIdeal := fun m g _ =>
  (θ_run _ _ _).mono (fun _ h c => (h c).2) (Cert.ReferenceIdeal.RefValue.run m g)

/-- On the extended reals the program and the reference, from memories agreeing on the arguments, end with the same
    result: the specification of the arguments. -/
theorem algebraic : Cert.algebraic_KernelIdeal_ReferenceIdeal := by
  intro m g m' g' hpre hagree
  refine ⟨fun c => specAt m c, ?_, ?_⟩
  · exact (θ_run (Cert.KernelIdeal.defs (F := Ideal)) _ _).mono (fun _ h c => ⟨(h c).2, (h c).1⟩)
      (run_main m g _ _ _ _ (Q17 m) (hpack m) (hfinal m hpre)
      (fun d j => (ids_le m hpre d).1 j) (fun d j => (ids_le m hpre d).2 j) (hlinkU m hpre) (hlinkI m hpre))
  · refine (θ_run _ _ _).mono (fun _ h c => ⟨?_, (h c).2⟩) (Cert.ReferenceIdeal.RefValue.run m' g')
    obtain ⟨a0, a1, a2, a3, a4, a5, a6, a7, a8, a9, a10, a11⟩ := hagree c
    have hr := ids_le m hpre c
    rw [(h c).1, Cert.ReferenceIdeal.RefValue.refTerm_eq_G _ _ _ _ _ _ _ _ _ _ _ _ (by rw [a0]; exact hr.1) (by rw [a1]; exact hr.2),
      a0, a1, a2, a3, a4, a5, a6, a7, a8, a9, a10, a11]
    rfl

end Cert.Proof.IdealSide

end
-- ==== Proof.B.ScBase.lean ====
/-
  The program as the launch theorem for programs with vector-subcore kernels sees it, and the ghost state of its proof.

  The device runs one thread per processor: the host program on the matrix unit's processor, and, for the one
  vector-subcore call, a dispatcher and sixteen tiles on each of the two sparse processors. The proof's ghost state has
  three independent parts, one per protocol: the rounds of the four handshake semaphores between host program, dispatchers
  and tiles; the rounds of the two block pipelines' staging semaphores; and plain counters for each tile's own
  transfers, which it starts and waits for by itself, so that no schedule is needed for them.
-/
import proofs.«204570_g59167469470423_cont_9to1_m_669_24_alg».proof.Kernel
import proofs.«204570_g59167469470423_cont_9to1_m_669_24_alg».proof.Proof.Gen.Kernel
import Idealize.ShloMosaic.Lib.SparseCore.Launch
import Idealize.ShloMosaic.Lib.Transfers
import Idealize.ShloMosaic.Lib.Pipeline.Kit
import Idealize.ShloMosaic.Lib.Tactic

noncomputable section

namespace Cert.Kernel.Base

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the pipelines' staging cells, the tiles' transfer counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
/-- The staging cells' and counters' pair, through the algebra's right half. -/
def ER : Emb (UP × Counters) (MM F) :=
  (Emb.inr : Emb (UP × Counters) UU).trans (uEmb (nD := nD) (sig := sig) (Ix := HIx 1) (Val := Elt F) (Name := ℕ) (U := UU) (Lvl := ℕ)).toEmb
def EP : Emb UP (MM F) := (Emb.inl : Emb UP (UP × Counters)).trans ER

instance EH_landsIn : (EH : Emb UH (MM F)).LandsIn (upEmb : UEmb _ (MM F)) := by unfold EH; infer_instance
instance ER_landsIn : (ER : Emb (UP × Counters) (MM F)).LandsIn (upEmb : UEmb _ (MM F)) := by unfold ER; infer_instance
instance EP_landsIn : (EP : Emb UP (MM F)).LandsIn (upEmb : UEmb _ (MM F)) := by unfold EP; infer_instance

/-- The counters' place in the algebra is found by instance search (they sit last). -/
example : CountersIn UU := inferInstance

end Cert.Kernel.Base

end
-- ==== Proof.B.ScGhost.lean ====
/-
  The launch element of the ghost state, and what the launch makes of it.

  The element has three components: the handshake semaphores' rounds at their start, the staging semaphores' rounds of
  both block pipelines at their start, and the neutral element for the tiles' transfer counters. From it the launch
  keeps the handshakes' part as it is, funds every staging cell's start state and duty tokens (two pipelines, one device)
  and drops the counters' part. No thread is dealt anything for a protocol of its own.
-/
import proofs.«204570_g59167469470423_cont_9to1_m_669_24_alg».proof.Proof.B.ScBase
import proofs.«204570_g59167469470423_cont_9to1_m_669_24_alg».proof.Proof.Gen.Kernel.Launch
import Idealize.ShloMosaic.Lib.Pipeline.Regions

noncomputable section

namespace Cert.Kernel.Ghost

open Cert.Kernel Cert.Kernel.Gen Cert.Kernel.Base

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The prefetched tables' admissible contents: neither pipeline has a table. -/
abbrev adm : (p : Fin 2) → (pcfgs (F := F) p).Adm := fun p => (cfgs p).toPCfg_adm

/-- The launch element. -/
def u₀ : UU :=
  (initOf (K (F := F)).hsCells (K (F := F)).hsToks, (initOf (Pipeline.cells cfgs cellOf_inj) (Pipeline.launchToks cfgs cellOf_inj), (1 : Counters)))

/-- What the host program's thread keeps of the launch for its two pipelines: each one's staging cells at their start
    and its duty tokens. -/
abbrev pipeGhost (p : Fin 2) (d : Dev nD) : sProp (MM F) :=
  iprop(Pipeline.cellsGhost cfgs (EP (F := F)) p d ∗ Pipeline.toksInit cfgs (EP (F := F)) p d)
abbrev G (d : Dev nD) : sProp (MM F) := iprop(pipeGhost (F := F) 0 d ∗ pipeGhost (F := F) 1 d)

theorem split_u₀ : (ownU (u₀ (F := F)) : sProp (MM F))
    ⊢ iprop(BI.own (EH (F := F) (initOf (K (F := F)).hsCells (K (F := F)).hsToks))
        ∗ BI.own (EP (F := F) (initOf (Pipeline.cells cfgs cellOf_inj) (Pipeline.launchToks cfgs cellOf_inj)))) := by
  unfold u₀
  refine (ownU_pair (nD := nD) (τ := τ) (sig := sig) (Ix := HIx 1) (Val := Elt F) (Name := ℕ) (Lvl := ℕ) _ _).trans ?_
  refine sep_mono (Entails.of_eq rfl) ?_
  refine BI.Entails.trans (Entails.of_eq (show _ = BI.own (ER (F := F) (_, _)) from rfl)) ?_
  exact (own_pair_emb (ER (F := F)) _ _).trans sep_elim_left

/-- A conjunction over the two pipelines is the pair of its terms. -/
theorem bigSep_fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The funded cells and tokens, grouped by kind, regrouped per device and pipeline. -/
theorem regroup_one (c : Dev nD) :
    iprop((Pipeline.cellsGhost cfgs (EP (F := F)) 0 c ∗ Pipeline.cellsGhost cfgs (EP (F := F)) 1 c)
        ∗ (Pipeline.toksInit cfgs (EP (F := F)) 0 c ∗ (Pipeline.toksInit cfgs (EP (F := F)) 1 c : sProp (MM F))))
      ⊢ G (F := F) c := by
  iintro ⟨⟨H0, H1⟩, ⟨T0, T1⟩⟩
  isplitl [H0 T0]
  · isplitl [H0] <;> iassumption
  · isplitl [H1] <;> iassumption

theorem regroup :
    iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp (MM F))))
      ⊢ bigSep Finset.univ fun d : Dev nD => G (F := F) d := by
  rw [← bigSep_sep']
  refine bigSep_mono fun c _ => ?_
  rw [bigSep_fin2, bigSep_fin2]
  exact regroup_one (F := F) c

/-- The launch: the handshakes' rounds kept, every staging cell of both pipelines funded on every device. -/
theorem fund_G : (ownU (u₀ (F := F)) : sProp (MM F))
    ⊢ |={Set.univ}=> iprop(BI.own (EH (F := F) (initOf (K (F := F)).hsCells (K (F := F)).hsToks)) ∗ bigSep Finset.univ fun d : Dev nD => G (F := F) d) := by
  iintro Hu
  ihave H := (split_u₀ (F := F)) $$ Hu
  icases H with ⟨HH, HP⟩
  imod (Pipeline.fund_ghost cfgs (EP (F := F)) cellOf_inj) $$ HP with ⟨Hg, Ht⟩
  imodintro
  isplitl [HH]; · iexact HH
  iapply (regroup (F := F))
  isplitl [Hg] <;> iassumption

end Cert.Kernel.Ghost

end
-- ==== Proof.B.ScHeld.lean ====
/-
  The host program's buffers, held whole at a valuation: taking one out and putting one back.

  Between the stretches of the host program every buffer that is not scoped is held whole, all of them at one valuation.
  A block pipeline or the call to the sparse processors needs a few of them by name: a buffer is taken out of the held
  set as a plain ownership statement, and put back, possibly at new contents, the valuation updated at that buffer.
-/
import proofs.«204570_g59167469470423_cont_9to1_m_669_24_alg».proof.Proof.B.ScBase
import Idealize.ShloMosaic.Lib.StableHlo.Run
import Idealize.ShloMosaic.Lib.Pipeline.Frame

noncomputable section

namespace Cert.Kernel.Held

open Cert.Kernel Cert.Kernel.Gen Cert.Kernel.Base

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- A buffer of the held set, and the rest. -/
theorem held_take (c : Thread nD τ) (S : Finset (DevRef τ sig)) (W : Valuation τ sig (Elt F)) {b : DevRef τ sig} (hb : b ∈ S) :
    (StableHlo.held c S W : sProp (MM F)) = iprop((((c.1, b) : Loc nD τ sig) ↦{fullShare} W b) ∗ StableHlo.held c (S.erase b) W) := by
  unfold StableHlo.held
  exact SparseCore.bigSep_erase' hb

/-- The rest does not see an update at the buffer taken out. -/
theorem held_erase_update (c : Thread nD τ) (S : Finset (DevRef τ sig)) (W : Valuation τ sig (Elt F)) (b : DevRef τ sig) (x : b.ty.Contents (Elt F)) :
    (StableHlo.held c (S.erase b) (Function.update W b x) : sProp (MM F)) = StableHlo.held c (S.erase b) W :=
  StableHlo.held_congr c fun b' hb' => Function.update_of_ne (Finset.ne_of_mem_erase hb') _ _

/-- A buffer put back at contents `x`: the set held at the valuation updated there. -/
theorem held_put (c : Thread nD τ) (S : Finset (DevRef τ sig)) (W : Valuation τ sig (Elt F)) {b : DevRef τ sig} (hb : b ∈ S) (x : b.ty.Contents (Elt F)) :
    iprop((((c.1, b) : Loc nD τ sig) ↦{fullShare} x) ∗ StableHlo.held c (S.erase b) W) ⊢ (StableHlo.held c S (Function.update W b x) : sProp (MM F)) := by
  rw [held_take c S (Function.update W b x) hb, Function.update_self, held_erase_update]

/-- A reference of the matrix unit's processor that is not scoped is in the held set. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

end Cert.Kernel.Held

end
-- ==== Proof.B.PackBody.lean ====
import proofs.«204570_g59167469470423_cont_9to1_m_669_24_alg».proof.Proof.B.ScBase
import proofs.«204570_g59167469470423_cont_9to1_m_669_24_alg».proof.Proof.Gen.Kernel.Skeleton
import Idealize.ShloMosaic.Lib.Pipeline.Kit
import Idealize.ShloMosaic.Lib.Pipeline.FrameBody
import Idealize.ShloMosaic.Lib.Pipeline.Value
import Idealize.ShloMosaic.Lib.Tactic

noncomputable section

namespace Cert.Kernel.Pack

open Cert.Kernel Cert.Kernel.Gen Cert.Kernel.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf)

variable {F : FTy → Type} [FloatOps F]

/-! ## The block function at one grid point

At a grid point the function reads four staged column blocks (two of each transposed table), the staged identity,
and stores into each of the two staged output blocks the two transposed blocks side by side: each transposition is a
contraction with the identity over the 64 table rows, a pure function of the values read. -/

/-- The function on whole staging memrefs: from the four column blocks at `x1 … x4`, the identity block at `x5` and the
    two output blocks at any contents, it terminates without fault, leaves the five inputs as they were, and leaves the
    output blocks at the named payloads of the inputs. -/
theorem sound_kernel (c : Dev nD) (E : Set ℕ) (i : grid0.Coords)
    (a1 : Memref sig .tc .vmem S64x1024 .f32) (h1 : a1.IsWhole) (a2 : Memref sig .tc .vmem S64x1024 .f32) (h2 : a2.IsWhole)
    (a3 : Memref sig .tc .vmem S64x1024 .f32) (h3 : a3.IsWhole) (a4 : Memref sig .tc .vmem S64x1024 .f32) (h4 : a4.IsWhole)
    (a5 : Memref sig .tc .vmem S64x64 .f32) (h5 : a5.IsWhole)
    (a6 : Memref sig .tc .vmem S1024x128 .f32) (h6 : a6.IsWhole) (a7 : Memref sig .tc .vmem S1024x128 .f32) (h7 : a7.IsWhole)
    (x1 x2 x3 x4 : Vec F S64x1024 .f32) (x5 : Vec F S64x64 .f32) (K : PUnit → sProp (MM F)) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5
        ∗ (∃ d, owns (c : Thread nD τ) a6 fullShare d) ∗ (∃ d, owns (c : Thread nD τ) a7 fullShare d)
        ∗ (iprop(owns (c : Thread nD τ) a1 fullShare x1 ∗ owns (c : Thread nD τ) a2 fullShare x2
              ∗ owns (c : Thread nD τ) a3 fullShare x3 ∗ owns (c : Thread nD τ) a4 fullShare x4
              ∗ owns (c : Thread nD τ) a5 fullShare x5
              ∗ owns (c : Thread nD τ) a6 fullShare (k0_pay1 x1 x5 x2 x5)
              ∗ owns (c : Thread nD τ) a7 fullShare (k0_pay2 x3 x5 x4 x5)) -∗ K ⟨⟩))
      ⊢ wp frame (wpE (defs₀ (F := F)) 𝒱₀ (c : Thread nD τ) none) E
          (cc0__pack_body i a1 h1 a2 h2 a3 h3 a4 h4 a5 h5 a6 h6 a7 h7) K := by
  simp only [cc0__pack_body_eq_skeleton]; unfold cc0__pack_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  have hz : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (View.cover_of_tiled _ S1024x128.size (by rfl)),
      View.canon_unit_zero (S := S1024x128) hz]
    simp only [View.readAt_eq_ld, View.ld_unit_zero (S := S64x1024) hz, View.ld_unit_zero (S := S64x64) hz]
  · iexists _; isplitr
    swap; · iexact H7
    ipureintro
    rw [View.read_writes_eq_canon _ _ _ (View.cover_of_tiled _ S1024x128.size (by rfl)),
      View.canon_unit_zero (S := S1024x128) hz]
    simp only [View.readAt_eq_ld, View.ld_unit_zero (S := S64x1024) hz, View.ld_unit_zero (S := S64x64) hz]

end Cert.Kernel.Pack

end
-- ==== Proof.B.PackDat.lean ====
import proofs.«204570_g59167469470423_cont_9to1_m_669_24_alg».proof.Proof.B.PackBody
import proofs.«204570_g59167469470423_cont_9to1_m_669_24_alg».proof.Proof.Gen.Kernel.Launch
import proofs.«204570_g59167469470423_cont_9to1_m_669_24_alg».proof.Proof.Gen.Kernel.Points
import Idealize.ShloMosaic.Lib.Pipeline.Regions

noncomputable section

namespace Cert.Kernel.Pack

open Cert.Kernel Cert.Kernel.Gen Cert.Kernel.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf)

variable {F : FTy → Type} [FloatOps F]

-- The matrix unit's buffer contents when the region is entered: the parameter everything here is stated at.
variable (V : (c : Dev nD) → (b : Ref sig .tc) → Buf (Elt F) ((c : Thread nD τ).loc b))
-- What the matrix unit's processor owes other processors while the region runs (the function pays none of it and
-- takes on nothing), and a bound on the pairs its waits have recorded before the region (the function records none).
variable (O : CellTallies nD τ sig (HIx 1)) (B : Set (SemLoc sig × HIx 1))

/-! ## The windows' blocks -/

/-- The first grid point. -/
def t0 : Fin cfg0.N := ⟨0, by rw [show cfg0.N = grid0.N from rfl, N_0]; decide⟩

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staging buffer of window `w` once the fetch at point `t` has landed in it, having held `d`: the block on the
    part the fetch fills, `d` past the array's end. -/
def fblk (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk V c w t)

/-- What the first output block may hold after the function at point `t`: the payload of two fetched column blocks of
    the first table and the fetched identity, whatever filled the buffers past the array's end. -/
def Out0 (c : Dev nD) (t : Fin cfg0.N) (X : Vec F S1024x128 .f32) : Prop :=
  ∃ (d0 d1 : Vec F S64x1024 .f32) (d4 : Vec F S64x64 .f32),
    X = k0_pay1 (fblk V c 0 t d0) (fblk V c 4 t0 d4) (fblk V c 1 t d1) (fblk V c 4 t0 d4)
/-- The second output block likewise, of the second table. -/
def Out1 (c : Dev nD) (t : Fin cfg0.N) (X : Vec F S1024x128 .f32) : Prop :=
  ∃ (d2 d3 : Vec F S64x1024 .f32) (d4 : Vec F S64x64 .f32),
    X = k0_pay2 (fblk V c 2 t d2) (fblk V c 4 t0 d4) (fblk V c 3 t d3) (fblk V c 4 t0 d4)

/-! ## The proof data -/

/-- The relational proof data of the pipeline on core `c`: the arrays as the region finds them; the function leaves
    every input's staging buffer as it found it and each output's at the payload of the fetched inputs; the invariant
    is the scoped buffers no window stages, untouched; the tallies owed stay `O` throughout; the two windows on one table hold half of it each. -/
def dat (c : Dev nD) : RDat τ (Elt F) (HIx 1) ℕ UU ℕ cfg0 c where
  A w := V c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => Out0 V c t X
    | ⟨6, _⟩ => Out1 V c t X
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := O
  recorded _ := B

theorem A_eq (c : Dev nD) (w : Fin cfg0.W) : (dat V O B c).A w = V c (Pipeline.arrRef spec0 w) := by dsimp only [dat]
theorem owed_eq (c : Dev nD) (t : Fin (cfg0.N + 1)) : (dat V O B c).owed t = O := rfl
theorem recorded_eq (c : Dev nD) (t : Fin (cfg0.N + 1)) : (dat V O B c).recorded t = B := rfl
theorem Φ_eq (c : Dev nD) (t : Fin (cfg0.N + 1)) : (dat V O B c).Φ t = Pipeline.scopedRest spec0 c := rfl

/-! ## What the function finds in the staging buffers -/

/-- A fetched buffer of the proof data is `fblk` (the proof data's arrays are the entry contents). -/
theorem fetched_eq (c : Dev nD) (w : Fin cfg0.W) (t : Fin cfg0.N) (d) : (dat V O B c).fetched w t d = fblk V c w t d := by
  unfold RDat.fetched RDat.blockOf fblk iblk; rw [A_eq]

/-- The four table windows are fetched at every point: what the function finds there is a fetched buffer. -/
theorem finds0 (c : Dev nD) (t : Fin cfg0.N) (X) (h : (dat V O B c).Finds 0 t X) : ∃ d, X = fblk V c 0 t d := by
  obtain ⟨d, hd⟩ := ((dat V O B c).finds_of_fetch (fetch0_0 t) X).mp h; exact ⟨d, hd.trans (fetched_eq V O B c 0 t d)⟩
theorem finds1 (c : Dev nD) (t : Fin cfg0.N) (X) (h : (dat V O B c).Finds 1 t X) : ∃ d, X = fblk V c 1 t d := by
  obtain ⟨d, hd⟩ := ((dat V O B c).finds_of_fetch (fetch0_1 t) X).mp h; exact ⟨d, hd.trans (fetched_eq V O B c 1 t d)⟩
theorem finds2 (c : Dev nD) (t : Fin cfg0.N) (X) (h : (dat V O B c).Finds 2 t X) : ∃ d, X = fblk V c 2 t d := by
  obtain ⟨d, hd⟩ := ((dat V O B c).finds_of_fetch (fetch0_2 t) X).mp h; exact ⟨d, hd.trans (fetched_eq V O B c 2 t d)⟩
theorem finds3 (c : Dev nD) (t : Fin cfg0.N) (X) (h : (dat V O B c).Finds 3 t X) : ∃ d, X = fblk V c 3 t d := by
  obtain ⟨d, hd⟩ := ((dat V O B c).finds_of_fetch (fetch0_3 t) X).mp h; exact ⟨d, hd.trans (fetched_eq V O B c 3 t d)⟩

/-- The identity's window is never written back. -/
theorem flush0_4 : ∀ t : Fin cfg0.N, (cfg0.win 4).flush t = false :=
  (by decide +kernel : ∀ t : Fin grid0.N, win0_4.flush t = false)

/-- The identity is fetched at the first point only and left as found at every point: at every point the function
    finds in its buffer what the first point's fetch left. -/
theorem finds4 (c : Dev nD) : ∀ (n : Nat) (t : Fin cfg0.N), t.val = n → ∀ X, (dat V O B c).Finds 4 t X → ∃ d, X = fblk V c 4 t0 d
  | 0, t, ht, X, h => by
    have e : t = t0 := Fin.ext ht
    subst e
    obtain ⟨d, hd⟩ := ((dat V O B c).finds_of_fetch ((fetch0_4 t0).mpr rfl) X).mp h
    exact ⟨d, hd.trans (fetched_eq V O B c 4 t0 d)⟩
  | n + 1, t, ht, X, h => by
    have hlt : t.val < 49 := by have := t.isLt; have e : cfg0.N = 49 := N_0; omega
    have hf : (cfg0.win 4).fetch t = false := by
      cases hb : (cfg0.win 4).fetch t
      · rfl
      · have := (fetch0_4 t).mp hb; omega
    rcases ((dat V O B c).finds_of_pos hf (by omega) X).mp h with hfl | ⟨Y, hY, hYX⟩
    · rw [flush0_4] at hfl; exact absurd hfl Bool.false_ne_true
    · have hXY : X = Y := by dsimp only [dat] at hYX; exact hYX
      rw [hXY]
      exact finds4 c n ⟨t.val - 1, Nat.lt_of_le_of_lt (Nat.sub_le _ _) t.isLt⟩ (by simp only [ht]; omega) Y hY

/-! ## The body obligation -/

/-- What the function is called with at point `t`, the current staging buffers at contents `Y`, -/
def bodyPre (c : Dev nD) (t : Fin cfg0.N) (Y : (w : Fin cfg0.W) → (cfg0.win w).block.Idx → Elt F (cfg0.win w).elt) : sProp (MM F) :=
  iprop((dat V O B c).Φ t.castSucc ∗ (dat V O B c).owesAt (none : HIx 1) t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6))

/-- and what it returns: each buffer at contents in the proof data's relation to what it held. -/
def bodyPost (c : Dev nD) (t : Fin cfg0.N) (Y : (w : Fin cfg0.W) → (cfg0.win w).block.Idx → Elt F (cfg0.win w).elt) : sProp (MM F) :=
  iprop((dat V O B c).Φ t.succ ∗ (dat V O B c).owesAt (none : HIx 1) t.succ
    ∗ (∃ X, ⌜(dat V O B c).after 0 t (Y 0) X⌝ ∗ owns (c : Thread nD τ) (st0_0 t) fullShare X)
    ∗ (∃ X, ⌜(dat V O B c).after 1 t (Y 1) X⌝ ∗ owns (c : Thread nD τ) (st0_1 t) fullShare X)
    ∗ (∃ X, ⌜(dat V O B c).after 2 t (Y 2) X⌝ ∗ owns (c : Thread nD τ) (st0_2 t) fullShare X)
    ∗ (∃ X, ⌜(dat V O B c).after 3 t (Y 3) X⌝ ∗ owns (c : Thread nD τ) (st0_3 t) fullShare X)
    ∗ (∃ X, ⌜(dat V O B c).after 4 t (Y 4) X⌝ ∗ owns (c : Thread nD τ) (st0_4 t) fullShare X)
    ∗ (∃ X, ⌜(dat V O B c).after 5 t (Y 5) X⌝ ∗ owns (c : Thread nD τ) (st0_5 t) fullShare X)
    ∗ (∃ X, ⌜(dat V O B c).after 6 t (Y 6) X⌝ ∗ owns (c : Thread nD τ) (st0_6 t) fullShare X))

/-- The function at any point, from any contents the buffers may then hold: the table buffers are fetched ones and the
    identity's is the first fetch's, so the outputs' payloads are those the proof data's relation names; the invariant
    and what the processor owes pass through unread. -/
theorem sound_body (c : Dev nD) (t : Fin cfg0.N) (Y : (w : Fin cfg0.W) → (cfg0.win w).block.Idx → Elt F (cfg0.win w).elt)
    (hY : ∀ w, (dat V O B c).Finds w t (Y w)) :
    bodyPre V O B c t Y ⊢ wp frame (wpE (defs₀ (F := F)) 𝒱₀ (c : Thread nD τ) none) Set.univ (bodyAt0 t) (fun _ => bodyPost V O B c t Y) := by
  obtain ⟨d0, h0⟩ := finds0 V O B c t _ (hY 0)
  obtain ⟨d1, h1⟩ := finds1 V O B c t _ (hY 1)
  obtain ⟨d2, h2⟩ := finds2 V O B c t _ (hY 2)
  obtain ⟨d3, h3⟩ := finds3 V O B c t _ (hY 3)
  obtain ⟨d4, h4⟩ := finds4 V O B c t.val t rfl _ (hY 4)
  unfold bodyPre bodyPost bodyAt0
  rw [show (dat V O B c).Φ t.succ = (dat V O B c).Φ t.castSucc from rfl,
    show (dat V O B c).owesAt (none : HIx 1) t.succ = (dat V O B c).owesAt (none : HIx 1) t.castSucc from rfl]
  iintro ⟨HΦ, Ho, H0, H1, H2, H3, H4, H5, H6⟩
  iapply (sound_kernel c Set.univ _ _ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists (Y 0); isplitr; · ipureintro; dsimp only [dat]
    iexact H0
  isplitl [H1]
  · iexists (Y 1); isplitr; · ipureintro; dsimp only [dat]
    iexact H1
  isplitl [H2]
  · iexists (Y 2); isplitr; · ipureintro; dsimp only [dat]
    iexact H2
  isplitl [H3]
  · iexists (Y 3); isplitr; · ipureintro; dsimp only [dat]
    iexact H3
  isplitl [H4]
  · iexists (Y 4); isplitr; · ipureintro; dsimp only [dat]
    iexact H4
  isplitl [H5]
  · iexists _; isplitr
    swap; · iexact H5
    ipureintro; dsimp only [dat]
    exact ⟨d0, d1, d4, by rw [h0, h1, h4]⟩
  · iexists _; isplitr
    swap; · iexact H6
    ipureintro; dsimp only [dat]
    exact ⟨d2, d3, d4, by rw [h2, h3, h4]⟩

/-- The library's body obligation on core `c`: at every point, from any contents the current staging buffers may then
    hold, the function runs to the buffers left in the proof data's relation to them. -/
theorem body_obligation (c : Dev nD) :
    (dat V O B c).BodyObligation (defs₀ (F := F)) 𝒱₀ (none : HIx 1) Set.univ := fun t Y hY => by
  rw [bigSep_W0, bigSep_W0]
  exact sound_body V O B c t Y hY

/-! ## Entry and exit of the arrays -/

/-- A whole buffer at the full share is its two halves. -/
theorem split_half (ℓ : Loc nD τ sig) (f : Buf (Elt F) ℓ) :
    (ℓ ↦{fullShare} f : sProp (MM F)) ⊣⊢ iprop((ℓ ↦{fullShare.left} f) ∗ ℓ ↦{fullShare.right} f) :=
  pointsTo_share (PosShare.mem_left_op_right fullShare)

theorem q0 (c : Dev nD) : (dat V O B c).q 0 = fullShare.left := rfl
theorem q1 (c : Dev nD) : (dat V O B c).q 1 = fullShare.right := rfl
theorem q2 (c : Dev nD) : (dat V O B c).q 2 = fullShare.left := rfl
theorem q3 (c : Dev nD) : (dat V O B c).q 3 = fullShare.right := rfl
theorem q4 (c : Dev nD) : (dat V O B c).q 4 = fullShare := rfl

/-- ENTRY: the five distinct buffers behind the seven windows, each whole at the full share at the entry contents,
    make the proof data's arrays — each table's full share split between its two windows. -/
theorem arrays_entry (c : Dev nD) :
    iprop((((c : Thread nD τ).loc main_v0) ↦{fullShare} V c main_v0) ∗ (((c : Thread nD τ).loc main_v1) ↦{fullShare} V c main_v1)
        ∗ (((c : Thread nD τ).loc main_v7) ↦{fullShare} V c main_v7)
        ∗ (((c : Thread nD τ).loc main_v8_0) ↦{fullShare} V c main_v8_0) ∗ (((c : Thread nD τ).loc main_v8_1) ↦{fullShare} V c main_v8_1))
      ⊢ ((dat V O B c).arrays (dat V O B c).A : sProp (MM F)) := by
  have hs0 := (split_half (F := F) ((c : Thread nD τ).loc main_v0) (V c main_v0)).1
  have hs1 := (split_half (F := F) ((c : Thread nD τ).loc main_v1) (V c main_v1)).1
  unfold RDat.arrays
  rw [bigSep_W0]
  simp only [RDat.share, View.set_whole, Bool.false_eq_true, if_false, if_true, q0 V O B c, q1 V O B c, q2 V O B c, q3 V O B c, q4 V O B c, A_eq]
  iintro ⟨H0, H1, H7, H80, H81⟩
  ihave H0' := hs0 $$ H0
  icases H0' with ⟨H0a, H0b⟩
  ihave H1' := hs1 $$ H1
  icases H1' with ⟨H1a, H1b⟩
  isplitl [H0a]; · iexact H0a
  isplitl [H0b]; · iexact H0b
  isplitl [H1a]; · iexact H1a
  isplitl [H1b]; · iexact H1b
  isplitl [H7]; · iexact H7
  isplitl [H80]; · iexact H80
  iexact H81

/-- EXIT: after every write-back the inputs' buffers are whole at the full share at their entry contents again, and
    each output's holds some contents it may hold after the write-backs. -/
theorem arraysAt_exit (c : Dev nD) :
    ((dat V O B c).arraysAt cfg0.N : sProp (MM F))
      ⊢ iprop(∃ (G0 : Buf (Elt F) ((c : Thread nD τ).loc main_v8_0)) (G1 : Buf (Elt F) ((c : Thread nD τ).loc main_v8_1)),
          ⌜(dat V O B c).ArrAt 5 cfg0.N G0 ∧ (dat V O B c).ArrAt 6 cfg0.N G1⌝
          ∗ (((c : Thread nD τ).loc main_v0) ↦{fullShare} V c main_v0) ∗ (((c : Thread nD τ).loc main_v1) ↦{fullShare} V c main_v1)
          ∗ (((c : Thread nD τ).loc main_v7) ↦{fullShare} V c main_v7)
          ∗ (((c : Thread nD τ).loc main_v8_0) ↦{fullShare} G0) ∗ (((c : Thread nD τ).loc main_v8_1) ↦{fullShare} G1)) := by
  have e0 := congrFun ((dat V O B c).ArrAt_in 0 rfl cfg0.N)
  have e1 := congrFun ((dat V O B c).ArrAt_in 1 rfl cfg0.N)
  have e2 := congrFun ((dat V O B c).ArrAt_in 2 rfl cfg0.N)
  have e3 := congrFun ((dat V O B c).ArrAt_in 3 rfl cfg0.N)
  have e4 := congrFun ((dat V O B c).ArrAt_in 4 rfl cfg0.N)
  have hj0 := (split_half (F := F) ((c : Thread nD τ).loc main_v0) (V c main_v0)).2
  have hj1 := (split_half (F := F) ((c : Thread nD τ).loc main_v1) (V c main_v1)).2
  unfold RDat.arraysAt
  rw [bigSep_W0]
  simp only [RDat.share, View.set_whole, Bool.false_eq_true, if_false, if_true, q0 V O B c, q1 V O B c, q2 V O B c, q3 V O B c, q4 V O B c]
  iintro ⟨⟨%F0, %h0, H0⟩, ⟨%F1, %h1, H1⟩, ⟨%F2, %h2, H2⟩, ⟨%F3, %h3, H3⟩, ⟨%F4, %h4, H4⟩, ⟨%G0, %h5, H5⟩, ⟨%G1, %h6, H6⟩⟩
  rw [e0] at h0; rw [e1] at h1; rw [e2] at h2; rw [e3] at h3; rw [e4] at h4
  subst h0 h1 h2 h3 h4
  simp only [A_eq]
  iexists G0; iexists G1
  isplitr; · ipureintro; exact ⟨h5, h6⟩
  isplitl [H0 H1]
  · iapply hj0; isplitl [H0]; · iexact H0
    iexact H1
  isplitl [H2 H3]
  · iapply hj1; isplitl [H2]; · iexact H2
    iexact H3
  isplitl [H4]; · iexact H4
  isplitl [H5]; · iexact H5
  iexact H6

/-! ## The region's own resources: none -/

/-- The function names no semaphore of its own. -/
abbrev ownK : Type := PEmpty
abbrev osem : ownK → SemLoc sig := fun k => k.elim
theorem ho : Pipeline.OwnSemFacts spec0 osem := Pipeline.OwnSemFacts.none _

/-- The invariant at the first point is the scoped buffers no window stages; whatever else is handed over is dropped. -/
theorem hin (c : Dev nD) (X R : sProp (MM F)) : iprop(X ∗ R ∗ Pipeline.scopedRest spec0 c) ⊢ (dat V O B c).Φ 0 := by
  rw [Φ_eq]; iintro ⟨-, -, Hr⟩; iexact Hr

/-- The invariant at the last point gives those scoped buffers back, beside nothing. -/
theorem hout (c : Dev nD) :
    (dat V O B c).Φ (Fin.last cfg0.N) ⊢ iprop((emp : sProp (MM F)) ∗ Pipeline.ownSems0 osem c ∗ Pipeline.scopedRest spec0 c) := by
  rw [Φ_eq, Pipeline.ownSems0_none]
  iintro Hr
  isplitr; · iempintro
  isplitr; · iempintro
  iexact Hr

/-! ## From blocks to the arrays -/

section Blocks

variable {Λ : Labels} {cfg : Cfg sig Λ} {c : Dev nD} (rd : RDat τ (Elt F) (HIx 1) ℕ UU ℕ cfg c)

/-- When the blocks a window writes back are pairwise disjoint, block `t` of whatever the array may hold after the
    write-backs below `n` (`t < n`) is the moved part of some contents the function may have left at `t`: a later
    write-back lands elsewhere and leaves it alone. Stated for a property `P` of that moved part. -/
theorem read_blk_of_ArrAt (w : Fin cfg.W)
    (hdisj : ∀ t t' : Fin cfg.N, (cfg.win w).flush t = true → (cfg.win w).flush t' = true → t ≠ t' →
      Disjoint ((cfg.win w).blk t).view.set ((cfg.win w).blk t').view.set)
    (P : (t : Fin cfg.N) → (((cfg.win w).xblock (cfg.grid.coords t)).Idx → Elt F (cfg.win w).elt) → Prop)
    (hP : ∀ t X, rd.Leaves w t X → P t ((cfg.win w).cut (cfg.grid.coords t) X)) :
    ∀ (n : Nat) (G : Buf (Elt F) ((cfg.win w).arr.view.loc (c.tc : Thread nD τ))), rd.ArrAt w n G →
      ∀ t : Fin cfg.N, t.val < n → (cfg.win w).flush t = true → P t (((cfg.win w).blk t).view.read (Elt F) G)
  | 0, _, _, _, ht, _ => absurd ht (Nat.not_lt_zero _)
  | n + 1, G, hG, t, ht, hf => by
    by_cases hn : n < cfg.N
    swap
    · rw [rd.ArrAt_stable w (n + 1) (by omega), ← rd.ArrAt_stable w n (by omega)] at hG
      exact read_blk_of_ArrAt w hdisj P hP n G hG t (by have := t.isLt; omega) hf
    rw [show n + 1 = (⟨n, hn⟩ : Fin cfg.N).val + 1 from rfl, rd.ArrAt_succ] at hG
    by_cases hfn : (cfg.win w).flush ⟨n, hn⟩ = true
    · rw [if_pos hfn] at hG
      obtain ⟨G₀, X, hG₀, hX, rfl⟩ := hG
      by_cases htn : t.val = n
      · have e : t = ⟨n, hn⟩ := Fin.ext htn
        subst e
        rw [View.read_write_univ]
        exact hP _ X hX
      · have hrec := read_blk_of_ArrAt w hdisj P hP n G₀ hG₀ t (by omega) hf
        have hread : ((cfg.win w).blk t).view.read (Elt F) (((cfg.win w).blk ⟨n, hn⟩).view.write (Elt F) G₀
              ((cfg.win w).cut (cfg.grid.coords ⟨n, hn⟩) X) Finset.univ)
            = ((cfg.win w).blk t).view.read (Elt F) G₀ :=
          View.read_congr fun i hi => View.write_of_not_mem _ _ _
            (Finset.disjoint_left.mp (hdisj t ⟨n, hn⟩ hf hfn (fun e => htn (congrArg Fin.val e))) hi)
        rw [hread]; exact hrec
    · rw [if_neg hfn] at hG
      have htn : t.val ≠ n := fun e => hfn (by have : t = ⟨n, hn⟩ := Fin.ext e; exact this ▸ hf)
      exact read_blk_of_ArrAt w hdisj P hP n G hG t (by omega) hf

end Blocks

/-- Where the output windows' blocks sit: block `t` is rows `1024 t … 1024 t + 1023`, all 128 columns, uncut. -/
theorem idx5 : ∀ t : Fin cfg0.N, (cfg0.win 5).index t (0 : Fin 2) * (cfg0.win 5).size (0 : Fin 2) = t.val * 1024
      ∧ (cfg0.win 5).xsize (cfg0.grid.coords t) (0 : Fin 2) = 1024
      ∧ (cfg0.win 5).index t (1 : Fin 2) * (cfg0.win 5).size (1 : Fin 2) = 0 ∧ (cfg0.win 5).xsize (cfg0.grid.coords t) (1 : Fin 2) = 128 :=
  (by decide +kernel : ∀ t : Fin grid0.N, win0_5.index t (0 : Fin 2) * win0_5.size (0 : Fin 2) = t.val * 1024
      ∧ win0_5.xsize (grid0.coords t) (0 : Fin 2) = 1024
      ∧ win0_5.index t (1 : Fin 2) * win0_5.size (1 : Fin 2) = 0 ∧ win0_5.xsize (grid0.coords t) (1 : Fin 2) = 128)
theorem idx6 : ∀ t : Fin cfg0.N, (cfg0.win 6).index t (0 : Fin 2) * (cfg0.win 6).size (0 : Fin 2) = t.val * 1024
      ∧ (cfg0.win 6).xsize (cfg0.grid.coords t) (0 : Fin 2) = 1024
      ∧ (cfg0.win 6).index t (1 : Fin 2) * (cfg0.win 6).size (1 : Fin 2) = 0 ∧ (cfg0.win 6).xsize (cfg0.grid.coords t) (1 : Fin 2) = 128 :=
  (by decide +kernel : ∀ t : Fin grid0.N, win0_6.index t (0 : Fin 2) * win0_6.size (0 : Fin 2) = t.val * 1024
      ∧ win0_6.xsize (grid0.coords t) (0 : Fin 2) = 1024
      ∧ win0_6.index t (1 : Fin 2) * win0_6.size (1 : Fin 2) = 0 ∧ win0_6.xsize (grid0.coords t) (1 : Fin 2) = 128)

/-- An index of the first output array is in block `t` iff its row is among the block's 1024 rows. -/
theorem mem_blk5 (t : Fin cfg0.N) (i : S50176x128.Idx) :
    i ∈ ((cfg0.win 5).blk t).view.set ↔ t.val * 1024 ≤ (i 0 : Nat) ∧ (i 0 : Nat) < t.val * 1024 + 1024 := by
  show i ∈ ((View.whole main_v8_0).slice ((cfg0.win 5).rect t)).set ↔ _
  rw [View.set_slice_whole, Rect.mem_set_unit]
  have h1 : (i 1 : Nat) < 128 := (i 1).isLt
  obtain ⟨a0, a1, b0, b1⟩ := idx5 t
  refine ⟨fun h => ?_, fun h a => ?_⟩
  · have := h 0
    change (cfg0.win 5).index t 0 * (cfg0.win 5).size 0 ≤ (i 0 : Nat) ∧ (i 0 : Nat) < (cfg0.win 5).index t 0 * (cfg0.win 5).size 0 + (cfg0.win 5).xsize (cfg0.grid.coords t) 0 at this
    rw [a0, a1] at this; exact this
  · match a with
    | ⟨0, _⟩ =>
      change (cfg0.win 5).index t 0 * (cfg0.win 5).size 0 ≤ (i 0 : Nat) ∧ (i 0 : Nat) < (cfg0.win 5).index t 0 * (cfg0.win 5).size 0 + (cfg0.win 5).xsize (cfg0.grid.coords t) 0
      rw [a0, a1]; exact h
    | ⟨1, _⟩ =>
      change (cfg0.win 5).index t 1 * (cfg0.win 5).size 1 ≤ (i 1 : Nat) ∧ (i 1 : Nat) < (cfg0.win 5).index t 1 * (cfg0.win 5).size 1 + (cfg0.win 5).xsize (cfg0.grid.coords t) 1
      rw [b0, b1]; omega
theorem mem_blk6 (t : Fin cfg0.N) (i : S50176x128.Idx) :
    i ∈ ((cfg0.win 6).blk t).view.set ↔ t.val * 1024 ≤ (i 0 : Nat) ∧ (i 0 : Nat) < t.val * 1024 + 1024 := by
  show i ∈ ((View.whole main_v8_1).slice ((cfg0.win 6).rect t)).set ↔ _
  rw [View.set_slice_whole, Rect.mem_set_unit]
  have h1 : (i 1 : Nat) < 128 := (i 1).isLt
  obtain ⟨a0, a1, b0, b1⟩ := idx6 t
  refine ⟨fun h => ?_, fun h a => ?_⟩
  · have := h 0
    change (cfg0.win 6).index t 0 * (cfg0.win 6).size 0 ≤ (i 0 : Nat) ∧ (i 0 : Nat) < (cfg0.win 6).index t 0 * (cfg0.win 6).size 0 + (cfg0.win 6).xsize (cfg0.grid.coords t) 0 at this
    rw [a0, a1] at this; exact this
  · match a with
    | ⟨0, _⟩ =>
      change (cfg0.win 6).index t 0 * (cfg0.win 6).size 0 ≤ (i 0 : Nat) ∧ (i 0 : Nat) < (cfg0.win 6).index t 0 * (cfg0.win 6).size 0 + (cfg0.win 6).xsize (cfg0.grid.coords t) 0
      rw [a0, a1]; exact h
    | ⟨1, _⟩ =>
      change (cfg0.win 6).index t 1 * (cfg0.win 6).size 1 ≤ (i 1 : Nat) ∧ (i 1 : Nat) < (cfg0.win 6).index t 1 * (cfg0.win 6).size 1 + (cfg0.win 6).xsize (cfg0.grid.coords t) 1
      rw [b0, b1]; omega

/-- Two distinct points' output blocks share no row. -/
theorem hdisj5 (t t' : Fin cfg0.N) (hne : t ≠ t') : Disjoint ((cfg0.win 5).blk t).view.set ((cfg0.win 5).blk t').view.set :=
  Finset.disjoint_left.mpr fun i hi hi' => by
    rw [mem_blk5] at hi hi'
    exact hne (Fin.ext (by omega))
theorem hdisj6 (t t' : Fin cfg0.N) (hne : t ≠ t') : Disjoint ((cfg0.win 6).blk t).view.set ((cfg0.win 6).blk t').view.set :=
  Finset.disjoint_left.mpr fun i hi hi' => by
    rw [mem_blk6] at hi hi'
    exact hne (Fin.ext (by omega))

/-- Whatever the first output array may hold after every write-back, its block at each grid point is a payload of the
    fetched inputs there: the 49 blocks tile the array, each written once. -/
theorem arrAt_out0 (c : Dev nD) (G : Buf (Elt F) ((c : Thread nD τ).loc main_v8_0)) (h : (dat V O B c).ArrAt 5 cfg0.N G)
    (t : Fin cfg0.N) : Out0 V c t (((cfg0.win 5).blk t).view.read (Elt F) G) :=
  read_blk_of_ArrAt (dat V O B c) 5 (fun t t' _ _ hne => hdisj5 t t' hne) (fun t X => Out0 V c t X)
    (fun t X hX => by obtain ⟨Y, _, hYX⟩ := hX; dsimp only [dat] at hYX; exact hYX) cfg0.N G h t t.isLt (flush0_5 t)
/-- The second output array likewise. -/
theorem arrAt_out1 (c : Dev nD) (G : Buf (Elt F) ((c : Thread nD τ).loc main_v8_1)) (h : (dat V O B c).ArrAt 6 cfg0.N G)
    (t : Fin cfg0.N) : Out1 V c t (((cfg0.win 6).blk t).view.read (Elt F) G) :=
  read_blk_of_ArrAt (dat V O B c) 6 (fun t t' _ _ hne => hdisj6 t t' hne) (fun t X => Out1 V c t X)
    (fun t X hX => by obtain ⟨Y, _, hYX⟩ := hX; dsimp only [dat] at hYX; exact hYX) cfg0.N G h t t.isLt (flush0_6 t)

end Cert.Kernel.Pack

end
-- ==== Proof.B.MlpBody.lean ====
import proofs.«204570_g59167469470423_cont_9to1_m_669_24_alg».proof.Proof.B.ScBase
import proofs.«204570_g59167469470423_cont_9to1_m_669_24_alg».proof.Proof.Gen.Kernel.Launch
import proofs.«204570_g59167469470423_cont_9to1_m_669_24_alg».proof.Proof.Gen.Kernel.Skeleton
import proofs.«204570_g59167469470423_cont_9to1_m_669_24_alg».proof.Proof.Gen.Kernel.Points
import Idealize.ShloMosaic.Lib.Pipeline.FrameBody
import Idealize.ShloMosaic.Lib.Pipeline.Value
import Idealize.ShloMosaic.Lib.Tactic

noncomputable section

namespace Cert.Kernel.Mlp

open Cert.Kernel Cert.Kernel.Gen Cert.Kernel.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F
/-! ## The rectangles the body reads and writes through -/

/-- The id column of a block of 1024 batch entries. -/
abbrev rId : Rect S1024x1 := Rect.unit (s := S1024x1) ![0, 0] S1024x1.size inb_S1024x1_S1024x1_0_0
/-- Lanes 0..63 of the 1024 gathered rows: the row of the table's lower half. -/
abbrev rLo : Rect S1024x128 := Rect.unit (s := S1024x128) ![0, 0] S1024x64.size inb_S1024x128_S1024x64_0_0
/-- Lanes 64..127: the row of the upper half. -/
abbrev rHi : Rect S1024x128 := Rect.unit (s := S1024x128) ![0, 64] S1024x64.size inb_S1024x128_S1024x64_0_64
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rOut : Rect S8x128 := Rect.unit (s := S8x128) ![0, 0] S8x128.size inb_S8x128_S8x128_0_0

/-! ## What the body leaves in the output block -/

/-- The 8 x 128 values the body stores, from the twelve input blocks: the second tower's selected rows, the first tower up
    to its last bias, that bias, then the rest of the arithmetic. -/
def pay (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) : FVec F S8x128 .f32 :=
  k2_pay1 (k2_pay2 (View.ld x3 rId) (View.ld x1 rLo) (View.ld x1 rHi))
    (k2_pay3 (View.ld x2 rId) (View.ld x0 rLo) (View.ld x0 rHi) (View.ld x4 rW1) (View.ld x5 rB1) (View.ld x6 rW2))
    (k2_pay4 (View.ld x7 rB2)) (View.ld x8 rW1) (View.ld x9 rB1) (View.ld x10 rW2) (View.ld x11 rB2)

/-- The output staging buffer after the body: its one store, which fills it. -/
def out (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) : Vec F S8x128 .f32 :=
  View.canon [⟨rOut, pay x0 x1 x2 x3 x4 x5 x6 x7 x8 x9 x10 x11⟩]

/-- The store fills the buffer. -/
theorem cover (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

theorem zero_offsets : (![0, 0] : Fin 2 → Nat) = fun _ => 0 := funext fun a => by fin_cases a <;> rfl

/-- The store is of the whole buffer, so what it leaves is its payload. -/
theorem out_eq (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32) :
    out x0 x1 x2 x3 x4 x5 x6 x7 x8 x9 x10 x11 = pay x0 x1 x2 x3 x4 x5 x6 x7 x8 x9 x10 x11 := by
  unfold out
  exact View.canon_unit_zero zero_offsets _ _

/-! ## The body's triple -/

set_option maxHeartbeats 1000000 in
/-- The body on whole staging buffers, the twelve inputs' at read contents `x0 … x11` and the output's at anything, runs to
    the end, leaves the inputs' as they were and the output's at `out` of the inputs'. -/
theorem sound_kernel (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S1024x1 .i32) (harg3 : arg3.IsWhole) (arg4 : Memref sig .tc .vmem S1024x1 .i32) (harg4 : arg4.IsWhole)
    (arg5 : Memref sig .tc .vmem S64x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x128 .f32) (harg9 : arg9.IsWhole) (arg10 : Memref sig .tc .vmem S1x128 .f32) (harg10 : arg10.IsWhole)
    (arg11 : Memref sig .tc .vmem S128x64 .f32) (harg11 : arg11.IsWhole) (arg12 : Memref sig .tc .vmem S1x64 .f32) (harg12 : arg12.IsWhole)
    (arg13 : Memref sig .tc .vmem S8x128 .f32) (harg13 : arg13.IsWhole)
    (x0 x1 : Vec F S1024x128 .f32) (x2 x3 : Vec F S1024x1 .i32)
    (x4 : Vec F S64x128 .f32) (x5 : Vec F S1x128 .f32) (x6 : Vec F S128x64 .f32) (x7 : Vec F S1x64 .f32)
    (x8 : Vec F S64x128 .f32) (x9 : Vec F S1x128 .f32) (x10 : Vec F S128x64 .f32) (x11 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare (out x0 x1 x2 x3 x4 x5 x6 x7 x8 x9 x10 x11)) -∗ K ⟨⟩))
      ⊢ wp frame (wpE (defs₀ (F := F)) 𝒱₀ c none) E
          (cc2__mlp_body i arg1 harg1 arg2 harg2 arg3 harg3 arg4 harg4 arg5 harg5 arg6 harg6 arg7 harg7 arg8 harg8 arg9 harg9 arg10 harg10 arg11 harg11 arg12 harg12 arg13 harg13) K := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover _)

end Cert.Kernel.Mlp

end
-- ==== Proof.B.MlpDat.lean ====
import proofs.«204570_g59167469470423_cont_9to1_m_669_24_alg».proof.Proof.B.MlpBody
import Idealize.ShloMosaic.Lib.Pipeline.Regions
import Idealize.ShloMosaic.Lib.Pipeline.Kit

set_option maxRecDepth 16384
noncomputable section

namespace Cert.Kernel.Mlp

open Cert.Kernel Cert.Kernel.Gen Cert.Kernel.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

-- The matrix unit's buffer contents when the region is entered: the parameter everything here is stated at.
variable (V : (c : Dev nD) → (b : Ref sig .tc) → Buf (Elt F) ((c : Thread nD τ).loc b))
-- What the matrix unit's processor owes other processors while the region runs (the body pays none of it and takes on
-- nothing), and a bound on the pairs its waits have recorded before the region (the body records none).
variable (O : CellTallies nD τ sig (HIx 1)) (B : Set (SemLoc sig × HIx 1))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block at point `t`: `out` of the twelve input blocks there. -/
def outAt (c : Dev nD) (t : Fin cfg2.N) : Vec F S8x128 .f32 :=
  out (iblk V c 0 t) (iblk V c 1 t) (iblk V c 2 t) (iblk V c 3 t) (iblk V c 4 t) (iblk V c 5 t) (iblk V c 6 t) (iblk V c 7 t)
    (iblk V c 8 t) (iblk V c 9 t) (iblk V c 10 t) (iblk V c 11 t)

/-! ## The proof data -/

/-- The exact proof data of the region on core `c`: the arrays as the region finds them; after the body at point `t` each
    input buffer at its block and the output buffer at `outAt`; the invariant is the scoped buffers no window stages; the
    processor owes `O` throughout and its recorded waits stay within `B` and the pipeline's own. -/
def xdat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outAt V c t
  Φ _ := Pipeline.scopedRest spec2 c
  q _ := fullShare
  owed _ := O
  recorded _ := B

/-- The same read as relational proof data: the family type the regions of the program share. -/
def dat (c : Dev nD) : RDat τ (Elt F) (HIx 1) ℕ UU ℕ cfg2 c := (xdat V O B c).toR

theorem xA_eq (c : Dev nD) (w : Fin cfg2.W) : (xdat V O B c).A w = V c (Pipeline.arrRef spec2 w) := by
  dsimp only [xdat]
theorem A_eq (c : Dev nD) (w : Fin cfg2.W) : (dat V O B c).A w = V c (Pipeline.arrRef spec2 w) := xA_eq V O B c w
theorem owed_eq (c : Dev nD) (t : Fin (cfg2.N + 1)) : (dat V O B c).owed t = O := rfl
theorem recorded_eq (c : Dev nD) (t : Fin (cfg2.N + 1)) : (dat V O B c).recorded t = B := rfl
theorem Φ_eq (c : Dev nD) (t : Fin (cfg2.N + 1)) : (dat V O B c).Φ t = Pipeline.scopedRest spec2 c := rfl
theorem xshare_eq (c : Dev nD) (w : Fin cfg2.W) : (xdat V O B c).share w = fullShare :=
  (xdat V O B c).share_full (fun _ => rfl) w
theorem share_eq (c : Dev nD) (w : Fin cfg2.W) : (dat V O B c).share w = fullShare := xshare_eq V O B c w

/-! ## What the body finds in the input buffers -/

theorem before_0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) (HIx 1) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) (HIx 1) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) (HIx 1) ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) (HIx 1) ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) (HIx 1) ℕ UU ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) (HIx 1) ℕ UU ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) (HIx 1) ℕ UU ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) (HIx 1) ℕ UU ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) (HIx 1) ℕ UU ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## What the body leaves, window by window -/

theorem after_0 (c : Dev nD) (t : Fin cfg2.N) : (xdat V O B c).after 0 t = iblk V c 0 t := by dsimp only [xdat]
theorem after_1 (c : Dev nD) (t : Fin cfg2.N) : (xdat V O B c).after 1 t = iblk V c 1 t := by dsimp only [xdat]
theorem after_2 (c : Dev nD) (t : Fin cfg2.N) : (xdat V O B c).after 2 t = iblk V c 2 t := by dsimp only [xdat]
theorem after_3 (c : Dev nD) (t : Fin cfg2.N) : (xdat V O B c).after 3 t = iblk V c 3 t := by dsimp only [xdat]
theorem after_4 (c : Dev nD) (t : Fin cfg2.N) : (xdat V O B c).after 4 t = iblk V c 4 t := by dsimp only [xdat]
theorem after_5 (c : Dev nD) (t : Fin cfg2.N) : (xdat V O B c).after 5 t = iblk V c 5 t := by dsimp only [xdat]
theorem after_6 (c : Dev nD) (t : Fin cfg2.N) : (xdat V O B c).after 6 t = iblk V c 6 t := by dsimp only [xdat]
theorem after_7 (c : Dev nD) (t : Fin cfg2.N) : (xdat V O B c).after 7 t = iblk V c 7 t := by dsimp only [xdat]
theorem after_8 (c : Dev nD) (t : Fin cfg2.N) : (xdat V O B c).after 8 t = iblk V c 8 t := by dsimp only [xdat]
theorem after_9 (c : Dev nD) (t : Fin cfg2.N) : (xdat V O B c).after 9 t = iblk V c 9 t := by dsimp only [xdat]
theorem after_10 (c : Dev nD) (t : Fin cfg2.N) : (xdat V O B c).after 10 t = iblk V c 10 t := by dsimp only [xdat]
theorem after_11 (c : Dev nD) (t : Fin cfg2.N) : (xdat V O B c).after 11 t = iblk V c 11 t := by dsimp only [xdat]
theorem after_12 (c : Dev nD) (t : Fin cfg2.N) : (xdat V O B c).after 12 t = outAt V c t := by dsimp only [xdat]

theorem before_0 (c : Dev nD) (t : Fin cfg2.N) (d) : (xdat V O B c).before 0 t d = iblk V c 0 t :=
  before_0_of V (xdat V O B c) (xA_eq V O B c 0) (after_0 V O B c) t d
theorem before_1 (c : Dev nD) (t : Fin cfg2.N) (d) : (xdat V O B c).before 1 t d = iblk V c 1 t :=
  before_1_of V (xdat V O B c) (xA_eq V O B c 1) (after_1 V O B c) t d
theorem before_2 (c : Dev nD) (t : Fin cfg2.N) (d) : (xdat V O B c).before 2 t d = iblk V c 2 t :=
  before_2_of V (xdat V O B c) (xA_eq V O B c 2) (after_2 V O B c) t d
theorem before_3 (c : Dev nD) (t : Fin cfg2.N) (d) : (xdat V O B c).before 3 t d = iblk V c 3 t :=
  before_3_of V (xdat V O B c) (xA_eq V O B c 3) (after_3 V O B c) t d
theorem before_4 (c : Dev nD) (t : Fin cfg2.N) (d) : (xdat V O B c).before 4 t d = iblk V c 4 t :=
  before_4_of V (xdat V O B c) (xA_eq V O B c 4) (after_4 V O B c) t d
theorem before_5 (c : Dev nD) (t : Fin cfg2.N) (d) : (xdat V O B c).before 5 t d = iblk V c 5 t :=
  before_5_of V (xdat V O B c) (xA_eq V O B c 5) (after_5 V O B c) t d
theorem before_6 (c : Dev nD) (t : Fin cfg2.N) (d) : (xdat V O B c).before 6 t d = iblk V c 6 t :=
  before_6_of V (xdat V O B c) (xA_eq V O B c 6) (after_6 V O B c) t d
theorem before_7 (c : Dev nD) (t : Fin cfg2.N) (d) : (xdat V O B c).before 7 t d = iblk V c 7 t :=
  before_7_of V (xdat V O B c) (xA_eq V O B c 7) (after_7 V O B c) t d
theorem before_8 (c : Dev nD) (t : Fin cfg2.N) (d) : (xdat V O B c).before 8 t d = iblk V c 8 t :=
  before_8_of V (xdat V O B c) (xA_eq V O B c 8) (after_8 V O B c) t d
theorem before_9 (c : Dev nD) (t : Fin cfg2.N) (d) : (xdat V O B c).before 9 t d = iblk V c 9 t :=
  before_9_of V (xdat V O B c) (xA_eq V O B c 9) (after_9 V O B c) t d
theorem before_10 (c : Dev nD) (t : Fin cfg2.N) (d) : (xdat V O B c).before 10 t d = iblk V c 10 t :=
  before_10_of V (xdat V O B c) (xA_eq V O B c 10) (after_10 V O B c) t d
theorem before_11 (c : Dev nD) (t : Fin cfg2.N) (d) : (xdat V O B c).before 11 t d = iblk V c 11 t :=
  before_11_of V (xdat V O B c) (xA_eq V O B c 11) (after_11 V O B c) t d

/-! ## The body obligation, at a symbolic point -/

/-- What the body is called with at point `t`, the windows one by one, -/
def bodyPre (c : Dev nD) (t : Fin cfg2.N) : sProp 𝕄 :=
  iprop((xdat V O B c).Φ t.castSucc ∗ (xdat V O B c).owesAt (none : HIx 1) t.castSucc
    ∗ (∃ d, owns (c : Thread nD τ) (st2_0 t) fullShare ((xdat V O B c).before 0 t d))
    ∗ (∃ d, owns (c : Thread nD τ) (st2_1 t) fullShare ((xdat V O B c).before 1 t d))
    ∗ (∃ d, owns (c : Thread nD τ) (st2_2 t) fullShare ((xdat V O B c).before 2 t d))
    ∗ (∃ d, owns (c : Thread nD τ) (st2_3 t) fullShare ((xdat V O B c).before 3 t d))
    ∗ (∃ d, owns (c : Thread nD τ) (st2_4 t) fullShare ((xdat V O B c).before 4 t d))
    ∗ (∃ d, owns (c : Thread nD τ) (st2_5 t) fullShare ((xdat V O B c).before 5 t d))
    ∗ (∃ d, owns (c : Thread nD τ) (st2_6 t) fullShare ((xdat V O B c).before 6 t d))
    ∗ (∃ d, owns (c : Thread nD τ) (st2_7 t) fullShare ((xdat V O B c).before 7 t d))
    ∗ (∃ d, owns (c : Thread nD τ) (st2_8 t) fullShare ((xdat V O B c).before 8 t d))
    ∗ (∃ d, owns (c : Thread nD τ) (st2_9 t) fullShare ((xdat V O B c).before 9 t d))
    ∗ (∃ d, owns (c : Thread nD τ) (st2_10 t) fullShare ((xdat V O B c).before 10 t d))
    ∗ (∃ d, owns (c : Thread nD τ) (st2_11 t) fullShare ((xdat V O B c).before 11 t d))
    ∗ (∃ d, owns (c : Thread nD τ) (st2_12 t) fullShare ((xdat V O B c).before 12 t d)))

/-- and what it returns. -/
def bodyPost (c : Dev nD) (t : Fin cfg2.N) : sProp 𝕄 :=
  iprop((xdat V O B c).Φ t.succ ∗ (xdat V O B c).owesAt (none : HIx 1) t.succ
    ∗ owns (c : Thread nD τ) (st2_0 t) fullShare ((xdat V O B c).after 0 t)
    ∗ owns (c : Thread nD τ) (st2_1 t) fullShare ((xdat V O B c).after 1 t)
    ∗ owns (c : Thread nD τ) (st2_2 t) fullShare ((xdat V O B c).after 2 t)
    ∗ owns (c : Thread nD τ) (st2_3 t) fullShare ((xdat V O B c).after 3 t)
    ∗ owns (c : Thread nD τ) (st2_4 t) fullShare ((xdat V O B c).after 4 t)
    ∗ owns (c : Thread nD τ) (st2_5 t) fullShare ((xdat V O B c).after 5 t)
    ∗ owns (c : Thread nD τ) (st2_6 t) fullShare ((xdat V O B c).after 6 t)
    ∗ owns (c : Thread nD τ) (st2_7 t) fullShare ((xdat V O B c).after 7 t)
    ∗ owns (c : Thread nD τ) (st2_8 t) fullShare ((xdat V O B c).after 8 t)
    ∗ owns (c : Thread nD τ) (st2_9 t) fullShare ((xdat V O B c).after 9 t)
    ∗ owns (c : Thread nD τ) (st2_10 t) fullShare ((xdat V O B c).after 10 t)
    ∗ owns (c : Thread nD τ) (st2_11 t) fullShare ((xdat V O B c).after 11 t)
    ∗ owns (c : Thread nD τ) (st2_12 t) fullShare ((xdat V O B c).after 12 t))

set_option maxHeartbeats 1000000 in
/-- The body at any point: the inputs' buffers hold their blocks, so the body's triple applies; the invariant and the
    processor's debts pass through unread. -/
theorem sound_body (c : Dev nD) (t : Fin cfg2.N) :
    bodyPre V O B c t ⊢ wp frame (wpE (defs₀ (F := F)) 𝒱₀ c none) Set.univ (bodyAt2 t) (fun _ => bodyPost V O B c t) := by
  unfold bodyPre bodyPost bodyAt2
  simp only [before_0, before_1, before_2, before_3, before_4, before_5, before_6, before_7, before_8, before_9, before_10, before_11]
  rw [show (xdat V O B c).Φ t.succ = (xdat V O B c).Φ t.castSucc from rfl,
    show (xdat V O B c).owesAt (none : HIx 1) t.succ = (xdat V O B c).owesAt (none : HIx 1) t.castSucc from rfl,
    after_0, after_1, after_2, after_3, after_4, after_5, after_6, after_7, after_8, after_9, after_10, after_11, after_12]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The exact body obligation of the region, at every point. -/
theorem xbody_obligation (c : Dev nD) : BodyObligation (xdat (F := F) V O B c) (defs₀ (F := F)) 𝒱₀ (none : HIx 1) Set.univ := fun t => by
  rw [bigSep_W2, bigSep_W2]
  exact sound_body V O B c t

/-- The body obligation on core `c`, of the relational data. -/
theorem body_obligation (c : Dev nD) : (dat V O B c).BodyObligation (defs₀ (F := F)) 𝒱₀ (none : HIx 1) Set.univ :=
  (xbody_obligation V O B c).toR

end Cert.Kernel.Mlp

end
-- ==== Proof.B.MlpSeg.lean ====
import proofs.«204570_g59167469470423_cont_9to1_m_669_24_alg».proof.Proof.B.MlpDat
import Idealize.ShloMosaic.Lib.Pipeline.RegionsLoop
import Idealize.ShloMosaic.Lib.Pipeline.FrameSuffix
import Idealize.ShloMosaic.Lib.Pipeline.Value
import Idealize.ShloMosaic.Lib.ValueIdx

set_option maxRecDepth 16384
noncomputable section

namespace Cert.Kernel.Mlp

open Cert.Kernel Cert.Kernel.Gen Cert.Kernel.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

open Idealize.ShloMosaic.ValueIdx

variable (V : (c : Dev nD) → (b : Ref sig .tc) → Buf (Elt F) ((c : Thread nD τ).loc b))
variable (O : CellTallies nD τ sig (HIx 1)) (B : Set (SemLoc sig × HIx 1))

/-! ## From the blocks to the output array -/

/-- The grid point whose block holds row `i 0` of the output array: eight rows a point. -/
def ptOf (i : S128x128.Idx) : Fin cfg2.N :=
  ⟨(i 0).val / 8, by have h : (i 0).val < 128 := (i 0).isLt; show _ < grid2.N; rw [N_2]; omega⟩

/-- The place of output index `i` inside that block. -/
def inBlk (i : S128x128.Idx) : S8x128.Idx :=
  ix2 ⟨(i 0).val % 8, Nat.mod_lt _ (by decide)⟩ ⟨(i 1).val, (i 1).isLt⟩

/-- The output array after the region, as one function of the input arrays' entry contents: at row `8 t + p`, lane `q`, what
    the body leaves at `(p, q)` of its output block at point `t`. -/
def finalOut (c : Dev nD) : Buf (Elt F) ((c : Thread nD τ).loc main_v16) := fun i => outAt V c (ptOf i) (inBlk i)

/-- The output window's block index at point `t` is `(t, 0)`: decided over the grid. -/
theorem idx_facts : ∀ t : Fin cfg2.N, win2_12.index t (0 : Fin 2) = t.val ∧ win2_12.index t (1 : Fin 2) = 0 :=
  (by decide +kernel : ∀ t : Fin grid2.N, _)

/-- What point `t` writes back is block `t` of `finalOut`. -/
theorem flushed_eq (c : Dev nD) (t : Fin cfg2.N) :
    (xdat V O B c).flushed 12 t = ((cfg2.win 12).blk t).view.read (Elt F) (finalOut V c) := by
  show (cfg2.win 12).cut (grid2.coords t) ((xdat V O B c).after 12 t) = _
  rw [after_12]
  obtain ⟨e0, e1⟩ := idx_facts t
  funext j
  show outAt V c t j = finalOut V c (((cfg2.win 12).blk t).view.emb j)
  unfold finalOut
  have hj0 : (j 0).val < 8 := (j 0).isLt
  have hj1 : (j 1).val < 128 := (j 1).isLt
  have h0 : ((((cfg2.win 12).blk t).view.emb j) 0).val = win2_12.index t (0 : Fin 2) * 8 + 1 * (j 0).val := rfl
  have h1 : ((((cfg2.win 12).blk t).view.emb j) 1).val = win2_12.index t (1 : Fin 2) * 128 + 1 * (j 1).val := rfl
  have hp : ptOf (((cfg2.win 12).blk t).view.emb j) = t := by
    apply Fin.ext
    show ((((cfg2.win 12).blk t).view.emb j) 0).val / 8 = t.val
    rw [h0, e0]; omega
  have hb : inBlk (((cfg2.win 12).blk t).view.emb j) = j := by
    funext a; apply Fin.ext
    match a with
    | ⟨0, _⟩ => show ((((cfg2.win 12).blk t).view.emb j) 0).val % 8 = (j 0).val; rw [h0, e0]; omega
    | ⟨1, _⟩ => show ((((cfg2.win 12).blk t).view.emb j) 1).val = (j 1).val; rw [h1, e1]; omega
  rw [hp, hb]

/-- An index of the output array is in point `t`'s block iff each coordinate is in the block's range on its axis. -/
theorem mem_blk (t : Fin cfg2.N) (i : S128x128.Idx) :
    i ∈ ((cfg2.win 12).blk t).view.set ↔ ∀ a : Fin 2, win2_12.index t a * S8x128.size a ≤ (i a).val ∧ (i a).val < win2_12.index t a * S8x128.size a + S8x128.size a := by
  show i ∈ ((View.whole main_v16).slice (win2_12.rect t)).set ↔ _
  rw [View.set_slice_whole, Rect.mem_set_unit]
  exact Iff.rfl

/-- Every index of the output array is in the block of the point `i 0 / 8`, which writes it back. -/
theorem covered (i : S128x128.Idx) : ∃ t : Fin cfg2.N, (cfg2.win 12).flush t = true ∧ i ∈ ((cfg2.win 12).blk t).view.set := by
  refine ⟨ptOf i, flush2_12 _, ?_⟩
  rw [mem_blk]
  obtain ⟨e0, e1⟩ := idx_facts (ptOf i)
  have hi0 : (i 0).val < 128 := (i 0).isLt
  have hi1 : (i 1).val < 128 := (i 1).isLt
  have hp : (ptOf i).val = (i 0).val / 8 := rfl
  intro a
  match a with
  | ⟨0, _⟩ => show win2_12.index (ptOf i) (0 : Fin 2) * 8 ≤ (i 0).val ∧ (i 0).val < win2_12.index (ptOf i) (0 : Fin 2) * 8 + 8; omega
  | ⟨1, _⟩ => show win2_12.index (ptOf i) (1 : Fin 2) * 128 ≤ (i 1).val ∧ (i 1).val < win2_12.index (ptOf i) (1 : Fin 2) * 128 + 128; omega

/-- The output array after all sixteen write-backs. -/
theorem final (c : Dev nD) : (xdat V O B c).arrAt 12 cfg2.N = finalOut V c :=
  (xdat V O B c).arrAt_eq_of_cover 12 (finalOut V c) (fun t _ => flushed_eq V O B c t) covered

/-- An input array is never written. -/
theorem arrAt_in (c : Dev nD) (w : Fin cfg2.W) (hw : w ≠ 12) (n : ℕ) :
    (xdat V O B c).arrAt w n = V c (Pipeline.arrRef spec2 w) :=
  ((xdat V O B c).arrAt_in w ((by decide : ∀ w : Fin 13, w ≠ 12 → (cfg2.win w).isOut = false) w hw) n).trans (xA_eq V O B c w)

theorem arrAt_0 (c : Dev nD) (n : ℕ) : (xdat V O B c).arrAt 0 n = V c main_v9_0 :=
  ((xdat V O B c).arrAt_in 0 rfl n).trans (xA_eq V O B c 0)
theorem arrAt_1 (c : Dev nD) (n : ℕ) : (xdat V O B c).arrAt 1 n = V c main_v9_1 :=
  ((xdat V O B c).arrAt_in 1 rfl n).trans (xA_eq V O B c 1)
theorem arrAt_2 (c : Dev nD) (n : ℕ) : (xdat V O B c).arrAt 2 n = V c main_v10 :=
  ((xdat V O B c).arrAt_in 2 rfl n).trans (xA_eq V O B c 2)
theorem arrAt_3 (c : Dev nD) (n : ℕ) : (xdat V O B c).arrAt 3 n = V c main_v11 :=
  ((xdat V O B c).arrAt_in 3 rfl n).trans (xA_eq V O B c 3)
theorem arrAt_4 (c : Dev nD) (n : ℕ) : (xdat V O B c).arrAt 4 n = V c main_arg3 :=
  ((xdat V O B c).arrAt_in 4 rfl n).trans (xA_eq V O B c 4)
theorem arrAt_5 (c : Dev nD) (n : ℕ) : (xdat V O B c).arrAt 5 n = V c main_v12 :=
  ((xdat V O B c).arrAt_in 5 rfl n).trans (xA_eq V O B c 5)
theorem arrAt_6 (c : Dev nD) (n : ℕ) : (xdat V O B c).arrAt 6 n = V c main_arg5 :=
  ((xdat V O B c).arrAt_in 6 rfl n).trans (xA_eq V O B c 6)
theorem arrAt_7 (c : Dev nD) (n : ℕ) : (xdat V O B c).arrAt 7 n = V c main_v13 :=
  ((xdat V O B c).arrAt_in 7 rfl n).trans (xA_eq V O B c 7)
theorem arrAt_8 (c : Dev nD) (n : ℕ) : (xdat V O B c).arrAt 8 n = V c main_arg8 :=
  ((xdat V O B c).arrAt_in 8 rfl n).trans (xA_eq V O B c 8)
theorem arrAt_9 (c : Dev nD) (n : ℕ) : (xdat V O B c).arrAt 9 n = V c main_v14 :=
  ((xdat V O B c).arrAt_in 9 rfl n).trans (xA_eq V O B c 9)
theorem arrAt_10 (c : Dev nD) (n : ℕ) : (xdat V O B c).arrAt 10 n = V c main_arg10 :=
  ((xdat V O B c).arrAt_in 10 rfl n).trans (xA_eq V O B c 10)
theorem arrAt_11 (c : Dev nD) (n : ℕ) : (xdat V O B c).arrAt 11 n = V c main_v15 :=
  ((xdat V O B c).arrAt_in 11 rfl n).trans (xA_eq V O B c 11)

/-- Whatever the output array may hold after every write-back is `finalOut`. -/
theorem arrAt_out (c : Dev nD) (G : Buf (Elt F) ((c : Thread nD τ).loc main_v16)) (h : (dat V O B c).ArrAt 12 cfg2.N G) :
    G = finalOut V c :=
  ((xdat V O B c).toR_arrAt 12 cfg2.N G h).trans (final V O B c)

/-! ## Entry and exit of the arrays -/

/-- The proof data's arrays at any contents, one by one: thirteen distinct whole buffers at the full share. -/
theorem arrays_pts (c : Dev nD) (G : (w : Fin cfg2.W) → Buf (Elt F) ((cfg2.win w).arr.view.loc (c : Thread nD τ))) :
    ((xdat V O B c).arrays G : sProp 𝕄)
      = iprop((((c : Thread nD τ).loc main_v9_0) ↦{fullShare} G 0) ∗ (((c : Thread nD τ).loc main_v9_1) ↦{fullShare} G 1)
        ∗ (((c : Thread nD τ).loc main_v10) ↦{fullShare} G 2) ∗ (((c : Thread nD τ).loc main_v11) ↦{fullShare} G 3)
        ∗ (((c : Thread nD τ).loc main_arg3) ↦{fullShare} G 4) ∗ (((c : Thread nD τ).loc main_v12) ↦{fullShare} G 5)
        ∗ (((c : Thread nD τ).loc main_arg5) ↦{fullShare} G 6) ∗ (((c : Thread nD τ).loc main_v13) ↦{fullShare} G 7)
        ∗ (((c : Thread nD τ).loc main_arg8) ↦{fullShare} G 8) ∗ (((c : Thread nD τ).loc main_v14) ↦{fullShare} G 9)
        ∗ (((c : Thread nD τ).loc main_arg10) ↦{fullShare} G 10) ∗ (((c : Thread nD τ).loc main_v15) ↦{fullShare} G 11)
        ∗ (((c : Thread nD τ).loc main_v16) ↦{fullShare} G 12)) := by
  have h : ((xdat V O B c).arrays G : sProp 𝕄)
      = bigSep Finset.univ fun w : Fin 13 => (((c : Thread nD τ).loc (Pipeline.arrRef spec2 w)) ↦{fullShare} G w : sProp 𝕄) := by
    unfold Dat.arrays
    exact bigSep_congr fun w _ => by rw [(arr_whole2 w).set_eq_univ, xshare_eq]
  rw [h, bigSep_W2]

/-- ENTRY: the thirteen distinct buffers behind the windows, each whole at the full share at its entry contents, make
    the proof data's arrays. -/
theorem arrays_entry (c : Dev nD) :
    iprop((((c : Thread nD τ).loc main_v9_0) ↦{fullShare} V c main_v9_0) ∗ (((c : Thread nD τ).loc main_v9_1) ↦{fullShare} V c main_v9_1)
        ∗ (((c : Thread nD τ).loc main_v10) ↦{fullShare} V c main_v10) ∗ (((c : Thread nD τ).loc main_v11) ↦{fullShare} V c main_v11)
        ∗ (((c : Thread nD τ).loc main_arg3) ↦{fullShare} V c main_arg3) ∗ (((c : Thread nD τ).loc main_v12) ↦{fullShare} V c main_v12)
        ∗ (((c : Thread nD τ).loc main_arg5) ↦{fullShare} V c main_arg5) ∗ (((c : Thread nD τ).loc main_v13) ↦{fullShare} V c main_v13)
        ∗ (((c : Thread nD τ).loc main_arg8) ↦{fullShare} V c main_arg8) ∗ (((c : Thread nD τ).loc main_v14) ↦{fullShare} V c main_v14)
        ∗ (((c : Thread nD τ).loc main_arg10) ↦{fullShare} V c main_arg10) ∗ (((c : Thread nD τ).loc main_v15) ↦{fullShare} V c main_v15)
        ∗ (((c : Thread nD τ).loc main_v16) ↦{fullShare} V c main_v16))
      ⊢ ((dat V O B c).arrays (dat V O B c).A : sProp 𝕄) := by
  show _ ⊢ ((xdat V O B c).arrays (xdat V O B c).A : sProp 𝕄)
  rw [arrays_pts]
  exact .rfl

/-- EXIT: after every write-back the twelve inputs' buffers are whole at the full share at their entry contents again,
    and the output's at `finalOut`. -/
theorem arraysAt_exit (c : Dev nD) :
    ((dat V O B c).arraysAt cfg2.N : sProp 𝕄)
      ⊢ iprop((((c : Thread nD τ).loc main_v9_0) ↦{fullShare} V c main_v9_0) ∗ (((c : Thread nD τ).loc main_v9_1) ↦{fullShare} V c main_v9_1)
        ∗ (((c : Thread nD τ).loc main_v10) ↦{fullShare} V c main_v10) ∗ (((c : Thread nD τ).loc main_v11) ↦{fullShare} V c main_v11)
        ∗ (((c : Thread nD τ).loc main_arg3) ↦{fullShare} V c main_arg3) ∗ (((c : Thread nD τ).loc main_v12) ↦{fullShare} V c main_v12)
        ∗ (((c : Thread nD τ).loc main_arg5) ↦{fullShare} V c main_arg5) ∗ (((c : Thread nD τ).loc main_v13) ↦{fullShare} V c main_v13)
        ∗ (((c : Thread nD τ).loc main_arg8) ↦{fullShare} V c main_arg8) ∗ (((c : Thread nD τ).loc main_v14) ↦{fullShare} V c main_v14)
        ∗ (((c : Thread nD τ).loc main_arg10) ↦{fullShare} V c main_arg10) ∗ (((c : Thread nD τ).loc main_v15) ↦{fullShare} V c main_v15)
        ∗ (((c : Thread nD τ).loc main_v16) ↦{fullShare} finalOut V c)) := by
  refine ((xdat V O B c).toR_arraysAt_post cfg2.N).trans ?_
  rw [arrays_pts, final, arrAt_0, arrAt_1, arrAt_2, arrAt_3, arrAt_4, arrAt_5, arrAt_6, arrAt_7, arrAt_8, arrAt_9, arrAt_10, arrAt_11]

/-! ## The invariant at the first and the last point -/

/-- The invariant at the first point is the scoped buffers no window stages (no table is prefetched). -/
theorem hin (c : Dev nD) (pf : sProp 𝕄) :
    iprop((emp : sProp 𝕄) ∗ pf ∗ Pipeline.scopedRest spec2 c) ⊢ (dat V O B c).Φ 0 := by
  rw [Φ_eq]
  iintro ⟨-, -, Hr⟩
  iexact Hr

/-- The invariant at the last point gives them back; the body has no semaphore of its own. -/
theorem hout (c : Dev nD) :
    (dat V O B c).Φ (Fin.last cfg2.N)
      ⊢ iprop((emp : sProp 𝕄) ∗ Pipeline.ownSems0 (fun k : PEmpty => k.elim) c ∗ Pipeline.scopedRest spec2 c) := by
  rw [Φ_eq, Pipeline.ownSems0_none]
  iintro Hr
  isplitr; · iempintro
  isplitr; · iempintro
  iexact Hr

end Cert.Kernel.Mlp

end
-- ==== Proof.B.ScSeg.lean ====
/-
  The two block pipelines as regions of the host program.

  Both pipelines' proof data are stated at the buffer contents found when the region is entered, so one family covers
  both: entered from the held buffers at a valuation `W`, a region takes the buffers behind its windows out of the held
  set, runs, and puts them back, its outputs at what the pipeline left. The matrix unit's processor owes its start signals
  to the sparse processors all along; a region pays none of it, and its own waits on the staging semaphores sit at the
  lowest level, below everything owed.
-/
import proofs.«204570_g59167469470423_cont_9to1_m_669_24_alg».proof.Proof.B.ScGhost
import proofs.«204570_g59167469470423_cont_9to1_m_669_24_alg».proof.Proof.B.ScHeld
import proofs.«204570_g59167469470423_cont_9to1_m_669_24_alg».proof.Proof.B.PackDat
import proofs.«204570_g59167469470423_cont_9to1_m_669_24_alg».proof.Proof.B.MlpSeg

noncomputable section

namespace Cert.Kernel.Seg

open Cert.Kernel Cert.Kernel.Gen Cert.Kernel.Base Cert.Kernel.Ghost Cert.Kernel.Held

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

variable (W : Dev nD → Valuation τ sig (Elt F)) (O : CellTallies nD τ sig (HIx 1)) (B : Set (SemLoc sig × HIx 1))

abbrev dref (r : Ref sig .tc) : DevRef τ sig := Proc.devRef .tc r

/-- The valuation as the pipelines' proof data read it: per reference of the matrix unit's processor. -/
abbrev refsOf (c : Dev nD) (b : Ref sig .tc) : Buf (Elt F) ((c : Thread nD τ).loc b) := W c (dref b)

/-- Both pipelines' proof data at the contents `W`. -/
def fam : (p : Fin 2) → (c : Dev nD) → RDat τ (Elt F) (HIx 1) ℕ UU ℕ (Pipeline.pin (pcfgs (F := F)) adm p) c
  | ⟨0, _⟩ => fun c => Pack.dat (refsOf W) O B c
  | ⟨1, _⟩ => fun c => Mlp.dat (refsOf W) O B c

theorem fam_zero (c : Dev nD) : fam W O B 0 c = Pack.dat (refsOf W) O B c := rfl
theorem fam_one (c : Dev nD) : fam W O B 1 c = Mlp.dat (refsOf W) O B c := rfl

/-! ## Taking buffers out of the held set by name -/

/-- Membership of a named buffer in the held set less some other named buffers. -/
macro "mem_held" : tactic =>
  `(tactic| repeat (first | exact mem_uc _ rfl | refine Finset.mem_erase.mpr ⟨StableHlo.devRef_ne_of_ne (by decide), ?_⟩))

/-- A named buffer of the held set, and the rest. -/
theorem take_ref (c : Dev nD) (S : Finset (DevRef τ sig)) (Wc : Valuation τ sig (Elt F)) (r : Ref sig .tc) (hb : dref r ∈ S) :
    (StableHlo.held (c : Thread nD τ) S Wc : sProp (MM F))
      = iprop((((c : Thread nD τ).loc r) ↦{fullShare} (Wc (dref r) : Buf (Elt F) ((c : Thread nD τ).loc r)))
          ∗ StableHlo.held (c : Thread nD τ) (S.erase (dref r)) Wc) :=
  held_take (c : Thread nD τ) S Wc hb

/-- A named buffer put back at the contents it was taken out at. -/
theorem put_ref_same (c : Dev nD) (S : Finset (DevRef τ sig)) (Wc : Valuation τ sig (Elt F)) (r : Ref sig .tc) (hb : dref r ∈ S) :
    iprop((((c : Thread nD τ).loc r) ↦{fullShare} (Wc (dref r) : Buf (Elt F) ((c : Thread nD τ).loc r)))
        ∗ StableHlo.held (c : Thread nD τ) (S.erase (dref r)) Wc) ⊢ (StableHlo.held (c : Thread nD τ) S Wc : sProp (MM F)) :=
  Entails.of_eq (take_ref c S Wc r hb).symm

/-- A named buffer put back at new contents. -/
theorem put_ref (c : Dev nD) (S : Finset (DevRef τ sig)) (Wc : Valuation τ sig (Elt F)) (r : Ref sig .tc) (hb : dref r ∈ S)
    (x : Buf (Elt F) ((c : Thread nD τ).loc r)) :
    iprop((((c : Thread nD τ).loc r) ↦{fullShare} x) ∗ StableHlo.held (c : Thread nD τ) (S.erase (dref r)) Wc)
      ⊢ (StableHlo.held (c : Thread nD τ) S (Function.update Wc (dref r) x) : sProp (MM F)) :=
  held_put (c : Thread nD τ) S Wc hb x

/-! ## The first pipeline: the two packed tables -/

-- The held set, less the buffers behind the first pipeline's windows one after the other.
abbrev A0 : Finset (DevRef τ sig) := Pipeline.ucRefs τ sig
abbrev A1 : Finset (DevRef τ sig) := (A0).erase (dref main_v8_0)
abbrev A2 : Finset (DevRef τ sig) := (A1).erase (dref main_v8_1)
abbrev A3 : Finset (DevRef τ sig) := (A2).erase (dref main_v0)
abbrev A4 : Finset (DevRef τ sig) := (A3).erase (dref main_v1)
abbrev A5 : Finset (DevRef τ sig) := (A4).erase (dref main_v7)

/-- The valuation after the first pipeline: the two packed tables at what it left. -/
abbrev W0out (c : Dev nD) (G0 : Buf (Elt F) ((c : Thread nD τ).loc main_v8_0)) (G1 : Buf (Elt F) ((c : Thread nD τ).loc main_v8_1)) : Valuation τ sig (Elt F) :=
  Function.update (Function.update (W c) (dref main_v8_1) G1) (dref main_v8_0) G0

theorem take0 (c : Dev nD) :
    (StableHlo.held (c : Thread nD τ) (Pipeline.ucRefs τ sig) (W c) : sProp (MM F))
      = iprop((((c : Thread nD τ).loc main_v8_0) ↦{fullShare} (W c (dref main_v8_0) : Buf (Elt F) ((c : Thread nD τ).loc main_v8_0)))
          ∗ (((c : Thread nD τ).loc main_v8_1) ↦{fullShare} (W c (dref main_v8_1) : Buf (Elt F) ((c : Thread nD τ).loc main_v8_1)))
          ∗ (((c : Thread nD τ).loc main_v0) ↦{fullShare} (W c (dref main_v0) : Buf (Elt F) ((c : Thread nD τ).loc main_v0)))
          ∗ (((c : Thread nD τ).loc main_v1) ↦{fullShare} (W c (dref main_v1) : Buf (Elt F) ((c : Thread nD τ).loc main_v1)))
          ∗ (((c : Thread nD τ).loc main_v7) ↦{fullShare} (W c (dref main_v7) : Buf (Elt F) ((c : Thread nD τ).loc main_v7)))
          ∗ StableHlo.held (c : Thread nD τ) A5 (W c)) := by
  rw [take_ref c A0 (W c) main_v8_0 (by mem_held),
    take_ref c A1 (W c) main_v8_1 (by mem_held),
    take_ref c A2 (W c) main_v0 (by mem_held),
    take_ref c A3 (W c) main_v1 (by mem_held),
    take_ref c A4 (W c) main_v7 (by mem_held)]

theorem put0 (c : Dev nD) (G0 : Buf (Elt F) ((c : Thread nD τ).loc main_v8_0)) (G1 : Buf (Elt F) ((c : Thread nD τ).loc main_v8_1)) :
    iprop((((c : Thread nD τ).loc main_v8_0) ↦{fullShare} G0) ∗ (((c : Thread nD τ).loc main_v8_1) ↦{fullShare} G1)
        ∗ (((c : Thread nD τ).loc main_v0) ↦{fullShare} (W c (dref main_v0) : Buf (Elt F) ((c : Thread nD τ).loc main_v0))) ∗ (((c : Thread nD τ).loc main_v1) ↦{fullShare} (W c (dref main_v1) : Buf (Elt F) ((c : Thread nD τ).loc main_v1))) ∗ (((c : Thread nD τ).loc main_v7) ↦{fullShare} (W c (dref main_v7) : Buf (Elt F) ((c : Thread nD τ).loc main_v7)))
        ∗ StableHlo.held (c : Thread nD τ) A5 (W c))
      ⊢ (StableHlo.held (c : Thread nD τ) (Pipeline.ucRefs τ sig) (W0out W c G0 G1) : sProp (MM F)) := by
  iintro ⟨H_v8_0, H_v8_1, H_v0, H_v1, H_v7, Hr⟩
  ihave Hr := (put_ref_same c A4 (W c) main_v7 (by mem_held)) $$ [H_v7 Hr]
  · isplitl [H_v7]; · iexact H_v7
    iexact Hr
  ihave Hr := (put_ref_same c A3 (W c) main_v1 (by mem_held)) $$ [H_v1 Hr]
  · isplitl [H_v1]; · iexact H_v1
    iexact Hr
  ihave Hr := (put_ref_same c A2 (W c) main_v0 (by mem_held)) $$ [H_v0 Hr]
  · isplitl [H_v0]; · iexact H_v0
    iexact Hr
  ihave Hr := (put_ref c A1 (W c) main_v8_1 (by mem_held) G1) $$ [H_v8_1 Hr]
  · isplitl [H_v8_1]; · iexact H_v8_1
    iexact Hr
  ihave Hr := (put_ref c A0 (Function.update (W c) (dref main_v8_1) G1) main_v8_0 (by mem_held) G0) $$ [H_v8_0 Hr]
  · isplitl [H_v8_0]; · iexact H_v8_0
    iexact Hr
  iexact Hr

set_option maxHeartbeats 2000000 in
/-- THE FIRST REGION: entered from the held buffers at `W` and the tallies owed, it leaves the buffers held at `W` with
    the two packed tables at contents the pipeline may leave, the tallies unchanged. -/
def reg0 (hO : ∀ g, O g none = 0) :
    Pipeline.RDat.RegionSeg (pcfgs (F := F)) adm (fam W O B) (none : HIx 1) (defs₀ (F := F)) 𝒱₀ (K (F := F)).L (K (F := F)).lev 0 where
  win := winFacts₀0
  block_pos := block_pos0
  stage_whole := stage_whole0
  K := Pack.ownK
  osem := Pack.osem
  ho := Pack.ho
  hbody c := Pack.body_obligation (refsOf W) O B c
  hwaits c := Pipeline.RDat.cellsWaits_intro (Pipeline.pin (pcfgs (F := F)) adm) (fam W O B) none 0 c fun w s t => by
    rw [show ((fam W O B) 0 c).owed t = O from rfl]; exact (K (F := F)).mayWait_none _ hO
  pre c := iprop(StableHlo.held (c : Thread nD τ) (Pipeline.ucRefs τ sig) (W c) ∗ (Pack.dat (refsOf W) O B c).owesAt none 0)
  post c := iprop(∃ (G0 : Buf (Elt F) ((c : Thread nD τ).loc main_v8_0)) (G1 : Buf (Elt F) ((c : Thread nD τ).loc main_v8_1)),
    ⌜(Pack.dat (refsOf W) O B c).ArrAt 5 cfg0.N G0 ∧ (Pack.dat (refsOf W) O B c).ArrAt 6 cfg0.N G1⌝
      ∗ StableHlo.held (c : Thread nD τ) (Pipeline.ucRefs τ sig) (W0out W c G0 G1)
      ∗ (Pack.dat (refsOf W) O B c).owesAt none (Fin.last cfg0.N))
  X _ := iprop(emp)
  Y _ := iprop(emp)
  Z c := StableHlo.held (c : Thread nD τ) A5 (W c)
  hentry c := by
    show iprop((StableHlo.held (c : Thread nD τ) (Pipeline.ucRefs τ sig) (W c) ∗ (Pack.dat (refsOf W) O B c).owesAt none 0) ∗ Pipeline.ownSems0 Pack.osem c ∗ _)
      ⊢ |={Set.univ}=> iprop((Pack.dat (refsOf W) O B c).arrays (Pack.dat (refsOf W) O B c).A ∗ _ ∗ (Pack.dat (refsOf W) O B c).owesAt none 0 ∗ emp ∗ StableHlo.held (c : Thread nD τ) A5 (W c))
    rw [take0]
    iintro ⟨⟨⟨H_v8_0, H_v8_1, H_v0, H_v1, H_v7, Hr⟩, HO⟩, -, -⟩
    imodintro
    isplitl [H_v8_0 H_v8_1 H_v0 H_v1 H_v7]
    · iapply (Pack.arrays_entry (refsOf W) O B c)
      isplitl [H_v0]; · iexact H_v0
      isplitl [H_v1]; · iexact H_v1
      isplitl [H_v7]; · iexact H_v7
      isplitl [H_v8_0]; · iexact H_v8_0
      iexact H_v8_1
    isplitr; · unfold Pipeline.prefHeld; rw [show (Finset.univ : Finset (Fin 0)) = ∅ from rfl, BI.bigSep_empty]; iempintro
    isplitl [HO]; · iexact HO
    isplitr; · iempintro
    iexact Hr
  hin c := Pack.hin (refsOf W) O B c _ _
  hout c := Pack.hout (refsOf W) O B c
  hexit c := by
    show iprop((Pack.dat (refsOf W) O B c).arraysAt cfg0.N ∗ (Pack.dat (refsOf W) O B c).owesAt none (Fin.last cfg0.N) ∗ emp ∗ StableHlo.held (c : Thread nD τ) A5 (W c)) ⊢ _
    iintro ⟨Ha, HO, -, Hr⟩
    ihave H := (Pack.arraysAt_exit (refsOf W) O B c) $$ Ha
    icases H with ⟨%G0, %G1, %hG, H_v0, H_v1, H_v7, H_v8_0, H_v8_1⟩
    imodintro
    iexists G0, G1
    isplitr; · ipureintro; exact hG
    isplitl [H_v0 H_v1 H_v7 H_v8_0 H_v8_1 Hr]
    · iapply (put0 W c G0 G1)
      isplitl [H_v8_0]; · iexact H_v8_0
      isplitl [H_v8_1]; · iexact H_v8_1
      isplitl [H_v0]; · iexact H_v0
      isplitl [H_v1]; · iexact H_v1
      isplitl [H_v7]; · iexact H_v7
      iexact Hr
    iexact HO

/-! ## The second pipeline: the two towers and their inner product -/

-- The held set, less the buffers behind the second pipeline's windows one after the other.
abbrev E0 : Finset (DevRef τ sig) := Pipeline.ucRefs τ sig
abbrev E1 : Finset (DevRef τ sig) := (E0).erase (dref main_v16)
abbrev E2 : Finset (DevRef τ sig) := (E1).erase (dref main_v9_0)
abbrev E3 : Finset (DevRef τ sig) := (E2).erase (dref main_v9_1)
abbrev E4 : Finset (DevRef τ sig) := (E3).erase (dref main_v10)
abbrev E5 : Finset (DevRef τ sig) := (E4).erase (dref main_v11)
abbrev E6 : Finset (DevRef τ sig) := (E5).erase (dref main_arg3)
abbrev E7 : Finset (DevRef τ sig) := (E6).erase (dref main_v12)
abbrev E8 : Finset (DevRef τ sig) := (E7).erase (dref main_arg5)
abbrev E9 : Finset (DevRef τ sig) := (E8).erase (dref main_v13)
abbrev E10 : Finset (DevRef τ sig) := (E9).erase (dref main_arg8)
abbrev E11 : Finset (DevRef τ sig) := (E10).erase (dref main_v14)
abbrev E12 : Finset (DevRef τ sig) := (E11).erase (dref main_arg10)
abbrev E13 : Finset (DevRef τ sig) := (E12).erase (dref main_v15)

/-- The valuation after the second pipeline: its output at the function of its inputs the pipeline computes. -/
abbrev W1out (c : Dev nD) : Valuation τ sig (Elt F) :=
  Function.update (W c) (dref main_v16) (Mlp.finalOut (refsOf W) c)

theorem take1 (c : Dev nD) :
    (StableHlo.held (c : Thread nD τ) (Pipeline.ucRefs τ sig) (W c) : sProp (MM F))
      = iprop((((c : Thread nD τ).loc main_v16) ↦{fullShare} (W c (dref main_v16) : Buf (Elt F) ((c : Thread nD τ).loc main_v16)))
          ∗ (((c : Thread nD τ).loc main_v9_0) ↦{fullShare} (W c (dref main_v9_0) : Buf (Elt F) ((c : Thread nD τ).loc main_v9_0)))
          ∗ (((c : Thread nD τ).loc main_v9_1) ↦{fullShare} (W c (dref main_v9_1) : Buf (Elt F) ((c : Thread nD τ).loc main_v9_1)))
          ∗ (((c : Thread nD τ).loc main_v10) ↦{fullShare} (W c (dref main_v10) : Buf (Elt F) ((c : Thread nD τ).loc main_v10)))
          ∗ (((c : Thread nD τ).loc main_v11) ↦{fullShare} (W c (dref main_v11) : Buf (Elt F) ((c : Thread nD τ).loc main_v11)))
          ∗ (((c : Thread nD τ).loc main_arg3) ↦{fullShare} (W c (dref main_arg3) : Buf (Elt F) ((c : Thread nD τ).loc main_arg3)))
          ∗ (((c : Thread nD τ).loc main_v12) ↦{fullShare} (W c (dref main_v12) : Buf (Elt F) ((c : Thread nD τ).loc main_v12)))
          ∗ (((c : Thread nD τ).loc main_arg5) ↦{fullShare} (W c (dref main_arg5) : Buf (Elt F) ((c : Thread nD τ).loc main_arg5)))
          ∗ (((c : Thread nD τ).loc main_v13) ↦{fullShare} (W c (dref main_v13) : Buf (Elt F) ((c : Thread nD τ).loc main_v13)))
          ∗ (((c : Thread nD τ).loc main_arg8) ↦{fullShare} (W c (dref main_arg8) : Buf (Elt F) ((c : Thread nD τ).loc main_arg8)))
          ∗ (((c : Thread nD τ).loc main_v14) ↦{fullShare} (W c (dref main_v14) : Buf (Elt F) ((c : Thread nD τ).loc main_v14)))
          ∗ (((c : Thread nD τ).loc main_arg10) ↦{fullShare} (W c (dref main_arg10) : Buf (Elt F) ((c : Thread nD τ).loc main_arg10)))
          ∗ (((c : Thread nD τ).loc main_v15) ↦{fullShare} (W c (dref main_v15) : Buf (Elt F) ((c : Thread nD τ).loc main_v15)))
          ∗ StableHlo.held (c : Thread nD τ) E13 (W c)) := by
  rw [take_ref c E0 (W c) main_v16 (by mem_held),
    take_ref c E1 (W c) main_v9_0 (by mem_held),
    take_ref c E2 (W c) main_v9_1 (by mem_held),
    take_ref c E3 (W c) main_v10 (by mem_held),
    take_ref c E4 (W c) main_v11 (by mem_held),
    take_ref c E5 (W c) main_arg3 (by mem_held),
    take_ref c E6 (W c) main_v12 (by mem_held),
    take_ref c E7 (W c) main_arg5 (by mem_held),
    take_ref c E8 (W c) main_v13 (by mem_held),
    take_ref c E9 (W c) main_arg8 (by mem_held),
    take_ref c E10 (W c) main_v14 (by mem_held),
    take_ref c E11 (W c) main_arg10 (by mem_held),
    take_ref c E12 (W c) main_v15 (by mem_held)]

theorem put1 (c : Dev nD) (G : Buf (Elt F) ((c : Thread nD τ).loc main_v16)) :
    iprop((((c : Thread nD τ).loc main_v16) ↦{fullShare} G)
        ∗ (((c : Thread nD τ).loc main_v9_0) ↦{fullShare} (W c (dref main_v9_0) : Buf (Elt F) ((c : Thread nD τ).loc main_v9_0)))
        ∗ (((c : Thread nD τ).loc main_v9_1) ↦{fullShare} (W c (dref main_v9_1) : Buf (Elt F) ((c : Thread nD τ).loc main_v9_1)))
        ∗ (((c : Thread nD τ).loc main_v10) ↦{fullShare} (W c (dref main_v10) : Buf (Elt F) ((c : Thread nD τ).loc main_v10)))
        ∗ (((c : Thread nD τ).loc main_v11) ↦{fullShare} (W c (dref main_v11) : Buf (Elt F) ((c : Thread nD τ).loc main_v11)))
        ∗ (((c : Thread nD τ).loc main_arg3) ↦{fullShare} (W c (dref main_arg3) : Buf (Elt F) ((c : Thread nD τ).loc main_arg3)))
        ∗ (((c : Thread nD τ).loc main_v12) ↦{fullShare} (W c (dref main_v12) : Buf (Elt F) ((c : Thread nD τ).loc main_v12)))
        ∗ (((c : Thread nD τ).loc main_arg5) ↦{fullShare} (W c (dref main_arg5) : Buf (Elt F) ((c : Thread nD τ).loc main_arg5)))
        ∗ (((c : Thread nD τ).loc main_v13) ↦{fullShare} (W c (dref main_v13) : Buf (Elt F) ((c : Thread nD τ).loc main_v13)))
        ∗ (((c : Thread nD τ).loc main_arg8) ↦{fullShare} (W c (dref main_arg8) : Buf (Elt F) ((c : Thread nD τ).loc main_arg8)))
        ∗ (((c : Thread nD τ).loc main_v14) ↦{fullShare} (W c (dref main_v14) : Buf (Elt F) ((c : Thread nD τ).loc main_v14)))
        ∗ (((c : Thread nD τ).loc main_arg10) ↦{fullShare} (W c (dref main_arg10) : Buf (Elt F) ((c : Thread nD τ).loc main_arg10)))
        ∗ (((c : Thread nD τ).loc main_v15) ↦{fullShare} (W c (dref main_v15) : Buf (Elt F) ((c : Thread nD τ).loc main_v15)))
        ∗ StableHlo.held (c : Thread nD τ) E13 (W c))
      ⊢ (StableHlo.held (c : Thread nD τ) (Pipeline.ucRefs τ sig) (Function.update (W c) (dref main_v16) G) : sProp (MM F)) := by
  iintro ⟨H_v16, H_v9_0, H_v9_1, H_v10, H_v11, H_arg3, H_v12, H_arg5, H_v13, H_arg8, H_v14, H_arg10, H_v15, Hr⟩
  ihave Hr := (put_ref_same c E12 (W c) main_v15 (by mem_held)) $$ [H_v15 Hr]
  · isplitl [H_v15]; · iexact H_v15
    iexact Hr
  ihave Hr := (put_ref_same c E11 (W c) main_arg10 (by mem_held)) $$ [H_arg10 Hr]
  · isplitl [H_arg10]; · iexact H_arg10
    iexact Hr
  ihave Hr := (put_ref_same c E10 (W c) main_v14 (by mem_held)) $$ [H_v14 Hr]
  · isplitl [H_v14]; · iexact H_v14
    iexact Hr
  ihave Hr := (put_ref_same c E9 (W c) main_arg8 (by mem_held)) $$ [H_arg8 Hr]
  · isplitl [H_arg8]; · iexact H_arg8
    iexact Hr
  ihave Hr := (put_ref_same c E8 (W c) main_v13 (by mem_held)) $$ [H_v13 Hr]
  · isplitl [H_v13]; · iexact H_v13
    iexact Hr
  ihave Hr := (put_ref_same c E7 (W c) main_arg5 (by mem_held)) $$ [H_arg5 Hr]
  · isplitl [H_arg5]; · iexact H_arg5
    iexact Hr
  ihave Hr := (put_ref_same c E6 (W c) main_v12 (by mem_held)) $$ [H_v12 Hr]
  · isplitl [H_v12]; · iexact H_v12
    iexact Hr
  ihave Hr := (put_ref_same c E5 (W c) main_arg3 (by mem_held)) $$ [H_arg3 Hr]
  · isplitl [H_arg3]; · iexact H_arg3
    iexact Hr
  ihave Hr := (put_ref_same c E4 (W c) main_v11 (by mem_held)) $$ [H_v11 Hr]
  · isplitl [H_v11]; · iexact H_v11
    iexact Hr
  ihave Hr := (put_ref_same c E3 (W c) main_v10 (by mem_held)) $$ [H_v10 Hr]
  · isplitl [H_v10]; · iexact H_v10
    iexact Hr
  ihave Hr := (put_ref_same c E2 (W c) main_v9_1 (by mem_held)) $$ [H_v9_1 Hr]
  · isplitl [H_v9_1]; · iexact H_v9_1
    iexact Hr
  ihave Hr := (put_ref_same c E1 (W c) main_v9_0 (by mem_held)) $$ [H_v9_0 Hr]
  · isplitl [H_v9_0]; · iexact H_v9_0
    iexact Hr
  ihave Hr := (put_ref c E0 (W c) main_v16 (by mem_held) G) $$ [H_v16 Hr]
  · isplitl [H_v16]; · iexact H_v16
    iexact Hr
  iexact Hr

set_option maxHeartbeats 2000000 in
/-- THE SECOND REGION: entered from the held buffers at `W` and the tallies owed, it leaves them held at `W` with its
    output at the named function of its inputs, the tallies unchanged. -/
def reg1 (hO : ∀ g, O g none = 0) :
    Pipeline.RDat.RegionSeg (pcfgs (F := F)) adm (fam W O B) (none : HIx 1) (defs₀ (F := F)) 𝒱₀ (K (F := F)).L (K (F := F)).lev 1 where
  win := winFacts2.to₀
  block_pos := block_pos2
  stage_whole := stage_whole2
  K := PEmpty
  osem := fun k : PEmpty => k.elim
  ho := Pipeline.OwnSemFacts.none _
  hbody c := Mlp.body_obligation (refsOf W) O B c
  hwaits c := Pipeline.RDat.cellsWaits_intro (Pipeline.pin (pcfgs (F := F)) adm) (fam W O B) none 1 c fun w s t => by
    rw [show ((fam W O B) 1 c).owed t = O from rfl]; exact (K (F := F)).mayWait_none _ hO
  pre c := iprop(StableHlo.held (c : Thread nD τ) (Pipeline.ucRefs τ sig) (W c) ∗ (Mlp.dat (refsOf W) O B c).owesAt none 0)
  post c := iprop(StableHlo.held (c : Thread nD τ) (Pipeline.ucRefs τ sig) (W1out W c)
      ∗ (Mlp.dat (refsOf W) O B c).owesAt none (Fin.last cfg2.N))
  X _ := iprop(emp)
  Y _ := iprop(emp)
  Z c := StableHlo.held (c : Thread nD τ) E13 (W c)
  hentry c := by
    show iprop((StableHlo.held (c : Thread nD τ) (Pipeline.ucRefs τ sig) (W c) ∗ (Mlp.dat (refsOf W) O B c).owesAt none 0) ∗ Pipeline.ownSems0 (fun k : PEmpty => k.elim) c ∗ _)
      ⊢ |={Set.univ}=> iprop((Mlp.dat (refsOf W) O B c).arrays (Mlp.dat (refsOf W) O B c).A ∗ _ ∗ (Mlp.dat (refsOf W) O B c).owesAt none 0 ∗ emp ∗ StableHlo.held (c : Thread nD τ) E13 (W c))
    rw [take1]
    iintro ⟨⟨⟨H_v16, H_v9_0, H_v9_1, H_v10, H_v11, H_arg3, H_v12, H_arg5, H_v13, H_arg8, H_v14, H_arg10, H_v15, Hr⟩, HO⟩, -, -⟩
    imodintro
    isplitl [H_v16 H_v9_0 H_v9_1 H_v10 H_v11 H_arg3 H_v12 H_arg5 H_v13 H_arg8 H_v14 H_arg10 H_v15]
    · iapply (Mlp.arrays_entry (refsOf W) O B c)
      isplitl [H_v9_0]; · iexact H_v9_0
      isplitl [H_v9_1]; · iexact H_v9_1
      isplitl [H_v10]; · iexact H_v10
      isplitl [H_v11]; · iexact H_v11
      isplitl [H_arg3]; · iexact H_arg3
      isplitl [H_v12]; · iexact H_v12
      isplitl [H_arg5]; · iexact H_arg5
      isplitl [H_v13]; · iexact H_v13
      isplitl [H_arg8]; · iexact H_arg8
      isplitl [H_v14]; · iexact H_v14
      isplitl [H_arg10]; · iexact H_arg10
      isplitl [H_v15]; · iexact H_v15
      iexact H_v16
    isplitr; · unfold Pipeline.prefHeld; rw [show (Finset.univ : Finset (Fin 0)) = ∅ from rfl, BI.bigSep_empty]; iempintro
    isplitl [HO]; · iexact HO
    isplitr; · iempintro
    iexact Hr
  hin c := Mlp.hin (refsOf W) O B c _
  hout c := Mlp.hout (refsOf W) O B c
  hexit c := by
    show iprop((Mlp.dat (refsOf W) O B c).arraysAt cfg2.N ∗ (Mlp.dat (refsOf W) O B c).owesAt none (Fin.last cfg2.N) ∗ emp ∗ StableHlo.held (c : Thread nD τ) E13 (W c)) ⊢ _
    iintro ⟨Ha, HO, -, Hr⟩
    ihave H := (Mlp.arraysAt_exit (refsOf W) O B c) $$ Ha
    icases H with ⟨H_v9_0, H_v9_1, H_v10, H_v11, H_arg3, H_v12, H_arg5, H_v13, H_arg8, H_v14, H_arg10, H_v15, H_v16⟩
    imodintro
    isplitl [H_v16 H_v9_0 H_v9_1 H_v10 H_v11 H_arg3 H_v12 H_arg5 H_v13 H_arg8 H_v14 H_arg10 H_v15 Hr]
    · iapply (put1 W c (Mlp.finalOut (refsOf W) c))
      isplitl [H_v16]; · iexact H_v16
      isplitl [H_v9_0]; · iexact H_v9_0
      isplitl [H_v9_1]; · iexact H_v9_1
      isplitl [H_v10]; · iexact H_v10
      isplitl [H_v11]; · iexact H_v11
      isplitl [H_arg3]; · iexact H_arg3
      isplitl [H_v12]; · iexact H_v12
      isplitl [H_arg5]; · iexact H_arg5
      isplitl [H_v13]; · iexact H_v13
      isplitl [H_arg8]; · iexact H_arg8
      isplitl [H_v14]; · iexact H_v14
      isplitl [H_arg10]; · iexact H_arg10
      isplitl [H_v15]; · iexact H_v15
      iexact Hr
    iexact HO

end Cert.Kernel.Seg

end
-- ==== Proof.B.ScRegion.lean ====
/-
  One block pipeline entered from the host program of a program that also runs tiles on the sparse processors.

  The pipeline library proves a region's step in the pipelines' own signature; the host program here lives in the larger
  signature that adds the dispatch labels. A call of a pipeline's entry label in the larger signature is the lifted call,
  and every proof about a program lifts with it, so the region's step holds verbatim in the larger signature, with any
  continuation attached.
-/
import proofs.«204570_g59167469470423_cont_9to1_m_669_24_alg».proof.Proof.B.ScGhost

noncomputable section

namespace Cert.Kernel.Region

open Cert.Kernel Cert.Kernel.Gen Cert.Kernel.Base Cert.Kernel.Ghost

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-- The lifted call of pipeline `p`'s entry is the printed statement. -/
theorem lift_entry (p : Fin 2) :
    (Prog.lift (.customCall (SparseCore.inner (Pipeline.entry p)) ()) :
        Prog (TpuEff nD τ sig (Elt F) (SparseCore.Sig (ΛP (F := F)) 1) .tc) PUnit)
      = SparseCore.liftProg (Prog.lift (.customCall (Pipeline.entry p) ())) := rfl

set_option maxHeartbeats 4000000 in
set_option backward.isDefEq.respectTransparency.types false in
/-- A region's step in the program's signature: from the region boundary, the record's entry state, the level facts
    and the pipeline's launch ghost state, the printed call runs to the boundary and the record's exit state, for any
    continuation. -/
theorem wp_region {p : Fin 2}
    (rdats : (p : Fin 2) → (c : Dev nD) → Pipeline.RDat τ (Elt F) (HIx 1) ℕ UU ℕ (Pipeline.pin (pcfgs (F := F)) adm p) c)
    (R : Pipeline.RDat.RegionSeg (pcfgs (F := F)) adm rdats (none : HIx 1) (defs₀ (F := F)) 𝒱₀ (K (F := F)).L (K (F := F)).lev p)
    (d : Dev nD) {α : Type}
    (k : PUnit → Prog (TpuEff nD τ sig (Elt F) (SparseCore.Sig (ΛP (F := F)) 1) .tc) α) (Φ : α → sProp (MM F)) :
    iprop((iprop(boundary (T d) ∗ R.post d) -∗ wp frame (wpE ((K (F := F)).defs (D (F := F))) 𝒱 (T d) none) Set.univ (k ⟨⟩) Φ)
        ∗ boundary (T d) ∗ R.pre d ∗ levAts (K (F := F)).L (K (F := F)).lev
        ∗ pipeGhost (F := F) p d)
      ⊢ wp frame (wpE ((K (F := F)).defs (D (F := F))) 𝒱 (T d) none) Set.univ
          (Prog.lift (.customCall (SparseCore.inner (Pipeline.entry p)) ()) >>= k) Φ := by
  have h1 := Pipeline.RDat.RegionSeg.wp (pcfgs (F := F)) adm rdats (none : HIx 1) cellOf_inj (EP (F := F)) (defs₀ (F := F)) 𝒱₀
    (K (F := F)).L (K (F := F)).lev R d none (fun _ h => nomatch h)
    (fun _ => (.ret ⟨⟩ : Prog (TpuEff nD τ sig (Elt F) (ΛP (F := F)) .tc) PUnit)) (fun _ => iprop(boundary (T d) ∗ R.post d))
  have h2 := (K (F := F)).wp_liftProg (D (F := F)) 𝒱 (T d) Set.univ none
    (Prog.lift (.customCall (Pipeline.entry p) ()) : Prog (TpuEff nD τ sig (Elt F) (ΛP (F := F)) .tc) PUnit)
    (fun _ => iprop(boundary (T d) ∗ R.post d))
  rw [wp_bind, lift_entry]
  iintro ⟨Hk, Hbd, Hpre, #Hla, Hg, Ht⟩
  iapply (wp_wand_r frame _ Set.univ)
  isplitr [Hk]
  · iapply h2
    iapply h1
    isplitr
    · iintro H; rw [wp_ret]; imodintro; iexact H
    isplitl [Hbd]; · iexact Hbd
    isplitl [Hpre]; · iexact Hpre
    isplitr; · iexact Hla
    isplitl [Hg] <;> iassumption
  · iintro %_ H
    iapply Hk; iexact H

end Cert.Kernel.Region

end
-- ==== Proof.B.TileDefs.lean ====
/-
  One tile's task in the row-gather kernel: what it is handed, what it hands back, and the value it leaves.

  The kernel runs on 2 x 16 tiles. Tile (c, s) owns the 512 consecutive batch entries starting at
  1024 s + 512 c, in two chunks of 256. For each chunk it copies the 256 user ids into a scratch list, folds every
  id w into the packed table's row range (w if w < 50176, else w - 50176), gathers the 256 rows the folded list names
  from the packed user table into a row scratch, does the same for the item ids and the packed item table, and copies
  the two row scratches out to rows [base, base + 256) of the two outputs. Every copy completes on a semaphore of its
  own and is waited for before its buffers are touched again, so the tile needs no schedule: its transfers run on
  the counters of the schedule-free protocol.

  The value: output row b of the user output is row foldRow (uid b) of the packed user table, whatever that table
  holds; the same for the item side.
-/
import proofs.«204570_g59167469470423_cont_9to1_m_669_24_alg».proof.Kernel
import proofs.«204570_g59167469470423_cont_9to1_m_669_24_alg».proof.Proof.Gen.Kernel
import proofs.«204570_g59167469470423_cont_9to1_m_669_24_alg».proof.Proof.Gen.Kernel.Skeleton
import Idealize.ShloMosaic.Lib.SparseCore.Launch
import Idealize.ShloMosaic.Lib.SparseCore.Stream
import Idealize.ShloMosaic.Lib.Transfers
import Idealize.ShloMosaic.Lib.ValueIdx
import Idealize.ShloMosaic.Lib.Tactic

noncomputable section

namespace Cert.Kernel.Tile

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU] [CountersIn UU]

local notation "𝕄" => MT nD τ sig (HIx 1) (Elt F) ℕ UU ℕ

/-! ## Places -/

/-- The six arrays the kernel is passed, as locations of device d. -/
abbrev uidLoc (d : Dev nD) : Loc nD τ sig := (SparseCore.T d).loc main_arg0
abbrev iidLoc (d : Dev nD) : Loc nD τ sig := (SparseCore.T d).loc main_arg1
abbrev utLoc (d : Dev nD) : Loc nD τ sig := (SparseCore.T d).loc main_v8_0
abbrev itLoc (d : Dev nD) : Loc nD τ sig := (SparseCore.T d).loc main_v8_1
abbrev ouLoc (d : Dev nD) : Loc nD τ sig := (SparseCore.T d).loc main_v9_0
abbrev oiLoc (d : Dev nD) : Loc nD τ sig := (SparseCore.T d).loc main_v9_1

/-- The tile at grid coordinates L. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The first batch entry of chunk r of tile L. -/
def base (L : grid1.Coords) (r : ℕ) : ℕ := 1024 * (L 1).val + 512 * (L 0).val + 256 * r

/-! ## The fold and the value -/

/-- An id folded into the packed table's row range. -/
def foldN (w : BitVec 32) : ℕ := if w.toNat < 50176 then w.toNat else w.toNat - 50176

/-- The same as a row of the packed table; the remainder only makes the definition total (ids are at most 99999). -/
def foldRow (w : BitVec 32) : Fin 50176 := ⟨foldN w % 50176, Nat.mod_lt _ (by decide)⟩

theorem foldRow_val {w : BitVec 32} (h : w.toNat ≤ 99999) : (foldRow w).val = foldN w := by
  unfold foldRow foldN; simp only; split <;> omega

/-- The output the kernel leaves, as a function of the packed table and the id array: row b is the table's row
    foldRow (ids b). -/
def gRow (f8 : S50176x128.Idx → Elt F .f32) (ids : S16384.Idx → BitVec 32) : S16384x128.Idx → Elt F .f32 :=
  fun x => f8 (ix2 (foldRow (ids (ix1 (x 0)))) (x 1))

/-! ## The output chunks, as the program slices them -/

abbrev oRect0 (L : grid1.Coords) : Rect S16384x128 := Rect.unit (s := S16384x128) (k1_off4 L 0#32) S256x128.size (k1_off4_inb L 0)
abbrev oRect1 (L : grid1.Coords) : Rect S16384x128 := Rect.unit (s := S16384x128) (k1_off4 L 256#32) S256x128.size (k1_off4_inb L 1)
/-- The elements of chunk r of tile L in a [16384, 128] output. -/
def oSet (L : grid1.Coords) : Fin 2 → Finset S16384x128.Idx
  | 0 => (oRect0 L).set
  | 1 => (oRect1 L).set

/-! ## What a tile is handed and hands back -/

section Pay

variable (G8u G8i : (S50176x128.Idx → Elt F .f32) → Prop) (R9u R9i : Fin 16384 → (Fin 128 → Elt F .f32) → Prop)
variable (d : Dev nD) (L : grid1.Coords) (q : PosShare TreeShare)
variable (uid : Buf (Elt F) (uidLoc d)) (iid : Buf (Elt F) (iidLoc d))

/-- A read share of both id arrays at their contents and of both packed tables at admissible contents; the tile's
    two chunks of both outputs, outright, at any contents. -/
def tileGo : sProp 𝕄 :=
  iprop((uidLoc d ↦{q} uid) ∗ (iidLoc d ↦{q} iid)
    ∗ (∃ f8 : Buf (Elt F) (utLoc d), ⌜G8u f8⌝ ∗ utLoc d ↦{q} f8) ∗ (∃ f8 : Buf (Elt F) (itLoc d), ⌜G8i f8⌝ ∗ itLoc d ↦{q} f8)
    ∗ (∃ g, ouLoc d ↦[oSet L 0]{fullShare} g) ∗ (∃ g, ouLoc d ↦[oSet L 1]{fullShare} g)
    ∗ (∃ g, oiLoc d ↦[oSet L 0]{fullShare} g) ∗ (∃ g, oiLoc d ↦[oSet L 1]{fullShare} g))

/-- Every row of chunk r of tile L satisfies R. -/
def RowsOK (R : Fin 16384 → (Fin 128 → Elt F .f32) → Prop) (r : ℕ) (g : S16384x128.Idx → Elt F .f32) : Prop :=
  ∀ b : Fin 16384, base L r ≤ b.val → b.val < base L r + 256 → R b (fun l => g (ix2 b l))

/-- The shares back, the tables again at admissible contents; each output chunk at contents whose rows are as claimed. -/
def tileTd : sProp 𝕄 :=
  iprop((uidLoc d ↦{q} uid) ∗ (iidLoc d ↦{q} iid)
    ∗ (∃ f8 : Buf (Elt F) (utLoc d), ⌜G8u f8⌝ ∗ utLoc d ↦{q} f8) ∗ (∃ f8 : Buf (Elt F) (itLoc d), ⌜G8i f8⌝ ∗ itLoc d ↦{q} f8)
    ∗ (∃ g : Buf (Elt F) (ouLoc d), ⌜RowsOK L R9u 0 g⌝ ∗ ouLoc d ↦[oSet L 0]{fullShare} g)
    ∗ (∃ g : Buf (Elt F) (ouLoc d), ⌜RowsOK L R9u 1 g⌝ ∗ ouLoc d ↦[oSet L 1]{fullShare} g)
    ∗ (∃ g : Buf (Elt F) (oiLoc d), ⌜RowsOK L R9i 0 g⌝ ∗ oiLoc d ↦[oSet L 0]{fullShare} g)
    ∗ (∃ g : Buf (Elt F) (oiLoc d), ⌜RowsOK L R9i 1 g⌝ ∗ oiLoc d ↦[oSet L 1]{fullShare} g))

end Pay

end Cert.Kernel.Tile

end
-- ==== Proof.B.ScPay.lean ====
/-
  What the handshakes of the one vector-subcore call carry.

  The call is handed, for each of the 2 x 16 tiles, a read share of the two id arrays and of the two packed tables and
  the tile's own two 256-row chunks of each output; it hands back the shares and the chunks, each chunk's rows as
  claimed. A sparse processor's part is just its sixteen tiles' parts side by side, so that dealing a processor's part
  to its tiles, and collecting it, is the identity. The 32 read shares of an array are the read tokens of the full
  share, one per tile, numbered 16 c + i.
-/
import proofs.«204570_g59167469470423_cont_9to1_m_669_24_alg».proof.Proof.B.ScBase
import proofs.«204570_g59167469470423_cont_9to1_m_669_24_alg».proof.Proof.B.TileDefs

noncomputable section

namespace Cert.Kernel.Pay

open Cert.Kernel Cert.Kernel.Gen Cert.Kernel.Base Cert.Kernel.Tile

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The grid coordinates of tile `i` of sparse processor `c` of the call. -/
def tileL (c : Fin ((K (F := F)).nCore 0)) (i : Fin ((K (F := F)).nSub 0)) : grid1.Coords :=
  fun | 0 => c | 1 => i | ⟨_ + 2, h⟩ => absurd h (Nat.not_lt.2 (Nat.le_add_left _ _))

/-- The tile's number among the 32. -/
def tileNo (c : Fin ((K (F := F)).nCore 0)) (i : Fin ((K (F := F)).nSub 0)) : Fin 32 := ⟨16 * c.val + i.val, by
  have hc : c.val < 2 := c.isLt
  have hi : i.val < 16 := i.isLt
  omega⟩

/-- The tile's read share of the arrays every tile reads: its read token of the full share. -/
def qOf (c : Fin ((K (F := F)).nCore 0)) (i : Fin ((K (F := F)).nSub 0)) : PosShare TreeShare :=
  Transfers.shareTok fullShare 32 (tileNo (F := F) c i)

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

abbrev go0 (d : Dev nD) (c : Fin ((K (F := F)).nCore 0)) (i : Fin ((K (F := F)).nSub 0)) : sProp (MM F) :=
  tileGo (UU := UU) G8u G8i d (tileL (F := F) c i) (qOf (F := F) c i) (uid d) (iid d)
abbrev td0 (d : Dev nD) (c : Fin ((K (F := F)).nCore 0)) (i : Fin ((K (F := F)).nSub 0)) : sProp (MM F) :=
  tileTd (UU := UU) G8u G8i R9u R9i d (tileL (F := F) c i) (qOf (F := F) c i) (uid d) (iid d)

/-- The record. -/
def P : (K (F := F)).Pay (nD := nD) (Val := Elt F) (Name := ℕ) (U := UU) where
  st := fun q d c => match q with | 0 => bigSep Finset.univ fun i => go0 G8u G8i uid iid d c i
  dn := fun q d c => match q with | 0 => bigSep Finset.univ fun i => td0 G8u G8i R9u R9i uid iid d c i
  go := fun q d c i => match q with | 0 => go0 G8u G8i uid iid d c i
  td := fun q d c i => match q with | 0 => td0 G8u G8i R9u R9i uid iid d c i
  x := fun _ _ => iprop(emp)

theorem P_x (q : Fin 1) (thr : Thread nD τ) : (P G8u G8i R9u R9i uid iid).x q thr = iprop(emp) := rfl
theorem P_ox : (P G8u G8i R9u R9i uid iid).ox = fun _ _ => 0 := rfl
theorem P_go (d : Dev nD) (c) (i) : (P G8u G8i R9u R9i uid iid).go 0 d c i = go0 G8u G8i uid iid d c i := rfl
theorem P_td (d : Dev nD) (c) (i) : (P G8u G8i R9u R9i uid iid).td 0 d c i = td0 G8u G8i R9u R9i uid iid d c i := rfl
theorem P_st (d : Dev nD) (c) : (P G8u G8i R9u R9i uid iid).st 0 d c = bigSep Finset.univ fun i => go0 G8u G8i uid iid d c i := rfl
theorem P_dn (d : Dev nD) (c) : (P G8u G8i R9u R9i uid iid).dn 0 d c = bigSep Finset.univ fun i => td0 G8u G8i R9u R9i uid iid d c i := rfl

set_option synthInstance.maxHeartbeats 1000000 in
set_option maxHeartbeats 1000000 in
instance P_storable : (P G8u G8i R9u R9i uid iid).IsStorable where
  st q d c := match q with
    | 0 => by show BI.Storable (upEmb : UEmb _ (MM F)) (bigSep Finset.univ fun i => go0 G8u G8i uid iid d c i); unfold go0 tileGo; infer_instance
  dn q d c := match q with
    | 0 => by show BI.Storable (upEmb : UEmb _ (MM F)) (bigSep Finset.univ fun i => td0 G8u G8i R9u R9i uid iid d c i); unfold td0 tileTd; infer_instance
  go q d c i := match q with
    | 0 => by show BI.Storable (upEmb : UEmb _ (MM F)) (go0 G8u G8i uid iid d c i); unfold go0 tileGo; infer_instance
  td q d c i := match q with
    | 0 => by show BI.Storable (upEmb : UEmb _ (MM F)) (td0 G8u G8i R9u R9i uid iid d c i); unfold td0 tileTd; infer_instance

/-- Dealing a sparse processor's part to its tiles and collecting theirs: nothing to do. -/
theorem vecSplit : (K (F := F)).VecSplit' (P G8u G8i R9u R9i uid iid) 0 := by
  intro d c
  rw [P_st, P_dn]
  iintro H; imodintro
  isplitl [H]; · iexact H
  iintro H; iexact H

end

end Cert.Kernel.Pay

end
-- ==== Proof.B.ScCall.lean ====
/-
  The vector-subcore call seen from the host program: what it gives up at the call and what it has again after it.

  At the call the host program holds the two id arrays, the two packed tables and the two outputs whole. Each of the
  four read-only arrays is cut into a remainder, which the host program keeps, and 32 read tokens, one per tile,
  numbered 16 c + i; each output is cut into its 64 chunks of 256 rows, two per tile. After the call the tokens
  rejoin the remainder: a returned table token may name other contents, but it shares every element with the remainder,
  so its contents are the remainder's. The 64 chunks, each at contents of its own whose rows are as claimed, join to
  one array: every row lies in exactly one chunk, so every row of the joined array is as claimed.
-/
import proofs.«204570_g59167469470423_cont_9to1_m_669_24_alg».proof.Proof.B.ScPay

noncomputable section

namespace Cert.Kernel.Call

open Cert.Kernel Cert.Kernel.Gen Cert.Kernel.Base Cert.Kernel.Tile Cert.Kernel.Pay

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- What the host program keeps of the four read-only arrays during the call: the remainder of each after its 32
    read tokens are split off. -/
def rem (d : Dev nD) (f8u : Buf (Elt F) (utLoc d)) (f8i : Buf (Elt F) (itLoc d)) : sProp (MM F) :=
  iprop((uidLoc d ↦{Transfers.shareDrop fullShare 32} uid d) ∗ (iidLoc d ↦{Transfers.shareDrop fullShare 32} iid d)
    ∗ (utLoc d ↦{Transfers.shareDrop fullShare 32} f8u) ∗ (itLoc d ↦{Transfers.shareDrop fullShare 32} f8i))

/-! ## The 32 tiles, numbered -/

theorem tileNo_injective :
    Function.Injective fun p : Fin ((K (F := F)).nCore 0) × Fin ((K (F := F)).nSub 0) => tileNo (F := F) p.1 p.2 := by
  rintro ⟨c, i⟩ ⟨c', i'⟩ h
  have hv : 16 * c.val + i.val = 16 * c'.val + i'.val := congrArg Fin.val h
  have hi : i.val < 16 := i.isLt
  have hi' : i'.val < 16 := i'.isLt
  exact Prod.ext (Fin.ext (by show c.val = c'.val; omega)) (Fin.ext (by show i.val = i'.val; omega))

theorem tileNo_image :
    (Finset.univ.image fun p : Fin ((K (F := F)).nCore 0) × Fin ((K (F := F)).nSub 0) => tileNo (F := F) p.1 p.2) = Finset.univ := by
  refine Finset.eq_univ_iff_forall.mpr fun t => Finset.mem_image.mpr ?_
  have ht : t.val < 32 := t.isLt
  refine ⟨(⟨t.val / 16, by show t.val / 16 < 2; omega⟩, ⟨t.val % 16, by show t.val % 16 < 16; omega⟩), Finset.mem_univ _, Fin.ext ?_⟩
  show 16 * (t.val / 16) + t.val % 16 = t.val
  omega

/-- A `bigSep` over the 32 numbers is the `bigSep` over the processors of the `bigSep` over their tiles. -/
theorem bigSep_tiles (Φ : Fin 32 → sProp (MM F)) :
    bigSep Finset.univ Φ
      = bigSep Finset.univ fun c : Fin ((K (F := F)).nCore 0) => bigSep Finset.univ fun i : Fin ((K (F := F)).nSub 0) =>
          Φ (tileNo (F := F) c i) := by
  rw [← bigSep_univ_prod (fun p : Fin ((K (F := F)).nCore 0) × Fin ((K (F := F)).nSub 0) => Φ (tileNo (F := F) p.1 p.2)),
    ← tileNo_image (F := F), bigSep_image_of_injOn (tileNo_injective (F := F)).injOn]

/-! ## The 64 chunks of an output -/

/-- Chunk `r` of tile `L` is the rows `[base L r, base L r + 256)`. -/
theorem mem_oSet (L : grid1.Coords) (r : Fin 2) (x : S16384x128.Idx) :
    x ∈ oSet L r ↔ base L r.val ≤ (x 0).val ∧ (x 0).val < base L r.val + 256 := by
  have h1 : (x 1).val < 128 := (x 1).isLt
  match r with
  | 0 =>
    show x ∈ (oRect0 L).set ↔ _
    rw [Rect.mem_set_unit]
    have e : k1_off4 L 0#32 = ![1024 * (L 1).val + 512 * (L 0).val + 256 * 0, 0] := k1_off4_eq L 0
    rw [e]
    unfold base
    constructor
    · intro h; have := h 0; simpa using this
    · intro h a
      match a with
      | ⟨0, _⟩ => simpa using h
      | ⟨1, _⟩ => exact ⟨Nat.zero_le _, by show (x 1).val < 0 + 128; omega⟩
  | 1 =>
    show x ∈ (oRect1 L).set ↔ _
    rw [Rect.mem_set_unit]
    have e : k1_off4 L 256#32 = ![1024 * (L 1).val + 512 * (L 0).val + 256 * 1, 0] := k1_off4_eq L 1
    rw [e]
    unfold base
    constructor
    · intro h; have := h 0; simpa using this
    · intro h a
      match a with
      | ⟨0, _⟩ => simpa using h
      | ⟨1, _⟩ => exact ⟨Nat.zero_le _, by show (x 1).val < 0 + 128; omega⟩

/-- The chunk of an output that processor `c`, tile `i`, chunk number `r` name. -/
def chunk (t : Fin ((K (F := F)).nCore 0) × Fin ((K (F := F)).nSub 0) × Fin 2) : Finset S16384x128.Idx :=
  oSet (tileL (F := F) t.1 t.2.1) t.2.2

theorem base_tileL (c : Fin ((K (F := F)).nCore 0)) (i : Fin ((K (F := F)).nSub 0)) (r : ℕ) :
    base (tileL (F := F) c i) r = 1024 * i.val + 512 * c.val + 256 * r := rfl

theorem mem_chunk (c : Fin ((K (F := F)).nCore 0)) (i : Fin ((K (F := F)).nSub 0)) (r : Fin 2) (x : S16384x128.Idx) :
    x ∈ chunk (F := F) (c, i, r) ↔ 1024 * i.val + 512 * c.val + 256 * r.val ≤ (x 0).val ∧ (x 0).val < 1024 * i.val + 512 * c.val + 256 * r.val + 256 := by
  unfold chunk; rw [mem_oSet, base_tileL]

/-- Two chunks with a common row are the same chunk. -/
theorem chunk_apart {c c' : Fin ((K (F := F)).nCore 0)} {i i' : Fin ((K (F := F)).nSub 0)} {r r' : Fin 2} {x : S16384x128.Idx}
    (hne : ((c, i, r) : Fin ((K (F := F)).nCore 0) × Fin ((K (F := F)).nSub 0) × Fin 2) ≠ (c', i', r'))
    (hx : 1024 * i.val + 512 * c.val + 256 * r.val ≤ (x 0).val ∧ (x 0).val < 1024 * i.val + 512 * c.val + 256 * r.val + 256)
    (hx' : 1024 * i'.val + 512 * c'.val + 256 * r'.val ≤ (x 0).val ∧ (x 0).val < 1024 * i'.val + 512 * c'.val + 256 * r'.val + 256) : False := by
  apply hne
  have hc : c.val < 2 := c.isLt
  have hc' : c'.val < 2 := c'.isLt
  have hr : r.val < 2 := r.isLt
  have hr' : r'.val < 2 := r'.isLt
  have hi : i.val < 16 := i.isLt
  have hi' : i'.val < 16 := i'.isLt
  have h : c.val = c'.val ∧ i.val = i'.val ∧ r.val = r'.val := by omega
  exact Prod.ext (Fin.ext h.1) (Prod.ext (Fin.ext h.2.1) (Fin.ext h.2.2))

/-- Every row lies in a chunk. -/
theorem chunk_exists (x : S16384x128.Idx) : ∃ t : Fin ((K (F := F)).nCore 0) × Fin ((K (F := F)).nSub 0) × Fin 2, x ∈ chunk (F := F) t := by
  have hb : (x 0).val < 16384 := (x 0).isLt
  refine ⟨(⟨((x 0).val % 1024) / 512, by show ((x 0).val % 1024) / 512 < 2; omega⟩, ⟨(x 0).val / 1024, by show (x 0).val / 1024 < 16; omega⟩,
    ⟨((x 0).val % 512) / 256, by omega⟩), ?_⟩
  rw [mem_chunk]
  show 1024 * ((x 0).val / 1024) + 512 * (((x 0).val % 1024) / 512) + 256 * (((x 0).val % 512) / 256) ≤ (x 0).val
    ∧ (x 0).val < 1024 * ((x 0).val / 1024) + 512 * (((x 0).val % 1024) / 512) + 256 * (((x 0).val % 512) / 256) + 256
  omega

/-- An array whole is its pieces along any family, indexed by processor, tile and chunk number, of pairwise disjoint
    sets that cover it. -/
theorem chunks_eq {ℓ : Loc nD τ sig} (Kc : Fin ((K (F := F)).nCore 0) × Fin ((K (F := F)).nSub 0) × Fin 2 → Finset (Idx ℓ))
    (hd : ∀ t ∈ (Finset.univ : Finset (Fin ((K (F := F)).nCore 0) × Fin ((K (F := F)).nSub 0) × Fin 2)), ∀ t' ∈ (Finset.univ : Finset (Fin ((K (F := F)).nCore 0) × Fin ((K (F := F)).nSub 0) × Fin 2)), t ≠ t' → Disjoint (Kc t) (Kc t'))
    (hc : (Finset.univ : Finset (Fin ((K (F := F)).nCore 0) × Fin ((K (F := F)).nSub 0) × Fin 2)).biUnion Kc = Finset.univ) (g : Buf (Elt F) ℓ) :
    (ℓ ↦{fullShare} g : sProp (MM F))
      = bigSep Finset.univ fun c : Fin ((K (F := F)).nCore 0) => bigSep Finset.univ fun i : Fin ((K (F := F)).nSub 0) =>
          iprop((ℓ ↦[Kc (c, i, 0)]{fullShare} g) ∗ (ℓ ↦[Kc (c, i, 1)]{fullShare} g)) := by
  have h : (ℓ ↦[(Finset.univ : Finset (Fin ((K (F := F)).nCore 0) × Fin ((K (F := F)).nSub 0) × Fin 2)).biUnion Kc]{fullShare} g : sProp (MM F)) = _ := pointsTo_biUnion Finset.univ Kc hd
  rw [hc] at h
  refine (show (ℓ ↦{fullShare} g : sProp (MM F)) = _ from h).trans ?_
  rw [bigSep_univ_prod]
  refine bigSep_congr fun c _ => ?_
  rw [bigSep_univ_prod]
  refine bigSep_congr fun i _ => ?_
  rw [bigSep_univ_two]

theorem ou_chunks (d : Dev nD) (g : Buf (Elt F) (ouLoc d)) :
    (ouLoc d ↦{fullShare} g : sProp (MM F))
      = bigSep Finset.univ fun c : Fin ((K (F := F)).nCore 0) => bigSep Finset.univ fun i : Fin ((K (F := F)).nSub 0) =>
          iprop((ouLoc d ↦[oSet (tileL (F := F) c i) 0]{fullShare} g) ∗ (ouLoc d ↦[oSet (tileL (F := F) c i) 1]{fullShare} g)) := by
  refine chunks_eq (F := F) (ℓ := ouLoc d) (fun t => chunk (F := F) t) ?_ ?_ g
  · rintro ⟨c, i, r⟩ - ⟨c', i', r'⟩ - hne
    rw [Finset.disjoint_left]
    intro x hx hx'
    exact chunk_apart (F := F) hne ((mem_chunk (F := F) c i r x).mp hx) ((mem_chunk (F := F) c' i' r' x).mp hx')
  · refine Finset.eq_univ_iff_forall.mpr fun x => Finset.mem_biUnion.mpr ?_
    obtain ⟨t, ht⟩ := chunk_exists (F := F) x
    exact ⟨t, Finset.mem_univ _, ht⟩

theorem oi_chunks (d : Dev nD) (g : Buf (Elt F) (oiLoc d)) :
    (oiLoc d ↦{fullShare} g : sProp (MM F))
      = bigSep Finset.univ fun c : Fin ((K (F := F)).nCore 0) => bigSep Finset.univ fun i : Fin ((K (F := F)).nSub 0) =>
          iprop((oiLoc d ↦[oSet (tileL (F := F) c i) 0]{fullShare} g) ∗ (oiLoc d ↦[oSet (tileL (F := F) c i) 1]{fullShare} g)) := by
  refine chunks_eq (F := F) (ℓ := oiLoc d) (fun t => chunk (F := F) t) ?_ ?_ g
  · rintro ⟨c, i, r⟩ - ⟨c', i', r'⟩ - hne
    rw [Finset.disjoint_left]
    intro x hx hx'
    exact chunk_apart (F := F) hne ((mem_chunk (F := F) c i r x).mp hx) ((mem_chunk (F := F) c' i' r' x).mp hx')
  · refine Finset.eq_univ_iff_forall.mpr fun x => Finset.mem_biUnion.mpr ?_
    obtain ⟨t, ht⟩ := chunk_exists (F := F) x
    exact ⟨t, Finset.mem_univ _, ht⟩
/-! ## A read-only array: remainder and tokens -/

theorem toks_tiles {ℓ : Loc nD τ sig} (f : Buf (Elt F) ℓ) :
    (ℓ ↦{fullShare} f : sProp (MM F))
      ⊣⊢ iprop((ℓ ↦{Transfers.shareDrop fullShare 32} f)
          ∗ bigSep Finset.univ fun c : Fin ((K (F := F)).nCore 0) => bigSep Finset.univ fun i : Fin ((K (F := F)).nSub 0) =>
              ℓ ↦{qOf (F := F) c i} f) := by
  have h : (ℓ ↦[Finset.univ]{fullShare} f : sProp (MM F)) ⊣⊢ _ := Transfers.pointsTo_toks fullShare 32
  rw [bigSep_tiles] at h
  exact h

theorem bigSep2_mono {Φ Ψ : Fin ((K (F := F)).nCore 0) → Fin ((K (F := F)).nSub 0) → sProp (MM F)} (h : ∀ c i, Φ c i ⊢ Ψ c i) :
    (bigSep Finset.univ fun c => bigSep Finset.univ fun i => Φ c i) ⊢ bigSep Finset.univ fun c => bigSep Finset.univ fun i => Ψ c i :=
  bigSep_mono fun c _ => bigSep_mono fun i _ => h c i

/-- Each tile's table token, at the contents the host program holds: admissible contents. -/
theorem tabs_intro {ℓ : Loc nD τ sig} (G : Buf (Elt F) ℓ → Prop) (f : Buf (Elt F) ℓ) (h : G f) :
    (bigSep Finset.univ fun c : Fin ((K (F := F)).nCore 0) => bigSep Finset.univ fun i : Fin ((K (F := F)).nSub 0) =>
        (ℓ ↦{qOf (F := F) c i} f : sProp (MM F)))
      ⊢ bigSep Finset.univ fun c : Fin ((K (F := F)).nCore 0) => bigSep Finset.univ fun i : Fin ((K (F := F)).nSub 0) =>
          iprop(∃ f8 : Buf (Elt F) ℓ, ⌜G f8⌝ ∗ ℓ ↦{qOf (F := F) c i} f8) :=
  bigSep2_mono (F := F) fun c i => by
    iintro H
    iexists f
    isplitr
    · ipureintro; exact h
    · iexact H

/-- Each chunk, at the contents the host program holds: some contents. -/
theorem chunks_intro {ℓ : Loc nD τ sig} (Kc : Fin ((K (F := F)).nCore 0) → Fin ((K (F := F)).nSub 0) → Finset (Idx ℓ)) (g : Buf (Elt F) ℓ) :
    (bigSep Finset.univ fun c : Fin ((K (F := F)).nCore 0) => bigSep Finset.univ fun i : Fin ((K (F := F)).nSub 0) =>
        (ℓ ↦[Kc c i]{fullShare} g : sProp (MM F)))
      ⊢ bigSep Finset.univ fun c : Fin ((K (F := F)).nCore 0) => bigSep Finset.univ fun i : Fin ((K (F := F)).nSub 0) =>
          iprop(∃ g' : Buf (Elt F) ℓ, ℓ ↦[Kc c i]{fullShare} g') :=
  bigSep2_mono (F := F) fun c i => by
    iintro H
    iexists g
    iexact H

/-! ## At the call -/

/-- At the call: each read-only array cut into the remainder and the 32 tiles' tokens, each output into its 64
    chunks; the tables' tokens at the contents the host program holds, which are admissible. -/
theorem call_split (d : Dev nD) (f8u : Buf (Elt F) (utLoc d)) (f8i : Buf (Elt F) (itLoc d))
    (gu : Buf (Elt F) (ouLoc d)) (gi : Buf (Elt F) (oiLoc d)) (h8u : G8u f8u) (h8i : G8i f8i) :
    iprop((uidLoc d ↦{fullShare} uid d) ∗ (iidLoc d ↦{fullShare} iid d) ∗ (utLoc d ↦{fullShare} f8u) ∗ (itLoc d ↦{fullShare} f8i)
        ∗ (ouLoc d ↦{fullShare} gu) ∗ (oiLoc d ↦{fullShare} gi))
      ⊢ iprop(rem uid iid d f8u f8i
          ∗ bigSep Finset.univ fun c : Fin ((K (F := F)).nCore 0) => (Cert.Kernel.Pay.P G8u G8i R9u R9i uid iid).st 0 d c) := by
  rw [ou_chunks, oi_chunks]
  simp only [Cert.Kernel.Pay.P_st, go0, tileGo, bigSep_sep']
  unfold rem
  iintro ⟨Hu, Hi, Hut, Hit, ⟨Hou0, Hou1⟩, ⟨Hoi0, Hoi1⟩⟩
  ihave Hu := (toks_tiles (F := F) _).1 $$ Hu
  icases Hu with ⟨Hu0, Hus⟩
  ihave Hi := (toks_tiles (F := F) _).1 $$ Hi
  icases Hi with ⟨Hi0, His⟩
  ihave Hut := (toks_tiles (F := F) _).1 $$ Hut
  icases Hut with ⟨Hut0, Huts⟩
  ihave Hit := (toks_tiles (F := F) _).1 $$ Hit
  icases Hit with ⟨Hit0, Hits⟩
  isplitl [Hu0 Hi0 Hut0 Hit0]
  · isplitl [Hu0]; · iexact Hu0
    isplitl [Hi0]; · iexact Hi0
    isplitl [Hut0]; · iexact Hut0
    iexact Hit0
  isplitl [Hus]; · iexact Hus
  isplitl [His]; · iexact His
  isplitl [Huts]
  · iapply (tabs_intro (F := F) (ℓ := utLoc d) G8u f8u h8u); iexact Huts
  isplitl [Hits]
  · iapply (tabs_intro (F := F) (ℓ := itLoc d) G8i f8i h8i); iexact Hits
  isplitl [Hou0]
  · iapply (chunks_intro (F := F) (ℓ := ouLoc d) (fun c i => oSet (tileL (F := F) c i) 0) gu); iexact Hou0
  isplitl [Hou1]
  · iapply (chunks_intro (F := F) (ℓ := ouLoc d) (fun c i => oSet (tileL (F := F) c i) 1) gu); iexact Hou1
  isplitl [Hoi0]
  · iapply (chunks_intro (F := F) (ℓ := oiLoc d) (fun c i => oSet (tileL (F := F) c i) 0) gi); iexact Hoi0
  · iapply (chunks_intro (F := F) (ℓ := oiLoc d) (fun c i => oSet (tileL (F := F) c i) 1) gi); iexact Hoi1

end

end Cert.Kernel.Call

end
-- ==== Proof.B.ChainFrame.lean ====
/-
  The host program cut at its three calls, and what each host stretch leaves alone.

  The host program is nine tensor operations (two transposes and the 64 × 64 identity built from two iotas), the call that
  packs the tables, the call that gathers the rows, six reshapes, the call that evaluates the towers, and one reshape.
  Here the three stretches of tensor operations are named as lists, the host program is shown to be those lists run in
  order around the three calls, and for each stretch: which references it writes, that it touches unscoped references of
  the host processor only, that it allocates nothing, and that a reference it does not write keeps its contents. All of
  it holds at every float instance.
-/
import proofs.«204570_g59167469470423_cont_9to1_m_669_24_alg».proof.Kernel
import proofs.«204570_g59167469470423_cont_9to1_m_669_24_alg».proof.Proof.Gen.Kernel
import Idealize.ShloMosaic.Lib.StableHlo.Run
import Idealize.ShloMosaic.Lib.Pipeline.Frame

noncomputable section

namespace Cert.Kernel.ChainFrame

open Cert.Kernel Cert.Kernel.Gen
open Idealize.ShloMosaic Idealize.SL.Sem

variable {F : FTy → Type} [FloatOps F]

/-! ## The three stretches -/

/-- The nine operations before the packing call: the two tables transposed, and the 64 × 64 identity as
    `convert (iota₀ + 0 == iota₁)`. -/
abbrev hostA : List (HloOp τ sig (Elt F)) :=
  [
    StableHlo.unary main_arg2 main_v0 ((transpose S64x100001 [1, 0] · Facts₀.transposes_S100001x64_S64x100001_1_0) : (⟨S100001x64, .f32⟩ : BufTy).Contents (Elt F) → (⟨S64x100001, .f32⟩ : BufTy).Contents (Elt F)),
    StableHlo.unary main_arg7 main_v1 ((transpose S64x100001 [1, 0] · Facts₀.transposes_S100001x64_S64x100001_1_0) : (⟨S100001x64, .f32⟩ : BufTy).Contents (Elt F) → (⟨S64x100001, .f32⟩ : BufTy).Contents (Elt F)),
    StableHlo.nullary main_v2 (iotaInDim S64x64 32 0),
    StableHlo.nullary main_v3 (iotaInDim S64x64 32 1),
    StableHlo.nullary main_c (constantI S_ 32 0#32),
    StableHlo.unary main_c main_v4 (broadcastInDim S64x64 ![] Facts₀.bcast_S_S64x64 : (⟨S_, .i32⟩ : BufTy).Contents (Elt F) → (⟨S64x64, .i32⟩ : BufTy).Contents (Elt F)),
    StableHlo.binary main_v2 main_v4 main_v5 (addi : (⟨S64x64, .i32⟩ : BufTy).Contents (Elt F) → (⟨S64x64, .i32⟩ : BufTy).Contents (Elt F) → (⟨S64x64, .i32⟩ : BufTy).Contents (Elt F)),
    StableHlo.binary main_v5 main_v3 main_v6 (cmpi .eq : (⟨S64x64, .i32⟩ : BufTy).Contents (Elt F) → (⟨S64x64, .i32⟩ : BufTy).Contents (Elt F) → (⟨S64x64, .i1⟩ : BufTy).Contents (Elt F)),
    StableHlo.unary main_v6 main_v7 (uitofp .f32 : (⟨S64x64, .i1⟩ : BufTy).Contents (Elt F) → (⟨S64x64, .f32⟩ : BufTy).Contents (Elt F)) ]

/-- The six reshapes between the gather and the tower call: the two id arrays as columns, the four biases as rows. -/
abbrev hostB : List (HloOp τ sig (Elt F)) :=
  [
    StableHlo.reshape main_arg0 main_v10 rfl Facts₀.shapeCasts_S16384_S16384x1,
    StableHlo.reshape main_arg1 main_v11 rfl Facts₀.shapeCasts_S16384_S16384x1,
    StableHlo.reshape main_arg4 main_v12 rfl Facts₀.shapeCasts_S128_S1x128,
    StableHlo.reshape main_arg6 main_v13 rfl Facts₀.shapeCasts_S64_S1x64,
    StableHlo.reshape main_arg9 main_v14 rfl Facts₀.shapeCasts_S128_S1x128,
    StableHlo.reshape main_arg11 main_v15 rfl Facts₀.shapeCasts_S64_S1x64 ]

/-- The last reshape: the 128 × 128 block of results as one array of 16384. -/
abbrev hostC : List (HloOp τ sig (Elt F)) :=
  [
    StableHlo.reshape main_v16 main_v17 rfl Facts₀.shapeCasts_S128x128_S16384 ]

/-! ## The host program is the stretches around the calls -/

/-- The host program: stretch A, the packing call, the gather, stretch B, the tower call, stretch C. -/
theorem main_eq (d : Dev nD) : main (F := F) d =
    (StableHlo.seq hostA >>= fun _ =>
      Prog.lift (.customCall (SparseCore.inner (Pipeline.entry 0)) ()) >>= fun _ =>
      sc.run d 0 >>= fun _ =>
      StableHlo.seq hostB >>= fun _ =>
      Prog.lift (.customCall (SparseCore.inner (Pipeline.entry 1)) ()) >>= fun _ =>
      StableHlo.seq hostC) := by
  first | rfl | fail "main_eq rfl"

/-! ## What the stretches touch, allocate and write -/

theorem hostA_tc : (hostA : List (HloOp τ sig (Elt F))).Forall fun op => op.bufs ⊆ StableHlo.tcRefs τ sig :=
  ⟨StableHlo.unary_bufs_sub .., StableHlo.unary_bufs_sub .., StableHlo.nullary_bufs_sub .., StableHlo.nullary_bufs_sub ..,
    StableHlo.nullary_bufs_sub .., StableHlo.unary_bufs_sub .., StableHlo.binary_bufs_sub .., StableHlo.binary_bufs_sub ..,
    StableHlo.unary_bufs_sub ..⟩
theorem hostB_tc : (hostB : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..,
    StableHlo.reshape_bufs_sub .., StableHlo.reshape_bufs_sub ..⟩
theorem hostC_tc : (hostC : List (HloOp τ sig (Elt F))).Forall fun op => op.bufs ⊆ StableHlo.tcRefs τ sig :=
  StableHlo.reshape_bufs_sub ..

/-- Every operation of a stretch touches unscoped references of the host processor only. -/
theorem hostA_sub : ∀ op ∈ (hostA : List (HloOp τ sig (Elt F))), op.bufs ⊆ Pipeline.ucRefs τ sig :=
  fun op h => Pipeline.sub_ucRefs op ((List.forall_iff_forall_mem.mp hostA_tc) op h)
theorem hostB_sub : ∀ op ∈ (hostB : List (HloOp τ sig (Elt F))), op.bufs ⊆ Pipeline.ucRefs τ sig :=
  fun op h => Pipeline.sub_ucRefs op ((List.forall_iff_forall_mem.mp hostB_tc) op h)
theorem hostC_sub : ∀ op ∈ (hostC : List (HloOp τ sig (Elt F))), op.bufs ⊆ Pipeline.ucRefs τ sig :=
  fun op h => Pipeline.sub_ucRefs op ((List.forall_iff_forall_mem.mp hostC_tc) op h)

/-- No operation of a stretch allocates. -/
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor
theorem hostC_fresh : (hostC : List (HloOp τ sig (Elt F))).Forall fun op => op.fresh = ∅ := by
  simp only [List.Forall]; repeat' constructor

/-- The references each stretch writes. -/
abbrev hostA_W : List (Ref sig .tc) := [main_v0, main_v1, main_v2, main_v3, main_c, main_v4, main_v5, main_v6, main_v7]
abbrev hostB_W : List (Ref sig .tc) := [main_v10, main_v11, main_v12, main_v13, main_v14, main_v15]
abbrev hostC_W : List (Ref sig .tc) := [main_v17]

theorem hostA_writes : (hostA : List (HloOp τ sig (Elt F))).Forall fun op => op.writes ⊆ (hostA_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
theorem hostB_writes : (hostB : List (HloOp τ sig (Elt F))).Forall fun op => op.writes ⊆ (hostB_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
theorem hostC_writes : (hostC : List (HloOp τ sig (Elt F))).Forall fun op => op.writes ⊆ (hostC_W.map (Proc.devRef (τ := τ) .tc)).toFinset := by
  simp only [List.Forall]
  simp only [StableHlo.nullary_writes, StableHlo.unary_writes, StableHlo.binary_writes, StableHlo.reshape_writes, Finset.singleton_subset_iff, List.mem_toFinset]; exact List.mem_map_of_mem (by decide)

/-! ## What each stretch leaves unchanged -/

theorem after_A_of (V : Valuation τ sig (Elt F)) (r : Ref sig .tc) (h : r ∉ hostA_W) :
    StableHlo.after hostA V (Proc.devRef .tc r) = V (Proc.devRef .tc r) :=
  StableHlo.after_of_writes_sub hostA _ hostA_writes h
theorem after_B_of (V : Valuation τ sig (Elt F)) (r : Ref sig .tc) (h : r ∉ hostB_W) :
    StableHlo.after hostB V (Proc.devRef .tc r) = V (Proc.devRef .tc r) :=
  StableHlo.after_of_writes_sub hostB _ hostB_writes h
theorem after_C_of (V : Valuation τ sig (Elt F)) (r : Ref sig .tc) (h : r ∉ hostC_W) :
    StableHlo.after hostC V (Proc.devRef .tc r) = V (Proc.devRef .tc r) :=
  StableHlo.after_of_writes_sub hostC _ hostC_writes h

end Cert.Kernel.ChainFrame

end
-- ==== Proof.B.ScMainDefs.lean ====
/-
  The host program on the matrix unit's processor, from the launch to its return.

  Nine host operations build the two transposed tables and the identity matrix; the first block pipeline packs the tables;
  the call to the sparse processors gathers one packed row per batch entry and table; six reshapes lay the ids and biases
  out as the second pipeline's windows want them; the second pipeline computes the two towers and their inner product; a
  last reshape flattens the result. The buffers that are not scoped are held whole throughout, at a valuation that follows
  the program: the launch memory, then each stretch's operations applied, then what each region and the call leave.
  What the proof knows of the packed tables, of the gathered rows and of the final array is carried as three predicates,
  linked by two hypotheses; at the bit-exact reading they are trivial, at the extended reals they are the values.
-/
import proofs.«204570_g59167469470423_cont_9to1_m_669_24_alg».proof.Proof.B.ScSeg
import proofs.«204570_g59167469470423_cont_9to1_m_669_24_alg».proof.Proof.B.ScRegion
import proofs.«204570_g59167469470423_cont_9to1_m_669_24_alg».proof.Proof.B.ScCall
import proofs.«204570_g59167469470423_cont_9to1_m_669_24_alg».proof.Proof.B.ChainFrame

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)

abbrev dref (r : Ref sig .tc) : DevRef τ sig := Proc.devRef .tc r

/-! ## The valuations along the program -/

/-- At the launch. -/
abbrev V0 (d : Dev nD) : Valuation τ sig (Elt F) := fun b => m (d, b)
/-- After the first host stretch. -/
abbrev VA (d : Dev nD) : Valuation τ sig (Elt F) := StableHlo.after hostA (V0 m d)
/-- After the first pipeline, which leaves `G0`, `G1` in the packed tables. -/
abbrev V2 (d : Dev nD) (G0 : Buf (Elt F) ((d : Thread nD τ).loc main_v8_0)) (G1 : Buf (Elt F) ((d : Thread nD τ).loc main_v8_1)) : Valuation τ sig (Elt F) :=
  Seg.W0out (fun d => VA m d) d G0 G1
/-- After the call, which leaves `gu`, `gi` in the gathered rows. -/
abbrev V3 (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) :=
  Function.update (Function.update (V2 m d G0 G1) (dref main_v9_0) gu) (dref main_v9_1) gi
/-- After the second host stretch. -/
abbrev VB (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := StableHlo.after hostB (V3 m d G0 G1 gu gi)
/-- After the second pipeline. -/
abbrev V5 (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := Seg.W1out (fun d => VB m d G0 G1 gu gi) d
/-- After the last host stretch. -/
abbrev VC (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) : Valuation τ sig (Elt F) := StableHlo.after hostC (V5 m d G0 G1 gu gi)

/-! ## What is known of the values, abstractly -/

variable (G8u G8i : (S50176x128.Idx → Elt F .f32) → Prop) (R9u R9i : Fin 16384 → (Fin 128 → Elt F .f32) → Prop)
variable (Q17 : (d : Dev nD) → Buf (Elt F) ((d : Thread nD τ).loc main_v17) → Prop)

abbrev uid (d : Dev nD) : Buf (Elt F) (uidLoc d) := m (uidLoc d)
abbrev iid (d : Dev nD) : Buf (Elt F) (iidLoc d) := m (iidLoc d)

abbrev PP : (K (F := F)).Pay (nD := nD) (Val := Elt F) (Name := ℕ) (U := UU) := Pay.P G8u G8i R9u R9i (uid m) (iid m)

/-- The bound on the pairs the host program's waits have recorded before call `n`: at or below level `8 n`. -/
abbrev Bn (d : Dev nD) (n : ℕ) : Set (SemLoc sig × HIx 1) := {p | (K (F := F)).lev (T d, p.1) p.2 ≤ 8 * n}

/-- What the first pipeline may leave in the packed tables is admissible. -/
def HPack : Prop := ∀ (d : Dev nD) (O : CellTallies nD τ sig (HIx 1)) (B : Set (SemLoc sig × HIx 1))
    (G0 : Buf (Elt F) ((d : Thread nD τ).loc main_v8_0)) (G1 : Buf (Elt F) ((d : Thread nD τ).loc main_v8_1)),
  (Pack.dat (Seg.refsOf fun d => VA m d) O B d).ArrAt 5 cfg0.N G0 ∧ (Pack.dat (Seg.refsOf fun d => VA m d) O B d).ArrAt 6 cfg0.N G1 → G8u G0 ∧ G8i G1

/-- The final array is as claimed, whatever admissible rows were gathered. -/
def HFinal : Prop := ∀ (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)),
  (∀ b : Fin 16384, R9u b (fun l => gu (ix2 b l))) → (∀ b : Fin 16384, R9i b (fun l => gi (ix2 b l))) → Q17 d (VC m d G0 G1 gu gi (dref main_v17))

/-- The host program's last assertion: the buffers held at a valuation whose arguments are the launch's and whose
    result is as claimed. -/
def ArgsKept (d : Dev nD) (Wf : Valuation τ sig (Elt F)) : Prop :=
  Wf (dref main_arg0) = m ((d : Thread nD τ).loc main_arg0) ∧ Wf (dref main_arg1) = m ((d : Thread nD τ).loc main_arg1)
  ∧ Wf (dref main_arg2) = m ((d : Thread nD τ).loc main_arg2) ∧ Wf (dref main_arg3) = m ((d : Thread nD τ).loc main_arg3)
  ∧ Wf (dref main_arg4) = m ((d : Thread nD τ).loc main_arg4) ∧ Wf (dref main_arg5) = m ((d : Thread nD τ).loc main_arg5)
  ∧ Wf (dref main_arg6) = m ((d : Thread nD τ).loc main_arg6) ∧ Wf (dref main_arg7) = m ((d : Thread nD τ).loc main_arg7)
  ∧ Wf (dref main_arg8) = m ((d : Thread nD τ).loc main_arg8) ∧ Wf (dref main_arg9) = m ((d : Thread nD τ).loc main_arg9)
  ∧ Wf (dref main_arg10) = m ((d : Thread nD τ).loc main_arg10) ∧ Wf (dref main_arg11) = m ((d : Thread nD τ).loc main_arg11)

def FIN (d : Dev nD) : sProp (MM F) :=
  iprop(∃ Wf : Valuation τ sig (Elt F), ⌜ArgsKept m d Wf ∧ Q17 d (Wf (dref main_v17))⌝ ∗ StableHlo.held (T d) (Pipeline.ucRefs τ sig) Wf)

/-! ## The handshake state of the host program's thread, opened at what it owes -/

/-- Everything of the thread's handshake state before call `n` but what it owes. -/
def tcRest (d : Dev nD) (n : ℕ) : sProp (MM F) :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt (EH (F := F)) d n : sProp (MM F))
      = iprop((∃ W, ⌜(K (F := F)).WBelow (T d) W (8 * n)⌝ ∗ owes (T d) ((K (F := F)).Otc d n) W) ∗ tcRest (F := F) d n) := rfl

/-- What the host program's thread owes sits at the calls' indices, never at the kernels' own. -/
theorem Otc_none (d : Dev nD) (n : ℕ) (g : GSem nD τ sig) : (K (F := F)).Otc d n g none = 0 := by
  by_contra h
  have := (K (F := F)).lev_of_Otc_pos (Nat.pos_of_ne_zero h)
  rw [(K (F := F)).lev_none] at this
  omega

end Cert.Kernel.Main

end
-- ==== Proof.B.ScStageHead.lean ====
/-
  The head of the host program: the nine host operations and the first block pipeline.

  From the launch contents the operations build the two transposed tables and the identity matrix; the pipeline packs
  the tables. Afterwards the held buffers are at the launch valuation with the operations applied and the two packed
  tables at what the pipeline left, which is admissible; what the thread owes is what it owed.
-/
import proofs.«204570_g59167469470423_cont_9to1_m_669_24_alg».proof.Proof.B.ScMainDefs

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ)
variable (G8u G8i : (S50176x128.Idx → Elt F .f32) → Prop) (R9u R9i : Fin 16384 → (Fin 128 → Elt F .f32) → Prop)

/-- The buffers the launch deals the host program's thread are the held set at the launch valuation. -/
theorem unscoped_held (d : Dev nD) :
    (unscopedBufs d (fun b => m ((SparseCore.T (τ := τ) d).loc b)) : sProp (MM F)) ⊢ StableHlo.held (SparseCore.T (τ := τ) d) (Pipeline.ucRefs τ sig) (V0 m d) := by
  rw [← Pipeline.unscopedBufs_held (Ix := HIx 1) (Name := ℕ) (U := UU) (Lvl := ℕ) d (V0 m d)]

set_option maxHeartbeats 2000000 in
set_option backward.isDefEq.respectTransparency.types false in
/-- The head, for any continuation `k` proved from what the head leaves (`hk`), a frame `R` riding along. -/
theorem stage_head (hpack : HPack m G8u G8i) (κ : GSem nD τ sig → ℕ) (d : Dev nD) (Wt : Waits sig (HIx 1))
    (hWt : (K (F := F)).WBelow (T d) Wt (8 * 0)) {α : Type}
    (k : PUnit → Prog (TpuEff nD τ sig (Elt F) (SparseCore.Sig (ΛP (F := F)) 1) .tc) α) (Φ : α → sProp (MM F)) (R : sProp (MM F))
    (hk : ∀ (G0 : Buf (Elt F) ((d : Thread nD τ).loc main_v8_0)) (G1 : Buf (Elt F) ((d : Thread nD τ).loc main_v8_1)) (Wt' : Waits sig (HIx 1)),
      G8u G0 → G8i G1 → (K (F := F)).WBelow (T d) Wt' (8 * 0) →
      iprop(R ∗ boundary (T d) ∗ StableHlo.held (T d) (Pipeline.ucRefs τ sig) (V2 m d G0 G1) ∗ owes (T d) ((K (F := F)).Otc d 0) Wt')
        ⊢ wp frame (wpE ((K (F := F)).defs (D (F := F))) 𝒱 (T d) none) Set.univ (k ⟨⟩) Φ) :
    iprop((K (F := F)).ctx (EH (F := F)) (PP m G8u G8i R9u R9i) κ ∗ boundary (T d) ∗ StableHlo.held (T d) (Pipeline.ucRefs τ sig) (V0 m d)
        ∗ owes (T d) ((K (F := F)).Otc d 0) Wt ∗ pipeGhost (F := F) 0 d ∗ R)
      ⊢ wp frame (wpE ((K (F := F)).defs (D (F := F))) 𝒱 (T d) none) Set.univ
          (StableHlo.seq hostA >>= fun _ => Prog.lift (.customCall (SparseCore.inner (Pipeline.entry 0)) ()) >>= k) Φ := by
  have hA := StableHlo.wp_seq (defs := (K (F := F)).defs (D (F := F))) 𝒱 none Set.univ d (Pipeline.ucRefs τ sig)
    (fun _ => Prog.lift (.customCall (SparseCore.inner (Pipeline.entry 0)) ()) >>= k) (K := Φ) hostA hostA_sub
    (fun op h => (List.forall_iff_forall_mem.mp hostA_fresh) op h) (V0 m d)
  have hR : iprop((iprop(boundary (T d) ∗ (∃ (G0 : Buf (Elt F) ((d : Thread nD τ).loc main_v8_0)) (G1 : Buf (Elt F) ((d : Thread nD τ).loc main_v8_1)),
            ⌜(Pack.dat (Seg.refsOf fun d => VA m d) ((K (F := F)).Otc d 0) (Bn (F := F) d 0) d).ArrAt 5 cfg0.N G0
              ∧ (Pack.dat (Seg.refsOf fun d => VA m d) ((K (F := F)).Otc d 0) (Bn (F := F) d 0) d).ArrAt 6 cfg0.N G1⌝
            ∗ StableHlo.held (T d) (Pipeline.ucRefs τ sig) (Seg.W0out (fun d => VA m d) d G0 G1)
            ∗ (Pack.dat (Seg.refsOf fun d => VA m d) ((K (F := F)).Otc d 0) (Bn (F := F) d 0) d).owesAt none (Fin.last cfg0.N)))
          -∗ wp frame (wpE ((K (F := F)).defs (D (F := F))) 𝒱 (T d) none) Set.univ (k ⟨⟩) Φ)
        ∗ boundary (T d)
        ∗ (StableHlo.held (T d) (Pipeline.ucRefs τ sig) (VA m d)
            ∗ (Pack.dat (Seg.refsOf fun d => VA m d) ((K (F := F)).Otc d 0) (Bn (F := F) d 0) d).owesAt none 0)
        ∗ levAts (K (F := F)).L (K (F := F)).lev ∗ pipeGhost (F := F) 0 d)
      ⊢ wp frame (wpE ((K (F := F)).defs (D (F := F))) 𝒱 (T d) none) Set.univ
          (Prog.lift (.customCall (SparseCore.inner (Pipeline.entry 0)) ()) >>= k) Φ :=
    Region.wp_region (p := 0) (Seg.fam (fun d => VA m d) ((K (F := F)).Otc d 0) (Bn (F := F) d 0))
      (Seg.reg0 (fun d => VA m d) ((K (F := F)).Otc d 0) (Bn (F := F) d 0) (Otc_none d 0)) d k Φ
  iintro ⟨#Hctx, Hbd, Hh, HO, Hg0, HR⟩
  iapply hA $$ [Hbd Hh]
  · isplitl [Hbd]; · iexact Hbd
    iexact Hh
  iintro ⟨Hbd, Hh⟩
  iapply hR
  isplitr [Hbd Hh HO Hg0]
  rotate_left
  · isplitl [Hbd]; · iexact Hbd
    isplitl [Hh HO]
    · isplitl [Hh]; · iexact Hh
      iexists Wt; isplitr
      · ipureintro; exact fun p hp => Or.inl (hWt p (Finset.mem_coe.mp hp))
      iexact HO
    isplitr; · iapply (SparseCore.Cfg.ctx_levAts κ); iexact Hctx
    iexact Hg0
  iintro ⟨Hbd, Hpost⟩
  icases Hpost with ⟨%G0, %G1, %hG, Hh, ⟨%Wt2, %hWt2, HO⟩⟩
  obtain ⟨h8u, h8i⟩ := hpack d _ _ G0 G1 hG
  have hW2 : (K (F := F)).WBelow (T d) Wt2 (8 * 0) := by
    intro p hp
    rcases hWt2 (Finset.mem_coe.mpr hp) with h | ⟨w, s, rfl⟩
    · exact h
    · rw [(K (F := F)).lev_none]
  iapply (hk G0 G1 Wt2 h8u h8i hW2)
  isplitl [HR]; · iexact HR
  isplitl [Hbd]; · iexact Hbd
  isplitl [Hh]; · iexact Hh
  iexact HO

end Cert.Kernel.Main

end
-- ==== Proof.B.ScSite.lean ====
/-
  The six arrays of the call to the sparse processors, taken out of the host program's held buffers and put back.

  The call reads the two id arrays and the two packed tables and writes the two arrays of gathered rows. They are taken
  out of the held set by name, the outputs first, so that putting everything back, the outputs at what the call left,
  updates the valuation at the first output and then at the second.
-/
import proofs.«204570_g59167469470423_cont_9to1_m_669_24_alg».proof.Proof.B.ScSeg

noncomputable section

namespace Cert.Kernel.Site

open Cert.Kernel Cert.Kernel.Gen Cert.Kernel.Base Cert.Kernel.Held Cert.Kernel.Seg

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (Wc : Valuation τ sig (Elt F))

-- The held set, less the call's six arrays one after the other.
abbrev C0 : Finset (DevRef τ sig) := Pipeline.ucRefs τ sig
abbrev C1 : Finset (DevRef τ sig) := (C0).erase (dref main_v9_1)
abbrev C2 : Finset (DevRef τ sig) := (C1).erase (dref main_v9_0)
abbrev C3 : Finset (DevRef τ sig) := (C2).erase (dref main_arg0)
abbrev C4 : Finset (DevRef τ sig) := (C3).erase (dref main_arg1)
abbrev C5 : Finset (DevRef τ sig) := (C4).erase (dref main_v8_0)
abbrev C6 : Finset (DevRef τ sig) := (C5).erase (dref main_v8_1)

theorem take6 :
    (StableHlo.held (d : Thread nD τ) (Pipeline.ucRefs τ sig) Wc : sProp (MM F))
      = iprop((((d : Thread nD τ).loc main_v9_1) ↦{fullShare} (Wc (dref main_v9_1) : Buf (Elt F) ((d : Thread nD τ).loc main_v9_1)))
          ∗ (((d : Thread nD τ).loc main_v9_0) ↦{fullShare} (Wc (dref main_v9_0) : Buf (Elt F) ((d : Thread nD τ).loc main_v9_0)))
          ∗ (((d : Thread nD τ).loc main_arg0) ↦{fullShare} (Wc (dref main_arg0) : Buf (Elt F) ((d : Thread nD τ).loc main_arg0)))
          ∗ (((d : Thread nD τ).loc main_arg1) ↦{fullShare} (Wc (dref main_arg1) : Buf (Elt F) ((d : Thread nD τ).loc main_arg1)))
          ∗ (((d : Thread nD τ).loc main_v8_0) ↦{fullShare} (Wc (dref main_v8_0) : Buf (Elt F) ((d : Thread nD τ).loc main_v8_0)))
          ∗ (((d : Thread nD τ).loc main_v8_1) ↦{fullShare} (Wc (dref main_v8_1) : Buf (Elt F) ((d : Thread nD τ).loc main_v8_1)))
          ∗ StableHlo.held (d : Thread nD τ) C6 Wc) := by
  rw [take_ref d C0 Wc main_v9_1 (by mem_held),
    take_ref d C1 Wc main_v9_0 (by mem_held),
    take_ref d C2 Wc main_arg0 (by mem_held),
    take_ref d C3 Wc main_arg1 (by mem_held),
    take_ref d C4 Wc main_v8_0 (by mem_held),
    take_ref d C5 Wc main_v8_1 (by mem_held)]

theorem put6 (gu : Buf (Elt F) ((d : Thread nD τ).loc main_v9_0)) (gi : Buf (Elt F) ((d : Thread nD τ).loc main_v9_1)) :
    iprop((((d : Thread nD τ).loc main_v9_1) ↦{fullShare} gi) ∗ (((d : Thread nD τ).loc main_v9_0) ↦{fullShare} gu)
        ∗ (((d : Thread nD τ).loc main_arg0) ↦{fullShare} (Wc (dref main_arg0) : Buf (Elt F) ((d : Thread nD τ).loc main_arg0)))
        ∗ (((d : Thread nD τ).loc main_arg1) ↦{fullShare} (Wc (dref main_arg1) : Buf (Elt F) ((d : Thread nD τ).loc main_arg1)))
        ∗ (((d : Thread nD τ).loc main_v8_0) ↦{fullShare} (Wc (dref main_v8_0) : Buf (Elt F) ((d : Thread nD τ).loc main_v8_0)))
        ∗ (((d : Thread nD τ).loc main_v8_1) ↦{fullShare} (Wc (dref main_v8_1) : Buf (Elt F) ((d : Thread nD τ).loc main_v8_1)))
        ∗ StableHlo.held (d : Thread nD τ) C6 Wc)
      ⊢ (StableHlo.held (d : Thread nD τ) (Pipeline.ucRefs τ sig)
          (Function.update (Function.update Wc (dref main_v9_0) gu) (dref main_v9_1) gi) : sProp (MM F)) := by
  iintro ⟨H_v9_1, H_v9_0, H_arg0, H_arg1, H_v8_0, H_v8_1, Hr⟩
  ihave Hr := (Seg.put_ref_same d C5 Wc main_v8_1 (by mem_held)) $$ [H_v8_1 Hr]
  · isplitl [H_v8_1]; · iexact H_v8_1
    iexact Hr
  ihave Hr := (Seg.put_ref_same d C4 Wc main_v8_0 (by mem_held)) $$ [H_v8_0 Hr]
  · isplitl [H_v8_0]; · iexact H_v8_0
    iexact Hr
  ihave Hr := (Seg.put_ref_same d C3 Wc main_arg1 (by mem_held)) $$ [H_arg1 Hr]
  · isplitl [H_arg1]; · iexact H_arg1
    iexact Hr
  ihave Hr := (Seg.put_ref_same d C2 Wc main_arg0 (by mem_held)) $$ [H_arg0 Hr]
  · isplitl [H_arg0]; · iexact H_arg0
    iexact Hr
  ihave Hr := (Seg.put_ref d C1 Wc main_v9_0 (by mem_held) gu) $$ [H_v9_0 Hr]
  · isplitl [H_v9_0]; · iexact H_v9_0
    iexact Hr
  ihave Hr := (Seg.put_ref d C0 (Function.update Wc (dref main_v9_0) gu) main_v9_1 (by mem_held) gi) $$ [H_v9_1 Hr]
  · isplitl [H_v9_1]; · iexact H_v9_1
    iexact Hr
  iexact Hr

end Cert.Kernel.Site

end
-- ==== Proof.B.ScCallJoin.lean ====
/-
  After the vector-subcore call: the tokens and the chunks rejoined.

  The host program kept the remainder of each read-only array while the 32 tiles held its read tokens. A returned token
  of an id array names the array's contents, so remainder and tokens join to the whole array. A returned token of a
  packed table may name other contents, but it shares every element with the remainder, so its contents are the
  remainder's, and again remainder and tokens join. Each output comes back as 64 chunks of 256 rows, each at contents of
  its own; every row lies in exactly one chunk, so the chunks join to one array whose every row is as claimed of its chunk.
-/
import proofs.«204570_g59167469470423_cont_9to1_m_669_24_alg».proof.Proof.B.ScCall

noncomputable section

namespace Cert.Kernel.Call

open Cert.Kernel Cert.Kernel.Gen Cert.Kernel.Base Cert.Kernel.Tile Cert.Kernel.Pay

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- The chunks' index set: sparse processor, tile, chunk number. -/
abbrev ChunkIx : Type := Fin ((K (F := F)).nCore 0) × Fin ((K (F := F)).nSub 0) × Fin 2

/-! ## A resource carried through a family -/

/-- If a resource survives each summand's change, it survives the change of every summand. -/
theorem thread {ι : Type} [DecidableEq ι] (S : Finset ι) (R : sProp 𝕄) (Φ Ψ : ι → sProp 𝕄)
    (h : ∀ t, iprop(R ∗ Φ t) ⊢ iprop(R ∗ Ψ t)) : iprop(R ∗ bigSep S Φ) ⊢ iprop(R ∗ bigSep S Ψ) := by
  induction S using Finset.induction_on with
  | empty => rw [bigSep_empty, bigSep_empty]
  | insert t S ht ih =>
    have e : bigSep (insert t S) Φ = iprop(Φ t ∗ bigSep S Φ) := bigSep_insert ht
    have e' : bigSep (insert t S) Ψ = iprop(Ψ t ∗ bigSep S Ψ) := bigSep_insert ht
    rw [e, e']
    iintro ⟨H0, Ht, HS⟩
    ihave H := ih $$ [H0 HS]
    · isplitl [H0]; · iexact H0
      iexact HS
    icases H with ⟨H0, HS⟩
    ihave H := (h t) $$ [H0 Ht]
    · isplitl [H0]; · iexact H0
      iexact Ht
    icases H with ⟨H0, Ht⟩
    isplitl [H0]; · iexact H0
    isplitl [Ht]; · iexact Ht
    iexact HS

/-! ## Tokens -/

section Tokens

variable {ℓ : Loc nD τ sig}

/-- A token at some contents beside the remainder is a token at the remainder's contents. -/
theorem pin_one {q0 q : PosShare TreeShare} (G : Buf (Elt F) ℓ → Prop) (f : Buf (Elt F) ℓ) :
    iprop((ℓ ↦{q0} f) ∗ ∃ f' : Buf (Elt F) ℓ, ⌜G f'⌝ ∗ ℓ ↦{q} f') ⊢ (iprop((ℓ ↦{q0} f) ∗ ℓ ↦{q} f) : sProp 𝕄) := by
  iintro ⟨H0, %f', -, H1⟩
  ihave Hag := (persistent_entails_right pointsTo_agree) $$ [H0 H1]
  · isplitl [H0]; · iexact H0
    iexact H1
  icases Hag with ⟨%hag, H0, H1⟩
  ihave H1' := (Entails.of_eq (pointsTo_congr (f := f') (g := f) fun i hi => (hag i (Finset.mem_inter.mpr ⟨hi, hi⟩)).1.symm)) $$ H1
  isplitl [H0]; · iexact H0
  iexact H1'

/-- The remainder and the tiles' tokens, each token at contents of its own, are the whole array at the remainder's. -/
theorem toks_join_pinned (G : Buf (Elt F) ℓ → Prop) (f : Buf (Elt F) ℓ) :
    iprop((ℓ ↦{Transfers.shareDrop fullShare 32} f)
        ∗ bigSep Finset.univ fun c : Fin ((K (F := F)).nCore 0) => bigSep Finset.univ fun i : Fin ((K (F := F)).nSub 0) =>
            iprop(∃ f' : Buf (Elt F) ℓ, ⌜G f'⌝ ∗ ℓ ↦{qOf (F := F) c i} f'))
      ⊢ (ℓ ↦{fullShare} f : sProp 𝕄) := by
  classical
  refine (thread Finset.univ _ _ (fun c : Fin ((K (F := F)).nCore 0) => bigSep Finset.univ fun i : Fin ((K (F := F)).nSub 0) =>
      (ℓ ↦{qOf (F := F) c i} f : sProp 𝕄)) fun c => ?_).trans (toks_tiles (F := F) f).2
  exact thread Finset.univ _ _ _ fun i => pin_one (q := qOf (F := F) c i) G f

end Tokens

/-! ## Chunks -/

section Chunks

variable {ℓ : Loc nD τ sig}

/-- Chunks along a family of pairwise disjoint sets that cover the array, each at contents of its own of which something
    is known, are the whole array at contents that agree with each chunk's on its set. -/
theorem chunks_join (Kc : ChunkIx (F := F) → Finset (Idx ℓ))
    (hd : ∀ t ∈ (Finset.univ : Finset (ChunkIx (F := F))), ∀ t' ∈ (Finset.univ : Finset (ChunkIx (F := F))), t ≠ t' → Disjoint (Kc t) (Kc t'))
    (hc : (Finset.univ : Finset (ChunkIx (F := F))).biUnion Kc = Finset.univ)
    (φ : ChunkIx (F := F) → Buf (Elt F) ℓ → Prop) (z : Buf (Elt F) ℓ) :
    iprop((bigSep Finset.univ fun c : Fin ((K (F := F)).nCore 0) => bigSep Finset.univ fun i : Fin ((K (F := F)).nSub 0) =>
          iprop(∃ g : Buf (Elt F) ℓ, ⌜φ (c, i, 0) g⌝ ∗ ℓ ↦[Kc (c, i, 0)]{fullShare} g))
        ∗ (bigSep Finset.univ fun c : Fin ((K (F := F)).nCore 0) => bigSep Finset.univ fun i : Fin ((K (F := F)).nSub 0) =>
          iprop(∃ g : Buf (Elt F) ℓ, ⌜φ (c, i, 1) g⌝ ∗ ℓ ↦[Kc (c, i, 1)]{fullShare} g)))
      ⊢ (iprop(∃ g : Buf (Elt F) ℓ, ⌜∀ t, ∃ g', φ t g' ∧ ∀ x ∈ Kc t, g x = g' x⌝ ∗ ℓ ↦{fullShare} g) : sProp 𝕄) := by
  classical
  have e : (bigSep Finset.univ fun t : ChunkIx (F := F) =>
        (iprop(∃ g : Buf (Elt F) ℓ, ⌜φ t g⌝ ∗ ℓ ↦[Kc t]{fullShare} g) : sProp 𝕄))
      = iprop((bigSep Finset.univ fun c : Fin ((K (F := F)).nCore 0) => bigSep Finset.univ fun i : Fin ((K (F := F)).nSub 0) =>
          iprop(∃ g : Buf (Elt F) ℓ, ⌜φ (c, i, 0) g⌝ ∗ ℓ ↦[Kc (c, i, 0)]{fullShare} g))
        ∗ (bigSep Finset.univ fun c : Fin ((K (F := F)).nCore 0) => bigSep Finset.univ fun i : Fin ((K (F := F)).nSub 0) =>
          iprop(∃ g : Buf (Elt F) ℓ, ⌜φ (c, i, 1) g⌝ ∗ ℓ ↦[Kc (c, i, 1)]{fullShare} g))) := by
    rw [← bigSep_sep', bigSep_univ_prod]
    refine bigSep_congr fun c _ => ?_
    rw [← bigSep_sep', bigSep_univ_prod]
    refine bigSep_congr fun i _ => ?_
    rw [bigSep_univ_two]
  rw [← e]
  refine (@bigSep_exists_pi 𝕄 _ (ChunkIx (F := F)) _ (fun _ => Buf (Elt F) ℓ) (fun _ => ⟨z⟩) Finset.univ
    (fun t g => (iprop(⌜φ t g⌝ ∗ ℓ ↦[Kc t]{fullShare} g) : sProp 𝕄))).trans ?_
  iintro ⟨%gs, H⟩
  ihave H2 := (BI.bigSep_pure_sep Finset.univ (fun t : ChunkIx (F := F) => φ t (gs t))
    (fun t : ChunkIx (F := F) => (ℓ ↦[Kc t]{fullShare} gs t : sProp 𝕄))) $$ H
  icases H2 with ⟨%hφ, H⟩
  ihave H' := (pointsTo_biUnion_join (ℓ := ℓ) Finset.univ Kc gs z hd) $$ H
  icases H' with ⟨%g, %hg, Hg⟩
  rw [hc]
  iexists g
  isplitr
  · ipureintro
    exact fun t => ⟨gs t, hφ t (Finset.mem_univ _), fun x hx => hg t (Finset.mem_univ _) x hx⟩
  · iexact Hg

end Chunks

/-- One output's 64 chunks, each at contents of its own whose rows are as claimed, are the output whole at contents whose
    every row is as claimed. Stated at a location whose index type is the output's. -/
theorem rows_of_chunks (R : Fin 16384 → (Fin 128 → Elt F .f32) → Prop) (g : S16384x128.Idx → Elt F .f32)
    (h : ∀ t : ChunkIx (F := F), ∃ g' : S16384x128.Idx → Elt F .f32,
      RowsOK (tileL (F := F) t.1 t.2.1) R t.2.2.val g' ∧ ∀ x ∈ chunk (F := F) t, g x = g' x) (b : Fin 16384) :
    R b (fun l => g (ix2 b l)) := by
  obtain ⟨⟨c, i, r⟩, ht⟩ := chunk_exists (F := F) (ix2 b (0 : Fin 128))
  obtain ⟨g', hrows, hg⟩ := h (c, i, r)
  have hm := (mem_chunk (F := F) c i r (ix2 b (0 : Fin 128))).mp ht
  have hfun : (fun l => g (ix2 b l)) = fun l => g' (ix2 b l) :=
    funext fun l => hg (ix2 b l) ((mem_chunk (F := F) c i r (ix2 b l)).mpr hm)
  rw [hfun]
  exact hrows b (by rw [base_tileL]; exact hm.1) (by rw [base_tileL]; exact hm.2)

/-! ## The join -/

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- After the call: tokens and chunks rejoined, every row of the outputs as claimed. -/
theorem call_join' (d : Dev nD) (f8u : Buf (Elt F) (utLoc d)) (f8i : Buf (Elt F) (itLoc d)) :
    iprop(rem uid iid d f8u f8i
        ∗ bigSep Finset.univ fun c : Fin ((K (F := F)).nCore 0) => (Cert.Kernel.Pay.P G8u G8i R9u R9i uid iid).dn 0 d c)
      ⊢ iprop(∃ (gu : Buf (Elt F) (ouLoc d)) (gi : Buf (Elt F) (oiLoc d)),
          ⌜(∀ b : Fin 16384, R9u b (fun l => gu (ix2 b l))) ∧ (∀ b : Fin 16384, R9i b (fun l => gi (ix2 b l)))⌝
          ∗ (uidLoc d ↦{fullShare} uid d) ∗ (iidLoc d ↦{fullShare} iid d) ∗ (utLoc d ↦{fullShare} f8u) ∗ (itLoc d ↦{fullShare} f8i)
          ∗ (ouLoc d ↦{fullShare} gu) ∗ (oiLoc d ↦{fullShare} gi)) := by
  have z : Elt F .f32 := (f8u : S50176x128.Idx → Elt F .f32) (ix2 (⟨0, by decide⟩ : Fin 50176) (⟨0, by decide⟩ : Fin 128))
  have hjou : iprop((bigSep Finset.univ fun c : Fin ((K (F := F)).nCore 0) => bigSep Finset.univ fun i : Fin ((K (F := F)).nSub 0) =>
          iprop(∃ g : Buf (Elt F) (ouLoc d), ⌜RowsOK (tileL (F := F) c i) R9u 0 g⌝ ∗ ouLoc d ↦[oSet (tileL (F := F) c i) 0]{fullShare} g))
        ∗ (bigSep Finset.univ fun c : Fin ((K (F := F)).nCore 0) => bigSep Finset.univ fun i : Fin ((K (F := F)).nSub 0) =>
          iprop(∃ g : Buf (Elt F) (ouLoc d), ⌜RowsOK (tileL (F := F) c i) R9u 1 g⌝ ∗ ouLoc d ↦[oSet (tileL (F := F) c i) 1]{fullShare} g)))
      ⊢ (iprop(∃ g : Buf (Elt F) (ouLoc d), ⌜∀ t : ChunkIx (F := F), ∃ g' : Buf (Elt F) (ouLoc d),
          RowsOK (tileL (F := F) t.1 t.2.1) R9u t.2.2.val g' ∧ ∀ x ∈ chunk (F := F) t, g x = g' x⌝ ∗ ouLoc d ↦{fullShare} g) : sProp 𝕄) := by
    refine chunks_join (F := F) (ℓ := ouLoc d) (fun t => chunk (F := F) t) ?_ ?_
      (fun t g => RowsOK (tileL (F := F) t.1 t.2.1) R9u t.2.2.val g) (fun _ => z)
    · rintro ⟨c, i, r⟩ - ⟨c', i', r'⟩ - hne
      rw [Finset.disjoint_left]
      intro x hx hx'
      exact chunk_apart (F := F) hne ((mem_chunk (F := F) c i r x).mp hx) ((mem_chunk (F := F) c' i' r' x).mp hx')
    · refine Finset.eq_univ_iff_forall.mpr fun x => Finset.mem_biUnion.mpr ?_
      obtain ⟨t, ht⟩ := chunk_exists (F := F) x
      exact ⟨t, Finset.mem_univ _, ht⟩
  have hjoi : iprop((bigSep Finset.univ fun c : Fin ((K (F := F)).nCore 0) => bigSep Finset.univ fun i : Fin ((K (F := F)).nSub 0) =>
          iprop(∃ g : Buf (Elt F) (oiLoc d), ⌜RowsOK (tileL (F := F) c i) R9i 0 g⌝ ∗ oiLoc d ↦[oSet (tileL (F := F) c i) 0]{fullShare} g))
        ∗ (bigSep Finset.univ fun c : Fin ((K (F := F)).nCore 0) => bigSep Finset.univ fun i : Fin ((K (F := F)).nSub 0) =>
          iprop(∃ g : Buf (Elt F) (oiLoc d), ⌜RowsOK (tileL (F := F) c i) R9i 1 g⌝ ∗ oiLoc d ↦[oSet (tileL (F := F) c i) 1]{fullShare} g)))
      ⊢ (iprop(∃ g : Buf (Elt F) (oiLoc d), ⌜∀ t : ChunkIx (F := F), ∃ g' : Buf (Elt F) (oiLoc d),
          RowsOK (tileL (F := F) t.1 t.2.1) R9i t.2.2.val g' ∧ ∀ x ∈ chunk (F := F) t, g x = g' x⌝ ∗ oiLoc d ↦{fullShare} g) : sProp 𝕄) := by
    refine chunks_join (F := F) (ℓ := oiLoc d) (fun t => chunk (F := F) t) ?_ ?_
      (fun t g => RowsOK (tileL (F := F) t.1 t.2.1) R9i t.2.2.val g) (fun _ => z)
    · rintro ⟨c, i, r⟩ - ⟨c', i', r'⟩ - hne
      rw [Finset.disjoint_left]
      intro x hx hx'
      exact chunk_apart (F := F) hne ((mem_chunk (F := F) c i r x).mp hx) ((mem_chunk (F := F) c' i' r' x).mp hx')
    · refine Finset.eq_univ_iff_forall.mpr fun x => Finset.mem_biUnion.mpr ?_
      obtain ⟨t, ht⟩ := chunk_exists (F := F) x
      exact ⟨t, Finset.mem_univ _, ht⟩
  simp only [Cert.Kernel.Pay.P_dn, td0, tileTd, bigSep_sep']
  unfold rem
  iintro ⟨⟨Ru, Ri, Rtu, Rti⟩, HA, HB, HC, HD, HE0, HE1, HF0, HF1⟩
  ihave Hu := (toks_tiles (F := F) (ℓ := uidLoc d) (uid d)).2 $$ [Ru HA]
  · isplitl [Ru]; · iexact Ru
    iexact HA
  ihave Hi := (toks_tiles (F := F) (ℓ := iidLoc d) (iid d)).2 $$ [Ri HB]
  · isplitl [Ri]; · iexact Ri
    iexact HB
  ihave Htu := (toks_join_pinned (F := F) (ℓ := utLoc d) G8u f8u) $$ [Rtu HC]
  · isplitl [Rtu]; · iexact Rtu
    iexact HC
  ihave Hti := (toks_join_pinned (F := F) (ℓ := itLoc d) G8i f8i) $$ [Rti HD]
  · isplitl [Rti]; · iexact Rti
    iexact HD
  ihave Hou := hjou $$ [HE0 HE1]
  · isplitl [HE0]; · iexact HE0
    iexact HE1
  icases Hou with ⟨%gu, %hgu, Hou⟩
  ihave Hoi := hjoi $$ [HF0 HF1]
  · isplitl [HF0]; · iexact HF0
    iexact HF1
  icases Hoi with ⟨%gi, %hgi, Hoi⟩
  iexists gu
  iexists gi
  isplitr
  · ipureintro
    exact ⟨rows_of_chunks (F := F) R9u gu hgu, rows_of_chunks (F := F) R9i gi hgi⟩
  isplitl [Hu]; · iexact Hu
  isplitl [Hi]; · iexact Hi
  isplitl [Htu]; · iexact Htu
  isplitl [Hti]; · iexact Hti
  isplitl [Hou]; · iexact Hou
  iexact Hoi

end

end Cert.Kernel.Call

end
-- ==== Proof.B.ScStageCall.lean ====
/-
  The call to the sparse processors, within the host program.

  At the call the host program holds every unscoped buffer whole, the packed tables at admissible contents. The six
  arrays of the call are taken out of the held set; the four read-only ones are cut into remainder and tokens and the
  two outputs into chunks, which is what the call is handed; the call runs; what it hands back rejoins to the six
  arrays whole, the read-only ones at the contents they had and the outputs at contents every row of which is as
  claimed; and the six arrays go back into the held set, the valuation updated at the two outputs.
-/
import proofs.«204570_g59167469470423_cont_9to1_m_669_24_alg».proof.Proof.B.ScMainDefs
import proofs.«204570_g59167469470423_cont_9to1_m_669_24_alg».proof.Proof.B.ScSite
import proofs.«204570_g59167469470423_cont_9to1_m_669_24_alg».proof.Proof.B.ScCallJoin

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

set_option maxHeartbeats 2000000 in
/-- The call, with any continuation: the continuation runs from the handshake state after the call and the held
    buffers at the valuation updated with what the call left in the two outputs, whose rows are as claimed. -/
theorem stage_call (κ : GSem nD τ sig → ℕ) (d : Dev nD)
    (G0 : Buf (Elt F) ((d : Thread nD τ).loc main_v8_0)) (G1 : Buf (Elt F) ((d : Thread nD τ).loc main_v8_1))
    (h8u : G8u G0) (h8i : G8i G1) {α : Type}
    (k : PUnit → Prog (TpuEff nD τ sig (Elt F) (SparseCore.Sig (ΛP (F := F)) 1) .tc) α) (Φ : α → sProp (MM F)) :
    iprop((K (F := F)).ctx (EH (F := F)) (PP m G8u G8i R9u R9i) κ ∗ (K (F := F)).tcSt (EH (F := F)) d 0
        ∗ StableHlo.held (T d) (Pipeline.ucRefs τ sig) (V2 m d G0 G1)
        ∗ (∀ (gu : Buf (Elt F) ((d : Thread nD τ).loc main_v9_0)) (gi : Buf (Elt F) ((d : Thread nD τ).loc main_v9_1)),
            ⌜(∀ b : Fin 16384, R9u b (fun l => gu (ix2 b l))) ∧ (∀ b : Fin 16384, R9i b (fun l => gi (ix2 b l)))⌝
            -∗ iprop((K (F := F)).tcSt (EH (F := F)) d 1 ∗ StableHlo.held (T d) (Pipeline.ucRefs τ sig) (V3 m d G0 G1 gu gi))
            -∗ wp frame (wpE ((K (F := F)).defs (D (F := F))) 𝒱 (T d) none) Set.univ (k ⟨⟩) Φ))
      ⊢ wp frame (wpE ((K (F := F)).defs (D (F := F))) 𝒱 (T d) none) Set.univ ((K (F := F)).run d 0 >>= k) Φ := by
  -- the four read-only arrays at the held valuation: the ids as launched, the packed tables at G0, G1
  have e0 : (V2 m d G0 G1 (dref main_arg0) : Buf (Elt F) ((d : Thread nD τ).loc main_arg0)) = uid m d :=
    (Function.update_of_ne (StableHlo.devRef_ne_of_ne (by decide : main_arg0 ≠ main_v8_0)) _ _).trans
      ((Function.update_of_ne (StableHlo.devRef_ne_of_ne (by decide : main_arg0 ≠ main_v8_1)) _ _).trans
        ((after_A_of _ main_arg0 (by decide)).trans rfl))
  have e1 : (V2 m d G0 G1 (dref main_arg1) : Buf (Elt F) ((d : Thread nD τ).loc main_arg1)) = iid m d :=
    (Function.update_of_ne (StableHlo.devRef_ne_of_ne (by decide : main_arg1 ≠ main_v8_0)) _ _).trans
      ((Function.update_of_ne (StableHlo.devRef_ne_of_ne (by decide : main_arg1 ≠ main_v8_1)) _ _).trans
        ((after_A_of _ main_arg1 (by decide)).trans rfl))
  have e80 : (V2 m d G0 G1 (dref main_v8_0) : Buf (Elt F) ((d : Thread nD τ).loc main_v8_0)) = G0 :=
    Function.update_self _ _ _
  have e81 : (V2 m d G0 G1 (dref main_v8_1) : Buf (Elt F) ((d : Thread nD τ).loc main_v8_1)) = G1 :=
    (Function.update_of_ne (StableHlo.devRef_ne_of_ne (by decide : main_v8_1 ≠ main_v8_0)) _ _).trans (Function.update_self _ _ _)
  have htake := Site.take6 (F := F) d (V2 m d G0 G1)
  rw [e0, e1, e80, e81] at htake
  have hput := fun gu gi => Site.put6 (F := F) d (V2 m d G0 G1) gu gi
  simp only [e0, e1, e80, e81] at hput
  have hsplit := Call.call_split (F := F) G8u G8i R9u R9i (uid m) (iid m) d G0 G1
    (V2 m d G0 G1 (dref main_v9_0) : Buf (Elt F) ((d : Thread nD τ).loc main_v9_0))
    (V2 m d G0 G1 (dref main_v9_1) : Buf (Elt F) ((d : Thread nD τ).loc main_v9_1)) h8u h8i
  have hjoin := Call.call_join' (F := F) G8u G8i R9u R9i (uid m) (iid m) d G0 G1
  rw [wp_bind]
  iintro ⟨#Hctx, Hst, Hh, Hk⟩
  ihave Hh := (Entails.of_eq htake) $$ Hh
  icases Hh with ⟨H91, H90, Ha0, Ha1, H80, H81, Hrest⟩
  ihave Hs := hsplit $$ [Ha0 Ha1 H80 H81 H90 H91]
  · isplitl [Ha0]; · iexact Ha0
    isplitl [Ha1]; · iexact Ha1
    isplitl [H80]; · iexact H80
    isplitl [H81]; · iexact H81
    isplitl [H90]; · iexact H90
    iexact H91
  icases Hs with ⟨Hrem, Hsts⟩
  iapply ((K (F := F)).wp_run (D (F := F)) 𝒱 (EH := EH (F := F)) (P := PP m G8u G8i R9u R9i) κ d 0) $$ [Hst Hsts Hrem Hrest Hk]
  isplitr; · iexact Hctx
  isplitl [Hst]; · iexact Hst
  isplitl [Hsts]; · iexact Hsts
  iintro ⟨Hst, Hdn⟩
  ihave Hj := hjoin $$ [Hrem Hdn]
  · isplitl [Hrem]; · iexact Hrem
    iexact Hdn
  icases Hj with ⟨%gu, %gi, %hfacts, Ha0, Ha1, H80, H81, H90, H91⟩
  ihave Hh := (hput gu gi) $$ [H91 H90 Ha0 Ha1 H80 H81 Hrest]
  · isplitl [H91]; · iexact H91
    isplitl [H90]; · iexact H90
    isplitl [Ha0]; · iexact Ha0
    isplitl [Ha1]; · iexact Ha1
    isplitl [H80]; · iexact H80
    isplitl [H81]; · iexact H81
    iexact Hrest
  ispecialize Hk $$ %gu %gi %hfacts
  iapply Hk
  isplitl [Hst]; · iexact Hst
  iexact Hh

end Cert.Kernel.Main

end
-- ==== Proof.B.ScFin.lean ====
/-
  The end of the host program: its arguments are still the launch memory's, and the final state is read.

  No host operation writes an argument, neither pipeline has an argument among its outputs, and the call to the sparse
  processors writes the gathered rows only: so the last valuation agrees with the launch memory at the twelve arguments.
  Holding every unscoped buffer whole at that valuation beside the state, the memory's contents at those buffers are the
  valuation's: the arguments read as at the launch and the result as the last valuation has it.
-/
import proofs.«204570_g59167469470423_cont_9to1_m_669_24_alg».proof.Proof.B.ScMainDefs

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ)
variable (Q17 : (d : Dev nD) → Buf (Elt F) ((d : Thread nD τ).loc main_v17) → Prop)

/-! ## The arguments at the last valuation -/

/-- A buffer no host stretch writes, that is no output of either pipeline and no result of the call, holds at the last
    valuation what the launch memory held. -/
theorem VC_of (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) (r : Ref sig .tc)
    (hA : r ∉ hostA_W) (hB : r ∉ hostB_W) (hC : r ∉ hostC_W)
    (h80 : r ≠ main_v8_0) (h81 : r ≠ main_v8_1) (h90 : r ≠ main_v9_0) (h91 : r ≠ main_v9_1) (h16 : r ≠ main_v16) :
    VC m d G0 G1 gu gi (dref r) = m ((d : Thread nD τ).loc r) := by
  refine (after_C_of _ r hC).trans ?_
  refine (Function.update_of_ne (StableHlo.devRef_ne_of_ne h16) _ _).trans ?_
  refine (after_B_of _ r hB).trans ?_
  refine (Function.update_of_ne (StableHlo.devRef_ne_of_ne h91) _ _).trans ?_
  refine (Function.update_of_ne (StableHlo.devRef_ne_of_ne h90) _ _).trans ?_
  refine (Function.update_of_ne (StableHlo.devRef_ne_of_ne h80) _ _).trans ?_
  refine (Function.update_of_ne (StableHlo.devRef_ne_of_ne h81) _ _).trans ?_
  exact (after_A_of _ r hA).trans rfl

/-- The twelve arguments of the last valuation are the launch memory's, whatever the pipelines and the call left in
    their outputs. -/
theorem argsKept (d : Dev nD) (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1)) :
    ArgsKept m d (VC m d G0 G1 gu gi) :=
  ⟨VC_of m d G0 G1 gu gi main_arg0 (by decide) (by decide) (by decide) (by decide) (by decide) (by decide) (by decide) (by decide),
    VC_of m d G0 G1 gu gi main_arg1 (by decide) (by decide) (by decide) (by decide) (by decide) (by decide) (by decide) (by decide),
    VC_of m d G0 G1 gu gi main_arg2 (by decide) (by decide) (by decide) (by decide) (by decide) (by decide) (by decide) (by decide),
    VC_of m d G0 G1 gu gi main_arg3 (by decide) (by decide) (by decide) (by decide) (by decide) (by decide) (by decide) (by decide),
    VC_of m d G0 G1 gu gi main_arg4 (by decide) (by decide) (by decide) (by decide) (by decide) (by decide) (by decide) (by decide),
    VC_of m d G0 G1 gu gi main_arg5 (by decide) (by decide) (by decide) (by decide) (by decide) (by decide) (by decide) (by decide),
    VC_of m d G0 G1 gu gi main_arg6 (by decide) (by decide) (by decide) (by decide) (by decide) (by decide) (by decide) (by decide),
    VC_of m d G0 G1 gu gi main_arg7 (by decide) (by decide) (by decide) (by decide) (by decide) (by decide) (by decide) (by decide),
    VC_of m d G0 G1 gu gi main_arg8 (by decide) (by decide) (by decide) (by decide) (by decide) (by decide) (by decide) (by decide),
    VC_of m d G0 G1 gu gi main_arg9 (by decide) (by decide) (by decide) (by decide) (by decide) (by decide) (by decide) (by decide),
    VC_of m d G0 G1 gu gi main_arg10 (by decide) (by decide) (by decide) (by decide) (by decide) (by decide) (by decide) (by decide),
    VC_of m d G0 G1 gu gi main_arg11 (by decide) (by decide) (by decide) (by decide) (by decide) (by decide) (by decide) (by decide)⟩

/-! ## The final state, read -/

/-- What the final state is read as: each argument's buffer as at the launch, and the result's as claimed. -/
def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)
    ∧ s'.mem.mem ((d : Thread nD τ).loc main_arg6) = m ((d : Thread nD τ).loc main_arg6)
    ∧ s'.mem.mem ((d : Thread nD τ).loc main_arg7) = m ((d : Thread nD τ).loc main_arg7)
    ∧ s'.mem.mem ((d : Thread nD τ).loc main_arg8) = m ((d : Thread nD τ).loc main_arg8)
    ∧ s'.mem.mem ((d : Thread nD τ).loc main_arg9) = m ((d : Thread nD τ).loc main_arg9)
    ∧ s'.mem.mem ((d : Thread nD τ).loc main_arg10) = m ((d : Thread nD τ).loc main_arg10)
    ∧ s'.mem.mem ((d : Thread nD τ).loc main_arg11) = m ((d : Thread nD τ).loc main_arg11))
  ∧ Q17 d (s'.mem.mem ((d : Thread nD τ).loc main_v17))

/-- The host program's last assertion, read against the state. -/
theorem hfin (d : Dev nD) (s' : Phys nD τ sig (Elt F)) :
    iprop(FIN m Q17 d ∗ SI s') ⊢ (⌜fq m Q17 d s'⌝ : sProp (MM F)) := by
  unfold FIN StableHlo.held
  iintro ⟨⟨%Wf, %hW, Hh⟩, HSI⟩
  obtain ⟨hk, hq⟩ := hW
  ihave Hr := (pointsTo_read_all (Pipeline.ucRefs τ sig) (fun b => ((SparseCore.T (τ := τ) d).1, b)) Wf s') $$ [Hh HSI]
  · isplitl [Hh] <;> iassumption
  icases Hr with ⟨%h, -⟩
  ipureintro
  have rd : ∀ r : Ref sig .tc, (Proc.devRef (τ := τ) .tc r).isScoped = false →
      s'.mem.mem ((d : Thread nD τ).loc r) = Wf (dref r) := fun r hr => h (dref r) (mem_uc r hr)
  unfold ArgsKept at hk
  obtain ⟨k0, k1, k2, k3, k4, k5, k6, k7, k8, k9, k10, k11⟩ := hk
  refine ⟨⟨(rd main_arg0 (by decide)).trans k0,
    (rd main_arg1 (by decide)).trans k1,
    (rd main_arg2 (by decide)).trans k2,
    (rd main_arg3 (by decide)).trans k3,
    (rd main_arg4 (by decide)).trans k4,
    (rd main_arg5 (by decide)).trans k5,
    (rd main_arg6 (by decide)).trans k6,
    (rd main_arg7 (by decide)).trans k7,
    (rd main_arg8 (by decide)).trans k8,
    (rd main_arg9 (by decide)).trans k9,
    (rd main_arg10 (by decide)).trans k10,
    (rd main_arg11 (by decide)).trans k11⟩, ?_⟩
  rw [rd main_v17 (by decide)]
  exact hq

end Cert.Kernel.Main

end
-- ==== Proof.B.ScStageTail.lean ====
/-
  The end of the host program: the second host stretch, the tower pipeline, the last reshape.

  From the buffers held at the valuation the call left, the six reshapes run to the next valuation; the tower pipeline is
  entered from there, with what the thread owes unchanged and its recorded waits within the bound below the call's own
  level, and leaves its output at the function of its inputs it computes; the last reshape runs; and the buffers are held
  at the last valuation, whose arguments are the launch memory's and whose result is as claimed.
-/
import proofs.«204570_g59167469470423_cont_9to1_m_669_24_alg».proof.Proof.B.ScMainDefs
import proofs.«204570_g59167469470423_cont_9to1_m_669_24_alg».proof.Proof.B.ScFin

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-! ## The two host stretches -/

set_option backward.isDefEq.respectTransparency.types false in
/-- The six reshapes, with any continuation. -/
theorem tail_hostB (d : Dev nD) (V : Valuation τ sig (Elt F)) {β : Type}
    (k : PUnit → Prog (TpuEff nD τ sig (Elt F) (SparseCore.Sig (ΛP (F := F)) 1) .tc) β) (Φ : β → sProp (MM F)) :
    iprop(boundary (T d) ∗ StableHlo.held (T d) (Pipeline.ucRefs τ sig) V)
      ⊢ iprop((iprop(boundary (T d) ∗ StableHlo.held (T d) (Pipeline.ucRefs τ sig) (StableHlo.after hostB V))
            -∗ wp frame (wpE ((K (F := F)).defs (D (F := F))) 𝒱 (T d) none) Set.univ (k ⟨⟩) Φ)
          -∗ wp frame (wpE ((K (F := F)).defs (D (F := F))) 𝒱 (T d) none) Set.univ (StableHlo.seq hostB >>= k) Φ) :=
  StableHlo.wp_seq (defs := (K (F := F)).defs (D (F := F))) 𝒱 none Set.univ d (Pipeline.ucRefs τ sig) k hostB hostB_sub
    (fun op h => (List.forall_iff_forall_mem.mp hostB_fresh) op h) V

set_option backward.isDefEq.respectTransparency.types false in
/-- The last reshape, with any continuation. -/
theorem tail_hostC (d : Dev nD) (V : Valuation τ sig (Elt F)) {β : Type}
    (k : PUnit → Prog (TpuEff nD τ sig (Elt F) (SparseCore.Sig (ΛP (F := F)) 1) .tc) β) (Φ : β → sProp (MM F)) :
    iprop(boundary (T d) ∗ StableHlo.held (T d) (Pipeline.ucRefs τ sig) V)
      ⊢ iprop((iprop(boundary (T d) ∗ StableHlo.held (T d) (Pipeline.ucRefs τ sig) (StableHlo.after hostC V))
            -∗ wp frame (wpE ((K (F := F)).defs (D (F := F))) 𝒱 (T d) none) Set.univ (k ⟨⟩) Φ)
          -∗ wp frame (wpE ((K (F := F)).defs (D (F := F))) 𝒱 (T d) none) Set.univ (StableHlo.seq hostC >>= k) Φ) :=
  StableHlo.wp_seq (defs := (K (F := F)).defs (D (F := F))) 𝒱 none Set.univ d (Pipeline.ucRefs τ sig) k hostC hostC_sub
    (fun op h => (List.forall_iff_forall_mem.mp hostC_fresh) op h) V

/-- The last reshape as the last statement: the buffers held at the valuation after it. -/
theorem tail_hostC_last (d : Dev nD) (V : Valuation τ sig (Elt F)) (Φ : PUnit → sProp (MM F)) :
    iprop(boundary (T d) ∗ StableHlo.held (T d) (Pipeline.ucRefs τ sig) V
        ∗ (iprop(boundary (T d) ∗ StableHlo.held (T d) (Pipeline.ucRefs τ sig) (StableHlo.after hostC V)) -∗ Φ ⟨⟩))
      ⊢ wp frame (wpE ((K (F := F)).defs (D (F := F))) 𝒱 (T d) none) Set.univ
          (StableHlo.seq hostC : Prog (TpuEff nD τ sig (Elt F) (SparseCore.Sig (ΛP (F := F)) 1) .tc) PUnit) Φ := by
  have e : (StableHlo.seq hostC : Prog (TpuEff nD τ sig (Elt F) (SparseCore.Sig (ΛP (F := F)) 1) .tc) PUnit)
      = StableHlo.seq hostC >>= fun _ => pure ⟨⟩ := (bind_pure _).symm
  rw [e]
  iintro ⟨Hbd, Hh, Hk⟩
  iapply (tail_hostC (F := F) d V (fun _ => pure ⟨⟩) Φ) $$ [Hbd Hh]
  · isplitl [Hbd]; · iexact Hbd
    iexact Hh
  iintro H
  rw [show (pure ⟨⟩ : Prog (TpuEff nD τ sig (Elt F) (SparseCore.Sig (ΛP (F := F)) 1) .tc) PUnit) = .ret ⟨⟩ from rfl, wp_ret]
  imodintro
  iapply Hk
  iexact H

/-! ## The tower pipeline -/

/-- A set of recorded pairs within the bound of call 1 and the pipeline's own pairs lies below the call's level. -/
theorem wbelow_of_bound (d : Dev nD) (W : Dev nD → Valuation τ sig (Elt F)) (t : Fin (cfg2.N + 1)) (W' : Waits sig (HIx 1))
    (h : (↑W' : Set (SemLoc sig × HIx 1)) ⊆ (Mlp.dat (Seg.refsOf W) ((K (F := F)).Otc d 1) (Bn (F := F) d 1) d).bound none t) :
    (K (F := F)).WBelow (T d) W' 8 := by
  intro p hp
  rcases h hp with hb | ⟨w, s, rfl⟩
  · exact le_of_le_of_eq hb (Nat.mul_one 8)
  · rw [(K (F := F)).lev_none]; exact Nat.zero_le _

/-- A set of recorded pairs below the call's level lies within the bound the pipeline is entered with. -/
theorem bound_of_wbelow (d : Dev nD) (W : Dev nD → Valuation τ sig (Elt F)) (t : Fin (cfg2.N + 1)) (Wt : Waits sig (HIx 1))
    (h : (K (F := F)).WBelow (T d) Wt 8) :
    (↑Wt : Set (SemLoc sig × HIx 1)) ⊆ (Mlp.dat (Seg.refsOf W) ((K (F := F)).Otc d 1) (Bn (F := F) d 1) d).bound none t :=
  fun p hp => Or.inl (le_of_le_of_eq (h p hp) (Nat.mul_one 8).symm)

set_option maxHeartbeats 2000000 in
set_option backward.isDefEq.respectTransparency.types false in
/-- The tower pipeline entered from the buffers held at `W d`, with any continuation: it leaves them held with its output
    at the function of its inputs it computes, what the thread owes unchanged, its recorded pairs still below the call's
    level. -/
theorem tail_region (κ : GSem nD τ sig → ℕ) (d : Dev nD) (W : Dev nD → Valuation τ sig (Elt F)) (Wt : Waits sig (HIx 1))
    (hWt : (K (F := F)).WBelow (T d) Wt 8) {α : Type}
    (k : PUnit → Prog (TpuEff nD τ sig (Elt F) (SparseCore.Sig (ΛP (F := F)) 1) .tc) α) (Φ : α → sProp (MM F)) :
    iprop((K (F := F)).ctx (EH (F := F)) (PP m G8u G8i R9u R9i) κ ∗ boundary (T d)
        ∗ StableHlo.held (T d) (Pipeline.ucRefs τ sig) (W d) ∗ owes (T d) ((K (F := F)).Otc d 1) Wt ∗ pipeGhost (F := F) 1 d
        ∗ (iprop(boundary (T d) ∗ StableHlo.held (T d) (Pipeline.ucRefs τ sig) (Seg.W1out W d)
              ∗ ∃ W', ⌜(K (F := F)).WBelow (T d) W' 8⌝ ∗ owes (T d) ((K (F := F)).Otc d 1) W')
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  have hR : iprop((iprop(boundary (T d) ∗ (StableHlo.held (d : Thread nD τ) (Pipeline.ucRefs τ sig) (Seg.W1out W d)
            ∗ (Mlp.dat (Seg.refsOf W) ((K (F := F)).Otc d 1) (Bn (F := F) d 1) d).owesAt none (Fin.last cfg2.N)))
          -∗ wp frame (wpE ((K (F := F)).defs (D (F := F))) 𝒱 (T d) none) Set.univ (k ⟨⟩) Φ)
        ∗ boundary (T d)
        ∗ (StableHlo.held (d : Thread nD τ) (Pipeline.ucRefs τ sig) (W d)
            ∗ (Mlp.dat (Seg.refsOf W) ((K (F := F)).Otc d 1) (Bn (F := F) d 1) d).owesAt none 0)
        ∗ levAts (K (F := F)).L (K (F := F)).lev ∗ pipeGhost (F := F) 1 d)
      ⊢ wp frame (wpE ((K (F := F)).defs (D (F := F))) 𝒱 (T d) none) Set.univ
          (Prog.lift (.customCall (SparseCore.inner (Pipeline.entry 1)) ()) >>= k) Φ :=
    Region.wp_region (F := F) (p := 1) (Seg.fam W ((K (F := F)).Otc d 1) (Bn (F := F) d 1))
      (Seg.reg1 W ((K (F := F)).Otc d 1) (Bn (F := F) d 1) (Otc_none (F := F) d 1)) d k Φ
  iintro ⟨#Hctx, Hbd, Hh, HO, Hg, Hk⟩
  iapply hR
  isplitl [Hk]
  · iintro ⟨Hbd, Hh, %W', %hW', HO⟩
    iapply Hk
    isplitl [Hbd]; · iexact Hbd
    isplitl [Hh]; · iexact Hh
    iexists W'
    isplitr
    · ipureintro; exact wbelow_of_bound (F := F) d W _ W' hW'
    · iexact HO
  isplitl [Hbd]; · iexact Hbd
  isplitl [Hh HO]
  · isplitl [Hh]; · iexact Hh
    iexists Wt
    isplitr
    · ipureintro; exact bound_of_wbelow (F := F) d W _ Wt hWt
    · iexact HO
  isplitr
  · iapply (SparseCore.Cfg.ctx_levAts κ); iexact Hctx
  iexact Hg

set_option maxHeartbeats 2000000 in
set_option backward.isDefEq.respectTransparency.types false in
/-- THE TAIL of the host program on device `d`, from the state after the call. -/
theorem stage_tail (hfinal : HFinal m R9u R9i Q17) (κ : GSem nD τ sig → ℕ) (d : Dev nD)
    (G0 : Buf (Elt F) ((d : Thread nD τ).loc main_v8_0)) (G1 : Buf (Elt F) ((d : Thread nD τ).loc main_v8_1))
    (gu : Buf (Elt F) ((d : Thread nD τ).loc main_v9_0)) (gi : Buf (Elt F) ((d : Thread nD τ).loc main_v9_1))
    (h9u : ∀ b : Fin 16384, R9u b (fun l => gu (ix2 b l))) (h9i : ∀ b : Fin 16384, R9i b (fun l => gi (ix2 b l)))
    (Wt : Waits sig (HIx 1)) (hWt : (K (F := F)).WBelow (T d) Wt 8) :
    iprop((K (F := F)).ctx (EH (F := F)) (PP m G8u G8i R9u R9i) κ ∗ boundary (T d)
        ∗ StableHlo.held (T d) (Pipeline.ucRefs τ sig) (V3 m d G0 G1 gu gi)
        ∗ owes (T d) ((K (F := F)).Otc d 1) Wt ∗ pipeGhost (F := F) 1 d)
      ⊢ wp frame (wpE ((K (F := F)).defs (D (F := F))) 𝒱 (T d) none) Set.univ
          (StableHlo.seq hostB >>= fun _ => Prog.lift (.customCall (SparseCore.inner (Pipeline.entry 1)) ()) >>= fun _ => StableHlo.seq hostC)
          (fun _ => iprop((∃ W', ⌜(K (F := F)).WBelow (T d) W' 8⌝ ∗ owes (T d) ((K (F := F)).Otc d 1) W') ∗ FIN m Q17 d)) := by
  iintro ⟨#Hctx, Hbd, Hh, HO, Hg⟩
  iapply (tail_hostB (F := F) d (V3 m d G0 G1 gu gi)
    (fun _ => Prog.lift (.customCall (SparseCore.inner (Pipeline.entry 1)) ()) >>= fun _ => StableHlo.seq hostC)
    (fun _ => iprop((∃ W', ⌜(K (F := F)).WBelow (T d) W' 8⌝ ∗ owes (T d) ((K (F := F)).Otc d 1) W') ∗ FIN m Q17 d))) $$ [Hbd Hh]
  · isplitl [Hbd]; · iexact Hbd
    iexact Hh
  iintro ⟨Hbd, Hh⟩
  iapply (tail_region m G8u G8i R9u R9i κ d (fun d => VB m d G0 G1 gu gi) Wt hWt (fun _ => StableHlo.seq hostC)
    (fun _ => iprop((∃ W', ⌜(K (F := F)).WBelow (T d) W' 8⌝ ∗ owes (T d) ((K (F := F)).Otc d 1) W') ∗ FIN m Q17 d)))
  isplitr; · iexact Hctx
  isplitl [Hbd]; · iexact Hbd
  isplitl [Hh]; · iexact Hh
  isplitl [HO]; · iexact HO
  isplitl [Hg]; · iexact Hg
  iintro ⟨Hbd, Hh, HW⟩
  iapply (tail_hostC_last (F := F) d (V5 m d G0 G1 gu gi)
    (fun _ => iprop((∃ W', ⌜(K (F := F)).WBelow (T d) W' 8⌝ ∗ owes (T d) ((K (F := F)).Otc d 1) W') ∗ FIN m Q17 d)))
  isplitl [Hbd]; · iexact Hbd
  isplitl [Hh]; · iexact Hh
  iintro ⟨-, Hh⟩
  isplitl [HW]; · iexact HW
  unfold FIN
  iexists (VC m d G0 G1 gu gi)
  isplitr
  · ipureintro; exact ⟨argsKept m d G0 G1 gu gi, hfinal d G0 G1 gu gi h9u h9i⟩
  · iexact Hh

end Cert.Kernel.Main

end
-- ==== Proof.B.ScMain.lean ====
/-
  The host program on the matrix unit's processor, run: its head, the call to the sparse processors and its tail, each
  proved by itself for any continuation, composed; the thread's handshake state is opened at what it owes around each
  block pipeline and closed again around the call.
-/
import proofs.«204570_g59167469470423_cont_9to1_m_669_24_alg».proof.Proof.B.ScStageHead
import proofs.«204570_g59167469470423_cont_9to1_m_669_24_alg».proof.Proof.B.ScStageCall
import proofs.«204570_g59167469470423_cont_9to1_m_669_24_alg».proof.Proof.B.ScStageTail

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-- What follows the first pipeline. -/
abbrev afterPack (d : Dev nD) : Prog (TpuEff nD τ sig (Elt F) (SparseCore.Sig (ΛP (F := F)) 1) .tc) PUnit :=
  (K (F := F)).run d 0 >>= fun _ => StableHlo.seq hostB >>= fun _ =>
    Prog.lift (.customCall (SparseCore.inner (Pipeline.entry 1)) ()) >>= fun _ => StableHlo.seq hostC

set_option maxHeartbeats 2000000 in
set_option backward.isDefEq.respectTransparency.types false in
/-- The call and the tail, from the packed tables: the thread's handshake state before the call, the held buffers, the
    region boundary and the second pipeline's launch ghost state. -/
theorem call_then_tail (hfinal : HFinal m R9u R9i Q17) (κ : GSem nD τ sig → ℕ) (d : Dev nD)
    (G0 : Buf (Elt F) ((d : Thread nD τ).loc main_v8_0)) (G1 : Buf (Elt F) ((d : Thread nD τ).loc main_v8_1)) (h8u : G8u G0) (h8i : G8i G1) :
    iprop((K (F := F)).ctx (EH (F := F)) (PP m G8u G8i R9u R9i) κ ∗ (K (F := F)).tcSt (EH (F := F)) d 0
        ∗ StableHlo.held (T d) (Pipeline.ucRefs τ sig) (V2 m d G0 G1) ∗ boundary (T d) ∗ pipeGhost (F := F) 1 d)
      ⊢ wp frame (wpE ((K (F := F)).defs (D (F := F))) 𝒱 (T d) none) Set.univ (afterPack (F := F) d)
          fun _ => iprop((K (F := F)).tcSt (EH (F := F)) d 1 ∗ FIN m Q17 d) := by
  iintro ⟨#Hctx, Hst, Hh, Hbd, Hg1⟩
  iapply (stage_call m G8u G8i R9u R9i κ d G0 G1 h8u h8i _ _)
  isplitr; · iexact Hctx
  isplitl [Hst]; · iexact Hst
  isplitl [Hh]; · iexact Hh
  iintro %gu %gi %hf ⟨Hst1, Hh⟩
  ihave Hst1' := (Entails.of_eq (tcSt_eq (F := F) d 1)) $$ Hst1
  icases Hst1' with ⟨⟨%W1, %hW1, HO⟩, Hrest1⟩
  iapply (wp_wand_r frame _ Set.univ)
  isplitl [Hbd Hh HO Hg1]
  · iapply (stage_tail m G8u G8i R9u R9i Q17 hfinal κ d G0 G1 gu gi hf.1 hf.2 W1 hW1)
    isplitr; · iexact Hctx
    isplitl [Hbd]; · iexact Hbd
    isplitl [Hh]; · iexact Hh
    isplitl [HO]; · iexact HO
    iexact Hg1
  · iintro %_ ⟨HO', HF⟩
    isplitl [HO' Hrest1]
    · iapply (Entails.of_eq (tcSt_eq (F := F) d 1).symm)
      isplitl [HO']; · iexact HO'
      iexact Hrest1
    iexact HF

set_option maxHeartbeats 2000000 in
set_option backward.isDefEq.respectTransparency.types false in
/-- THE HOST PROGRAM on device `d`: from what the launch deals its thread to its handshake state after the one call and
    the final assertion. -/
theorem hmain (hpack : HPack m G8u G8i) (hfinal : HFinal m R9u R9i Q17) (hU : ∀ d j, (uid m d j).toNat ≤ 99999)
    (κ : GSem nD τ sig → ℕ) (d : Dev nD) :
    iprop((K (F := F)).ctx (EH (F := F)) (PP m G8u G8i R9u R9i) κ ∗ (K (F := F)).tcSt (EH (F := F)) d 0 ∗ (K (F := F)).tcRes m ρ d ∗ G (F := F) d)
      ⊢ wp frame (wpE ((K (F := F)).defs (D (F := F))) 𝒱 (T d) none) Set.univ (main (F := F) d)
          fun _ => iprop((K (F := F)).tcSt (EH (F := F)) d 1 ∗ FIN m Q17 d) := by
  have hk : ∀ (G0 : Buf (Elt F) ((d : Thread nD τ).loc main_v8_0)) (G1 : Buf (Elt F) ((d : Thread nD τ).loc main_v8_1)) (Wt' : Waits sig (HIx 1)),
      G8u G0 → G8i G1 → (K (F := F)).WBelow (T d) Wt' (8 * 0) →
      iprop(iprop((K (F := F)).ctx (EH (F := F)) (PP m G8u G8i R9u R9i) κ ∗ tcRest (F := F) d 0 ∗ pipeGhost (F := F) 1 d)
          ∗ boundary (T d) ∗ StableHlo.held (T d) (Pipeline.ucRefs τ sig) (V2 m d G0 G1) ∗ owes (T d) ((K (F := F)).Otc d 0) Wt')
        ⊢ wp frame (wpE ((K (F := F)).defs (D (F := F))) 𝒱 (T d) none) Set.univ (afterPack (F := F) d)
            fun _ => iprop((K (F := F)).tcSt (EH (F := F)) d 1 ∗ FIN m Q17 d) := by
    intro G0 G1 Wt' h8u h8i hW'
    iintro ⟨⟨#Hctx, Hrest, Hg1⟩, Hbd, Hh, HO⟩
    iapply (call_then_tail m G8u G8i R9u R9i Q17 hfinal κ d G0 G1 h8u h8i)
    isplitr; · iexact Hctx
    isplitl [HO Hrest]
    · iapply (Entails.of_eq (tcSt_eq (F := F) d 0).symm)
      isplitl [HO]
      · iexists Wt'; isplitr; · ipureintro; exact hW'
        iexact HO
      iexact Hrest
    isplitl [Hh]; · iexact Hh
    isplitl [Hbd]; · iexact Hbd
    iexact Hg1
  rw [main_eq]
  unfold SparseCore.Cfg.tcRes
  iintro ⟨#Hctx, Hst, ⟨Hbd, Hub, -, -⟩, ⟨Hg0, Hg1⟩⟩
  ihave Hh := (unscoped_held m d) $$ Hub
  ihave Hst' := (Entails.of_eq (tcSt_eq (F := F) d 0)) $$ Hst
  icases Hst' with ⟨⟨%Wt, %hWt, HO⟩, Hrest⟩
  iapply (stage_head m G8u G8i R9u R9i hpack κ d Wt hWt _ _ _ hk)
  isplitr; · iexact Hctx
  isplitl [Hbd]; · iexact Hbd
  isplitl [Hh]; · iexact Hh
  isplitl [HO]; · iexact HO
  isplitl [Hg0]; · iexact Hg0
  isplitr; · iexact Hctx
  isplitl [Hrest]; · iexact Hrest
  iexact Hg1

end Cert.Kernel.Main

end
-- ==== Proof.B.TileSetup.lean ====
/-
  The tile's own storage, named: its eight transfer semaphores at zero and its four scratch buffers, taken out of the
  subcore's scoped storage; and the arrays as the tile's memrefs address them.
-/
import proofs.«204570_g59167469470423_cont_9to1_m_669_24_alg».proof.Proof.B.TileDefs
import proofs.«204570_g59167469470423_cont_9to1_m_669_24_alg».proof.Proof.B.ScBase

noncomputable section

namespace Cert.Kernel.Tile

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-- A big star over a finite set splits along a subset. -/
theorem bigSep_split_subset {I : Type} [DecidableEq I] {s t : Finset I} (h : t ⊆ s) (Φ : I → sProp (MM F)) :
    bigSep s Φ = iprop(bigSep t Φ ∗ bigSep (s \ t) Φ) := by
  conv_lhs => rw [← Finset.union_sdiff_of_subset h]
  exact SparseCore.bigSep_union' Finset.disjoint_sdiff

theorem ref_ni0 : (cc1_scratch0 : Ref sig .scVector) ∉ ({cc1_scratch1, cc1_scratch2, cc1_scratch3} : Finset (Ref sig .scVector)) := by decide
theorem ref_ni1 : (cc1_scratch1 : Ref sig .scVector) ∉ ({cc1_scratch2, cc1_scratch3} : Finset (Ref sig .scVector)) := by decide
theorem ref_ni2 : (cc1_scratch2 : Ref sig .scVector) ∉ ({cc1_scratch3} : Finset (Ref sig .scVector)) := by decide

section Own

variable (d : Dev nD) (L : grid1.Coords)

/-- One of the tile's transfer semaphores, as a cell. -/
abbrev semOf (sm : DmaSems sig S_) : GSem nD τ sig := (thr d L, .dma sm.sem)

/-- The eight semaphores the kernel is passed. -/
def sems8 : Finset (SemLoc sig) :=
  {.dma cc1_scratch4.sem, .dma cc1_scratch5.sem, .dma cc1_scratch6.sem, .dma cc1_scratch7.sem,
   .dma cc1_scoped0.sem, .dma cc1_scoped1.sem, .dma cc1_scoped2.sem, .dma cc1_scoped3.sem}

/-- The tile's eight cells. -/
def cells8 : Finset (GSem nD τ sig) := sems8.image fun sm => ((thr d L, sm) : GSem nD τ sig)

theorem cells8_sub : cells8 d L ⊆ ownCells (thr d L) := by
  intro g hg
  obtain ⟨sm, hsm, rfl⟩ := Finset.mem_image.mp hg
  rw [mem_ownCells]
  have hsc : ∀ sm ∈ (sems8 : Finset (SemLoc sig)), sm.isScoped .scVector = true := by decide
  exact ⟨rfl, hsc sm hsm⟩

theorem ownSems0_V8 :
    (ownSems0 (thr d L) : sProp (MM F))
      = iprop((semVal (semOf d L cc1_scratch4) 0 ∗ semVal (semOf d L cc1_scratch5) 0 ∗ semVal (semOf d L cc1_scratch6) 0
          ∗ semVal (semOf d L cc1_scratch7) 0 ∗ semVal (semOf d L cc1_scoped0) 0 ∗ semVal (semOf d L cc1_scoped1) 0
          ∗ semVal (semOf d L cc1_scoped2) 0 ∗ semVal (semOf d L cc1_scoped3) 0)
          ∗ bigSep (ownCells (thr d L) \ cells8 d L) fun g => semVal g 0) := by
  unfold SparseCore.Cfg.ownSems0
  rw [bigSep_split_subset (cells8_sub d L)]
  unfold cells8
  rw [SparseCore.bigSep_image_of_injOn (fun a _ b _ e => (Prod.mk.inj e).2)]
  unfold sems8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The four scratch buffers the kernel is passed. -/
def refs4 : Finset (Ref sig .scVector) := {cc1_scratch0, cc1_scratch1, cc1_scratch2, cc1_scratch3}

/-- The tile's four scratch buffers, as buffers of the device. -/
def bufs4 : Finset (DevRef τ sig) := refs4.image fun b => (Proc.scVector (cV L) (jV L)).devRef b

theorem bufs4_sub : bufs4 L ⊆ ownRefs (τ := τ) (.scVector (cV L) (jV L)) := by
  intro b hb
  obtain ⟨r, hr, rfl⟩ := Finset.mem_image.mp hb
  simp only [refs4, Finset.mem_insert, Finset.mem_singleton] at hr
  rcases hr with rfl | rfl | rfl | rfl <;> exact SparseCore.Cfg.mem_ownRefs_of_owner rfl

theorem ownBufs_V4 :
    (ownBufs (thr d L) : sProp (MM F))
      = iprop(((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f))
          ∗ bigSep (ownRefs (τ := τ) (.scVector (cV L) (jV L)) \ bufs4 L) fun b => iprop(∃ f, ((d, b) : Loc nD τ sig) ↦{fullShare} f)) := by
  unfold SparseCore.Cfg.ownBufs
  refine (bigSep_split_subset (bufs4_sub L) _).trans ?_
  unfold bufs4
  rw [SparseCore.bigSep_image_of_injOn (fun a _ b _ e => Proc.devRef_injective _ e)]
  unfold refs4
  rw [SparseCore.bigSep_insert' ref_ni0, SparseCore.bigSep_insert' ref_ni1, SparseCore.bigSep_insert' ref_ni2, bigSep_singleton]

end Own

/-! ## The arrays as the tile's memrefs address them -/

section Spell

variable (d : Dev nD) (L : grid1.Coords)

/-- The kernel's operands, as the body table passes them. -/
abbrev uidW : Memref sig .scVector .hbm S16384 .i32 := Memref.whole main_arg0_scv
abbrev iidW : Memref sig .scVector .hbm S16384 .i32 := Memref.whole main_arg1_scv
abbrev utW : Memref sig .scVector .hbm S50176x128 .f32 := Memref.whole main_v8_0_scv
abbrev itW : Memref sig .scVector .hbm S50176x128 .f32 := Memref.whole main_v8_1_scv
abbrev ouW : Memref sig .scVector .hbm S16384x128 .f32 := Memref.whole main_v9_0_scv
abbrev oiW : Memref sig .scVector .hbm S16384x128 .f32 := Memref.whole main_v9_1_scv
abbrev sU : Memref sig .scVector .vmem S256 .i32 := Memref.whole cc1_scratch0
abbrev sI : Memref sig .scVector .vmem S256 .i32 := Memref.whole cc1_scratch1
abbrev rU : Memref sig .scVector .vmem S256x128 .f32 := Memref.whole cc1_scratch2
abbrev rI : Memref sig .scVector .vmem S256x128 .f32 := Memref.whole cc1_scratch3

/-- The output chunks as the program slices them. -/
abbrev ouC0 : Memref sig .scVector .hbm S256x128 .f32 := ouW.slice (oRect0 L) (fun _ => rfl)
abbrev ouC1 : Memref sig .scVector .hbm S256x128 .f32 := ouW.slice (oRect1 L) (fun _ => rfl)
abbrev oiC0 : Memref sig .scVector .hbm S256x128 .f32 := oiW.slice (oRect0 L) (fun _ => rfl)
abbrev oiC1 : Memref sig .scVector .hbm S256x128 .f32 := oiW.slice (oRect1 L) (fun _ => rfl)

theorem pts_uid (q : PosShare TreeShare) (f : Buf (Elt F) (uidLoc d)) :
    ((uidW).view.loc (thr d L) ↦{q} f : sProp (MM F)) = uidLoc d ↦{q} f := by simp only [Memref.view_whole, View.set_whole]
theorem pts_iid (q : PosShare TreeShare) (f : Buf (Elt F) (iidLoc d)) :
    ((iidW).view.loc (thr d L) ↦{q} f : sProp (MM F)) = iidLoc d ↦{q} f := by simp only [Memref.view_whole, View.set_whole]
theorem pts_ut (q : PosShare TreeShare) (f : Buf (Elt F) (utLoc d)) :
    ((utW).view.loc (thr d L) ↦{q} f : sProp (MM F)) = utLoc d ↦{q} f := by simp only [Memref.view_whole, View.set_whole]
theorem pts_it (q : PosShare TreeShare) (f : Buf (Elt F) (itLoc d)) :
    ((itW).view.loc (thr d L) ↦{q} f : sProp (MM F)) = itLoc d ↦{q} f := by simp only [Memref.view_whole, View.set_whole]

theorem set_ouC0 : (ouC0 L).view.set = oSet L 0 := by
  show ((View.whole (main_v9_0_scv : Ref sig .scVector)).slice (oRect0 L)).set = (oRect0 L).set
  rw [View.set_slice]; exact Finset.map_refl
theorem set_ouC1 : (ouC1 L).view.set = oSet L 1 := by
  show ((View.whole (main_v9_0_scv : Ref sig .scVector)).slice (oRect1 L)).set = (oRect1 L).set
  rw [View.set_slice]; exact Finset.map_refl
theorem set_oiC0 : (oiC0 L).view.set = oSet L 0 := by
  show ((View.whole (main_v9_1_scv : Ref sig .scVector)).slice (oRect0 L)).set = (oRect0 L).set
  rw [View.set_slice]; exact Finset.map_refl
theorem set_oiC1 : (oiC1 L).view.set = oSet L 1 := by
  show ((View.whole (main_v9_1_scv : Ref sig .scVector)).slice (oRect1 L)).set = (oRect1 L).set
  rw [View.set_slice]; exact Finset.map_refl

theorem pts_ouC0 (f : Buf (Elt F) (ouLoc d)) :
    ((ouC0 L).view.loc (thr d L) ↦[(ouC0 L).view.set]{fullShare} f : sProp (MM F)) = ouLoc d ↦[oSet L 0]{fullShare} f := by rw [set_ouC0]
theorem pts_ouC1 (f : Buf (Elt F) (ouLoc d)) :
    ((ouC1 L).view.loc (thr d L) ↦[(ouC1 L).view.set]{fullShare} f : sProp (MM F)) = ouLoc d ↦[oSet L 1]{fullShare} f := by rw [set_ouC1]
theorem pts_oiC0 (f : Buf (Elt F) (oiLoc d)) :
    ((oiC0 L).view.loc (thr d L) ↦[(oiC0 L).view.set]{fullShare} f : sProp (MM F)) = oiLoc d ↦[oSet L 0]{fullShare} f := by rw [set_oiC0]
theorem pts_oiC1 (f : Buf (Elt F) (oiLoc d)) :
    ((oiC1 L).view.loc (thr d L) ↦[(oiC1 L).view.set]{fullShare} f : sProp (MM F)) = oiLoc d ↦[oSet L 1]{fullShare} f := by rw [set_oiC1]

theorem pts_sU (f : Buf (Elt F) ((thr d L).loc cc1_scratch0)) :
    ((sU).view.loc (thr d L) ↦{fullShare} f : sProp (MM F)) = (thr d L).loc cc1_scratch0 ↦{fullShare} f := rfl
theorem pts_sI (f : Buf (Elt F) ((thr d L).loc cc1_scratch1)) :
    ((sI).view.loc (thr d L) ↦{fullShare} f : sProp (MM F)) = (thr d L).loc cc1_scratch1 ↦{fullShare} f := rfl
theorem pts_rU (f : Buf (Elt F) ((thr d L).loc cc1_scratch2)) :
    ((rU).view.loc (thr d L) ↦{fullShare} f : sProp (MM F)) = (thr d L).loc cc1_scratch2 ↦{fullShare} f := rfl
theorem pts_rI (f : Buf (Elt F) ((thr d L).loc cc1_scratch3)) :
    ((rI).view.loc (thr d L) ↦{fullShare} f : sProp (MM F)) = (thr d L).loc cc1_scratch3 ↦{fullShare} f := rfl

end Spell

end Cert.Kernel.Tile

end
-- ==== Proof.B.TileFold.lean ====
/-
  The fold on words: what the kernel's compare-subtract-select computes on an id, and that under the id bound it is the
  fold on numbers and names a row of the packed table.
-/
import proofs.«204570_g59167469470423_cont_9to1_m_669_24_alg».proof.Proof.B.TileDefs

noncomputable section

namespace Cert.Kernel.Tile

open Cert.Kernel Cert.Kernel.Gen
open Idealize.ShloMosaic

variable {F : FTy → Type} [FloatOps F]

/-- The kernel's fold of one id: the id if it is below 50176 as a signed word, else the id less 50176. -/
def foldW (w : BitVec 32) : BitVec 32 := Scalar.select (IntOp.cmpi .slt w 50176#32) w (IntOp.subi w 50176#32)

theorem k1_pay1_apply (v : Vec F S16 .i32) (j : S16.Idx) : k1_pay1 v j = foldW (v j) := by
  unfold k1_pay1 foldW; simp only [shapeCast, select, cmpi, subi, broadcast, Shape.reshapeEquiv_self]
theorem k1_pay2_apply (v : Vec F S16 .i32) (j : S16.Idx) : k1_pay2 v j = foldW (v j) := by
  unfold k1_pay2 foldW; simp only [shapeCast, select, cmpi, subi, broadcast, Shape.reshapeEquiv_self]
theorem k1_pay3_apply (v : Vec F S16 .i32) (j : S16.Idx) : k1_pay3 v j = foldW (v j) := by
  unfold k1_pay3 foldW; simp only [shapeCast, select, cmpi, subi, broadcast, Shape.reshapeEquiv_self]
theorem k1_pay4_apply (v : Vec F S16 .i32) (j : S16.Idx) : k1_pay4 v j = foldW (v j) := by
  unfold k1_pay4 foldW; simp only [shapeCast, select, cmpi, subi, broadcast, Shape.reshapeEquiv_self]

/-- Under the id bound the folded word's value is the folded number. -/
theorem foldW_toNat {w : BitVec 32} (h : w.toNat ≤ 99999) : (foldW w).toNat = foldN w := by
  unfold foldW foldN
  have hs : w.slt 50176#32 = decide (w.toNat < 50176) := by
    rw [BitVec.slt_eq_decide]
    simp only [BitVec.toInt_eq_toNat_cond, BitVec.toNat_ofNat]
    congr 1; apply propext; constructor <;> intro h' <;> omega
  by_cases hlt : w.toNat < 50176
  · have : IntOp.cmpi .slt w 50176#32 = 1#1 := by simp [IntOp.cmpi, hs, hlt]
    rw [this, if_pos hlt]; rfl
  · have : IntOp.cmpi .slt w 50176#32 = 0#1 := by simp [IntOp.cmpi, hs, hlt]
    rw [this, if_neg hlt]
    show (w - 50176#32).toNat = _
    rw [BitVec.toNat_sub]; simp only [BitVec.toNat_ofNat]; omega

/-- and it names a row of the packed table. -/
theorem foldW_lt {w : BitVec 32} (h : w.toNat ≤ 99999) : (foldW w).toNat < 50176 := by
  rw [foldW_toNat h]; unfold foldN; split <;> omega

theorem foldW_row {w : BitVec 32} (h : w.toNat ≤ 99999) : (⟨(foldW w).toNat, foldW_lt h⟩ : Fin 50176) = foldRow w :=
  Fin.ext (by rw [foldRow_val h]; exact foldW_toNat h)

end Cert.Kernel.Tile

end
-- ==== Proof.B.TileLoop.lean ====
/-
  The fold loop on an id scratch: after k trips the lanes below 16 k are folded and the rest are as fetched; one trip
  takes k to k + 1; after sixteen every lane is folded and, under the id bound, names a row of the packed table.
-/
import proofs.«204570_g59167469470423_cont_9to1_m_669_24_alg».proof.Proof.B.TileSetup
import proofs.«204570_g59167469470423_cont_9to1_m_669_24_alg».proof.Proof.B.TileFold
import Idealize.ShloMosaic.Lib.Writes

noncomputable section

namespace Cert.Kernel.Tile

open Cert.Kernel Cert.Kernel.Gen Cert.Kernel.Base
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type}

/-- An id scratch after k trips of the fold loop: the lanes below 16 k folded, the rest as fetched. -/
def foldBuf (ids : S256.Idx → BitVec 32) (k : ℕ) : S256.Idx → BitVec 32 :=
  fun j => if (j 0).val < 16 * k then foldW (ids j) else ids j

theorem foldBuf_zero (ids : S256.Idx → BitVec 32) : foldBuf ids 0 = ids := by
  funext j; unfold foldBuf; rw [if_neg (by omega)]

theorem foldBuf_all (ids : S256.Idx → BitVec 32) : foldBuf ids 16 = fun j => foldW (ids j) := by
  funext j; unfold foldBuf; rw [if_pos (by have := (j 0).isLt; show (j 0).val < 256; exact this)]

theorem foldBuf_all_lt (ids : S256.Idx → BitVec 32) (h : ∀ j, (ids j).toNat ≤ 99999) (x : S256.Idx) :
    (foldBuf ids 16 x).toNat < 50176 := by
  rw [foldBuf_all]; exact foldW_lt (h x)

/-- One trip on the first id scratch. -/
theorem foldBuf_step_sU (ids : S256.Idx → BitVec 32) (k : ℕ) (off : Fin 1 → ℕ) (hoff : off = ![16 * k])
    (inb : ∀ a, off a + S16.size a ≤ S256.size a) (w : S16.Idx → BitVec 32)
    (hw : ∀ x, w x = foldW (foldBuf ids k ((Rect.unit (s := S256) off S16.size inb).emb x))) :
    (sU).view.writes (Elt F) (foldBuf ids k) [⟨Rect.unit (s := S256) off S16.size inb, w⟩] = foldBuf ids (k + 1) := by
  subst hoff
  funext i
  by_cases hi : i ∈ (Rect.unit (s := S256) ![16 * k] S16.size inb).set
  · rw [← Rect.map_emb_univ] at hi
    obtain ⟨x, -, rfl⟩ := Finset.mem_map.mp hi
    have h1 := View.read_writes_cons_emb (v := (sU).view) (Val := Elt F) (f := foldBuf ids k) (Rect.unit (s := S256) ![16 * k] S16.size inb) w [] x
    have e : (((Rect.unit (s := S256) ![16 * k] S16.size inb).emb x) 0 : ℕ) = 16 * k + (x 0).val := by
      rw [Rect.emb_apply]; simp
    have hx : (x 0).val < 16 := (x 0).isLt
    refine h1.trans ?_
    rw [hw x]; unfold foldBuf
    rw [if_neg (by omega), if_pos (by omega)]
  · have h2 := View.read_writes_apply_of_forall_not_mem (v := (sU).view) (Val := Elt F) (f := foldBuf ids k) i
      [⟨Rect.unit (s := S256) ![16 * k] S16.size inb, w⟩] (by
        intro p hp; rw [List.mem_singleton] at hp; subst hp; exact hi)
    refine h2.trans ?_
    rw [Rect.mem_set_unit] at hi
    have hi' : ¬ (16 * k ≤ (i 0).val ∧ (i 0).val < 16 * k + 16) := fun h => hi (fun a => by
      obtain rfl : a = 0 := Subsingleton.elim _ _
      simpa using h)
    show foldBuf ids k i = foldBuf ids (k + 1) i
    unfold foldBuf
    by_cases hlt : (i 0).val < 16 * k
    · rw [if_pos hlt, if_pos (by omega)]
    · rw [if_neg hlt, if_neg (by omega)]

/-- One trip on the second id scratch. -/
theorem foldBuf_step_sI (ids : S256.Idx → BitVec 32) (k : ℕ) (off : Fin 1 → ℕ) (hoff : off = ![16 * k])
    (inb : ∀ a, off a + S16.size a ≤ S256.size a) (w : S16.Idx → BitVec 32)
    (hw : ∀ x, w x = foldW (foldBuf ids k ((Rect.unit (s := S256) off S16.size inb).emb x))) :
    (sI).view.writes (Elt F) (foldBuf ids k) [⟨Rect.unit (s := S256) off S16.size inb, w⟩] = foldBuf ids (k + 1) := by
  subst hoff
  funext i
  by_cases hi : i ∈ (Rect.unit (s := S256) ![16 * k] S16.size inb).set
  · rw [← Rect.map_emb_univ] at hi
    obtain ⟨x, -, rfl⟩ := Finset.mem_map.mp hi
    have h1 := View.read_writes_cons_emb (v := (sI).view) (Val := Elt F) (f := foldBuf ids k) (Rect.unit (s := S256) ![16 * k] S16.size inb) w [] x
    have e : (((Rect.unit (s := S256) ![16 * k] S16.size inb).emb x) 0 : ℕ) = 16 * k + (x 0).val := by
      rw [Rect.emb_apply]; simp
    have hx : (x 0).val < 16 := (x 0).isLt
    refine h1.trans ?_
    rw [hw x]; unfold foldBuf
    rw [if_neg (by omega), if_pos (by omega)]
  · have h2 := View.read_writes_apply_of_forall_not_mem (v := (sI).view) (Val := Elt F) (f := foldBuf ids k) i
      [⟨Rect.unit (s := S256) ![16 * k] S16.size inb, w⟩] (by
        intro p hp; rw [List.mem_singleton] at hp; subst hp; exact hi)
    refine h2.trans ?_
    rw [Rect.mem_set_unit] at hi
    have hi' : ¬ (16 * k ≤ (i 0).val ∧ (i 0).val < 16 * k + 16) := fun h => hi (fun a => by
      obtain rfl : a = 0 := Subsingleton.elim _ _
      simpa using h)
    show foldBuf ids k i = foldBuf ids (k + 1) i
    unfold foldBuf
    by_cases hlt : (i 0).val < 16 * k
    · rw [if_pos hlt, if_pos (by omega)]
    · rw [if_neg hlt, if_neg (by omega)]

/-- A copy into the whole of an id scratch leaves exactly what was copied. -/
theorem pts_write_whole_sU (d : Dev nD) (L : grid1.Coords) (fs w : Buf (Elt F) ((thr d L).loc cc1_scratch0)) :
    ((sU).view.loc (thr d L) ↦{fullShare} View.write (Elt F) (Memref.whole cc1_scratch0).view fs w Finset.univ : Idealize.SL.BI.sProp (MM F))
      = ((sU).view.loc (thr d L) ↦{fullShare} w) := by
  have e : View.write (Elt F) (Memref.whole cc1_scratch0).view fs w Finset.univ = w := View.write_whole_univ (Val := Elt F) cc1_scratch0 fs w
  rw [e]
theorem pts_write_whole_sI (d : Dev nD) (L : grid1.Coords) (fs w : Buf (Elt F) ((thr d L).loc cc1_scratch1)) :
    ((sI).view.loc (thr d L) ↦{fullShare} View.write (Elt F) (Memref.whole cc1_scratch1).view fs w Finset.univ : Idealize.SL.BI.sProp (MM F))
      = ((sI).view.loc (thr d L) ↦{fullShare} w) := by
  have e : View.write (Elt F) (Memref.whole cc1_scratch1).view fs w Finset.univ = w := View.write_whole_univ (Val := Elt F) cc1_scratch1 fs w
  rw [e]

theorem inv_start_sU (d : Dev nD) (L : grid1.Coords) (fs w : Buf (Elt F) ((thr d L).loc cc1_scratch0)) :
    ((sU).view.loc (thr d L) ↦{fullShare} View.write (Elt F) (Memref.whole cc1_scratch0).view fs w Finset.univ : Idealize.SL.BI.sProp (MM F))
      = ((sU).view.loc (thr d L) ↦{fullShare} foldBuf w 0) := by
  rw [foldBuf_zero]; exact pts_write_whole_sU d L fs w
theorem inv_start_sI (d : Dev nD) (L : grid1.Coords) (fs w : Buf (Elt F) ((thr d L).loc cc1_scratch1)) :
    ((sI).view.loc (thr d L) ↦{fullShare} View.write (Elt F) (Memref.whole cc1_scratch1).view fs w Finset.univ : Idealize.SL.BI.sProp (MM F))
      = ((sI).view.loc (thr d L) ↦{fullShare} foldBuf w 0) := by
  rw [foldBuf_zero]; exact pts_write_whole_sI d L fs w

/-! ## The id chunks, as the program slices them, and what a fetch of one lands -/

abbrev uidC0 (L : grid1.Coords) : Memref sig .scVector .hbm S256 .i32 := uidW.slice (Rect.unit (s := S16384) (k1_off1 L 0#32) S256.size (k1_off1_inb L 0)) (fun _ => rfl)
abbrev uidC1 (L : grid1.Coords) : Memref sig .scVector .hbm S256 .i32 := uidW.slice (Rect.unit (s := S16384) (k1_off1 L 256#32) S256.size (k1_off1_inb L 1)) (fun _ => rfl)
abbrev iidC0 (L : grid1.Coords) : Memref sig .scVector .hbm S256 .i32 := iidW.slice (Rect.unit (s := S16384) (k1_off1 L 0#32) S256.size (k1_off1_inb L 0)) (fun _ => rfl)
abbrev iidC1 (L : grid1.Coords) : Memref sig .scVector .hbm S256 .i32 := iidW.slice (Rect.unit (s := S16384) (k1_off1 L 256#32) S256.size (k1_off1_inb L 1)) (fun _ => rfl)

/-- The 256 ids a fetch of chunk r lands in the id scratch. -/
def idsU (d : Dev nD) (L : grid1.Coords) (uid : Buf (Elt F) (uidLoc d)) : Fin 2 → S256.Idx → BitVec 32
  | 0 => ReadAs.same.apply ((uidC0 L).view.read (Elt F) uid)
  | 1 => ReadAs.same.apply ((uidC1 L).view.read (Elt F) uid)
def idsI (d : Dev nD) (L : grid1.Coords) (iid : Buf (Elt F) (iidLoc d)) : Fin 2 → S256.Idx → BitVec 32
  | 0 => ReadAs.same.apply ((iidC0 L).view.read (Elt F) iid)
  | 1 => ReadAs.same.apply ((iidC1 L).view.read (Elt F) iid)

end Cert.Kernel.Tile

end
-- ==== Proof.B.TileValue.lean ====
/-
  The value a gather leaves: with the id list folded, the element the gather delivers at position x of the row scratch is
  the element of gRow at the output index that x is copied to. Both the id chunk and the output chunk start at the same
  batch entry (the same word of the program), so no closed form of the offsets is needed.
-/
import proofs.«204570_g59167469470423_cont_9to1_m_669_24_alg».proof.Proof.B.TileLoop

noncomputable section

namespace Cert.Kernel.Tile

open Cert.Kernel Cert.Kernel.Gen Cert.Kernel.Base
open Idealize.ShloMosaic Idealize.ShloMosaic.ValueIdx

variable {F : FTy → Type}

/-- In a list of 256 entries, row-major order is the entry's position. -/
theorem rowMajor_symm_val (k : Fin S256.numel) : ((S256.rowMajor.symm k) 0).val = k.val := by
  have h := Shape.rowMajor_val_one (d := ![256]) (S256.rowMajor.symm k)
  rw [Equiv.apply_symm_apply] at h; exact h.symm

/-- Reading, at any position, contents whose last write was a piece covering the whole view gives that piece. -/
theorem writes_whole_read {κ : Kind} {sp : Space} {s : Shape} {e : EltTy} (v : View sig κ sp s e) (g : v.ty.Contents (Elt F))
    (P : s.Idx → Elt F e) (rest : List (View.Piece (Elt F) s e)) (x : s.Idx) :
    v.read (Elt F) (v.writes (Elt F) g (⟨Rect.whole s, P⟩ :: rest)) x = P x := by
  have h := View.read_writes_cons_emb (v := v) (Val := Elt F) (f := g) (Rect.whole s) P rest x
  rwa [Rect.emb_whole_apply] at h

/-- The element a gather over a folded id list delivers at position x is gRow at any output index with x's row, offset by
    the chunk's first batch entry, and x's lane. -/
theorem gather_gRow (L : grid1.Coords) (c : BitVec 32) (f8 : S50176x128.Idx → Elt F .f32) (ids : S16384.Idx → BitVec 32)
    (hb : ∀ j, (ids j).toNat ≤ 99999) (lst : S256.Idx → BitVec 32)
    (hn : S256.numel = S256x128.size gathers_S50176x128_S256x128.axis')
    (hin : ∀ x, (lst x).toNat < S50176x128.size gathers_S50176x128_S256x128.axis)
    (hlst : ∀ j : S256.Idx, ∃ J : S16384.Idx, (J 0).val = k1_off1 L c 0 + (j 0).val ∧ lst j = foldW (ids J))
    (x : S256x128.Idx) (i : S16384x128.Idx) (hi0 : (i 0).val = k1_off4 L c 0 + (x 0).val) (hi1 : (i 1).val = (x 1).val) :
    SparseCore.gatherPayload gathers_S50176x128_S256x128 f8 (SparseCore.rows (F := F) lst hn hin) x = gRow f8 ids i := by
  unfold SparseCore.gatherPayload gRow
  congr 1
  funext b
  apply Fin.ext
  match b with
  | ⟨0, hb0⟩ =>
    have h0 := Shape.Gathers.idx_axis gathers_S50176x128_S256x128 (SparseCore.rows (F := F) lst hn hin) x
    have e0 : (gathers_S50176x128_S256x128.idx (SparseCore.rows (F := F) lst hn hin) x ⟨0, hb0⟩).val
        = (SparseCore.rows (F := F) lst hn hin (x gathers_S50176x128_S256x128.axis')).val := congrArg Fin.val h0
    refine e0.trans ?_
    unfold SparseCore.rows
    obtain ⟨J, hJ0, hJ⟩ := hlst (S256.rowMajor.symm ((x gathers_S50176x128_S256x128.axis').cast hn.symm))
    show (lst _).toNat = (foldRow (ids (ix1 (i 0)))).val
    rw [hJ, foldW_toNat (hb J), foldRow_val (hb _)]
    have eJ : J = ix1 (i 0) := by
      funext a
      obtain rfl : a = 0 := Subsingleton.elim _ _
      apply Fin.ext
      rw [hJ0, rowMajor_symm_val]
      show k1_off1 L c 0 + (x 0).val = (i 0).val
      rw [hi0]; rfl
    exact congrArg (fun J => foldN (ids J)) eJ
  | ⟨1, hb1⟩ =>
    have h1 := Shape.Gathers.idx_of_ne gathers_S50176x128_S256x128 (SparseCore.rows (F := F) lst hn hin) x ⟨1, hb1⟩ (by show (1 : ℕ) ≠ 0; omega)
    refine h1.trans ?_
    show (x 1).val = (i 1).val
    exact hi1.symm

/-- The gather's source, a slice of the packed table at offset zero and full size, reads the table itself. -/
theorem read_src_u (d : Dev nD) (f8 : Buf (Elt F) (utLoc d)) :
    (utW.slice (Rect.unit (s := S50176x128) ![0, 0] S50176x128.size inb_S50176x128_S50176x128_0_0) (fun _ => rfl)).view.read (Elt F) f8 = f8 := by
  funext y
  refine (View.read_apply _ _).trans ((cast_eq _ _).trans (congrArg f8 ?_))
  funext b; apply Fin.ext
  show (![0, 0] : Fin 2 → ℕ) b + 1 * (y b).val = (y b).val
  match b with
  | ⟨0, _⟩ => simp
  | ⟨1, _⟩ => simp
theorem read_src_i (d : Dev nD) (f8 : Buf (Elt F) (itLoc d)) :
    (itW.slice (Rect.unit (s := S50176x128) ![0, 0] S50176x128.size inb_S50176x128_S50176x128_0_0) (fun _ => rfl)).view.read (Elt F) f8 = f8 := by
  funext y
  refine (View.read_apply _ _).trans ((cast_eq _ _).trans (congrArg f8 ?_))
  funext b; apply Fin.ext
  show (![0, 0] : Fin 2 → ℕ) b + 1 * (y b).val = (y b).val
  match b with
  | ⟨0, _⟩ => simp
  | ⟨1, _⟩ => simp

/-- Contents whose last write covered all of ouC0 agree, on the chunk, with any whole-array function the written piece
    reads off at the chunk's positions. -/
theorem chunk_congr_ouC0 (L : grid1.Coords) (g0 : (ouC0 L).view.ty.Contents (Elt F)) (P : S256x128.Idx → Elt F .f32)
    (rest : List (View.Piece (Elt F) S256x128 .f32)) (T : S16384x128.Idx → Elt F .f32) (hP : ∀ x, P x = T ((oRect0 L).emb x)) :
    ∀ i ∈ oSet L 0, ((ouC0 L).view.writes (Elt F) g0 (⟨Rect.whole S256x128, P⟩ :: rest)) i = T i := by
  intro i hi
  have hi' : i ∈ (oRect0 L).set := hi
  rw [← Rect.map_emb_univ] at hi'
  obtain ⟨x, -, rfl⟩ := Finset.mem_map.mp hi'
  have h := writes_whole_read (F := F) (v := (ouC0 L).view) g0 P rest x
  rw [View.read_apply] at h
  exact ((cast_eq _ _).symm.trans h).trans (hP x)

/-- Contents whose last write covered all of ouC1 agree, on the chunk, with any whole-array function the written piece
    reads off at the chunk's positions. -/
theorem chunk_congr_ouC1 (L : grid1.Coords) (g0 : (ouC1 L).view.ty.Contents (Elt F)) (P : S256x128.Idx → Elt F .f32)
    (rest : List (View.Piece (Elt F) S256x128 .f32)) (T : S16384x128.Idx → Elt F .f32) (hP : ∀ x, P x = T ((oRect1 L).emb x)) :
    ∀ i ∈ oSet L 1, ((ouC1 L).view.writes (Elt F) g0 (⟨Rect.whole S256x128, P⟩ :: rest)) i = T i := by
  intro i hi
  have hi' : i ∈ (oRect1 L).set := hi
  rw [← Rect.map_emb_univ] at hi'
  obtain ⟨x, -, rfl⟩ := Finset.mem_map.mp hi'
  have h := writes_whole_read (F := F) (v := (ouC1 L).view) g0 P rest x
  rw [View.read_apply] at h
  exact ((cast_eq _ _).symm.trans h).trans (hP x)

/-- Contents whose last write covered all of oiC0 agree, on the chunk, with any whole-array function the written piece
    reads off at the chunk's positions. -/
theorem chunk_congr_oiC0 (L : grid1.Coords) (g0 : (oiC0 L).view.ty.Contents (Elt F)) (P : S256x128.Idx → Elt F .f32)
    (rest : List (View.Piece (Elt F) S256x128 .f32)) (T : S16384x128.Idx → Elt F .f32) (hP : ∀ x, P x = T ((oRect0 L).emb x)) :
    ∀ i ∈ oSet L 0, ((oiC0 L).view.writes (Elt F) g0 (⟨Rect.whole S256x128, P⟩ :: rest)) i = T i := by
  intro i hi
  have hi' : i ∈ (oRect0 L).set := hi
  rw [← Rect.map_emb_univ] at hi'
  obtain ⟨x, -, rfl⟩ := Finset.mem_map.mp hi'
  have h := writes_whole_read (F := F) (v := (oiC0 L).view) g0 P rest x
  rw [View.read_apply] at h
  exact ((cast_eq _ _).symm.trans h).trans (hP x)

/-- Contents whose last write covered all of oiC1 agree, on the chunk, with any whole-array function the written piece
    reads off at the chunk's positions. -/
theorem chunk_congr_oiC1 (L : grid1.Coords) (g0 : (oiC1 L).view.ty.Contents (Elt F)) (P : S256x128.Idx → Elt F .f32)
    (rest : List (View.Piece (Elt F) S256x128 .f32)) (T : S16384x128.Idx → Elt F .f32) (hP : ∀ x, P x = T ((oRect1 L).emb x)) :
    ∀ i ∈ oSet L 1, ((oiC1 L).view.writes (Elt F) g0 (⟨Rect.whole S256x128, P⟩ :: rest)) i = T i := by
  intro i hi
  have hi' : i ∈ (oRect1 L).set := hi
  rw [← Rect.map_emb_univ] at hi'
  obtain ⟨x, -, rfl⟩ := Finset.mem_map.mp hi'
  have h := writes_whole_read (F := F) (v := (oiC1 L).view) g0 P rest x
  rw [View.read_apply] at h
  exact ((cast_eq _ _).symm.trans h).trans (hP x)

/-- The element the gather delivers at position x, for a folded list fetched from the id chunk at word c, is gRow at the
    position of the output chunk at the same word. -/
theorem gather_chunk (L : grid1.Coords) (c : BitVec 32) (inbI : ∀ a, k1_off1 L c a + S256.size a ≤ S16384.size a)
    (inbO : ∀ a, k1_off4 L c a + S256x128.size a ≤ S16384x128.size a)
    (f8 : S50176x128.Idx → Elt F .f32) (ids : S16384.Idx → BitVec 32) (hb : ∀ j, (ids j).toNat ≤ 99999)
    (fetched : S256.Idx → BitVec 32) (hf : ∀ j, fetched j = ids ((Rect.unit (s := S16384) (k1_off1 L c) S256.size inbI).emb j))
    (hn : S256.numel = S256x128.size gathers_S50176x128_S256x128.axis')
    (hin : ∀ x, (foldBuf fetched 16 x).toNat < S50176x128.size gathers_S50176x128_S256x128.axis) (x : S256x128.Idx) :
    SparseCore.gatherPayload gathers_S50176x128_S256x128 f8 (SparseCore.rows (F := F) (foldBuf fetched 16) hn hin) x
      = gRow f8 ids ((Rect.unit (s := S16384x128) (k1_off4 L c) S256x128.size inbO).emb x) := by
  refine gather_gRow (F := F) L c f8 ids hb (foldBuf fetched 16) hn hin
    (fun j => ⟨(Rect.unit (s := S16384) (k1_off1 L c) S256.size inbI).emb j, ?_, ?_⟩) x _ ?_ ?_
  · show k1_off1 L c 0 + 1 * (j 0).val = _; omega
  · rw [foldBuf_all]
    show foldW (fetched j) = _
    rw [hf]
  · show k1_off4 L c 0 + 1 * (x 0).val = _; omega
  · show k1_off4 L c 1 + 1 * (x 1).val = _
    have : k1_off4 L c 1 = 0 := rfl
    omega

end Cert.Kernel.Tile

end
-- ==== Proof.B.TileBody.lean ====
/-
  The tile's task, run once at a symbolic place: from the id arrays and packed tables read-shared and the tile's two
  chunks of both outputs, to the same shares back and the chunks holding the gathered rows.

  The order of the task, twice (chunk 0, then chunk 1): fetch 256 user ids into the first id scratch and wait; fold
  them in place, sixteen lanes a trip; start the gather of the rows they name from the packed user table into the first
  row scratch; fetch, fold and start the gather for the item ids likewise; wait for the user gather and start copying
  the first row scratch out to the chunk of the user output; wait for the item gather and start copying the second row
  scratch out to the chunk of the item output; wait for both copies. Each of the eight transfers completes on a
  semaphore that carries nothing else at the time, and no buffer is touched between a transfer's start and its wait, so
  every step is one of the schedule-free protocol. The loops go by an invariant on the id scratch (lanes below 16 k
  folded); after sixteen trips every lane is folded, which under the id bound is the in-range fact the gather asks for.
  At the end each output chunk holds one whole-chunk piece, the row scratch read back, and that piece is, position by
  position, the table row at the folded id.
-/
import proofs.«204570_g59167469470423_cont_9to1_m_669_24_alg».proof.Proof.B.TileSetup
import proofs.«204570_g59167469470423_cont_9to1_m_669_24_alg».proof.Proof.B.TileValue

noncomputable section

namespace Cert.Kernel.Tile

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Body

variable (d : Dev nD) (L : grid1.Coords) (q : PosShare TreeShare)
variable (uid : Buf (Elt F) (uidLoc d)) (iid : Buf (Elt F) (iidLoc d))
variable (f8u : Buf (Elt F) (utLoc d)) (f8i : Buf (Elt F) (itLoc d))

/-- What the task starts from, at explicit contents of the packed tables and of the output chunks. -/
def tileIn (gu0 gu1 : Buf (Elt F) (ouLoc d)) (gi0 gi1 : Buf (Elt F) (oiLoc d)) : sProp (MM F) :=
  iprop((uidLoc d ↦{q} uid) ∗ (iidLoc d ↦{q} iid) ∗ (utLoc d ↦{q} f8u) ∗ (itLoc d ↦{q} f8i)
    ∗ (ouLoc d ↦[oSet L 0]{fullShare} gu0) ∗ (ouLoc d ↦[oSet L 1]{fullShare} gu1)
    ∗ (oiLoc d ↦[oSet L 0]{fullShare} gi0) ∗ (oiLoc d ↦[oSet L 1]{fullShare} gi1))

/-- What it ends with: the shares at the same contents, the chunks at the gathered rows. -/
def tileOut : sProp (MM F) :=
  iprop((uidLoc d ↦{q} uid) ∗ (iidLoc d ↦{q} iid) ∗ (utLoc d ↦{q} f8u) ∗ (itLoc d ↦{q} f8i)
    ∗ (ouLoc d ↦[oSet L 0]{fullShare} gRow f8u uid) ∗ (ouLoc d ↦[oSet L 1]{fullShare} gRow f8u uid)
    ∗ (oiLoc d ↦[oSet L 0]{fullShare} gRow f8i iid) ∗ (oiLoc d ↦[oSet L 1]{fullShare} gRow f8i iid))

/-- The loop invariant on the first id scratch. -/
def inv1 (ids : S256.Idx → BitVec 32) (k : ℕ) (_ : BitVec 32) : sProp (MM F) :=
  iprop((sU).view.loc (thr d L) ↦{fullShare} foldBuf ids k)

/-- The loop invariant on the second id scratch. -/
def inv2 (ids : S256.Idx → BitVec 32) (k : ℕ) (_ : BitVec 32) : sProp (MM F) :=
  iprop((sI).view.loc (thr d L) ↦{fullShare} foldBuf ids k)

/-- The task on vector subcore (L 0, L 1) of device d. -/
theorem tile_body (hF : (K (F := F)).Facts) (hU : ∀ j, (uid j).toNat ≤ 99999) (hI : ∀ j, (iid j).toNat ≤ 99999)
    (gu0 gu1 : Buf (Elt F) (ouLoc d)) (gi0 gi1 : Buf (Elt F) (oiLoc d))
    (O : CellTallies nD τ sig (HIx 1)) (W : Waits sig (HIx 1)) (hO : ∀ g, O g none = 0) :
    iprop(levAts (K (F := F)).L (K (F := F)).lev ∗ emp ∗ tileIn d L q uid iid f8u f8i gu0 gu1 gi0 gi1
        ∗ scopedBufs (thr d L) ∗ scopedSems0 (thr d L) ∗ owes (thr d L) O W)
      ⊢ wp frame (wpE (defs₀ (F := F)) 𝒱₀ (thr d L) none) Set.univ
          (cc1_k L (Memref.whole main_arg0_scv) (Memref.isWhole_whole _) (Memref.whole main_arg1_scv) (Memref.isWhole_whole _)
            (Memref.whole main_v8_0_scv) (Memref.isWhole_whole _) (Memref.whole main_v8_1_scv) (Memref.isWhole_whole _)
            (Memref.whole main_v9_0_scv) (Memref.isWhole_whole _) (Memref.whole main_v9_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          fun _ => iprop(tileOut d L q uid iid f8u f8i ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  unfold tileIn tileOut
  rw [(K (F := F)).scopedBufs_V hF d (cV L) (jV L), SparseCore.Cfg.scopedSems0_V (Val := Elt F) d (cV L) (jV L), ownSems0_V8, ownBufs_V4]
  iintro ⟨#Hlv, -, ⟨Hu, Hi, Hut, Hit, Hou0, Hou1, Hoi0, Hoi1⟩, ⟨⟨⟨%fs0, Hs0⟩, ⟨%fs1, Hs1⟩, ⟨%fs2, Hs2⟩, ⟨%fs3, Hs3⟩⟩, Hbufs⟩,
    ⟨⟨H4, H5, H6, H7, Hc0, Hc1, Hc2, Hc3⟩, Hsems⟩, HO⟩
  ihave Hmw := ((K (F := F)).mayWaits_none (thr := thr d L) hO) $$ Hlv
  ihave Hu := (Entails.of_eq (pts_uid (F := F) d L q _).symm) $$ Hu
  ihave Hi := (Entails.of_eq (pts_iid (F := F) d L q _).symm) $$ Hi
  ihave Hut := (Entails.of_eq (pts_ut (F := F) d L q _).symm) $$ Hut
  ihave Hit := (Entails.of_eq (pts_it (F := F) d L q _).symm) $$ Hit
  ihave Hou0 := (Entails.of_eq (pts_ouC0 (F := F) d L _).symm) $$ Hou0
  ihave Hou1 := (Entails.of_eq (pts_ouC1 (F := F) d L _).symm) $$ Hou1
  ihave Hoi0 := (Entails.of_eq (pts_oiC0 (F := F) d L _).symm) $$ Hoi0
  ihave Hoi1 := (Entails.of_eq (pts_oiC1 (F := F) d L _).symm) $$ Hoi1
  ihave Hs0 := (Entails.of_eq (pts_sU (F := F) d L _).symm) $$ Hs0
  ihave Hs1 := (Entails.of_eq (pts_sI (F := F) d L _).symm) $$ Hs1
  ihave Hs2 := (Entails.of_eq (pts_rU (F := F) d L _).symm) $$ Hs2
  ihave Hs3 := (Entails.of_eq (pts_rI (F := F) d L _).symm) $$ Hs3
  sl_exec
  sl_for (inv1 (F := F) d L (idsU d L uid 0)) $$ [Hs0]
  case region =>
    intro k _
    unfold inv1
    iintro Hs0
    sl_exec
    sl_step
    rw [foldBuf_step_sU (F := F) (idsU d L uid 0) k.val (k1_off2 k) (k1_off2_eq k) (k1_off2_inb k) _ (fun x => by
      show k1_pay1 (View.readAt (Elt F) (sU).view (Rect.unit (s := S256) (k1_off2 k) S16.size (k1_off2_inb k)).toLoadRect (foldBuf (idsU d L uid 0) k.val)) x = _
      rw [k1_pay1_apply]; rfl)]
    iexact Hs0
  · unfold inv1
    iapply (Entails.of_eq (inv_start_sU (F := F) d L _ _)); iexact Hs0
  iintro %_ Hs0
  unfold inv1
  have hinU0 : ∀ x, ((sU).view.read (Elt F) (foldBuf (idsU d L uid 0) 16) x).toNat < S50176x128.size gathers_S50176x128_S256x128.axis :=
    fun x => foldBuf_all_lt _ (fun j => hU _) x
  sl_exec
  sl_for (inv2 (F := F) d L (idsI d L iid 0)) $$ [Hs1]
  case region =>
    intro k _
    unfold inv2
    iintro Hs1
    sl_exec
    sl_step
    rw [foldBuf_step_sI (F := F) (idsI d L iid 0) k.val (k1_off3 k) (k1_off3_eq k) (k1_off3_inb k) _ (fun x => by
      show k1_pay2 (View.readAt (Elt F) (sI).view (Rect.unit (s := S256) (k1_off3 k) S16.size (k1_off3_inb k)).toLoadRect (foldBuf (idsI d L iid 0) k.val)) x = _
      rw [k1_pay2_apply]; rfl)]
    iexact Hs1
  · unfold inv2
    iapply (Entails.of_eq (inv_start_sI (F := F) d L _ _)); iexact Hs1
  iintro %_ Hs1
  unfold inv2
  have hinI0 : ∀ x, ((sI).view.read (Elt F) (foldBuf (idsI d L iid 0) 16) x).toNat < S50176x128.size gathers_S50176x128_S256x128.axis :=
    fun x => foldBuf_all_lt _ (fun j => hI _) x
  sl_exec
  sl_for (inv1 (F := F) d L (idsU d L uid 1)) $$ [Hs0]
  case region =>
    intro k _
    unfold inv1
    iintro Hs0
    sl_exec
    sl_step
    rw [foldBuf_step_sU (F := F) (idsU d L uid 1) k.val (k1_off5 k) (k1_off5_eq k) (k1_off5_inb k) _ (fun x => by
      show k1_pay3 (View.readAt (Elt F) (sU).view (Rect.unit (s := S256) (k1_off5 k) S16.size (k1_off5_inb k)).toLoadRect (foldBuf (idsU d L uid 1) k.val)) x = _
      rw [k1_pay3_apply]; rfl)]
    iexact Hs0
  · unfold inv1
    iapply (Entails.of_eq (inv_start_sU (F := F) d L _ _)); iexact Hs0
  iintro %_ Hs0
  unfold inv1
  have hinU1 : ∀ x, ((sU).view.read (Elt F) (foldBuf (idsU d L uid 1) 16) x).toNat < S50176x128.size gathers_S50176x128_S256x128.axis :=
    fun x => foldBuf_all_lt _ (fun j => hU _) x
  sl_exec
  sl_for (inv2 (F := F) d L (idsI d L iid 1)) $$ [Hs1]
  case region =>
    intro k _
    unfold inv2
    iintro Hs1
    sl_exec
    sl_step
    rw [foldBuf_step_sI (F := F) (idsI d L iid 1) k.val (k1_off6 k) (k1_off6_eq k) (k1_off6_inb k) _ (fun x => by
      show k1_pay4 (View.readAt (Elt F) (sI).view (Rect.unit (s := S256) (k1_off6 k) S16.size (k1_off6_inb k)).toLoadRect (foldBuf (idsI d L iid 1) k.val)) x = _
      rw [k1_pay4_apply]; rfl)]
    iexact Hs1
  · unfold inv2
    iapply (Entails.of_eq (inv_start_sI (F := F) d L _ _)); iexact Hs1
  iintro %_ Hs1
  unfold inv2
  have hinI1 : ∀ x, ((sI).view.read (Elt F) (foldBuf (idsI d L iid 1) 16) x).toNat < S50176x128.size gathers_S50176x128_S256x128.axis :=
    fun x => foldBuf_all_lt _ (fun j => hI _) x
  sl_exec
  sl_step
  isplitl [Hu Hi Hut Hit Hou0 Hou1 Hoi0 Hoi1]
  · isplitl [Hu]; · iapply (Entails.of_eq (pts_uid (F := F) d L q _)); iexact Hu
    isplitl [Hi]; · iapply (Entails.of_eq (pts_iid (F := F) d L q _)); iexact Hi
    isplitl [Hut]; · iapply (Entails.of_eq (pts_ut (F := F) d L q _)); iexact Hut
    isplitl [Hit]; · iapply (Entails.of_eq (pts_it (F := F) d L q _)); iexact Hit
    isplitl [Hou0]
    · iapply (Entails.of_eq ((pts_ouC0 (F := F) d L _).trans (pointsTo_congr (chunk_congr_ouC0 (F := F) L _ _ _ (gRow f8u uid) ?hPu0))))
      rotate_left
      · iexact Hou0
      intro x
      refine (writes_whole_read (F := F) (v := (rU).view) _ _ _ x).trans ?_
      show SparseCore.gatherPayload gathers_S50176x128_S256x128 ((utW.slice (Rect.unit (s := S50176x128) ![0, 0] S50176x128.size inb_S50176x128_S50176x128_0_0) (fun _ => rfl)).view.read (Elt F) f8u)
          (SparseCore.rows (F := F) (foldBuf (idsU d L uid 0) 16) _ hinU0) x = _
      rw [read_src_u]
      exact gather_chunk (F := F) L 0#32 (k1_off1_inb L 0) (k1_off4_inb L 0) f8u uid hU (idsU d L uid 0)
        (fun j => (View.read_apply _ _).trans (cast_eq _ _)) _ hinU0 x
    isplitl [Hou1]
    · iapply (Entails.of_eq ((pts_ouC1 (F := F) d L _).trans (pointsTo_congr (chunk_congr_ouC1 (F := F) L _ _ _ (gRow f8u uid) ?hPu1))))
      rotate_left
      · iexact Hou1
      intro x
      refine (writes_whole_read (F := F) (v := (rU).view) _ _ _ x).trans ?_
      show SparseCore.gatherPayload gathers_S50176x128_S256x128 ((utW.slice (Rect.unit (s := S50176x128) ![0, 0] S50176x128.size inb_S50176x128_S50176x128_0_0) (fun _ => rfl)).view.read (Elt F) f8u)
          (SparseCore.rows (F := F) (foldBuf (idsU d L uid 1) 16) _ hinU1) x = _
      rw [read_src_u]
      exact gather_chunk (F := F) L 256#32 (k1_off1_inb L 1) (k1_off4_inb L 1) f8u uid hU (idsU d L uid 1)
        (fun j => (View.read_apply _ _).trans (cast_eq _ _)) _ hinU1 x
    isplitl [Hoi0]
    · iapply (Entails.of_eq ((pts_oiC0 (F := F) d L _).trans (pointsTo_congr (chunk_congr_oiC0 (F := F) L _ _ _ (gRow f8i iid) ?hPi0))))
      rotate_left
      · iexact Hoi0
      intro x
      refine (writes_whole_read (F := F) (v := (rI).view) _ _ _ x).trans ?_
      show SparseCore.gatherPayload gathers_S50176x128_S256x128 ((itW.slice (Rect.unit (s := S50176x128) ![0, 0] S50176x128.size inb_S50176x128_S50176x128_0_0) (fun _ => rfl)).view.read (Elt F) f8i)
          (SparseCore.rows (F := F) (foldBuf (idsI d L iid 0) 16) _ hinI0) x = _
      rw [read_src_i]
      exact gather_chunk (F := F) L 0#32 (k1_off1_inb L 0) (k1_off4_inb L 0) f8i iid hI (idsI d L iid 0)
        (fun j => (View.read_apply _ _).trans (cast_eq _ _)) _ hinI0 x
    · iapply (Entails.of_eq ((pts_oiC1 (F := F) d L _).trans (pointsTo_congr (chunk_congr_oiC1 (F := F) L _ _ _ (gRow f8i iid) ?hPi1))))
      rotate_left
      · iexact Hoi1
      intro x
      refine (writes_whole_read (F := F) (v := (rI).view) _ _ _ x).trans ?_
      show SparseCore.gatherPayload gathers_S50176x128_S256x128 ((itW.slice (Rect.unit (s := S50176x128) ![0, 0] S50176x128.size inb_S50176x128_S50176x128_0_0) (fun _ => rfl)).view.read (Elt F) f8i)
          (SparseCore.rows (F := F) (foldBuf (idsI d L iid 1) 16) _ hinI1) x = _
      rw [read_src_i]
      exact gather_chunk (F := F) L 256#32 (k1_off1_inb L 1) (k1_off4_inb L 1) f8i iid hI (idsI d L iid 1)
        (fun j => (View.read_apply _ _).trans (cast_eq _ _)) _ hinI1 x
  isplitl [Hs0 Hs1 Hs2 Hs3 Hbufs]
  · isplitl [Hs0 Hs1 Hs2 Hs3]
    · isplitl [Hs0]; · iexists _; iexact Hs0
      isplitl [Hs1]; · iexists _; iexact Hs1
      isplitl [Hs2]; · iexists _; iexact Hs2
      iexists _; iexact Hs3
    · iexact Hbufs
  isplitl [H4 H5 H6 H7 Hc0 Hc1 Hc2 Hc3 Hsems]
  · isplitl [H4 H5 H6 H7 Hc0 Hc1 Hc2 Hc3]
    · isplitl [H4]; · iexact H4
      isplitl [H5]; · iexact H5
      isplitl [H6]; · iexact H6
      isplitl [H7]; · iexact H7
      isplitl [Hc0]; · iexact Hc0
      isplitl [Hc1]; · iexact Hc1
      isplitl [Hc2]; · iexact Hc2
      iexact Hc3
    · iexact Hsems
  iexists _; isplitr
  rotate_left
  · iexact HO
  · ipureintro; intro p hp
    simp only [Finset.mem_insert] at hp
    rcases hp with rfl | rfl | rfl | rfl | rfl | rfl | rfl | rfl | rfl | rfl | rfl | rfl | hp
    all_goals first | exact .inr rfl | exact .inl hp

end Body

end Cert.Kernel.Tile

end
-- ==== Proof.B.TileObl.lean ====
/-
  The tile's obligation to the launch theorem: handed its payload, the tile's kernel runs and hands the result payload
  back. The packed tables arrive at some admissible contents; the rows the tile leaves are rows of those tables, so they
  are as claimed by the linking hypotheses.
-/
import proofs.«204570_g59167469470423_cont_9to1_m_669_24_alg».proof.Proof.B.TileBody
import proofs.«204570_g59167469470423_cont_9to1_m_669_24_alg».proof.Proof.B.ScPay

noncomputable section

namespace Cert.Kernel.Tile

open Cert.Kernel Cert.Kernel.Gen Cert.Kernel.Base

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's row of the body table, on a vector subcore. -/
theorem defs₀_vector (c : Fin τ.nSC) (s : Fin τ.nSub) :
    defs₀ (F := F) (.scVector c s) 1 ()
      = SparseCore.onTile hcore1 hsub1 (fun c s => cc1_k (fun | 0 => c | 1 => s | ⟨_ + 2, h⟩ => absurd h (Nat.not_lt.2 (Nat.le_add_left _ _)))
          (Memref.whole main_arg0_scv) (Memref.isWhole_whole _) (Memref.whole main_arg1_scv) (Memref.isWhole_whole _)
          (Memref.whole main_v8_0_scv) (Memref.isWhole_whole _) (Memref.whole main_v8_1_scv) (Memref.isWhole_whole _)
          (Memref.whole main_v9_0_scv) (Memref.isWhole_whole _) (Memref.whole main_v9_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scoped0 cc1_scoped1 cc1_scoped2 cc1_scoped3) ⟨⟩ c s := rfl

section

variable (G8u G8i : (S50176x128.Idx → Elt F .f32) → Prop) (R9u R9i : Fin 16384 → (Fin 128 → Elt F .f32) → Prop)
variable (uid : (d : Dev nD) → Buf (Elt F) (uidLoc d)) (iid : (d : Dev nD) → Buf (Elt F) (iidLoc d))

/-- The rows of a chunk of the gathered output are as claimed, the table being admissible. -/
theorem rowsOK_gRow {G8 : (S50176x128.Idx → Elt F .f32) → Prop} {R9 : Fin 16384 → (Fin 128 → Elt F .f32) → Prop}
    (ids : S16384.Idx → BitVec 32) (hlink : ∀ f8, G8 f8 → ∀ b : Fin 16384, R9 b (fun l => f8 (ix2 (foldRow (ids (ix1 b))) l)))
    (f8 : S50176x128.Idx → Elt F .f32) (h8 : G8 f8) (L : grid1.Coords) (r : ℕ) : RowsOK L R9 r (gRow f8 ids) :=
  fun b _ _ => hlink f8 h8 b

/-- What the task ends with is what the call takes back. -/
theorem post_weaken (d : Dev nD) (L : grid1.Coords) (q : PosShare TreeShare)
    (hlinkU : ∀ f8, G8u f8 → ∀ b : Fin 16384, R9u b (fun l => f8 (ix2 (foldRow (uid d (ix1 b))) l)))
    (hlinkI : ∀ f8, G8i f8 → ∀ b : Fin 16384, R9i b (fun l => f8 (ix2 (foldRow (iid d (ix1 b))) l)))
    (f8u : Buf (Elt F) (utLoc d)) (f8i : Buf (Elt F) (itLoc d)) (hu : G8u f8u) (hi : G8i f8i)
    {A B : sProp (MM F)} {thr : Thread nD τ} {O : CellTallies nD τ sig (HIx 1)} {W : Waits sig (HIx 1)} {c : Fin 1} :
    iprop(tileOut d L q (uid d) (iid d) f8u f8i ∗ A ∗ B ∗ ∃ W', ⌜∀ p ∈ W', p ∈ W ∨ p.2 = none⌝ ∗ owes thr O W')
      ⊢ iprop(tileTd (UU := UU) G8u G8i R9u R9i d L q (uid d) (iid d) ∗ A ∗ B
          ∗ ∃ W', ⌜∀ p ∈ W', p ∈ W ∨ p.2 = none ∨ p.2 = some c⌝ ∗ owes thr O W') := by
  unfold tileOut tileTd
  iintro ⟨⟨Hu, Hi, Hut, Hit, Hou0, Hou1, Hoi0, Hoi1⟩, HA, HB, %W', %hW', HO⟩
  isplitl [Hu Hi Hut Hit Hou0 Hou1 Hoi0 Hoi1]
  · isplitl [Hu]; · iexact Hu
    isplitl [Hi]; · iexact Hi
    isplitl [Hut]; · iexists f8u; isplitr; · ipureintro; exact hu
                     iexact Hut
    isplitl [Hit]; · iexists f8i; isplitr; · ipureintro; exact hi
                     iexact Hit
    isplitl [Hou0]; · iexists _; isplitr; · ipureintro; exact rowsOK_gRow (uid d) hlinkU f8u hu L 0
                      iexact Hou0
    isplitl [Hou1]; · iexists _; isplitr; · ipureintro; exact rowsOK_gRow (uid d) hlinkU f8u hu L 1
                      iexact Hou1
    isplitl [Hoi0]; · iexists _; isplitr; · ipureintro; exact rowsOK_gRow (iid d) hlinkI f8i hi L 0
                      iexact Hoi0
    iexists _; isplitr; · ipureintro; exact rowsOK_gRow (iid d) hlinkI f8i hi L 1
    iexact Hoi1
  isplitl [HA]; · iexact HA
  isplitl [HB]; · iexact HB
  iexists W'; isplitr
  · ipureintro; exact fun p hp => (hW' p hp).imp_right Or.inl
  · iexact HO

theorem tileObl (hU : ∀ d j, (uid d j).toNat ≤ 99999) (hI : ∀ d j, (iid d j).toNat ≤ 99999)
    (hlinkU : ∀ d f8, G8u f8 → ∀ b : Fin 16384, R9u b (fun l => f8 (ix2 (foldRow (uid d (ix1 b))) l)))
    (hlinkI : ∀ d f8, G8i f8 → ∀ b : Fin 16384, R9i b (fun l => f8 (ix2 (foldRow (iid d (ix1 b))) l))) :
    (K (F := F)).TileObl (D (F := F)) 𝒱 (Pay.P G8u G8i R9u R9i uid iid) v₀ 0 := by
  intro d c i O W hO _ _
  simp only [Pay.P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [Pay.P_x, Pay.P_go, Pay.P_td]
  unfold Pay.go0 Pay.td0 tileGo
  show (_ : sProp (MM F)) ⊢ _
  iintro ⟨Hlv, He, ⟨Hu, Hi, ⟨%f8u, %hu, Hut⟩, ⟨%f8i, %hi, Hit⟩, ⟨%gu0, Hou0⟩, ⟨%gu1, Hou1⟩, ⟨%gi0, Hoi0⟩, ⟨%gi1, Hoi1⟩⟩, Hsb, Hss, HO⟩
  iapply ((tile_body (F := F) d (Pay.tileL (F := F) c i) (Pay.qOf (F := F) c i) (uid d) (iid d) f8u f8i facts (hU d) (hI d)
      gu0 gu1 gi0 gi1 O W hO).trans
    (wp_mono frame _ _ fun _ => post_weaken G8u G8i R9u R9i uid iid d (Pay.tileL (F := F) c i) (Pay.qOf (F := F) c i)
      (hlinkU d) (hlinkI d) f8u f8i hu hi)) $$ [Hlv He Hu Hi Hut Hit Hou0 Hou1 Hoi0 Hoi1 Hsb Hss HO]
  unfold tileIn
  isplitl [Hlv]; · iexact Hlv
  isplitl [He]; · iexact He
  isplitl [Hu Hi Hut Hit Hou0 Hou1 Hoi0 Hoi1]
  · isplitl [Hu]; · iexact Hu
    isplitl [Hi]; · iexact Hi
    isplitl [Hut]; · iexact Hut
    isplitl [Hit]; · iexact Hit
    isplitl [Hou0]; · iexact Hou0
    isplitl [Hou1]; · iexact Hou1
    isplitl [Hoi0]; · iexact Hoi0
    iexact Hoi1
  isplitl [Hsb]; · iexact Hsb
  isplitl [Hss]; · iexact Hss
  iexact HO

end

end Cert.Kernel.Tile

end
-- ==== Proof.B.ScRun.lean ====
/-
  The run of the whole program: the launch element of the ghost state, and the launch theorem for programs with
  vector-subcore calls applied to the host program's proof, the tile's task and the way a sparse processor's part splits
  among its tiles. Every weakly fair execution of the thirty-five threads terminates without a fault, leaves the twelve
  arguments as launched and the result as the host program's proof claims it.
-/
import proofs.«204570_g59167469470423_cont_9to1_m_669_24_alg».proof.Proof.B.ScMain
import proofs.«204570_g59167469470423_cont_9to1_m_669_24_alg».proof.Proof.B.ScFin
import proofs.«204570_g59167469470423_cont_9to1_m_669_24_alg».proof.Proof.B.TileObl
import proofs.«204570_g59167469470423_cont_9to1_m_669_24_alg».proof.Proof.B.ScGhost
import proofs.«204570_g59167469470423_cont_9to1_m_669_24_alg».proof.Proof.B.ScPay
import Idealize.ShloMosaic.Lib.SparseCore.Launch

noncomputable section

namespace Cert.Kernel.Main

open Cert.Kernel Cert.Kernel.Gen Cert.Kernel.Base Cert.Kernel.Ghost Cert.Kernel.Held
open Cert.Kernel.Tile Cert.Kernel.ChainFrame

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)
variable (G8u G8i : (S50176x128.Idx → Elt F .f32) → Prop) (R9u R9i : Fin 16384 → (Fin 128 → Elt F .f32) → Prop)
variable (Q17 : (d : Dev nD) → Buf (Elt F) ((d : Thread nD τ).loc main_v17) → Prop)

/-! ## The launch element -/

/-- No thread is dealt anything for a protocol of its own. -/
theorem Px_emp : (bigSep Finset.univ fun thr : Thread nD τ => bigSep Finset.univ fun q : Fin 1 => (PP m G8u G8i R9u R9i).x q thr)
    = (iprop(emp) : sProp (MM F)) := by
  have h1 : ∀ thr : Thread nD τ, (bigSep Finset.univ fun q : Fin 1 => (PP m G8u G8i R9u R9i).x q thr) = (iprop(emp) : sProp (MM F)) :=
    fun thr => bigSep_emp_const _
  simp only [h1]
  exact bigSep_emp_const _

/-- The launch element makes the handshakes' rounds and, on each device, both pipelines' staging cells; the credit and the
    free semaphores are not needed. -/
theorem hu₀ : iprop(ownU (u₀ (F := F)) ∗ (PP m G8u G8i R9u R9i).oxCred ∗ (K (F := F)).freeSems0)
    ⊢ |={Set.univ}=> iprop(BI.own (EH (F := F) (initOf (K (F := F)).hsCells (K (F := F)).hsToks)) ∗ bigSep Finset.univ (G (F := F))
        ∗ bigSep Finset.univ fun thr : Thread nD τ => bigSep Finset.univ fun q : Fin 1 => (PP m G8u G8i R9u R9i).x q thr) := by
  rw [Px_emp]
  iintro ⟨Hu, -, -⟩
  imod (fund_G (F := F)) $$ Hu with ⟨HH, HG⟩
  imodintro
  isplitl [HH]; · iexact HH
  isplitl [HG]; · iexact HG
  iempintro

/-! ## The program's run -/

/-- What every final memory satisfies: on each device the twelve arguments as launched, and the result as claimed. -/
def QC : PUnit × MemSt nD τ sig (Elt F) → Prop := fun r => ∀ d : Dev nD,
  (r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7)
    ∧ r.2.mem ((d : Thread nD τ).loc main_arg8) = m ((d : Thread nD τ).loc main_arg8)
    ∧ r.2.mem ((d : Thread nD τ).loc main_arg9) = m ((d : Thread nD τ).loc main_arg9)
    ∧ r.2.mem ((d : Thread nD τ).loc main_arg10) = m ((d : Thread nD τ).loc main_arg10)
    ∧ r.2.mem ((d : Thread nD τ).loc main_arg11) = m ((d : Thread nD τ).loc main_arg11))
  ∧ Q17 d (r.2.mem ((d : Thread nD τ).loc main_v17))

/-- THE RUN of all thirty-five threads from memory `m` with every counter at zero: every weakly fair execution terminates,
    nothing faults, and every final memory has the arguments as launched and the result as claimed. -/
theorem run_main (hpack : HPack m G8u G8i) (hfinal : HFinal m R9u R9i Q17)
    (hU : ∀ d j, (uid m d j).toNat ≤ 99999) (hI : ∀ d j, (iid m d j).toNat ≤ 99999)
    (hlinkU : ∀ d f8, G8u f8 → ∀ b : Fin 16384, R9u b (fun l => f8 (ix2 (foldRow (uid m d (ix1 b))) l)))
    (hlinkI : ∀ d f8, G8i f8 → ∀ b : Fin 16384, R9i b (fun l => f8 (ix2 (foldRow (iid m d (ix1 b))) l))) :
    θ_run (Cert.Kernel.defs (F := F)) (Cert.Kernel.threads (F := F)) ⟨m, fun _ => 0, ρ⟩ (QC m Q17) :=
  SparseCore.Cfg.θ_run_sc (K := K (F := F)) (D := D (F := F)) (𝒱 := 𝒱) (EH := EH (F := F)) (P := PP m G8u G8i R9u R9i) facts v₀
    (fun q hq => match q with | 0 => nomatch hq)
    (fun q _ => match q with | 0 => tileObl G8u G8i R9u R9i (uid m) (iid m) hU hI hlinkU hlinkI)
    (fun q _ => match q with | 0 => SparseCore.Cfg.VecSplit.of_plain (Pay.vecSplit G8u G8i R9u R9i (uid m) (iid m)))
    m ρ main (G (F := F)) (FIN m Q17) (u₀ (F := F)) (hu₀ m G8u G8i R9u R9i) (hmain m ρ G8u G8i R9u R9i Q17 hpack hfinal hU)
    (fq m Q17) (hfin m Q17) (QC m Q17) (fun _ h => h)

/-- The frame reading of the run: the claim about the result dropped. -/
theorem run_frame (hpack : HPack m G8u G8i) (hfinal : HFinal m R9u R9i Q17)
    (hU : ∀ d j, (uid m d j).toNat ≤ 99999) (hI : ∀ d j, (iid m d j).toNat ≤ 99999)
    (hlinkU : ∀ d f8, G8u f8 → ∀ b : Fin 16384, R9u b (fun l => f8 (ix2 (foldRow (uid m d (ix1 b))) l)))
    (hlinkI : ∀ d f8, G8i f8 → ∀ b : Fin 16384, R9i b (fun l => f8 (ix2 (foldRow (iid m d (ix1 b))) l))) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.Kernel.defs (F := F)) _ _).mono (fun _ h c => (h c).1)
    (run_main m ρ G8u G8i R9u R9i Q17 hpack hfinal hU hI hlinkU hlinkI)

end Cert.Kernel.Main

end
-- ==== Proof.ClaimsBits.lean ====
/-
  The frame of the program as compiled: it runs and leaves its arguments unchanged.

  The run is stated over predicates on the packed tables, the gathered rows and the result; for the frame they say nothing,
  and the links between them hold trivially. What remains is the precondition's bound on the ids, which keeps every
  gathered row inside the packed tables.
-/
import proofs.«204570_g59167469470423_cont_9to1_m_669_24_alg».proof.Defs
import proofs.«204570_g59167469470423_cont_9to1_m_669_24_alg».proof.Proof.B.ScRun
import proofs.«204570_g59167469470423_cont_9to1_m_669_24_alg».proof.Proof.PreRange
import proofs.«204570_g59167469470423_cont_9to1_m_669_24_alg».proof.Proof.Gen.Pre_input_domain

noncomputable section

namespace Cert.Proof.BitsSide

open Cert.Kernel Cert.Kernel.Gen Cert.Kernel.Base Cert.Kernel.Main
open Idealize.ShloMosaic Idealize.ShloMosaic.TcCoe Idealize.SL.Sem

/-- The compiled program runs and leaves its arguments unchanged. -/
theorem frame_p : Cert.frame_Kernel := fun m g hpre =>
  run_frame m g (fun _ => True) (fun _ => True) (fun _ _ => True) (fun _ _ => True) (fun _ _ => True)
    (fun _ _ _ _ _ _ => ⟨trivial, trivial⟩) (fun _ _ _ _ _ _ _ => trivial)
    (fun d j => (Cert.PreRange.ids_in_range _ _ _ _ _ _ _ _ _ _ _ _ (hpre d)).1 j)
    (fun d j => (Cert.PreRange.ids_in_range _ _ _ _ _ _ _ _ _ _ _ _ (hpre d)).2 j)
    (fun _ _ _ _ => trivial) (fun _ _ _ _ => trivial)

end Cert.Proof.BitsSide

end
-- ==== Proof.lean ====
/- The proof of `Cert.Claim`: the three frames, the idealization's soundness and the equality of the two idealized
   programs' results on the extended reals.

   The kernel packs each embedding table so that one 128-wide row holds table rows r and 50176 + r (a transposition by a
   product with the identity matrix, block by block), gathers for every batch entry the packed row its id folds to
   (id if id < 50176, else id - 50176) on the 2 x 16 tiles of the sparse processors, and then, block by block, selects
   the half the id names, runs both two-layer towers (a matrix product, a bias and a clamp at zero, twice) and clamps
   their inner product at zero. The reference looks the table rows up directly and computes the same towers. Index by
   index both results are the one function of the twelve argument arrays stated in Proof/Spec.lean: the selected half of
   the gathered packed row is the id's table row because ids lie in [0, 99999], which is the precondition's integer part;
   no other law of the extended reals is needed than x * 1 = x, x * 0 = 0 and a sum with one nonzero term, so finiteness
   of the float inputs is never used.

   The kernel's run is proved once for any reading of the floats (Proof/Sc*.lean, Proof/Tile*.lean, Proof/Pack*.lean,
   Proof/Mlp*.lean, Proof/ChainFrame.lean): the host program on the matrix unit's processor and the tiles' tasks under
   the launch rule for programs with vector-subcore kernels, the two block pipelines entered as regions of the host
   program. What is known of the packed tables, of the gathered rows and of the final array enters that proof as
   predicates; at the bit-exact reading they are trivial and the run gives the frame (Proof/B/, Proof/ClaimsBits.lean),
   at the extended reals they are the values (Proof/*Value.lean, Proof/ClaimsIdeal.lean). The reference's run and value
   are Proof/Ref*.lean. The idealization rewrote nothing, so its soundness claim is trivial. -/
import proofs.«204570_g59167469470423_cont_9to1_m_669_24_alg».proof.Defs
import proofs.«204570_g59167469470423_cont_9to1_m_669_24_alg».proof.Proof.ClaimsIdeal
import proofs.«204570_g59167469470423_cont_9to1_m_669_24_alg».proof.Proof.ClaimsBits
import proofs.«204570_g59167469470423_cont_9to1_m_669_24_alg».proof.Proof.Gen.Kernel
import proofs.«204570_g59167469470423_cont_9to1_m_669_24_alg».proof.Proof.Gen.Kernel.Skeleton
import proofs.«204570_g59167469470423_cont_9to1_m_669_24_alg».proof.Proof.Gen.Kernel.Launch
import proofs.«204570_g59167469470423_cont_9to1_m_669_24_alg».proof.Proof.Gen.Kernel.Regions
import proofs.«204570_g59167469470423_cont_9to1_m_669_24_alg».proof.Proof.Gen.Kernel.Points
import proofs.«204570_g59167469470423_cont_9to1_m_669_24_alg».proof.Proof.Gen.KernelIdeal
import proofs.«204570_g59167469470423_cont_9to1_m_669_24_alg».proof.Proof.Gen.KernelIdeal.Skeleton
import proofs.«204570_g59167469470423_cont_9to1_m_669_24_alg».proof.Proof.Gen.KernelIdeal.Launch
import proofs.«204570_g59167469470423_cont_9to1_m_669_24_alg».proof.Proof.Gen.KernelIdeal.Regions
import proofs.«204570_g59167469470423_cont_9to1_m_669_24_alg».proof.Proof.Gen.KernelIdeal.Points
import proofs.«204570_g59167469470423_cont_9to1_m_669_24_alg».proof.Proof.Gen.ReferenceIdeal
import proofs.«204570_g59167469470423_cont_9to1_m_669_24_alg».proof.Proof.Gen.Pre_input_domain
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    BitsSide.frame_p, IdealSide.frame_pi, IdealSide.frame_ri, trivial, IdealSide.algebraic⟩

end Cert.Proof

end
